-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S2400000 : Shape := ⟨1, ![2400000]⟩
abbrev S100000x64 : Shape := ⟨2, ![100000, 64]⟩
abbrev S50000x64 : Shape := ⟨2, ![50000, 64]⟩
abbrev S_ : Shape := ⟨0, ![]⟩

class Facts : Prop where
  bcast_S_S2400000 : S_.BroadcastsInDim S2400000 (![] : Fin 0 → Fin S2400000.rank)
  reducesTo_S2400000_S_d0 : S2400000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : IVec S8192 32) (main_arg1 : IVec S8192 32) (main_arg2 : IVec S8192 32) (main_arg3 : IVec S8192 32) (main_arg4 : IVec S2400000 32) (main_arg5 : IVec S2400000 32) (main_arg6 : FVec F S2400000 .f32) (main_arg7 : FVec F S100000x64 .f32) (main_arg8 : FVec F S50000x64 .f32) : IVec S_ 1 :=
  let main_v0 : FVec F S2400000 .f32 := Host.absf main_arg6
  let main_cst : FVec F S_ .f32 := constant S_ .f32 0x7F800000#32
  let main_v1 : FVec F S2400000 .f32 := broadcastInDim S2400000 ![] bcast_S_S2400000 main_cst
  let main_v2 : IVec S2400000 1 := cmpf .olt main_v0 main_v1
  let main_c : IVec S_ 1 := constantI S_ 1 1#1
  let main_v3 : IVec S_ 1 := (fun x v => Host.reduce IntOp.andi x v reducesTo_S2400000_S_d0 h_S_) main_v2 main_c
  let main_v4 : FVec F S100000x64 .f32 := Host.absf main_arg7
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg8
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  main_v13
-- ==== Kernel.lean ====
abbrev S8192 : Shape := ⟨1, ![8192]⟩
abbrev S2400000 : Shape := ⟨1, ![2400000]⟩
abbrev S100000x64 : Shape := ⟨2, ![100000, 64]⟩
abbrev S50000x64 : Shape := ⟨2, ![50000, 64]⟩
abbrev S150000x64 : Shape := ⟨2, ![150000, 64]⟩
abbrev S6000x64 : Shape := ⟨2, ![6000, 64]⟩
abbrev S6000 : Shape := ⟨1, ![6000]⟩
abbrev S6000x1 : Shape := ⟨2, ![6000, 1]⟩
abbrev S_ : Shape := ⟨0, ![]⟩
abbrev S2400000x1 : Shape := ⟨2, ![2400000, 1]⟩
abbrev S2400000x64 : Shape := ⟨2, ![2400000, 64]⟩
abbrev S16000x64 : Shape := ⟨2, ![16000, 64]⟩
abbrev S16000x1 : Shape := ⟨2, ![16000, 1]⟩
abbrev S8192x1 : Shape := ⟨2, ![8192, 1]⟩
abbrev S8192x64 : Shape := ⟨2, ![8192, 64]⟩
abbrev S1x8192 : Shape := ⟨2, ![1, 8192]⟩
abbrev S3x8192 : Shape := ⟨2, ![3, 8192]⟩

abbrev nBuf : Space → Nat
  | .hbm => 140
  | .vmem => 34
  | .smem => 0
  | _ => 0

abbrev hbmTy0_0 (i : Nat) : BufTy := match i % 128 with
  | 0 => ⟨S8192, .i32⟩
  | 1 => ⟨S8192, .i32⟩
  | 2 => ⟨S8192, .i32⟩
  | 3 => ⟨S8192, .i32⟩
  | 4 => ⟨S2400000, .i32⟩
  | 5 => ⟨S2400000, .i32⟩
  | 6 => ⟨S2400000, .f32⟩
  | 7 => ⟨S100000x64, .f32⟩
  | 8 => ⟨S50000x64, .f32⟩
  | 9 => ⟨S150000x64, .f32⟩
  | 10 => ⟨S150000x64, .f32⟩
  | 11 => ⟨S_, .i32⟩
  | 12 => ⟨S2400000, .i32⟩
  | 13 => ⟨S2400000, .i1⟩
  | 14 => ⟨S_, .i32⟩
  | 15 => ⟨S2400000, .i32⟩
  | 16 => ⟨S2400000, .i32⟩
  | 17 => ⟨S2400000, .i32⟩
  | 18 => ⟨S2400000x1, .i32⟩
  | 19 => ⟨S2400000x64, .f32⟩
  | 20 => ⟨S2400000x1, .f32⟩
  | 21 => ⟨S2400000x64, .f32⟩
  | 22 => ⟨S_, .f32⟩
  | 23 => ⟨S150000x64, .f32⟩
  | 24 => ⟨S2400000x1, .i32⟩
  | 25 => ⟨S150000x64, .f32⟩
  | 26 => ⟨S150000x64, .f32⟩
  | 27 => ⟨S150000x64, .f32⟩
  | 28 => ⟨S_, .i32⟩
  | 29 => ⟨S2400000, .i32⟩
  | 30 => ⟨S2400000, .i1⟩
  | 31 => ⟨S_, .i32⟩
  | 32 => ⟨S2400000, .i32⟩
  | 33 => ⟨S2400000, .i32⟩
  | 34 => ⟨S2400000, .i32⟩
  | 35 => ⟨S2400000x1, .i32⟩
  | 36 => ⟨S2400000x64, .f32⟩
  | 37 => ⟨S2400000x1, .f32⟩
  | 38 => ⟨S2400000x64, .f32⟩
  | 39 => ⟨S_, .f32⟩
  | 40 => ⟨S150000x64, .f32⟩
  | 41 => ⟨S2400000x1, .i32⟩
  | 42 => ⟨S150000x64, .f32⟩
  | 43 => ⟨S150000x64, .f32⟩
  | 44 => ⟨S150000x64, .f32⟩
  | 45 => ⟨S_, .i32⟩
  | 46 => ⟨S2400000, .i32⟩
  | 47 => ⟨S2400000, .i1⟩
  | 48 => ⟨S_, .i32⟩
  | 49 => ⟨S2400000, .i32⟩
  | 50 => ⟨S2400000, .i32⟩
  | 51 => ⟨S2400000, .i32⟩
  | 52 => ⟨S2400000x1, .i32⟩
  | 53 => ⟨S2400000x64, .f32⟩
  | 54 => ⟨S2400000x1, .f32⟩
  | 55 => ⟨S2400000x64, .f32⟩
  | 56 => ⟨S_, .f32⟩
  | 57 => ⟨S150000x64, .f32⟩
  | 58 => ⟨S2400000x1, .i32⟩
  | 59 => ⟨S150000x64, .f32⟩
  | 60 => ⟨S150000x64, .f32⟩
  | 61 => ⟨S150000x64, .f32⟩
  | 62 => ⟨S_, .f32⟩
  | 63 => ⟨S150000x64, .f32⟩
  | 64 => ⟨S150000x64, .f32⟩
  | 65 => ⟨S100000x64, .f32⟩
  | 66 => ⟨S50000x64, .f32⟩
  | 67 => ⟨S_, .i32⟩
  | 68 => ⟨S8192, .i32⟩
  | 69 => ⟨S8192, .i1⟩
  | 70 => ⟨S_, .i32⟩
  | 71 => ⟨S8192, .i32⟩
  | 72 => ⟨S8192, .i32⟩
  | 73 => ⟨S8192, .i32⟩
  | 74 => ⟨S8192x1, .i32⟩
  | 75 => ⟨S8192x64, .f32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S8192x64, .f32⟩
  | 85 => ⟨S8192x64, .f32⟩
  | 86 => ⟨S_, .f32⟩
  | 87 => ⟨S8192, .f32⟩
  | 88 => ⟨S8192, .f32⟩
  | 89 => ⟨S8192, .f32⟩
  | 90 => ⟨S_, .f32⟩
  | 91 => ⟨S8192, .f32⟩
  | 92 => ⟨S8192, .f32⟩
  | 93 => ⟨S_, .f32⟩
  | 94 => ⟨S8192, .f32⟩
  | 95 => ⟨S8192, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S8192x64, .f32⟩
  | 105 => ⟨S8192x64, .f32⟩
  | 106 => ⟨S_, .f32⟩
  | 107 => ⟨S8192, .f32⟩
  | 108 => ⟨S8192, .f32⟩
  | 109 => ⟨S8192, .f32⟩
  | 110 => ⟨S_, .f32⟩
  | 111 => ⟨S8192, .f32⟩
  | 112 => ⟨S8192, .f32⟩
  | 113 => ⟨S_, .f32⟩
  | 114 => ⟨S8192, .f32⟩
  | 115 => ⟨S8192, .f32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S8192x1, .i32⟩
  | 124 => ⟨S8192x64, .f32⟩
  | 125 => ⟨S8192x64, .f32⟩
  | 126 => ⟨S_, .f32⟩
  | 127 => ⟨S8192, .f32⟩
  | _ => ⟨S8192, .i32⟩

abbrev hbmTy0_1 (i : Nat) : BufTy := match i % 128 with
  | 0 => ⟨S8192, .f32⟩
  | 1 => ⟨S8192, .f32⟩
  | 2 => ⟨S_, .f32⟩
  | 3 => ⟨S8192, .f32⟩
  | 4 => ⟨S8192, .f32⟩
  | 5 => ⟨S_, .f32⟩
  | 6 => ⟨S8192, .f32⟩
  | 7 => ⟨S8192, .f32⟩
  | 8 => ⟨S1x8192, .f32⟩
  | 9 => ⟨S1x8192, .f32⟩
  | 10 => ⟨S1x8192, .f32⟩
  | 11 => ⟨S3x8192, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S16000x64, .f32⟩
  | .local _ .vmem, ⟨5, _⟩ => ⟨S16000x64, .f32⟩
  | .local _ .vmem, ⟨6, _⟩ => ⟨S16000x1, .f32⟩
  | .local _ .vmem, ⟨7, _⟩ => ⟨S16000x1, .f32⟩
  | .local _ .vmem, ⟨8, _⟩ => ⟨S16000x64, .f32⟩
  | .local _ .vmem, ⟨9, _⟩ => ⟨S16000x64, .f32⟩
  | .local _ .vmem, ⟨10, _⟩ => ⟨S6000x64, .f32⟩
  | .local _ .vmem, ⟨11, _⟩ => ⟨S6000x64, .f32⟩
  | .local _ .vmem, ⟨12, _⟩ => ⟨S6000x64, .f32⟩
  | .local _ .vmem, ⟨13, _⟩ => ⟨S6000x64, .f32⟩
  | .local _ .vmem, ⟨14, _⟩ => ⟨S16000x64, .f32⟩
  | .local _ .vmem, ⟨15, _⟩ => ⟨S16000x64, .f32⟩
  | .local _ .vmem, ⟨16, _⟩ => ⟨S16000x1, .f32⟩
  | .local _ .vmem, ⟨17, _⟩ => ⟨S16000x1, .f32⟩
  | .local _ .vmem, ⟨18, _⟩ => ⟨S16000x64, .f32⟩
  | .local _ .vmem, ⟨19, _⟩ => ⟨S16000x64, .f32⟩
  | .local _ .vmem, ⟨20, _⟩ => ⟨S6000x64, .f32⟩
  | .local _ .vmem, ⟨21, _⟩ => ⟨S6000x64, .f32⟩
  | .local _ .vmem, ⟨22, _⟩ => ⟨S6000x64, .f32⟩
  | .local _ .vmem, ⟨23, _⟩ => ⟨S6000x64, .f32⟩
  | .local _ .vmem, ⟨24, _⟩ => ⟨S16000x64, .f32⟩
  | .local _ .vmem, ⟨25, _⟩ => ⟨S16000x64, .f32⟩
  | .local _ .vmem, ⟨26, _⟩ => ⟨S16000x1, .f32⟩
  | .local _ .vmem, ⟨27, _⟩ => ⟨S16000x1, .f32⟩
  | .local _ .vmem, ⟨28, _⟩ => ⟨S16000x64, .f32⟩
  | .local _ .vmem, ⟨29, _⟩ => ⟨S16000x64, .f32⟩
  | .local _ .vmem, ⟨30, _⟩ => ⟨S6000x64, .f32⟩
  | .local _ .vmem, ⟨31, _⟩ => ⟨S6000x64, .f32⟩
  | .local _ .vmem, ⟨32, _⟩ => ⟨S6000x64, .f32⟩
  | .local _ .vmem, ⟨33, _⟩ => ⟨S6000x64, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_c_15 : Ref sig .tc := ⟨.hbm, 96, rfl⟩
abbrev main_v70 : Ref sig .tc := ⟨.hbm, 97, rfl⟩
abbrev main_v71 : Ref sig .tc := ⟨.hbm, 98, rfl⟩
abbrev main_c_16 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_18 : Ref sig .tc := ⟨.hbm, 110, rfl⟩
abbrev main_v81 : Ref sig .tc := ⟨.hbm, 111, rfl⟩
abbrev main_v82 : Ref sig .tc := ⟨.hbm, 112, rfl⟩
abbrev main_cst_19 : Ref sig .tc := ⟨.hbm, 113, rfl⟩
abbrev main_v83 : Ref sig .tc := ⟨.hbm, 114, rfl⟩
abbrev main_v84 : Ref sig .tc := ⟨.hbm, 115, rfl⟩
abbrev main_c_20 : Ref sig .tc := ⟨.hbm, 116, rfl⟩
abbrev main_v85 : Ref sig .tc := ⟨.hbm, 117, rfl⟩
abbrev main_v86 : Ref sig .tc := ⟨.hbm, 118, rfl⟩
abbrev main_c_21 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_22 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_23 : Ref sig .tc := ⟨.hbm, 130, rfl⟩
abbrev main_v96 : Ref sig .tc := ⟨.hbm, 131, rfl⟩
abbrev main_v97 : Ref sig .tc := ⟨.hbm, 132, rfl⟩
abbrev main_cst_24 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc5_sem0_0 : DmaSem sig := 24
abbrev cc5_sem0_1 : DmaSem sig := 25
abbrev cc5_sem1_0 : DmaSem sig := 26
abbrev cc5_sem1_1 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![150], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S16000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![150], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S16000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S16000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  concatenates_S100000x64_S50000x64_S150000x64_d0 : Shape.Concatenates [S100000x64, S50000x64] S150000x64 0
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  reduces_S6000x64_S6000 : S6000x64.Reduces [1] S6000
  shapeCasts_S6000_S6000x1 : S6000.ShapeCasts S6000x1
  broadcasts_S6000x1_S6000x64 : S6000x1.Broadcasts S6000x64
  bcast_S_S2400000 : S_.BroadcastsInDim S2400000 (![] : Fin 0 → Fin S2400000.rank)
  bcast_S2400000_S2400000x1_0 : S2400000.BroadcastsInDim S2400000x1 (![0] : Fin 1 → Fin S2400000x1.rank)
  shapeCasts_S2400000_S2400000x1 : S2400000.ShapeCasts S2400000x1
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  broadcasts_S16000x1_S16000x64 : S16000x1.Broadcasts S16000x64
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  h_S_ : 0 < S_.numel
  bcast_S8192_S1x8192_1 : S8192.BroadcastsInDim S1x8192 (![1] : Fin 1 → Fin S1x8192.rank)
  concatenates_S1x8192_S1x8192_S1x8192_S3x8192_d0 : Shape.Concatenates [S1x8192, S1x8192, S1x8192] S3x8192 0
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  gather_S100000x64_S8192x1_S8192x64_1_0_n_n_0_1_164_wf : GatherDims.WF S100000x64 S8192x1 S8192x64 [1] [0] [] [0] [] 1 ![1, 64]
  gather_S50000x64_S8192x1_S8192x64_1_0_n_n_0_1_164_wf : GatherDims.WF S50000x64 S8192x1 S8192x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S150000x64.size a
  hwx0_1 : ∀ i : grid0.Coords, EltTy.bits .f32 = 32 ∨ (Rect.block (s := S150000x64) S6000x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S2400000x64.size a
  hwx1_0 : ∀ i : grid1.Coords, EltTy.bits .f32 = 32 ∨ (Rect.block (s := S2400000x64) S16000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x1.size a ≤ S2400000x1.size a
  hwx1_1 : ∀ i : grid1.Coords, EltTy.bits .f32 = 32 ∨ (Rect.block (s := S2400000x1) S16000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x64.size a ≤ S2400000x64.size a
  hwx1_2 : ∀ i : grid1.Coords, EltTy.bits .f32 = 32 ∨ (Rect.block (s := S2400000x64) S16000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S150000x64.size a
  hwx2_0 : ∀ i : grid2.Coords, EltTy.bits .f32 = 32 ∨ (Rect.block (s := S150000x64) S6000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x64.size a ≤ S150000x64.size a
  hwx2_1 : ∀ i : grid2.Coords, EltTy.bits .f32 = 32 ∨ (Rect.block (s := S150000x64) S6000x64.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16000x64.size a ≤ S2400000x64.size a
  hwx3_0 : ∀ i : grid3.Coords, EltTy.bits .f32 = 32 ∨ (Rect.block (s := S2400000x64) S16000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16000x1.size a ≤ S2400000x1.size a
  hwx3_1 : ∀ i : grid3.Coords, EltTy.bits .f32 = 32 ∨ (Rect.block (s := S2400000x1) S16000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16000x64.size a ≤ S2400000x64.size a
  hwx3_2 : ∀ i : grid3.Coords, EltTy.bits .f32 = 32 ∨ (Rect.block (s := S2400000x64) S16000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x64.size a ≤ S150000x64.size a
  hwx4_0 : ∀ i : grid4.Coords, EltTy.bits .f32 = 32 ∨ (Rect.block (s := S150000x64) S6000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x64.size a ≤ S150000x64.size a
  hwx4_1 : ∀ i : grid4.Coords, EltTy.bits .f32 = 32 ∨ (Rect.block (s := S150000x64) S6000x64.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S16000x64.size a ≤ S2400000x64.size a
  hwx5_0 : ∀ i : grid5.Coords, EltTy.bits .f32 = 32 ∨ (Rect.block (s := S2400000x64) S16000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S16000x1.size a ≤ S2400000x1.size a
  hwx5_1 : ∀ i : grid5.Coords, EltTy.bits .f32 = 32 ∨ (Rect.block (s := S2400000x1) S16000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S16000x64.size a ≤ S2400000x64.size a
  hwx5_2 : ∀ i : grid5.Coords, EltTy.bits .f32 = 32 ∨ (Rect.block (s := S2400000x64) S16000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x64.size a ≤ S150000x64.size a
  hwx6_0 : ∀ i : grid6.Coords, EltTy.bits .f32 = 32 ∨ (Rect.block (s := S150000x64) S6000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6000x64.size a ≤ S150000x64.size a
  hwx6_1 : ∀ i : grid6.Coords, EltTy.bits .f32 = 32 ∨ (Rect.block (s := S150000x64) S6000x64.size (cc6_transform_1 i) (hinb6_1 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def gather_S50000x64_S8192x1_S8192x64_1_0_n_n_0_1_164 : GatherDims S50000x64 S8192x1 S8192x64 where
  offsetDims := [1]
  collapsedSliceDims := [0]
  operandBatchingDims := []
  startIndicesBatchingDims := []
  startIndexMap := [0]
  indexVectorDim := 1
  sliceSizes := ![1, 64]
  wf := gather_S50000x64_S8192x1_S8192x64_1_0_n_n_0_1_164_wf

abbrev win0_0 : Pipeline.Window sig grid0 :=
  Pipeline.Window.ofSpec (Memref.whole main_v0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v8) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S16000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S16000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v13) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S6000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v22) S16000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S16000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S16000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v27) S6000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S6000x64.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v36) S16000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v37) S16000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v38) S16000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v41) S6000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v42) S6000x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S8192 : Shape := ⟨1, ![8192]⟩
abbrev S2400000 : Shape := ⟨1, ![2400000]⟩
abbrev S100000x64 : Shape := ⟨2, ![100000, 64]⟩
abbrev S50000x64 : Shape := ⟨2, ![50000, 64]⟩
abbrev S150000x64 : Shape := ⟨2, ![150000, 64]⟩
abbrev S_ : Shape := ⟨0, ![]⟩
abbrev S150000 : Shape := ⟨1, ![150000]⟩
abbrev S150000x1 : Shape := ⟨2, ![150000, 1]⟩
abbrev S2400000x1 : Shape := ⟨2, ![2400000, 1]⟩
abbrev S2400000x64 : Shape := ⟨2, ![2400000, 64]⟩
abbrev S8192x1 : Shape := ⟨2, ![8192, 1]⟩
abbrev S8192x64 : Shape := ⟨2, ![8192, 64]⟩
abbrev S1x8192 : Shape := ⟨2, ![1, 8192]⟩
abbrev S3x8192 : Shape := ⟨2, ![3, 8192]⟩

abbrev nBuf : Space → Nat
  | .hbm => 207
  | .vmem => 0
  | .smem => 0
  | _ => 0

abbrev hbmTy0_0 (i : Nat) : BufTy := match i % 128 with
  | 0 => ⟨S8192, .i32⟩
  | 1 => ⟨S8192, .i32⟩
  | 2 => ⟨S8192, .i32⟩
  | 3 => ⟨S8192, .i32⟩
  | 4 => ⟨S2400000, .i32⟩
  | 5 => ⟨S2400000, .i32⟩
  | 6 => ⟨S2400000, .f32⟩
  | 7 => ⟨S100000x64, .f32⟩
  | 8 => ⟨S50000x64, .f32⟩
  | 9 => ⟨S150000x64, .f32⟩
  | 10 => ⟨S_, .f32⟩
  | 11 => ⟨S150000x64, .f32⟩
  | 12 => ⟨S150000x64, .i1⟩
  | 13 => ⟨S_, .f32⟩
  | 14 => ⟨S150000x64, .f32⟩
  | 15 => ⟨S150000x64, .f32⟩
  | 16 => ⟨S150000x64, .f32⟩
  | 17 => ⟨S150000x64, .f32⟩
  | 18 => ⟨S_, .f32⟩
  | 19 => ⟨S150000, .f32⟩
  | 20 => ⟨S150000x1, .f32⟩
  | 21 => ⟨S150000x1, .f32⟩
  | 22 => ⟨S_, .f32⟩
  | 23 => ⟨S150000x1, .f32⟩
  | 24 => ⟨S150000x1, .f32⟩
  | 25 => ⟨S150000x64, .f32⟩
  | 26 => ⟨S150000x64, .f32⟩
  | 27 => ⟨S2400000x1, .f32⟩
  | 28 => ⟨S_, .i32⟩
  | 29 => ⟨S2400000, .i32⟩
  | 30 => ⟨S2400000, .i1⟩
  | 31 => ⟨S_, .i32⟩
  | 32 => ⟨S2400000, .i32⟩
  | 33 => ⟨S2400000, .i32⟩
  | 34 => ⟨S2400000, .i32⟩
  | 35 => ⟨S2400000x1, .i32⟩
  | 36 => ⟨S2400000x64, .f32⟩
  | 37 => ⟨S2400000x64, .f32⟩
  | 38 => ⟨S2400000x64, .f32⟩
  | 39 => ⟨S_, .f32⟩
  | 40 => ⟨S150000x64, .f32⟩
  | 41 => ⟨S2400000x1, .i32⟩
  | 42 => ⟨S150000x64, .f32⟩
  | 43 => ⟨S_, .f32⟩
  | 44 => ⟨S150000x64, .f32⟩
  | 45 => ⟨S150000x64, .i1⟩
  | 46 => ⟨S_, .f32⟩
  | 47 => ⟨S150000x64, .f32⟩
  | 48 => ⟨S150000x64, .f32⟩
  | 49 => ⟨S150000x64, .f32⟩
  | 50 => ⟨S150000x64, .f32⟩
  | 51 => ⟨S_, .f32⟩
  | 52 => ⟨S150000, .f32⟩
  | 53 => ⟨S150000x1, .f32⟩
  | 54 => ⟨S150000x1, .f32⟩
  | 55 => ⟨S_, .f32⟩
  | 56 => ⟨S150000x1, .f32⟩
  | 57 => ⟨S150000x1, .f32⟩
  | 58 => ⟨S150000x64, .f32⟩
  | 59 => ⟨S150000x64, .f32⟩
  | 60 => ⟨S150000x64, .f32⟩
  | 61 => ⟨S2400000x1, .f32⟩
  | 62 => ⟨S_, .i32⟩
  | 63 => ⟨S2400000, .i32⟩
  | 64 => ⟨S2400000, .i1⟩
  | 65 => ⟨S_, .i32⟩
  | 66 => ⟨S2400000, .i32⟩
  | 67 => ⟨S2400000, .i32⟩
  | 68 => ⟨S2400000, .i32⟩
  | 69 => ⟨S2400000x1, .i32⟩
  | 70 => ⟨S2400000x64, .f32⟩
  | 71 => ⟨S2400000x64, .f32⟩
  | 72 => ⟨S2400000x64, .f32⟩
  | 73 => ⟨S_, .f32⟩
  | 74 => ⟨S150000x64, .f32⟩
  | 75 => ⟨S2400000x1, .i32⟩
  | 76 => ⟨S150000x64, .f32⟩
  | 77 => ⟨S_, .f32⟩
  | 78 => ⟨S150000x64, .f32⟩
  | 79 => ⟨S150000x64, .i1⟩
  | 80 => ⟨S_, .f32⟩
  | 81 => ⟨S150000x64, .f32⟩
  | 82 => ⟨S150000x64, .f32⟩
  | 83 => ⟨S150000x64, .f32⟩
  | 84 => ⟨S150000x64, .f32⟩
  | 85 => ⟨S_, .f32⟩
  | 86 => ⟨S150000, .f32⟩
  | 87 => ⟨S150000x1, .f32⟩
  | 88 => ⟨S150000x1, .f32⟩
  | 89 => ⟨S_, .f32⟩
  | 90 => ⟨S150000x1, .f32⟩
  | 91 => ⟨S150000x1, .f32⟩
  | 92 => ⟨S150000x64, .f32⟩
  | 93 => ⟨S150000x64, .f32⟩
  | 94 => ⟨S150000x64, .f32⟩
  | 95 => ⟨S2400000x1, .f32⟩
  | 96 => ⟨S_, .i32⟩
  | 97 => ⟨S2400000, .i32⟩
  | 98 => ⟨S2400000, .i1⟩
  | 99 => ⟨S_, .i32⟩
  | 100 => ⟨S2400000, .i32⟩
  | 101 => ⟨S2400000, .i32⟩
  | 102 => ⟨S2400000, .i32⟩
  | 103 => ⟨S2400000x1, .i32⟩
  | 104 => ⟨S2400000x64, .f32⟩
  | 105 => ⟨S2400000x64, .f32⟩
  | 106 => ⟨S2400000x64, .f32⟩
  | 107 => ⟨S_, .f32⟩
  | 108 => ⟨S150000x64, .f32⟩
  | 109 => ⟨S2400000x1, .i32⟩
  | 110 => ⟨S150000x64, .f32⟩
  | 111 => ⟨S_, .f32⟩
  | 112 => ⟨S150000x64, .f32⟩
  | 113 => ⟨S150000x64, .i1⟩
  | 114 => ⟨S_, .f32⟩
  | 115 => ⟨S150000x64, .f32⟩
  | 116 => ⟨S150000x64, .f32⟩
  | 117 => ⟨S150000x64, .f32⟩
  | 118 => ⟨S150000x64, .f32⟩
  | 119 => ⟨S_, .f32⟩
  | 120 => ⟨S150000, .f32⟩
  | 121 => ⟨S150000x1, .f32⟩
  | 122 => ⟨S150000x1, .f32⟩
  | 123 => ⟨S_, .f32⟩
  | 124 => ⟨S150000x1, .f32⟩
  | 125 => ⟨S150000x1, .f32⟩
  | 126 => ⟨S150000x64, .f32⟩
  | 127 => ⟨S150000x64, .f32⟩
  | _ => ⟨S8192, .i32⟩

abbrev hbmTy0_1 (i : Nat) : BufTy := match i % 128 with
  | 0 => ⟨S150000x64, .f32⟩
  | 1 => ⟨S_, .f32⟩
  | 2 => ⟨S150000x64, .f32⟩
  | 3 => ⟨S150000x64, .f32⟩
  | 4 => ⟨S100000x64, .f32⟩
  | 5 => ⟨S50000x64, .f32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192x64, .f32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S8192x1, .i32⟩
  | 23 => ⟨S8192x64, .f32⟩
  | 24 => ⟨S8192x64, .f32⟩
  | 25 => ⟨S_, .f32⟩
  | 26 => ⟨S8192, .f32⟩
  | 27 => ⟨S8192, .f32⟩
  | 28 => ⟨S8192, .f32⟩
  | 29 => ⟨S_, .f32⟩
  | 30 => ⟨S8192, .f32⟩
  | 31 => ⟨S8192, .f32⟩
  | 32 => ⟨S_, .f32⟩
  | 33 => ⟨S8192, .f32⟩
  | 34 => ⟨S8192, .f32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S8192x64, .f32⟩
  | 44 => ⟨S8192x64, .f32⟩
  | 45 => ⟨S_, .f32⟩
  | 46 => ⟨S8192, .f32⟩
  | 47 => ⟨S8192, .f32⟩
  | 48 => ⟨S8192, .f32⟩
  | 49 => ⟨S_, .f32⟩
  | 50 => ⟨S8192, .f32⟩
  | 51 => ⟨S8192, .f32⟩
  | 52 => ⟨S_, .f32⟩
  | 53 => ⟨S8192, .f32⟩
  | 54 => ⟨S8192, .f32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S8192x64, .f32⟩
  | 64 => ⟨S8192x64, .f32⟩
  | 65 => ⟨S_, .f32⟩
  | 66 => ⟨S8192, .f32⟩
  | 67 => ⟨S8192, .f32⟩
  | 68 => ⟨S8192, .f32⟩
  | 69 => ⟨S_, .f32⟩
  | 70 => ⟨S8192, .f32⟩
  | 71 => ⟨S8192, .f32⟩
  | 72 => ⟨S_, .f32⟩
  | 73 => ⟨S8192, .f32⟩
  | 74 => ⟨S8192, .f32⟩
  | 75 => ⟨S1x8192, .f32⟩
  | 76 => ⟨S1x8192, .f32⟩
  | 77 => ⟨S1x8192, .f32⟩
  | 78 => ⟨S3x8192, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_16 : Ref sig .tc := ⟨.hbm, 96, rfl⟩
abbrev main_v69 : Ref sig .tc := ⟨.hbm, 97, rfl⟩
abbrev main_v70 : Ref sig .tc := ⟨.hbm, 98, rfl⟩
abbrev main_c_17 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_18 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_19 : Ref sig .tc := ⟨.hbm, 111, rfl⟩
abbrev main_v81 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_21 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_22 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_23 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_24 : Ref sig .tc := ⟨.hbm, 134, rfl⟩
abbrev main_v99 : Ref sig .tc := ⟨.hbm, 135, rfl⟩
abbrev main_v100 : Ref sig .tc := ⟨.hbm, 136, rfl⟩
abbrev main_c_25 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_c_26 : Ref sig .tc := ⟨.hbm, 143, rfl⟩
abbrev main_v106 : Ref sig .tc := ⟨.hbm, 144, rfl⟩
abbrev main_v107 : Ref sig .tc := ⟨.hbm, 145, rfl⟩
abbrev main_c_27 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_28 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_29 : Ref sig .tc := ⟨.hbm, 157, rfl⟩
abbrev main_v117 : Ref sig .tc := ⟨.hbm, 158, rfl⟩
abbrev main_v118 : Ref sig .tc := ⟨.hbm, 159, rfl⟩
abbrev main_cst_30 : Ref sig .tc := ⟨.hbm, 160, rfl⟩
abbrev main_v119 : Ref sig .tc := ⟨.hbm, 161, rfl⟩
abbrev main_v120 : Ref sig .tc := ⟨.hbm, 162, rfl⟩
abbrev main_c_31 : Ref sig .tc := ⟨.hbm, 163, rfl⟩
abbrev main_v121 : Ref sig .tc := ⟨.hbm, 164, rfl⟩
abbrev main_v122 : Ref sig .tc := ⟨.hbm, 165, rfl⟩
abbrev main_c_32 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_33 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_34 : Ref sig .tc := ⟨.hbm, 177, rfl⟩
abbrev main_v132 : Ref sig .tc := ⟨.hbm, 178, rfl⟩
abbrev main_v133 : Ref sig .tc := ⟨.hbm, 179, rfl⟩
abbrev main_cst_35 : Ref sig .tc := ⟨.hbm, 180, rfl⟩
abbrev main_v134 : Ref sig .tc := ⟨.hbm, 181, rfl⟩
abbrev main_v135 : Ref sig .tc := ⟨.hbm, 182, rfl⟩
abbrev main_c_36 : Ref sig .tc := ⟨.hbm, 183, rfl⟩
abbrev main_v136 : Ref sig .tc := ⟨.hbm, 184, rfl⟩
abbrev main_v137 : Ref sig .tc := ⟨.hbm, 185, rfl⟩
abbrev main_c_37 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_38 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_39 : Ref sig .tc := ⟨.hbm, 197, rfl⟩
abbrev main_v147 : Ref sig .tc := ⟨.hbm, 198, rfl⟩
abbrev main_v148 : Ref sig .tc := ⟨.hbm, 199, rfl⟩
abbrev main_cst_40 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S_S150000x64 : S_.BroadcastsInDim S150000x64 (![] : Fin 0 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  slices_S150000x64_S100000x64_0_0 : S150000x64.Slices ![0, 0] S100000x64
  slices_S150000x64_S50000x64_100000_0 : S150000x64.Slices ![100000, 0] S50000x64
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  bcast_S8192_S1x8192_1 : S8192.BroadcastsInDim S1x8192 (![1] : Fin 1 → Fin S1x8192.rank)
  concatenates_S1x8192_S1x8192_S1x8192_S3x8192_d0 : Shape.Concatenates [S1x8192, S1x8192, S1x8192] S3x8192 0
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  gather_S100000x64_S8192x1_S8192x64_1_0_n_n_0_1_164_wf : GatherDims.WF S100000x64 S8192x1 S8192x64 [1] [0] [] [0] [] 1 ![1, 64]
  gather_S50000x64_S8192x1_S8192x64_1_0_n_n_0_1_164_wf : GatherDims.WF S50000x64 S8192x1 S8192x64 [1] [0] [] [0] [] 1 ![1, 64]

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def gather_S50000x64_S8192x1_S8192x64_1_0_n_n_0_1_164 : GatherDims S50000x64 S8192x1 S8192x64 where
  offsetDims := [1]
  collapsedSliceDims := [0]
  operandBatchingDims := []
  startIndicesBatchingDims := []
  startIndexMap := [0]
  indexVectorDim := 1
  sliceSizes := ![1, 64]
  wf := gather_S50000x64_S8192x1_S8192x64_1_0_n_n_0_1_164_wf

class Facts : Prop extends Facts₀ where

variable [Facts]
-- ==== Proof.KReg0.lean ====
/-
  Region 0 of the program: one call of the row-normalising kernel on a grid of 25 points. Point t reads rows
  6000·t … 6000·t+5999 of its one input array and writes the same rows of its output array: every entry of a row
  is the leaky-rectified entry divided by max(‖row‖₂, ε), so a block of the output depends on the same block of
  the input only. Everything here is stated at ANY contents V of the buffers when the region is entered.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 6000×64 block as a rectangle: the one load and the one store of the body go through it. -/
abbrev whole0 : Rect S6000x64 := Rect.unit (s := S6000x64) ![0, 0] S6000x64.size inb_S6000x64_S6000x64_0_0

/-- What the body leaves in the output's staging buffer: its one store, of the normalised block. -/
def stored0 (x0 : Vec F S6000x64 .f32) : Vec F S6000x64 .f32 :=
  View.canon [⟨whole0, k0_pay1 (View.ld x0 whole0)⟩]

/-- The one store covers the whole buffer. -/
theorem stored0_covers (p0 : Vec F S6000x64 .f32) (y : S6000x64.Idx) :
    ∃ pc ∈ ([⟨whole0, p0⟩] : List (View.Piece (Elt F) S6000x64 .f32)), y ∈ pc.1.set :=
  View.cover_of_tiled [⟨whole0, p0⟩] S6000x64.size (by rfl) y

set_option maxHeartbeats 1000000 in
/-- The body on whole staging buffers: the input's at x0 and the output's at anything end with the input's
    unchanged and the output's at the normalised block (the body also loads the output buffer, and drops it). -/
theorem body_triple0 (c : Dev nD) (E : Set ℕ) (arg0 : Memref sig .tc .vmem S6000x64 .f32) (harg0 : arg0.IsWhole) (arg1 : Memref sig .tc .vmem S6000x64 .f32) (harg1 : arg1.IsWhole)
    (i : grid0.Coords) (x0 : Vec F S6000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (stored0 x0)) -∗ K ⟨⟩))
      ⊢ wp frame (wpE (defs₀ (F := F)) Variants.none c none) E (cc0__lrelu_l2norm_kernel i arg0 harg0 arg1 harg1) K := by
  simp only [cc0__lrelu_l2norm_kernel_eq_skeleton]; unfold cc0__lrelu_l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored0_covers _)

/-- The proof data of the region's pipeline on core c: the arrays as the region finds them; after the body at
    point t the input's buffer at its block and the output's at the normalised block; the untouched rest of the
    core as invariant; nothing owed; full shares. -/
def dat0 (c : Dev nD) : Dat τ (Elt F) Unit ℕ (UR sig nD τ) ℕ cfg0 c where
  A w := V c (Pipeline.arrRef spec0 w)
  after w t := match w with
    | ⟨0, _⟩ => inBlock0 V c 0 t
    | ⟨1, _⟩ => stored0 (inBlock0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = inBlock0 V c 0 t := by dsimp only [dat0]
theorem dat0_after1 (c : Dev nD) (t : Fin cfg0.N) : (dat0 V c).after 1 t = stored0 (inBlock0 V c 0 t) := by dsimp only [dat0]

/-- The input's current staging buffer holds its block at every point. -/
theorem dat0_before0 (c : Dev nD) (t : Fin cfg0.N) (d) : (dat0 V c).before 0 t d = inBlock0 V c 0 t :=
  ((dat0 V c).before_in_eq_fetched 0 rfl (fun _ => rfl) (fun _ _ _ => rfl)
      (fun t => by rw [dat0_after0]; unfold Dat.blockOf inBlock0; rw [dat0_A]; try rfl) t d).trans
    (by unfold Dat.fetched Dat.blockOf inBlock0; rw [dat0_A]; try rfl)

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0]
  rw [show (dat0 V c).Φ t.succ = (dat0 V c).Φ t.castSucc from rfl,
    show (dat0 V c).owesAt () t.succ = (dat0 V c).owesAt () t.castSucc from rfl,
    dat0_after0, dat0_after1]
  iintro ⟨HΦ, Ho, ⟨%d0, H0⟩, ⟨%d1, H1⟩⟩
  iapply (body_triple0 c Set.univ _ _ _ _ _ (inBlock0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation0 (c : Dev nD) : BodyObligation (dat0 (F := F) V c) (defs₀ (F := F)) Variants.none () Set.univ := fun t => by
  rw [bigSep_W0, bigSep_W0]
  exact body_at0 V c t

end Cert.Kernel.Hand

end
-- ==== Proof.KReg1.lean ====
/-
  Region 1 of the program: one call of the scaling kernel on a grid of 150 points. Point t reads rows
  16000·t … 16000·t+15999 of the gathered messages (64 lanes) and of the edge-weight column (one lane) and writes the
  same rows of the product: entry (e, l) is message (e, l) times weight e. Everything here is stated at ANY contents V
  of the buffers when the region is entered.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 16000×64 block and the whole 16000×1 column as rectangles. -/
abbrev whole1 : Rect S16000x64 := Rect.unit (s := S16000x64) ![0, 0] S16000x64.size inb_S16000x64_S16000x64_0_0
abbrev wholeCol1 : Rect S16000x1 := Rect.unit (s := S16000x1) ![0, 0] S16000x1.size inb_S16000x1_S16000x1_0_0

/-- What the body leaves in the output's staging buffer: its one store, of the scaled block. -/
def stored1 (x0 : Vec F S16000x64 .f32) (x1 : Vec F S16000x1 .f32) : Vec F S16000x64 .f32 :=
  View.canon [⟨whole1, k1_pay1 (View.ld x0 whole1) (View.ld x1 wholeCol1)⟩]

/-- The one store covers the whole buffer. -/
theorem stored1_covers (p0 : Vec F S16000x64 .f32) (y : S16000x64.Idx) :
    ∃ pc ∈ ([⟨whole1, p0⟩] : List (View.Piece (Elt F) S16000x64 .f32)), y ∈ pc.1.set :=
  View.cover_of_tiled [⟨whole1, p0⟩] S16000x64.size (by rfl) y

set_option maxHeartbeats 1000000 in
/-- The body on whole staging buffers: the inputs' at x0, x1 and the output's at anything end with the inputs'
    unchanged and the output's at the scaled block (the body also loads the output buffer, and drops it). -/
theorem body_triple1 (c : Dev nD) (E : Set ℕ) (arg0 : Memref sig .tc .vmem S16000x64 .f32) (harg0 : arg0.IsWhole) (arg1 : Memref sig .tc .vmem S16000x1 .f32) (harg1 : arg1.IsWhole)
    (arg2 : Memref sig .tc .vmem S16000x64 .f32) (harg2 : arg2.IsWhole)
    (i : grid1.Coords) (x0 : Vec F S16000x64 .f32) (x1 : Vec F S16000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (stored1 x0 x1)) -∗ K ⟨⟩))
      ⊢ wp frame (wpE (defs₀ (F := F)) Variants.none c none) E (cc1__scale_mul_kernel i arg0 harg0 arg1 harg1 arg2 harg2) K := by
  simp only [cc1__scale_mul_kernel_eq_skeleton]; unfold cc1__scale_mul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored1_covers _)

/-- The proof data of the region's pipeline on core c: the arrays as the region finds them; after the body at
    point t each input's buffer at its block and the output's at the scaled block; the untouched rest of the core as
    invariant; nothing owed; full shares. -/
def dat1 (c : Dev nD) : Dat τ (Elt F) Unit ℕ (UR sig nD τ) ℕ cfg1 c where
  A w := V c (Pipeline.arrRef spec1 w)
  after w t := match w with
    | ⟨0, _⟩ => inBlock1 V c 0 t
    | ⟨1, _⟩ => inBlock1 V c 1 t
    | ⟨2, _⟩ => stored1 (inBlock1 V c 0 t) (inBlock1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = inBlock1 V c 0 t := by dsimp only [dat1]
theorem dat1_after1 (c : Dev nD) (t : Fin cfg1.N) : (dat1 V c).after 1 t = inBlock1 V c 1 t := by dsimp only [dat1]
theorem dat1_after2 (c : Dev nD) (t : Fin cfg1.N) : (dat1 V c).after 2 t = stored1 (inBlock1 V c 0 t) (inBlock1 V c 1 t) := by dsimp only [dat1]

/-- Each input's current staging buffer holds its block at every point. -/
theorem dat1_before0 (c : Dev nD) (t : Fin cfg1.N) (d) : (dat1 V c).before 0 t d = inBlock1 V c 0 t :=
  ((dat1 V c).before_in_eq_fetched 0 rfl (fun _ => rfl) (fun _ _ _ => rfl)
      (fun t => by rw [dat1_after0]; unfold Dat.blockOf inBlock1; rw [dat1_A]; try rfl) t d).trans
    (by unfold Dat.fetched Dat.blockOf inBlock1; rw [dat1_A]; try rfl)
theorem dat1_before1 (c : Dev nD) (t : Fin cfg1.N) (d) : (dat1 V c).before 1 t d = inBlock1 V c 1 t :=
  ((dat1 V c).before_in_eq_fetched 1 rfl (fun _ => rfl) (fun _ _ _ => rfl)
      (fun t => by rw [dat1_after1]; unfold Dat.blockOf inBlock1; rw [dat1_A]; try rfl) t d).trans
    (by unfold Dat.fetched Dat.blockOf inBlock1; rw [dat1_A]; try rfl)

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (body_triple1 c Set.univ _ _ _ _ _ _ _ (inBlock1 V c 0 t) (inBlock1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact body_at1 V c t

end Cert.Kernel.Hand

end
-- ==== Proof.KReg2.lean ====
/-
  Region 2 of the program: one call of the row-normalising kernel on a grid of 25 points. Point t reads rows
  6000·t … 6000·t+5999 of its one input array and writes the same rows of its output array: every entry of a row
  is the leaky-rectified entry divided by max(‖row‖₂, ε), so a block of the output depends on the same block of
  the input only. Everything here is stated at ANY contents V of the buffers when the region is entered.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 6000×64 block as a rectangle: the one load and the one store of the body go through it. -/
abbrev whole2 : Rect S6000x64 := Rect.unit (s := S6000x64) ![0, 0] S6000x64.size inb_S6000x64_S6000x64_0_0

/-- What the body leaves in the output's staging buffer: its one store, of the normalised block. -/
def stored2 (x0 : Vec F S6000x64 .f32) : Vec F S6000x64 .f32 :=
  View.canon [⟨whole2, k2_pay1 (View.ld x0 whole2)⟩]

/-- The one store covers the whole buffer. -/
theorem stored2_covers (p0 : Vec F S6000x64 .f32) (y : S6000x64.Idx) :
    ∃ pc ∈ ([⟨whole2, p0⟩] : List (View.Piece (Elt F) S6000x64 .f32)), y ∈ pc.1.set :=
  View.cover_of_tiled [⟨whole2, p0⟩] S6000x64.size (by rfl) y

set_option maxHeartbeats 1000000 in
/-- The body on whole staging buffers: the input's at x0 and the output's at anything end with the input's
    unchanged and the output's at the normalised block (the body also loads the output buffer, and drops it). -/
theorem body_triple2 (c : Dev nD) (E : Set ℕ) (arg0 : Memref sig .tc .vmem S6000x64 .f32) (harg0 : arg0.IsWhole) (arg1 : Memref sig .tc .vmem S6000x64 .f32) (harg1 : arg1.IsWhole)
    (i : grid2.Coords) (x0 : Vec F S6000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (stored2 x0)) -∗ K ⟨⟩))
      ⊢ wp frame (wpE (defs₀ (F := F)) Variants.none c none) E (cc2__lrelu_l2norm_kernel i arg0 harg0 arg1 harg1) K := by
  simp only [cc2__lrelu_l2norm_kernel_eq_skeleton]; unfold cc2__lrelu_l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored2_covers _)

/-- The proof data of the region's pipeline on core c: the arrays as the region finds them; after the body at
    point t the input's buffer at its block and the output's at the normalised block; the untouched rest of the
    core as invariant; nothing owed; full shares. -/
def dat2 (c : Dev nD) : Dat τ (Elt F) Unit ℕ (UR sig nD τ) ℕ cfg2 c where
  A w := V c (Pipeline.arrRef spec2 w)
  after w t := match w with
    | ⟨0, _⟩ => inBlock2 V c 0 t
    | ⟨1, _⟩ => stored2 (inBlock2 V c 0 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = inBlock2 V c 0 t := by dsimp only [dat2]
theorem dat2_after1 (c : Dev nD) (t : Fin cfg2.N) : (dat2 V c).after 1 t = stored2 (inBlock2 V c 0 t) := by dsimp only [dat2]

/-- The input's current staging buffer holds its block at every point. -/
theorem dat2_before0 (c : Dev nD) (t : Fin cfg2.N) (d) : (dat2 V c).before 0 t d = inBlock2 V c 0 t :=
  ((dat2 V c).before_in_eq_fetched 0 rfl (fun _ => rfl) (fun _ _ _ => rfl)
      (fun t => by rw [dat2_after0]; unfold Dat.blockOf inBlock2; rw [dat2_A]; try rfl) t d).trans
    (by unfold Dat.fetched Dat.blockOf inBlock2; rw [dat2_A]; try rfl)

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem body_at2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [dat2_before0]
  rw [show (dat2 V c).Φ t.succ = (dat2 V c).Φ t.castSucc from rfl,
    show (dat2 V c).owesAt () t.succ = (dat2 V c).owesAt () t.castSucc from rfl,
    dat2_after0, dat2_after1]
  iintro ⟨HΦ, Ho, ⟨%d0, H0⟩, ⟨%d1, H1⟩⟩
  iapply (body_triple2 c Set.univ _ _ _ _ _ (inBlock2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation2 (c : Dev nD) : BodyObligation (dat2 (F := F) V c) (defs₀ (F := F)) Variants.none () Set.univ := fun t => by
  rw [bigSep_W2, bigSep_W2]
  exact body_at2 V c t

end Cert.Kernel.Hand

end
-- ==== Proof.KReg3.lean ====
/-
  Region 3 of the program: one call of the scaling kernel on a grid of 150 points. Point t reads rows
  16000·t … 16000·t+15999 of the gathered messages (64 lanes) and of the edge-weight column (one lane) and writes the
  same rows of the product: entry (e, l) is message (e, l) times weight e. Everything here is stated at ANY contents V
  of the buffers when the region is entered.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole 16000×64 block and the whole 16000×1 column as rectangles. -/
abbrev whole3 : Rect S16000x64 := Rect.unit (s := S16000x64) ![0, 0] S16000x64.size inb_S16000x64_S16000x64_0_0
abbrev wholeCol3 : Rect S16000x1 := Rect.unit (s := S16000x1) ![0, 0] S16000x1.size inb_S16000x1_S16000x1_0_0

/-- What the body leaves in the output's staging buffer: its one store, of the scaled block. -/
def stored3 (x0 : Vec F S16000x64 .f32) (x1 : Vec F S16000x1 .f32) : Vec F S16000x64 .f32 :=
  View.canon [⟨whole3, k3_pay1 (View.ld x0 whole3) (View.ld x1 wholeCol3)⟩]

/-- The one store covers the whole buffer. -/
theorem stored3_covers (p0 : Vec F S16000x64 .f32) (y : S16000x64.Idx) :
    ∃ pc ∈ ([⟨whole3, p0⟩] : List (View.Piece (Elt F) S16000x64 .f32)), y ∈ pc.1.set :=
  View.cover_of_tiled [⟨whole3, p0⟩] S16000x64.size (by rfl) y

set_option maxHeartbeats 1000000 in
/-- The body on whole staging buffers: the inputs' at x0, x1 and the output's at anything end with the inputs'
    unchanged and the output's at the scaled block (the body also loads the output buffer, and drops it). -/
theorem body_triple3 (c : Dev nD) (E : Set ℕ) (arg0 : Memref sig .tc .vmem S16000x64 .f32) (harg0 : arg0.IsWhole) (arg1 : Memref sig .tc .vmem S16000x1 .f32) (harg1 : arg1.IsWhole)
    (arg2 : Memref sig .tc .vmem S16000x64 .f32) (harg2 : arg2.IsWhole)
    (i : grid3.Coords) (x0 : Vec F S16000x64 .f32) (x1 : Vec F S16000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (stored3 x0 x1)) -∗ K ⟨⟩))
      ⊢ wp frame (wpE (defs₀ (F := F)) Variants.none c none) E (cc3__scale_mul_kernel i arg0 harg0 arg1 harg1 arg2 harg2) K := by
  simp only [cc3__scale_mul_kernel_eq_skeleton]; unfold cc3__scale_mul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored3_covers _)

/-- The proof data of the region's pipeline on core c: the arrays as the region finds them; after the body at
    point t each input's buffer at its block and the output's at the scaled block; the untouched rest of the core as
    invariant; nothing owed; full shares. -/
def dat3 (c : Dev nD) : Dat τ (Elt F) Unit ℕ (UR sig nD τ) ℕ cfg3 c where
  A w := V c (Pipeline.arrRef spec3 w)
  after w t := match w with
    | ⟨0, _⟩ => inBlock3 V c 0 t
    | ⟨1, _⟩ => inBlock3 V c 1 t
    | ⟨2, _⟩ => stored3 (inBlock3 V c 0 t) (inBlock3 V c 1 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = inBlock3 V c 0 t := by dsimp only [dat3]
theorem dat3_after1 (c : Dev nD) (t : Fin cfg3.N) : (dat3 V c).after 1 t = inBlock3 V c 1 t := by dsimp only [dat3]
theorem dat3_after2 (c : Dev nD) (t : Fin cfg3.N) : (dat3 V c).after 2 t = stored3 (inBlock3 V c 0 t) (inBlock3 V c 1 t) := by dsimp only [dat3]

/-- Each input's current staging buffer holds its block at every point. -/
theorem dat3_before0 (c : Dev nD) (t : Fin cfg3.N) (d) : (dat3 V c).before 0 t d = inBlock3 V c 0 t :=
  ((dat3 V c).before_in_eq_fetched 0 rfl (fun _ => rfl) (fun _ _ _ => rfl)
      (fun t => by rw [dat3_after0]; unfold Dat.blockOf inBlock3; rw [dat3_A]; try rfl) t d).trans
    (by unfold Dat.fetched Dat.blockOf inBlock3; rw [dat3_A]; try rfl)
theorem dat3_before1 (c : Dev nD) (t : Fin cfg3.N) (d) : (dat3 V c).before 1 t d = inBlock3 V c 1 t :=
  ((dat3 V c).before_in_eq_fetched 1 rfl (fun _ => rfl) (fun _ _ _ => rfl)
      (fun t => by rw [dat3_after1]; unfold Dat.blockOf inBlock3; rw [dat3_A]; try rfl) t d).trans
    (by unfold Dat.fetched Dat.blockOf inBlock3; rw [dat3_A]; try rfl)

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem body_at3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [dat3_before0, dat3_before1]
  rw [show (dat3 V c).Φ t.succ = (dat3 V c).Φ t.castSucc from rfl,
    show (dat3 V c).owesAt () t.succ = (dat3 V c).owesAt () t.castSucc from rfl,
    dat3_after0, dat3_after1, dat3_after2]
  iintro ⟨HΦ, Ho, ⟨%d0, H0⟩, ⟨%d1, H1⟩, ⟨%d2, H2⟩⟩
  iapply (body_triple3 c Set.univ _ _ _ _ _ _ _ (inBlock3 V c 0 t) (inBlock3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (dat3 (F := F) V c) (defs₀ (F := F)) Variants.none () Set.univ := fun t => by
  rw [bigSep_W3, bigSep_W3]
  exact body_at3 V c t

end Cert.Kernel.Hand

end
-- ==== Proof.KReg4.lean ====
/-
  Region 4 of the program: one call of the row-normalising kernel on a grid of 25 points. Point t reads rows
  6000·t … 6000·t+5999 of its one input array and writes the same rows of its output array: every entry of a row
  is the leaky-rectified entry divided by max(‖row‖₂, ε), so a block of the output depends on the same block of
  the input only. Everything here is stated at ANY contents V of the buffers when the region is entered.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole 6000×64 block as a rectangle: the one load and the one store of the body go through it. -/
abbrev whole4 : Rect S6000x64 := Rect.unit (s := S6000x64) ![0, 0] S6000x64.size inb_S6000x64_S6000x64_0_0

/-- What the body leaves in the output's staging buffer: its one store, of the normalised block. -/
def stored4 (x0 : Vec F S6000x64 .f32) : Vec F S6000x64 .f32 :=
  View.canon [⟨whole4, k4_pay1 (View.ld x0 whole4)⟩]

/-- The one store covers the whole buffer. -/
theorem stored4_covers (p0 : Vec F S6000x64 .f32) (y : S6000x64.Idx) :
    ∃ pc ∈ ([⟨whole4, p0⟩] : List (View.Piece (Elt F) S6000x64 .f32)), y ∈ pc.1.set :=
  View.cover_of_tiled [⟨whole4, p0⟩] S6000x64.size (by rfl) y

set_option maxHeartbeats 1000000 in
/-- The body on whole staging buffers: the input's at x0 and the output's at anything end with the input's
    unchanged and the output's at the normalised block (the body also loads the output buffer, and drops it). -/
theorem body_triple4 (c : Dev nD) (E : Set ℕ) (arg0 : Memref sig .tc .vmem S6000x64 .f32) (harg0 : arg0.IsWhole) (arg1 : Memref sig .tc .vmem S6000x64 .f32) (harg1 : arg1.IsWhole)
    (i : grid4.Coords) (x0 : Vec F S6000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (stored4 x0)) -∗ K ⟨⟩))
      ⊢ wp frame (wpE (defs₀ (F := F)) Variants.none c none) E (cc4__lrelu_l2norm_kernel i arg0 harg0 arg1 harg1) K := by
  simp only [cc4__lrelu_l2norm_kernel_eq_skeleton]; unfold cc4__lrelu_l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored4_covers _)

/-- The proof data of the region's pipeline on core c: the arrays as the region finds them; after the body at
    point t the input's buffer at its block and the output's at the normalised block; the untouched rest of the
    core as invariant; nothing owed; full shares. -/
def dat4 (c : Dev nD) : Dat τ (Elt F) Unit ℕ (UR sig nD τ) ℕ cfg4 c where
  A w := V c (Pipeline.arrRef spec4 w)
  after w t := match w with
    | ⟨0, _⟩ => inBlock4 V c 0 t
    | ⟨1, _⟩ => stored4 (inBlock4 V c 0 t)
  Φ _ := Pipeline.ΦA spec4 c
  q _ := fullShare
  owed _ := 0

theorem dat4_A (c : Dev nD) (w : Fin cfg4.W) : (dat4 V c).A w = V c (Pipeline.arrRef spec4 w) := by
  dsimp only [dat4]
theorem dat4_after0 (c : Dev nD) (t : Fin cfg4.N) : (dat4 V c).after 0 t = inBlock4 V c 0 t := by dsimp only [dat4]
theorem dat4_after1 (c : Dev nD) (t : Fin cfg4.N) : (dat4 V c).after 1 t = stored4 (inBlock4 V c 0 t) := by dsimp only [dat4]

/-- The input's current staging buffer holds its block at every point. -/
theorem dat4_before0 (c : Dev nD) (t : Fin cfg4.N) (d) : (dat4 V c).before 0 t d = inBlock4 V c 0 t :=
  ((dat4 V c).before_in_eq_fetched 0 rfl (fun _ => rfl) (fun _ _ _ => rfl)
      (fun t => by rw [dat4_after0]; unfold Dat.blockOf inBlock4; rw [dat4_A]; try rfl) t d).trans
    (by unfold Dat.fetched Dat.blockOf inBlock4; rw [dat4_A]; try rfl)

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

theorem body_at4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [dat4_before0]
  rw [show (dat4 V c).Φ t.succ = (dat4 V c).Φ t.castSucc from rfl,
    show (dat4 V c).owesAt () t.succ = (dat4 V c).owesAt () t.castSucc from rfl,
    dat4_after0, dat4_after1]
  iintro ⟨HΦ, Ho, ⟨%d0, H0⟩, ⟨%d1, H1⟩⟩
  iapply (body_triple4 c Set.univ _ _ _ _ _ (inBlock4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation4 (c : Dev nD) : BodyObligation (dat4 (F := F) V c) (defs₀ (F := F)) Variants.none () Set.univ := fun t => by
  rw [bigSep_W4, bigSep_W4]
  exact body_at4 V c t

end Cert.Kernel.Hand

end
-- ==== Proof.KReg5.lean ====
/-
  Region 5 of the program: one call of the scaling kernel on a grid of 150 points. Point t reads rows
  16000·t … 16000·t+15999 of the gathered messages (64 lanes) and of the edge-weight column (one lane) and writes the
  same rows of the product: entry (e, l) is message (e, l) times weight e. Everything here is stated at ANY contents V
  of the buffers when the region is entered.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole 16000×64 block and the whole 16000×1 column as rectangles. -/
abbrev whole5 : Rect S16000x64 := Rect.unit (s := S16000x64) ![0, 0] S16000x64.size inb_S16000x64_S16000x64_0_0
abbrev wholeCol5 : Rect S16000x1 := Rect.unit (s := S16000x1) ![0, 0] S16000x1.size inb_S16000x1_S16000x1_0_0

/-- What the body leaves in the output's staging buffer: its one store, of the scaled block. -/
def stored5 (x0 : Vec F S16000x64 .f32) (x1 : Vec F S16000x1 .f32) : Vec F S16000x64 .f32 :=
  View.canon [⟨whole5, k5_pay1 (View.ld x0 whole5) (View.ld x1 wholeCol5)⟩]

/-- The one store covers the whole buffer. -/
theorem stored5_covers (p0 : Vec F S16000x64 .f32) (y : S16000x64.Idx) :
    ∃ pc ∈ ([⟨whole5, p0⟩] : List (View.Piece (Elt F) S16000x64 .f32)), y ∈ pc.1.set :=
  View.cover_of_tiled [⟨whole5, p0⟩] S16000x64.size (by rfl) y

set_option maxHeartbeats 1000000 in
/-- The body on whole staging buffers: the inputs' at x0, x1 and the output's at anything end with the inputs'
    unchanged and the output's at the scaled block (the body also loads the output buffer, and drops it). -/
theorem body_triple5 (c : Dev nD) (E : Set ℕ) (arg0 : Memref sig .tc .vmem S16000x64 .f32) (harg0 : arg0.IsWhole) (arg1 : Memref sig .tc .vmem S16000x1 .f32) (harg1 : arg1.IsWhole)
    (arg2 : Memref sig .tc .vmem S16000x64 .f32) (harg2 : arg2.IsWhole)
    (i : grid5.Coords) (x0 : Vec F S16000x64 .f32) (x1 : Vec F S16000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (stored5 x0 x1)) -∗ K ⟨⟩))
      ⊢ wp frame (wpE (defs₀ (F := F)) Variants.none c none) E (cc5__scale_mul_kernel i arg0 harg0 arg1 harg1 arg2 harg2) K := by
  simp only [cc5__scale_mul_kernel_eq_skeleton]; unfold cc5__scale_mul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored5_covers _)

/-- The proof data of the region's pipeline on core c: the arrays as the region finds them; after the body at
    point t each input's buffer at its block and the output's at the scaled block; the untouched rest of the core as
    invariant; nothing owed; full shares. -/
def dat5 (c : Dev nD) : Dat τ (Elt F) Unit ℕ (UR sig nD τ) ℕ cfg5 c where
  A w := V c (Pipeline.arrRef spec5 w)
  after w t := match w with
    | ⟨0, _⟩ => inBlock5 V c 0 t
    | ⟨1, _⟩ => inBlock5 V c 1 t
    | ⟨2, _⟩ => stored5 (inBlock5 V c 0 t) (inBlock5 V c 1 t)
  Φ _ := Pipeline.ΦA spec5 c
  q _ := fullShare
  owed _ := 0

theorem dat5_A (c : Dev nD) (w : Fin cfg5.W) : (dat5 V c).A w = V c (Pipeline.arrRef spec5 w) := by
  dsimp only [dat5]
theorem dat5_after0 (c : Dev nD) (t : Fin cfg5.N) : (dat5 V c).after 0 t = inBlock5 V c 0 t := by dsimp only [dat5]
theorem dat5_after1 (c : Dev nD) (t : Fin cfg5.N) : (dat5 V c).after 1 t = inBlock5 V c 1 t := by dsimp only [dat5]
theorem dat5_after2 (c : Dev nD) (t : Fin cfg5.N) : (dat5 V c).after 2 t = stored5 (inBlock5 V c 0 t) (inBlock5 V c 1 t) := by dsimp only [dat5]

/-- Each input's current staging buffer holds its block at every point. -/
theorem dat5_before0 (c : Dev nD) (t : Fin cfg5.N) (d) : (dat5 V c).before 0 t d = inBlock5 V c 0 t :=
  ((dat5 V c).before_in_eq_fetched 0 rfl (fun _ => rfl) (fun _ _ _ => rfl)
      (fun t => by rw [dat5_after0]; unfold Dat.blockOf inBlock5; rw [dat5_A]; try rfl) t d).trans
    (by unfold Dat.fetched Dat.blockOf inBlock5; rw [dat5_A]; try rfl)
theorem dat5_before1 (c : Dev nD) (t : Fin cfg5.N) (d) : (dat5 V c).before 1 t d = inBlock5 V c 1 t :=
  ((dat5 V c).before_in_eq_fetched 1 rfl (fun _ => rfl) (fun _ _ _ => rfl)
      (fun t => by rw [dat5_after1]; unfold Dat.blockOf inBlock5; rw [dat5_A]; try rfl) t d).trans
    (by unfold Dat.fetched Dat.blockOf inBlock5; rw [dat5_A]; try rfl)

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem body_at5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [dat5_before0, dat5_before1]
  rw [show (dat5 V c).Φ t.succ = (dat5 V c).Φ t.castSucc from rfl,
    show (dat5 V c).owesAt () t.succ = (dat5 V c).owesAt () t.castSucc from rfl,
    dat5_after0, dat5_after1, dat5_after2]
  iintro ⟨HΦ, Ho, ⟨%d0, H0⟩, ⟨%d1, H1⟩, ⟨%d2, H2⟩⟩
  iapply (body_triple5 c Set.univ _ _ _ _ _ _ _ (inBlock5 V c 0 t) (inBlock5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation5 (c : Dev nD) : BodyObligation (dat5 (F := F) V c) (defs₀ (F := F)) Variants.none () Set.univ := fun t => by
  rw [bigSep_W5, bigSep_W5]
  exact body_at5 V c t

end Cert.Kernel.Hand

end
-- ==== Proof.KReg6.lean ====
/-
  Region 6 of the program: one call of the row-normalising kernel on a grid of 25 points. Point t reads rows
  6000·t … 6000·t+5999 of its one input array and writes the same rows of its output array: every entry of a row
  is the leaky-rectified entry divided by max(‖row‖₂, ε), so a block of the output depends on the same block of
  the input only. Everything here is stated at ANY contents V of the buffers when the region is entered.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The whole 6000×64 block as a rectangle: the one load and the one store of the body go through it. -/
abbrev whole6 : Rect S6000x64 := Rect.unit (s := S6000x64) ![0, 0] S6000x64.size inb_S6000x64_S6000x64_0_0

/-- What the body leaves in the output's staging buffer: its one store, of the normalised block. -/
def stored6 (x0 : Vec F S6000x64 .f32) : Vec F S6000x64 .f32 :=
  View.canon [⟨whole6, k6_pay1 (View.ld x0 whole6)⟩]

/-- The one store covers the whole buffer. -/
theorem stored6_covers (p0 : Vec F S6000x64 .f32) (y : S6000x64.Idx) :
    ∃ pc ∈ ([⟨whole6, p0⟩] : List (View.Piece (Elt F) S6000x64 .f32)), y ∈ pc.1.set :=
  View.cover_of_tiled [⟨whole6, p0⟩] S6000x64.size (by rfl) y

set_option maxHeartbeats 1000000 in
/-- The body on whole staging buffers: the input's at x0 and the output's at anything end with the input's
    unchanged and the output's at the normalised block (the body also loads the output buffer, and drops it). -/
theorem body_triple6 (c : Dev nD) (E : Set ℕ) (arg0 : Memref sig .tc .vmem S6000x64 .f32) (harg0 : arg0.IsWhole) (arg1 : Memref sig .tc .vmem S6000x64 .f32) (harg1 : arg1.IsWhole)
    (i : grid6.Coords) (x0 : Vec F S6000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (stored6 x0)) -∗ K ⟨⟩))
      ⊢ wp frame (wpE (defs₀ (F := F)) Variants.none c none) E (cc6__lrelu_l2norm_kernel i arg0 harg0 arg1 harg1) K := by
  simp only [cc6__lrelu_l2norm_kernel_eq_skeleton]; unfold cc6__lrelu_l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored6_covers _)

/-- The proof data of the region's pipeline on core c: the arrays as the region finds them; after the body at
    point t the input's buffer at its block and the output's at the normalised block; the untouched rest of the
    core as invariant; nothing owed; full shares. -/
def dat6 (c : Dev nD) : Dat τ (Elt F) Unit ℕ (UR sig nD τ) ℕ cfg6 c where
  A w := V c (Pipeline.arrRef spec6 w)
  after w t := match w with
    | ⟨0, _⟩ => inBlock6 V c 0 t
    | ⟨1, _⟩ => stored6 (inBlock6 V c 0 t)
  Φ _ := Pipeline.ΦA spec6 c
  q _ := fullShare
  owed _ := 0

theorem dat6_A (c : Dev nD) (w : Fin cfg6.W) : (dat6 V c).A w = V c (Pipeline.arrRef spec6 w) := by
  dsimp only [dat6]
theorem dat6_after0 (c : Dev nD) (t : Fin cfg6.N) : (dat6 V c).after 0 t = inBlock6 V c 0 t := by dsimp only [dat6]
theorem dat6_after1 (c : Dev nD) (t : Fin cfg6.N) : (dat6 V c).after 1 t = stored6 (inBlock6 V c 0 t) := by dsimp only [dat6]

/-- The input's current staging buffer holds its block at every point. -/
theorem dat6_before0 (c : Dev nD) (t : Fin cfg6.N) (d) : (dat6 V c).before 0 t d = inBlock6 V c 0 t :=
  ((dat6 V c).before_in_eq_fetched 0 rfl (fun _ => rfl) (fun _ _ _ => rfl)
      (fun t => by rw [dat6_after0]; unfold Dat.blockOf inBlock6; rw [dat6_A]; try rfl) t d).trans
    (by unfold Dat.fetched Dat.blockOf inBlock6; rw [dat6_A]; try rfl)

/-- What the body is called with at point t, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t))

theorem body_at6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [dat6_before0]
  rw [show (dat6 V c).Φ t.succ = (dat6 V c).Φ t.castSucc from rfl,
    show (dat6 V c).owesAt () t.succ = (dat6 V c).owesAt () t.castSucc from rfl,
    dat6_after0, dat6_after1]
  iintro ⟨HΦ, Ho, ⟨%d0, H0⟩, ⟨%d1, H1⟩⟩
  iapply (body_triple6 c Set.univ _ _ _ _ _ (inBlock6 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation6 (c : Dev nD) : BodyObligation (dat6 (F := F) V c) (defs₀ (F := F)) Variants.none () Set.univ := fun t => by
  rw [bigSep_W6, bigSep_W6]
  exact body_at6 V c t

end Cert.Kernel.Hand

end
-- ==== Proof.KFold.lean ====
/-
  The buffer contents of one core at every boundary between the program's segments, as a fold from the launch memory:
  a stretch of host operations applies them in order; a kernel region replaces each of its arrays by what the grid's
  write-backs leave and keeps every other buffer. W0 is the launch; region k is entered at W(2k+1) and left at W(2k+2);
  the three closing stretches of host operations lead to W15, W16 and W17, the contents at the return.
  Also here: every region's proof data at its own entry contents, the part of the thread state that rides beside the
  buffers, and the fact that no argument array is ever written (so each reads, at every boundary, as launched).
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points
import proofs.«180941_j14654428414616_1_alg».proof.Proof.KReg0
import proofs.«180941_j14654428414616_1_alg».proof.Proof.KReg1
import proofs.«180941_j14654428414616_1_alg».proof.Proof.KReg2
import proofs.«180941_j14654428414616_1_alg».proof.Proof.KReg3
import proofs.«180941_j14654428414616_1_alg».proof.Proof.KReg4
import proofs.«180941_j14654428414616_1_alg».proof.Proof.KReg5
import proofs.«180941_j14654428414616_1_alg».proof.Proof.KReg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)

/-- After the host stretch before region 0: region 0's entry. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exitArr0 (c : Dev nD) (w : Fin cfg0.W) : (dat0 (V1 m ρ) c).arrAt w cfg0.N = V2 m ρ c (Pipeline.arrRef spec0 w) :=
  (W2_arr m ρ c w).symm
theorem exitRest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1: region 1's entry. -/
abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem exitArr1 (c : Dev nD) (w : Fin cfg1.W) : (dat1 (V3 m ρ) c).arrAt w cfg1.N = V4 m ρ c (Pipeline.arrRef spec1 w) :=
  (W4_arr m ρ c w).symm
theorem exitRest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2: region 2's entry. -/
abbrev W5 : Dev nD → Valuation τ sig (Elt F) := fun c => StableHlo.after main_part0_ops2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem exitArr2 (c : Dev nD) (w : Fin cfg2.W) : (dat2 (V5 m ρ) c).arrAt w cfg2.N = V6 m ρ c (Pipeline.arrRef spec2 w) :=
  (W6_arr m ρ c w).symm
theorem exitRest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3: region 3's entry. -/
abbrev W7 : Dev nD → Valuation τ sig (Elt F) := fun c => StableHlo.after main_part0_ops3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem exitArr3 (c : Dev nD) (w : Fin cfg3.W) : (dat3 (V7 m ρ) c).arrAt w cfg3.N = V8 m ρ c (Pipeline.arrRef spec3 w) :=
  (W8_arr m ρ c w).symm
theorem exitRest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch before region 4: region 4's entry. -/
abbrev W9 : Dev nD → Valuation τ sig (Elt F) := fun c => StableHlo.after main_part0_ops4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem exitArr4 (c : Dev nD) (w : Fin cfg4.W) : (dat4 (V9 m ρ) c).arrAt w cfg4.N = V10 m ρ c (Pipeline.arrRef spec4 w) :=
  (W10_arr m ρ c w).symm
theorem exitRest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch before region 5: region 5's entry. -/
abbrev W11 : Dev nD → Valuation τ sig (Elt F) := fun c => StableHlo.after main_part0_ops5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem exitArr5 (c : Dev nD) (w : Fin cfg5.W) : (dat5 (V11 m ρ) c).arrAt w cfg5.N = V12 m ρ c (Pipeline.arrRef spec5 w) :=
  (W12_arr m ρ c w).symm
theorem exitRest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch before region 6: region 6's entry. -/
abbrev W13 : Dev nD → Valuation τ sig (Elt F) := fun c => StableHlo.after main_part0_ops6 (W12 m ρ c)
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem exitArr6 (c : Dev nD) (w : Fin cfg6.W) : (dat6 (V13 m ρ) c).arrAt w cfg6.N = V14 m ρ c (Pipeline.arrRef spec6 w) :=
  (W14_arr m ρ c w).symm
theorem exitRest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- The three closing stretches of host operations. -/
abbrev W15 : Dev nD → Valuation τ sig (Elt F) := fun c => StableHlo.after main_part0_ops7 (W14 m ρ c)
abbrev W16 : Dev nD → Valuation τ sig (Elt F) := fun c => StableHlo.after main_part1_ops0 (W15 m ρ c)
abbrev W17 : Dev nD → Valuation τ sig (Elt F) := fun c => StableHlo.after main_part2_ops0 (W16 m ρ c)

/-! ## The proof data family and what rides beside the buffers -/

/-- No pipeline has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and its debts, at nothing. -/
abbrev R (c : Dev nD) : sProp 𝕄 := iprop((∃ r, prngReg c r) ∗ ∃ W, owes (c : Thread nD τ) (0 : CellTallies nD τ sig Unit) W)
/-- A stretch of host operations as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the stretch allocates a buffer. -/
theorem main_part0_ops0_fresh : (main_part0_ops0 : List (HloOp τ sig (Elt F))).Forall fun op => op.fresh = ∅ := by
  simp only [List.Forall]; repeat' constructor
/-- No operation of the stretch allocates a buffer. -/
theorem main_part0_ops1_fresh : (main_part0_ops1 : List (HloOp τ sig (Elt F))).Forall fun op => op.fresh = ∅ := by
  simp only [List.Forall]; repeat' constructor
/-- No operation of the stretch allocates a buffer. -/
theorem main_part0_ops2_fresh : (main_part0_ops2 : List (HloOp τ sig (Elt F))).Forall fun op => op.fresh = ∅ := by
  simp only [List.Forall]; repeat' constructor
/-- No operation of the stretch allocates a buffer. -/
theorem main_part0_ops3_fresh : (main_part0_ops3 : List (HloOp τ sig (Elt F))).Forall fun op => op.fresh = ∅ := by
  simp only [List.Forall]; repeat' constructor
/-- No operation of the stretch allocates a buffer. -/
theorem main_part0_ops4_fresh : (main_part0_ops4 : List (HloOp τ sig (Elt F))).Forall fun op => op.fresh = ∅ := by
  simp only [List.Forall]; repeat' constructor
/-- No operation of the stretch allocates a buffer. -/
theorem main_part0_ops5_fresh : (main_part0_ops5 : List (HloOp τ sig (Elt F))).Forall fun op => op.fresh = ∅ := by
  simp only [List.Forall]; repeat' constructor
/-- No operation of the stretch allocates a buffer. -/
theorem main_part0_ops6_fresh : (main_part0_ops6 : List (HloOp τ sig (Elt F))).Forall fun op => op.fresh = ∅ := by
  simp only [List.Forall]; repeat' constructor
/-- No operation of the stretch allocates a buffer. -/
theorem main_part0_ops7_fresh : (main_part0_ops7 : List (HloOp τ sig (Elt F))).Forall fun op => op.fresh = ∅ := by
  simp only [List.Forall]; repeat' constructor
/-- No operation of the stretch allocates a buffer. -/
theorem main_part1_ops0_fresh : (main_part1_ops0 : List (HloOp τ sig (Elt F))).Forall fun op => op.fresh = ∅ := by
  simp only [List.Forall]; repeat' constructor
/-- No operation of the stretch allocates a buffer. -/
theorem main_part2_ops0_fresh : (main_part2_ops0 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at the return's contents, the generator register at
    some state. -/
abbrev Tₙ (c : Dev nD) : sProp 𝕄 := iprop(StableHlo.held (c : Thread nD τ) (Pipeline.ucRefs τ sig) (W17 m ρ c) ∗ ∃ r, prngReg c r)

/-! ## No argument array is ever written -/

theorem W17_main_arg0 (c : Dev nD) : W17 m ρ c (Proc.devRef .tc main_arg0) = m ((c : Thread nD τ).loc main_arg0) := by
  have h17 : W17 m ρ c (Proc.devRef .tc main_arg0) = W14 m ρ c (Proc.devRef .tc main_arg0) := by
    show StableHlo.after main_part2_ops0 (StableHlo.after main_part1_ops0 (StableHlo.after main_part0_ops7 (W14 m ρ c))) (Proc.devRef .tc main_arg0) = _
    generalize W14 m ρ c = X
    open StableHlo in after_results_simp
  rw [h17]
  rw [W14_of_ne m ρ c main_arg0 (by decide)]
  have h13 : W13 m ρ c (Proc.devRef .tc main_arg0) = W12 m ρ c (Proc.devRef .tc main_arg0) := by
    show StableHlo.after main_part0_ops6 (W12 m ρ c) (Proc.devRef .tc main_arg0) = _
    generalize W12 m ρ c = X
    open StableHlo in after_results_simp
  rw [h13]
  rw [W12_of_ne m ρ c main_arg0 (by decide)]
  have h11 : W11 m ρ c (Proc.devRef .tc main_arg0) = W10 m ρ c (Proc.devRef .tc main_arg0) := by
    show StableHlo.after main_part0_ops5 (W10 m ρ c) (Proc.devRef .tc main_arg0) = _
    generalize W10 m ρ c = X
    open StableHlo in after_results_simp
  rw [h11]
  rw [W10_of_ne m ρ c main_arg0 (by decide)]
  have h9 : W9 m ρ c (Proc.devRef .tc main_arg0) = W8 m ρ c (Proc.devRef .tc main_arg0) := by
    show StableHlo.after main_part0_ops4 (W8 m ρ c) (Proc.devRef .tc main_arg0) = _
    generalize W8 m ρ c = X
    open StableHlo in after_results_simp
  rw [h9]
  rw [W8_of_ne m ρ c main_arg0 (by decide)]
  have h7 : W7 m ρ c (Proc.devRef .tc main_arg0) = W6 m ρ c (Proc.devRef .tc main_arg0) := by
    show StableHlo.after main_part0_ops3 (W6 m ρ c) (Proc.devRef .tc main_arg0) = _
    generalize W6 m ρ c = X
    open StableHlo in after_results_simp
  rw [h7]
  rw [W6_of_ne m ρ c main_arg0 (by decide)]
  have h5 : W5 m ρ c (Proc.devRef .tc main_arg0) = W4 m ρ c (Proc.devRef .tc main_arg0) := by
    show StableHlo.after main_part0_ops2 (W4 m ρ c) (Proc.devRef .tc main_arg0) = _
    generalize W4 m ρ c = X
    open StableHlo in after_results_simp
  rw [h5]
  rw [W4_of_ne m ρ c main_arg0 (by decide)]
  have h3 : W3 m ρ c (Proc.devRef .tc main_arg0) = W2 m ρ c (Proc.devRef .tc main_arg0) := by
    show StableHlo.after main_part0_ops1 (W2 m ρ c) (Proc.devRef .tc main_arg0) = _
    generalize W2 m ρ c = X
    open StableHlo in after_results_simp
  rw [h3]
  rw [W2_of_ne m ρ c main_arg0 (by decide)]
  have h1 : W1 m ρ c (Proc.devRef .tc main_arg0) = W0 m ρ c (Proc.devRef .tc main_arg0) := by
    show StableHlo.after main_part0_ops0 (W0 m ρ c) (Proc.devRef .tc main_arg0) = _
    generalize W0 m ρ c = X
    open StableHlo in after_results_simp
  rw [h1]

theorem W17_main_arg1 (c : Dev nD) : W17 m ρ c (Proc.devRef .tc main_arg1) = m ((c : Thread nD τ).loc main_arg1) := by
  have h17 : W17 m ρ c (Proc.devRef .tc main_arg1) = W14 m ρ c (Proc.devRef .tc main_arg1) := by
    show StableHlo.after main_part2_ops0 (StableHlo.after main_part1_ops0 (StableHlo.after main_part0_ops7 (W14 m ρ c))) (Proc.devRef .tc main_arg1) = _
    generalize W14 m ρ c = X
    open StableHlo in after_results_simp
  rw [h17]
  rw [W14_of_ne m ρ c main_arg1 (by decide)]
  have h13 : W13 m ρ c (Proc.devRef .tc main_arg1) = W12 m ρ c (Proc.devRef .tc main_arg1) := by
    show StableHlo.after main_part0_ops6 (W12 m ρ c) (Proc.devRef .tc main_arg1) = _
    generalize W12 m ρ c = X
    open StableHlo in after_results_simp
  rw [h13]
  rw [W12_of_ne m ρ c main_arg1 (by decide)]
  have h11 : W11 m ρ c (Proc.devRef .tc main_arg1) = W10 m ρ c (Proc.devRef .tc main_arg1) := by
    show StableHlo.after main_part0_ops5 (W10 m ρ c) (Proc.devRef .tc main_arg1) = _
    generalize W10 m ρ c = X
    open StableHlo in after_results_simp
  rw [h11]
  rw [W10_of_ne m ρ c main_arg1 (by decide)]
  have h9 : W9 m ρ c (Proc.devRef .tc main_arg1) = W8 m ρ c (Proc.devRef .tc main_arg1) := by
    show StableHlo.after main_part0_ops4 (W8 m ρ c) (Proc.devRef .tc main_arg1) = _
    generalize W8 m ρ c = X
    open StableHlo in after_results_simp
  rw [h9]
  rw [W8_of_ne m ρ c main_arg1 (by decide)]
  have h7 : W7 m ρ c (Proc.devRef .tc main_arg1) = W6 m ρ c (Proc.devRef .tc main_arg1) := by
    show StableHlo.after main_part0_ops3 (W6 m ρ c) (Proc.devRef .tc main_arg1) = _
    generalize W6 m ρ c = X
    open StableHlo in after_results_simp
  rw [h7]
  rw [W6_of_ne m ρ c main_arg1 (by decide)]
  have h5 : W5 m ρ c (Proc.devRef .tc main_arg1) = W4 m ρ c (Proc.devRef .tc main_arg1) := by
    show StableHlo.after main_part0_ops2 (W4 m ρ c) (Proc.devRef .tc main_arg1) = _
    generalize W4 m ρ c = X
    open StableHlo in after_results_simp
  rw [h5]
  rw [W4_of_ne m ρ c main_arg1 (by decide)]
  have h3 : W3 m ρ c (Proc.devRef .tc main_arg1) = W2 m ρ c (Proc.devRef .tc main_arg1) := by
    show StableHlo.after main_part0_ops1 (W2 m ρ c) (Proc.devRef .tc main_arg1) = _
    generalize W2 m ρ c = X
    open StableHlo in after_results_simp
  rw [h3]
  rw [W2_of_ne m ρ c main_arg1 (by decide)]
  have h1 : W1 m ρ c (Proc.devRef .tc main_arg1) = W0 m ρ c (Proc.devRef .tc main_arg1) := by
    show StableHlo.after main_part0_ops0 (W0 m ρ c) (Proc.devRef .tc main_arg1) = _
    generalize W0 m ρ c = X
    open StableHlo in after_results_simp
  rw [h1]

theorem W17_main_arg2 (c : Dev nD) : W17 m ρ c (Proc.devRef .tc main_arg2) = m ((c : Thread nD τ).loc main_arg2) := by
  have h17 : W17 m ρ c (Proc.devRef .tc main_arg2) = W14 m ρ c (Proc.devRef .tc main_arg2) := by
    show StableHlo.after main_part2_ops0 (StableHlo.after main_part1_ops0 (StableHlo.after main_part0_ops7 (W14 m ρ c))) (Proc.devRef .tc main_arg2) = _
    generalize W14 m ρ c = X
    open StableHlo in after_results_simp
  rw [h17]
  rw [W14_of_ne m ρ c main_arg2 (by decide)]
  have h13 : W13 m ρ c (Proc.devRef .tc main_arg2) = W12 m ρ c (Proc.devRef .tc main_arg2) := by
    show StableHlo.after main_part0_ops6 (W12 m ρ c) (Proc.devRef .tc main_arg2) = _
    generalize W12 m ρ c = X
    open StableHlo in after_results_simp
  rw [h13]
  rw [W12_of_ne m ρ c main_arg2 (by decide)]
  have h11 : W11 m ρ c (Proc.devRef .tc main_arg2) = W10 m ρ c (Proc.devRef .tc main_arg2) := by
    show StableHlo.after main_part0_ops5 (W10 m ρ c) (Proc.devRef .tc main_arg2) = _
    generalize W10 m ρ c = X
    open StableHlo in after_results_simp
  rw [h11]
  rw [W10_of_ne m ρ c main_arg2 (by decide)]
  have h9 : W9 m ρ c (Proc.devRef .tc main_arg2) = W8 m ρ c (Proc.devRef .tc main_arg2) := by
    show StableHlo.after main_part0_ops4 (W8 m ρ c) (Proc.devRef .tc main_arg2) = _
    generalize W8 m ρ c = X
    open StableHlo in after_results_simp
  rw [h9]
  rw [W8_of_ne m ρ c main_arg2 (by decide)]
  have h7 : W7 m ρ c (Proc.devRef .tc main_arg2) = W6 m ρ c (Proc.devRef .tc main_arg2) := by
    show StableHlo.after main_part0_ops3 (W6 m ρ c) (Proc.devRef .tc main_arg2) = _
    generalize W6 m ρ c = X
    open StableHlo in after_results_simp
  rw [h7]
  rw [W6_of_ne m ρ c main_arg2 (by decide)]
  have h5 : W5 m ρ c (Proc.devRef .tc main_arg2) = W4 m ρ c (Proc.devRef .tc main_arg2) := by
    show StableHlo.after main_part0_ops2 (W4 m ρ c) (Proc.devRef .tc main_arg2) = _
    generalize W4 m ρ c = X
    open StableHlo in after_results_simp
  rw [h5]
  rw [W4_of_ne m ρ c main_arg2 (by decide)]
  have h3 : W3 m ρ c (Proc.devRef .tc main_arg2) = W2 m ρ c (Proc.devRef .tc main_arg2) := by
    show StableHlo.after main_part0_ops1 (W2 m ρ c) (Proc.devRef .tc main_arg2) = _
    generalize W2 m ρ c = X
    open StableHlo in after_results_simp
  rw [h3]
  rw [W2_of_ne m ρ c main_arg2 (by decide)]
  have h1 : W1 m ρ c (Proc.devRef .tc main_arg2) = W0 m ρ c (Proc.devRef .tc main_arg2) := by
    show StableHlo.after main_part0_ops0 (W0 m ρ c) (Proc.devRef .tc main_arg2) = _
    generalize W0 m ρ c = X
    open StableHlo in after_results_simp
  rw [h1]

theorem W17_main_arg3 (c : Dev nD) : W17 m ρ c (Proc.devRef .tc main_arg3) = m ((c : Thread nD τ).loc main_arg3) := by
  have h17 : W17 m ρ c (Proc.devRef .tc main_arg3) = W14 m ρ c (Proc.devRef .tc main_arg3) := by
    show StableHlo.after main_part2_ops0 (StableHlo.after main_part1_ops0 (StableHlo.after main_part0_ops7 (W14 m ρ c))) (Proc.devRef .tc main_arg3) = _
    generalize W14 m ρ c = X
    open StableHlo in after_results_simp
  rw [h17]
  rw [W14_of_ne m ρ c main_arg3 (by decide)]
  have h13 : W13 m ρ c (Proc.devRef .tc main_arg3) = W12 m ρ c (Proc.devRef .tc main_arg3) := by
    show StableHlo.after main_part0_ops6 (W12 m ρ c) (Proc.devRef .tc main_arg3) = _
    generalize W12 m ρ c = X
    open StableHlo in after_results_simp
  rw [h13]
  rw [W12_of_ne m ρ c main_arg3 (by decide)]
  have h11 : W11 m ρ c (Proc.devRef .tc main_arg3) = W10 m ρ c (Proc.devRef .tc main_arg3) := by
    show StableHlo.after main_part0_ops5 (W10 m ρ c) (Proc.devRef .tc main_arg3) = _
    generalize W10 m ρ c = X
    open StableHlo in after_results_simp
  rw [h11]
  rw [W10_of_ne m ρ c main_arg3 (by decide)]
  have h9 : W9 m ρ c (Proc.devRef .tc main_arg3) = W8 m ρ c (Proc.devRef .tc main_arg3) := by
    show StableHlo.after main_part0_ops4 (W8 m ρ c) (Proc.devRef .tc main_arg3) = _
    generalize W8 m ρ c = X
    open StableHlo in after_results_simp
  rw [h9]
  rw [W8_of_ne m ρ c main_arg3 (by decide)]
  have h7 : W7 m ρ c (Proc.devRef .tc main_arg3) = W6 m ρ c (Proc.devRef .tc main_arg3) := by
    show StableHlo.after main_part0_ops3 (W6 m ρ c) (Proc.devRef .tc main_arg3) = _
    generalize W6 m ρ c = X
    open StableHlo in after_results_simp
  rw [h7]
  rw [W6_of_ne m ρ c main_arg3 (by decide)]
  have h5 : W5 m ρ c (Proc.devRef .tc main_arg3) = W4 m ρ c (Proc.devRef .tc main_arg3) := by
    show StableHlo.after main_part0_ops2 (W4 m ρ c) (Proc.devRef .tc main_arg3) = _
    generalize W4 m ρ c = X
    open StableHlo in after_results_simp
  rw [h5]
  rw [W4_of_ne m ρ c main_arg3 (by decide)]
  have h3 : W3 m ρ c (Proc.devRef .tc main_arg3) = W2 m ρ c (Proc.devRef .tc main_arg3) := by
    show StableHlo.after main_part0_ops1 (W2 m ρ c) (Proc.devRef .tc main_arg3) = _
    generalize W2 m ρ c = X
    open StableHlo in after_results_simp
  rw [h3]
  rw [W2_of_ne m ρ c main_arg3 (by decide)]
  have h1 : W1 m ρ c (Proc.devRef .tc main_arg3) = W0 m ρ c (Proc.devRef .tc main_arg3) := by
    show StableHlo.after main_part0_ops0 (W0 m ρ c) (Proc.devRef .tc main_arg3) = _
    generalize W0 m ρ c = X
    open StableHlo in after_results_simp
  rw [h1]

theorem W17_main_arg4 (c : Dev nD) : W17 m ρ c (Proc.devRef .tc main_arg4) = m ((c : Thread nD τ).loc main_arg4) := by
  have h17 : W17 m ρ c (Proc.devRef .tc main_arg4) = W14 m ρ c (Proc.devRef .tc main_arg4) := by
    show StableHlo.after main_part2_ops0 (StableHlo.after main_part1_ops0 (StableHlo.after main_part0_ops7 (W14 m ρ c))) (Proc.devRef .tc main_arg4) = _
    generalize W14 m ρ c = X
    open StableHlo in after_results_simp
  rw [h17]
  rw [W14_of_ne m ρ c main_arg4 (by decide)]
  have h13 : W13 m ρ c (Proc.devRef .tc main_arg4) = W12 m ρ c (Proc.devRef .tc main_arg4) := by
    show StableHlo.after main_part0_ops6 (W12 m ρ c) (Proc.devRef .tc main_arg4) = _
    generalize W12 m ρ c = X
    open StableHlo in after_results_simp
  rw [h13]
  rw [W12_of_ne m ρ c main_arg4 (by decide)]
  have h11 : W11 m ρ c (Proc.devRef .tc main_arg4) = W10 m ρ c (Proc.devRef .tc main_arg4) := by
    show StableHlo.after main_part0_ops5 (W10 m ρ c) (Proc.devRef .tc main_arg4) = _
    generalize W10 m ρ c = X
    open StableHlo in after_results_simp
  rw [h11]
  rw [W10_of_ne m ρ c main_arg4 (by decide)]
  have h9 : W9 m ρ c (Proc.devRef .tc main_arg4) = W8 m ρ c (Proc.devRef .tc main_arg4) := by
    show StableHlo.after main_part0_ops4 (W8 m ρ c) (Proc.devRef .tc main_arg4) = _
    generalize W8 m ρ c = X
    open StableHlo in after_results_simp
  rw [h9]
  rw [W8_of_ne m ρ c main_arg4 (by decide)]
  have h7 : W7 m ρ c (Proc.devRef .tc main_arg4) = W6 m ρ c (Proc.devRef .tc main_arg4) := by
    show StableHlo.after main_part0_ops3 (W6 m ρ c) (Proc.devRef .tc main_arg4) = _
    generalize W6 m ρ c = X
    open StableHlo in after_results_simp
  rw [h7]
  rw [W6_of_ne m ρ c main_arg4 (by decide)]
  have h5 : W5 m ρ c (Proc.devRef .tc main_arg4) = W4 m ρ c (Proc.devRef .tc main_arg4) := by
    show StableHlo.after main_part0_ops2 (W4 m ρ c) (Proc.devRef .tc main_arg4) = _
    generalize W4 m ρ c = X
    open StableHlo in after_results_simp
  rw [h5]
  rw [W4_of_ne m ρ c main_arg4 (by decide)]
  have h3 : W3 m ρ c (Proc.devRef .tc main_arg4) = W2 m ρ c (Proc.devRef .tc main_arg4) := by
    show StableHlo.after main_part0_ops1 (W2 m ρ c) (Proc.devRef .tc main_arg4) = _
    generalize W2 m ρ c = X
    open StableHlo in after_results_simp
  rw [h3]
  rw [W2_of_ne m ρ c main_arg4 (by decide)]
  have h1 : W1 m ρ c (Proc.devRef .tc main_arg4) = W0 m ρ c (Proc.devRef .tc main_arg4) := by
    show StableHlo.after main_part0_ops0 (W0 m ρ c) (Proc.devRef .tc main_arg4) = _
    generalize W0 m ρ c = X
    open StableHlo in after_results_simp
  rw [h1]

theorem W17_main_arg5 (c : Dev nD) : W17 m ρ c (Proc.devRef .tc main_arg5) = m ((c : Thread nD τ).loc main_arg5) := by
  have h17 : W17 m ρ c (Proc.devRef .tc main_arg5) = W14 m ρ c (Proc.devRef .tc main_arg5) := by
    show StableHlo.after main_part2_ops0 (StableHlo.after main_part1_ops0 (StableHlo.after main_part0_ops7 (W14 m ρ c))) (Proc.devRef .tc main_arg5) = _
    generalize W14 m ρ c = X
    open StableHlo in after_results_simp
  rw [h17]
  rw [W14_of_ne m ρ c main_arg5 (by decide)]
  have h13 : W13 m ρ c (Proc.devRef .tc main_arg5) = W12 m ρ c (Proc.devRef .tc main_arg5) := by
    show StableHlo.after main_part0_ops6 (W12 m ρ c) (Proc.devRef .tc main_arg5) = _
    generalize W12 m ρ c = X
    open StableHlo in after_results_simp
  rw [h13]
  rw [W12_of_ne m ρ c main_arg5 (by decide)]
  have h11 : W11 m ρ c (Proc.devRef .tc main_arg5) = W10 m ρ c (Proc.devRef .tc main_arg5) := by
    show StableHlo.after main_part0_ops5 (W10 m ρ c) (Proc.devRef .tc main_arg5) = _
    generalize W10 m ρ c = X
    open StableHlo in after_results_simp
  rw [h11]
  rw [W10_of_ne m ρ c main_arg5 (by decide)]
  have h9 : W9 m ρ c (Proc.devRef .tc main_arg5) = W8 m ρ c (Proc.devRef .tc main_arg5) := by
    show StableHlo.after main_part0_ops4 (W8 m ρ c) (Proc.devRef .tc main_arg5) = _
    generalize W8 m ρ c = X
    open StableHlo in after_results_simp
  rw [h9]
  rw [W8_of_ne m ρ c main_arg5 (by decide)]
  have h7 : W7 m ρ c (Proc.devRef .tc main_arg5) = W6 m ρ c (Proc.devRef .tc main_arg5) := by
    show StableHlo.after main_part0_ops3 (W6 m ρ c) (Proc.devRef .tc main_arg5) = _
    generalize W6 m ρ c = X
    open StableHlo in after_results_simp
  rw [h7]
  rw [W6_of_ne m ρ c main_arg5 (by decide)]
  have h5 : W5 m ρ c (Proc.devRef .tc main_arg5) = W4 m ρ c (Proc.devRef .tc main_arg5) := by
    show StableHlo.after main_part0_ops2 (W4 m ρ c) (Proc.devRef .tc main_arg5) = _
    generalize W4 m ρ c = X
    open StableHlo in after_results_simp
  rw [h5]
  rw [W4_of_ne m ρ c main_arg5 (by decide)]
  have h3 : W3 m ρ c (Proc.devRef .tc main_arg5) = W2 m ρ c (Proc.devRef .tc main_arg5) := by
    show StableHlo.after main_part0_ops1 (W2 m ρ c) (Proc.devRef .tc main_arg5) = _
    generalize W2 m ρ c = X
    open StableHlo in after_results_simp
  rw [h3]
  rw [W2_of_ne m ρ c main_arg5 (by decide)]
  have h1 : W1 m ρ c (Proc.devRef .tc main_arg5) = W0 m ρ c (Proc.devRef .tc main_arg5) := by
    show StableHlo.after main_part0_ops0 (W0 m ρ c) (Proc.devRef .tc main_arg5) = _
    generalize W0 m ρ c = X
    open StableHlo in after_results_simp
  rw [h1]

theorem W17_main_arg6 (c : Dev nD) : W17 m ρ c (Proc.devRef .tc main_arg6) = m ((c : Thread nD τ).loc main_arg6) := by
  have h17 : W17 m ρ c (Proc.devRef .tc main_arg6) = W14 m ρ c (Proc.devRef .tc main_arg6) := by
    show StableHlo.after main_part2_ops0 (StableHlo.after main_part1_ops0 (StableHlo.after main_part0_ops7 (W14 m ρ c))) (Proc.devRef .tc main_arg6) = _
    generalize W14 m ρ c = X
    open StableHlo in after_results_simp
  rw [h17]
  rw [W14_of_ne m ρ c main_arg6 (by decide)]
  have h13 : W13 m ρ c (Proc.devRef .tc main_arg6) = W12 m ρ c (Proc.devRef .tc main_arg6) := by
    show StableHlo.after main_part0_ops6 (W12 m ρ c) (Proc.devRef .tc main_arg6) = _
    generalize W12 m ρ c = X
    open StableHlo in after_results_simp
  rw [h13]
  rw [W12_of_ne m ρ c main_arg6 (by decide)]
  have h11 : W11 m ρ c (Proc.devRef .tc main_arg6) = W10 m ρ c (Proc.devRef .tc main_arg6) := by
    show StableHlo.after main_part0_ops5 (W10 m ρ c) (Proc.devRef .tc main_arg6) = _
    generalize W10 m ρ c = X
    open StableHlo in after_results_simp
  rw [h11]
  rw [W10_of_ne m ρ c main_arg6 (by decide)]
  have h9 : W9 m ρ c (Proc.devRef .tc main_arg6) = W8 m ρ c (Proc.devRef .tc main_arg6) := by
    show StableHlo.after main_part0_ops4 (W8 m ρ c) (Proc.devRef .tc main_arg6) = _
    generalize W8 m ρ c = X
    open StableHlo in after_results_simp
  rw [h9]
  rw [W8_of_ne m ρ c main_arg6 (by decide)]
  have h7 : W7 m ρ c (Proc.devRef .tc main_arg6) = W6 m ρ c (Proc.devRef .tc main_arg6) := by
    show StableHlo.after main_part0_ops3 (W6 m ρ c) (Proc.devRef .tc main_arg6) = _
    generalize W6 m ρ c = X
    open StableHlo in after_results_simp
  rw [h7]
  rw [W6_of_ne m ρ c main_arg6 (by decide)]
  have h5 : W5 m ρ c (Proc.devRef .tc main_arg6) = W4 m ρ c (Proc.devRef .tc main_arg6) := by
    show StableHlo.after main_part0_ops2 (W4 m ρ c) (Proc.devRef .tc main_arg6) = _
    generalize W4 m ρ c = X
    open StableHlo in after_results_simp
  rw [h5]
  rw [W4_of_ne m ρ c main_arg6 (by decide)]
  have h3 : W3 m ρ c (Proc.devRef .tc main_arg6) = W2 m ρ c (Proc.devRef .tc main_arg6) := by
    show StableHlo.after main_part0_ops1 (W2 m ρ c) (Proc.devRef .tc main_arg6) = _
    generalize W2 m ρ c = X
    open StableHlo in after_results_simp
  rw [h3]
  rw [W2_of_ne m ρ c main_arg6 (by decide)]
  have h1 : W1 m ρ c (Proc.devRef .tc main_arg6) = W0 m ρ c (Proc.devRef .tc main_arg6) := by
    show StableHlo.after main_part0_ops0 (W0 m ρ c) (Proc.devRef .tc main_arg6) = _
    generalize W0 m ρ c = X
    open StableHlo in after_results_simp
  rw [h1]

theorem W17_main_arg7 (c : Dev nD) : W17 m ρ c (Proc.devRef .tc main_arg7) = m ((c : Thread nD τ).loc main_arg7) := by
  have h17 : W17 m ρ c (Proc.devRef .tc main_arg7) = W14 m ρ c (Proc.devRef .tc main_arg7) := by
    show StableHlo.after main_part2_ops0 (StableHlo.after main_part1_ops0 (StableHlo.after main_part0_ops7 (W14 m ρ c))) (Proc.devRef .tc main_arg7) = _
    generalize W14 m ρ c = X
    open StableHlo in after_results_simp
  rw [h17]
  rw [W14_of_ne m ρ c main_arg7 (by decide)]
  have h13 : W13 m ρ c (Proc.devRef .tc main_arg7) = W12 m ρ c (Proc.devRef .tc main_arg7) := by
    show StableHlo.after main_part0_ops6 (W12 m ρ c) (Proc.devRef .tc main_arg7) = _
    generalize W12 m ρ c = X
    open StableHlo in after_results_simp
  rw [h13]
  rw [W12_of_ne m ρ c main_arg7 (by decide)]
  have h11 : W11 m ρ c (Proc.devRef .tc main_arg7) = W10 m ρ c (Proc.devRef .tc main_arg7) := by
    show StableHlo.after main_part0_ops5 (W10 m ρ c) (Proc.devRef .tc main_arg7) = _
    generalize W10 m ρ c = X
    open StableHlo in after_results_simp
  rw [h11]
  rw [W10_of_ne m ρ c main_arg7 (by decide)]
  have h9 : W9 m ρ c (Proc.devRef .tc main_arg7) = W8 m ρ c (Proc.devRef .tc main_arg7) := by
    show StableHlo.after main_part0_ops4 (W8 m ρ c) (Proc.devRef .tc main_arg7) = _
    generalize W8 m ρ c = X
    open StableHlo in after_results_simp
  rw [h9]
  rw [W8_of_ne m ρ c main_arg7 (by decide)]
  have h7 : W7 m ρ c (Proc.devRef .tc main_arg7) = W6 m ρ c (Proc.devRef .tc main_arg7) := by
    show StableHlo.after main_part0_ops3 (W6 m ρ c) (Proc.devRef .tc main_arg7) = _
    generalize W6 m ρ c = X
    open StableHlo in after_results_simp
  rw [h7]
  rw [W6_of_ne m ρ c main_arg7 (by decide)]
  have h5 : W5 m ρ c (Proc.devRef .tc main_arg7) = W4 m ρ c (Proc.devRef .tc main_arg7) := by
    show StableHlo.after main_part0_ops2 (W4 m ρ c) (Proc.devRef .tc main_arg7) = _
    generalize W4 m ρ c = X
    open StableHlo in after_results_simp
  rw [h5]
  rw [W4_of_ne m ρ c main_arg7 (by decide)]
  have h3 : W3 m ρ c (Proc.devRef .tc main_arg7) = W2 m ρ c (Proc.devRef .tc main_arg7) := by
    show StableHlo.after main_part0_ops1 (W2 m ρ c) (Proc.devRef .tc main_arg7) = _
    generalize W2 m ρ c = X
    open StableHlo in after_results_simp
  rw [h3]
  rw [W2_of_ne m ρ c main_arg7 (by decide)]
  have h1 : W1 m ρ c (Proc.devRef .tc main_arg7) = W0 m ρ c (Proc.devRef .tc main_arg7) := by
    show StableHlo.after main_part0_ops0 (W0 m ρ c) (Proc.devRef .tc main_arg7) = _
    generalize W0 m ρ c = X
    open StableHlo in after_results_simp
  rw [h1]

theorem W17_main_arg8 (c : Dev nD) : W17 m ρ c (Proc.devRef .tc main_arg8) = m ((c : Thread nD τ).loc main_arg8) := by
  have h17 : W17 m ρ c (Proc.devRef .tc main_arg8) = W14 m ρ c (Proc.devRef .tc main_arg8) := by
    show StableHlo.after main_part2_ops0 (StableHlo.after main_part1_ops0 (StableHlo.after main_part0_ops7 (W14 m ρ c))) (Proc.devRef .tc main_arg8) = _
    generalize W14 m ρ c = X
    open StableHlo in after_results_simp
  rw [h17]
  rw [W14_of_ne m ρ c main_arg8 (by decide)]
  have h13 : W13 m ρ c (Proc.devRef .tc main_arg8) = W12 m ρ c (Proc.devRef .tc main_arg8) := by
    show StableHlo.after main_part0_ops6 (W12 m ρ c) (Proc.devRef .tc main_arg8) = _
    generalize W12 m ρ c = X
    open StableHlo in after_results_simp
  rw [h13]
  rw [W12_of_ne m ρ c main_arg8 (by decide)]
  have h11 : W11 m ρ c (Proc.devRef .tc main_arg8) = W10 m ρ c (Proc.devRef .tc main_arg8) := by
    show StableHlo.after main_part0_ops5 (W10 m ρ c) (Proc.devRef .tc main_arg8) = _
    generalize W10 m ρ c = X
    open StableHlo in after_results_simp
  rw [h11]
  rw [W10_of_ne m ρ c main_arg8 (by decide)]
  have h9 : W9 m ρ c (Proc.devRef .tc main_arg8) = W8 m ρ c (Proc.devRef .tc main_arg8) := by
    show StableHlo.after main_part0_ops4 (W8 m ρ c) (Proc.devRef .tc main_arg8) = _
    generalize W8 m ρ c = X
    open StableHlo in after_results_simp
  rw [h9]
  rw [W8_of_ne m ρ c main_arg8 (by decide)]
  have h7 : W7 m ρ c (Proc.devRef .tc main_arg8) = W6 m ρ c (Proc.devRef .tc main_arg8) := by
    show StableHlo.after main_part0_ops3 (W6 m ρ c) (Proc.devRef .tc main_arg8) = _
    generalize W6 m ρ c = X
    open StableHlo in after_results_simp
  rw [h7]
  rw [W6_of_ne m ρ c main_arg8 (by decide)]
  have h5 : W5 m ρ c (Proc.devRef .tc main_arg8) = W4 m ρ c (Proc.devRef .tc main_arg8) := by
    show StableHlo.after main_part0_ops2 (W4 m ρ c) (Proc.devRef .tc main_arg8) = _
    generalize W4 m ρ c = X
    open StableHlo in after_results_simp
  rw [h5]
  rw [W4_of_ne m ρ c main_arg8 (by decide)]
  have h3 : W3 m ρ c (Proc.devRef .tc main_arg8) = W2 m ρ c (Proc.devRef .tc main_arg8) := by
    show StableHlo.after main_part0_ops1 (W2 m ρ c) (Proc.devRef .tc main_arg8) = _
    generalize W2 m ρ c = X
    open StableHlo in after_results_simp
  rw [h3]
  rw [W2_of_ne m ρ c main_arg8 (by decide)]
  have h1 : W1 m ρ c (Proc.devRef .tc main_arg8) = W0 m ρ c (Proc.devRef .tc main_arg8) := by
    show StableHlo.after main_part0_ops0 (W0 m ρ c) (Proc.devRef .tc main_arg8) = _
    generalize W0 m ρ c = X
    open StableHlo in after_results_simp
  rw [h1]

end Cert.Kernel.Hand

end
-- ==== Proof.KSeg0.lean ====
/-
  Region 0 as a segment of the run: entered with every unscoped buffer at W1, left with them at W2. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points
import proofs.«180941_j14654428414616_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg1.lean ====
/-
  Region 1 as a segment of the run: entered with every unscoped buffer at W3, left with them at W4. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points
import proofs.«180941_j14654428414616_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg2.lean ====
/-
  Region 2 as a segment of the run: entered with every unscoped buffer at W5, left with them at W6. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points
import proofs.«180941_j14654428414616_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg3.lean ====
/-
  Region 3 as a segment of the run: entered with every unscoped buffer at W7, left with them at W8. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points
import proofs.«180941_j14654428414616_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (exitArr3 m ρ c) (exitRest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg4.lean ====
/-
  Region 4 as a segment of the run: entered with every unscoped buffer at W9, left with them at W10. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points
import proofs.«180941_j14654428414616_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (exitArr4 m ρ c) (exitRest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg5.lean ====
/-
  Region 5 as a segment of the run: entered with every unscoped buffer at W11, left with them at W12. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points
import proofs.«180941_j14654428414616_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (exitArr5 m ρ c) (exitRest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg6.lean ====
/-
  Region 6 as a segment of the run: entered with every unscoped buffer at W13, left with them at W14. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points
import proofs.«180941_j14654428414616_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (exitArr6 m ρ c) (exitRest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRun.lean ====
/-
  The run of the whole program: @main is seventeen segments — a stretch of host operations before each of the seven
  kernel regions, and three closing stretches — whose thread states chain from the launch to the return. Every weakly
  fair execution therefore terminates without a fault, and the final memory holds, at every unscoped buffer, the
  contents W17 of the fold; in particular every argument array is as launched.
-/
import proofs.«180941_j14654428414616_1_alg».proof.Proof.Gen.Kernel.Launch
import proofs.«180941_j14654428414616_1_alg».proof.Proof.Gen.Kernel.Skeleton
import proofs.«180941_j14654428414616_1_alg».proof.Proof.Gen.Kernel.Points
import proofs.«180941_j14654428414616_1_alg».proof.Proof.KSeg0
import proofs.«180941_j14654428414616_1_alg».proof.Proof.KSeg1
import proofs.«180941_j14654428414616_1_alg».proof.Proof.KSeg2
import proofs.«180941_j14654428414616_1_alg».proof.Proof.KSeg3
import proofs.«180941_j14654428414616_1_alg».proof.Proof.KSeg4
import proofs.«180941_j14654428414616_1_alg».proof.Proof.KSeg5
import proofs.«180941_j14654428414616_1_alg».proof.Proof.KSeg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's segments in order. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .region (reg1 m ρ),
    .host (hseg main_part0_ops2 main_part0_ops2_sub main_part0_ops2_fresh (W4 m ρ)),
    .region (reg2 m ρ),
    .host (hseg main_part0_ops3 main_part0_ops3_sub main_part0_ops3_fresh (W6 m ρ)),
    .region (reg3 m ρ),
    .host (hseg main_part0_ops4 main_part0_ops4_sub main_part0_ops4_fresh (W8 m ρ)),
    .region (reg4 m ρ),
    .host (hseg main_part0_ops5 main_part0_ops5_sub main_part0_ops5_fresh (W10 m ρ)),
    .region (reg5 m ρ),
    .host (hseg main_part0_ops6 main_part0_ops6_sub main_part0_ops6_fresh (W12 m ρ)),
    .region (reg6 m ρ),
    .host (hseg main_part0_ops7 main_part0_ops7_sub main_part0_ops7_fresh (W14 m ρ)),
    .host (hseg main_part1_ops0 main_part1_ops0_sub main_part1_ops0_fresh (W15 m ρ)),
    .host (hseg main_part2_ops0 main_part2_ops0_sub main_part2_ops0_fresh (W16 m ρ)) ]

/-- @main is the run of the segments. -/
theorem main_run (c : Dev nD) : main (F := F) c = Pipeline.Seg.run (segs m ρ) := (main_chain_windows c).trans (by chain_rfl)

set_option backward.isDefEq.respectTransparency.types false in
/-- Every weakly fair execution of @main terminates, nothing faulting, with every unscoped buffer at the fold's last
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W17 m ρ c) ∗ ((∃ r, prngReg c r) ∗ ∃ W, owes (c : Thread nD τ) (0 : CellTallies nD τ sig Unit) W))
        ⊢ iprop((StableHlo.held (c : Thread nD τ) (Pipeline.ucRefs τ sig) (W17 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

/-- The frame: the program runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W17_main_arg0 m ρ c),
      (h c _ (mem_uc main_arg1 (by decide))).trans (W17_main_arg1 m ρ c),
      (h c _ (mem_uc main_arg2 (by decide))).trans (W17_main_arg2 m ρ c),
      (h c _ (mem_uc main_arg3 (by decide))).trans (W17_main_arg3 m ρ c),
      (h c _ (mem_uc main_arg4 (by decide))).trans (W17_main_arg4 m ρ c),
      (h c _ (mem_uc main_arg5 (by decide))).trans (W17_main_arg5 m ρ c),
      (h c _ (mem_uc main_arg6 (by decide))).trans (W17_main_arg6 m ρ c),
      (h c _ (mem_uc main_arg7 (by decide))).trans (W17_main_arg7 m ρ c),
      (h c _ (mem_uc main_arg8 (by decide))).trans (W17_main_arg8 m ρ c)⟩) (run_all m ρ)

end Cert.Kernel.Hand

end
-- ==== Proof.KIReg0.lean ====
/-
  Region 0 of the program: one call of the row-normalising kernel on a grid of 25 points. Point t reads rows
  6000·t … 6000·t+5999 of its one input array and writes the same rows of its output array: every entry of a row
  is the leaky-rectified entry divided by max(‖row‖₂, ε), so a block of the output depends on the same block of
  the input only. Everything here is stated at ANY contents V of the buffers when the region is entered.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 6000×64 block as a rectangle: the one load and the one store of the body go through it. -/
abbrev whole0 : Rect S6000x64 := Rect.unit (s := S6000x64) ![0, 0] S6000x64.size inb_S6000x64_S6000x64_0_0

/-- What the body leaves in the output's staging buffer: its one store, of the normalised block. -/
def stored0 (x0 : Vec F S6000x64 .f32) : Vec F S6000x64 .f32 :=
  View.canon [⟨whole0, k0_pay1 (View.ld x0 whole0)⟩]

/-- The one store covers the whole buffer. -/
theorem stored0_covers (p0 : Vec F S6000x64 .f32) (y : S6000x64.Idx) :
    ∃ pc ∈ ([⟨whole0, p0⟩] : List (View.Piece (Elt F) S6000x64 .f32)), y ∈ pc.1.set :=
  View.cover_of_tiled [⟨whole0, p0⟩] S6000x64.size (by rfl) y

set_option maxHeartbeats 1000000 in
/-- The body on whole staging buffers: the input's at x0 and the output's at anything end with the input's
    unchanged and the output's at the normalised block (the body also loads the output buffer, and drops it). -/
theorem body_triple0 (c : Dev nD) (E : Set ℕ) (arg0 : Memref sig .tc .vmem S6000x64 .f32) (harg0 : arg0.IsWhole) (arg1 : Memref sig .tc .vmem S6000x64 .f32) (harg1 : arg1.IsWhole)
    (i : grid0.Coords) (x0 : Vec F S6000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (stored0 x0)) -∗ K ⟨⟩))
      ⊢ wp frame (wpE (defs₀ (F := F)) Variants.none c none) E (cc0__lrelu_l2norm_kernel i arg0 harg0 arg1 harg1) K := by
  simp only [cc0__lrelu_l2norm_kernel_eq_skeleton]; unfold cc0__lrelu_l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored0_covers _)

/-- The proof data of the region's pipeline on core c: the arrays as the region finds them; after the body at
    point t the input's buffer at its block and the output's at the normalised block; the untouched rest of the
    core as invariant; nothing owed; full shares. -/
def dat0 (c : Dev nD) : Dat τ (Elt F) Unit ℕ (UR sig nD τ) ℕ cfg0 c where
  A w := V c (Pipeline.arrRef spec0 w)
  after w t := match w with
    | ⟨0, _⟩ => inBlock0 V c 0 t
    | ⟨1, _⟩ => stored0 (inBlock0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = inBlock0 V c 0 t := by dsimp only [dat0]
theorem dat0_after1 (c : Dev nD) (t : Fin cfg0.N) : (dat0 V c).after 1 t = stored0 (inBlock0 V c 0 t) := by dsimp only [dat0]

/-- The input's current staging buffer holds its block at every point. -/
theorem dat0_before0 (c : Dev nD) (t : Fin cfg0.N) (d) : (dat0 V c).before 0 t d = inBlock0 V c 0 t :=
  ((dat0 V c).before_in_eq_fetched 0 rfl (fun _ => rfl) (fun _ _ _ => rfl)
      (fun t => by rw [dat0_after0]; unfold Dat.blockOf inBlock0; rw [dat0_A]; try rfl) t d).trans
    (by unfold Dat.fetched Dat.blockOf inBlock0; rw [dat0_A]; try rfl)

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0]
  rw [show (dat0 V c).Φ t.succ = (dat0 V c).Φ t.castSucc from rfl,
    show (dat0 V c).owesAt () t.succ = (dat0 V c).owesAt () t.castSucc from rfl,
    dat0_after0, dat0_after1]
  iintro ⟨HΦ, Ho, ⟨%d0, H0⟩, ⟨%d1, H1⟩⟩
  iapply (body_triple0 c Set.univ _ _ _ _ _ (inBlock0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation0 (c : Dev nD) : BodyObligation (dat0 (F := F) V c) (defs₀ (F := F)) Variants.none () Set.univ := fun t => by
  rw [bigSep_W0, bigSep_W0]
  exact body_at0 V c t

end Cert.KernelIdeal.Hand

end
-- ==== Proof.KIReg1.lean ====
/-
  Region 1 of the program: one call of the scaling kernel on a grid of 150 points. Point t reads rows
  16000·t … 16000·t+15999 of the gathered messages (64 lanes) and of the edge-weight column (one lane) and writes the
  same rows of the product: entry (e, l) is message (e, l) times weight e. Everything here is stated at ANY contents V
  of the buffers when the region is entered.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 16000×64 block and the whole 16000×1 column as rectangles. -/
abbrev whole1 : Rect S16000x64 := Rect.unit (s := S16000x64) ![0, 0] S16000x64.size inb_S16000x64_S16000x64_0_0
abbrev wholeCol1 : Rect S16000x1 := Rect.unit (s := S16000x1) ![0, 0] S16000x1.size inb_S16000x1_S16000x1_0_0

/-- What the body leaves in the output's staging buffer: its one store, of the scaled block. -/
def stored1 (x0 : Vec F S16000x64 .f32) (x1 : Vec F S16000x1 .f32) : Vec F S16000x64 .f32 :=
  View.canon [⟨whole1, k1_pay1 (View.ld x0 whole1) (View.ld x1 wholeCol1)⟩]

/-- The one store covers the whole buffer. -/
theorem stored1_covers (p0 : Vec F S16000x64 .f32) (y : S16000x64.Idx) :
    ∃ pc ∈ ([⟨whole1, p0⟩] : List (View.Piece (Elt F) S16000x64 .f32)), y ∈ pc.1.set :=
  View.cover_of_tiled [⟨whole1, p0⟩] S16000x64.size (by rfl) y

set_option maxHeartbeats 1000000 in
/-- The body on whole staging buffers: the inputs' at x0, x1 and the output's at anything end with the inputs'
    unchanged and the output's at the scaled block (the body also loads the output buffer, and drops it). -/
theorem body_triple1 (c : Dev nD) (E : Set ℕ) (arg0 : Memref sig .tc .vmem S16000x64 .f32) (harg0 : arg0.IsWhole) (arg1 : Memref sig .tc .vmem S16000x1 .f32) (harg1 : arg1.IsWhole)
    (arg2 : Memref sig .tc .vmem S16000x64 .f32) (harg2 : arg2.IsWhole)
    (i : grid1.Coords) (x0 : Vec F S16000x64 .f32) (x1 : Vec F S16000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (stored1 x0 x1)) -∗ K ⟨⟩))
      ⊢ wp frame (wpE (defs₀ (F := F)) Variants.none c none) E (cc1__scale_mul_kernel i arg0 harg0 arg1 harg1 arg2 harg2) K := by
  simp only [cc1__scale_mul_kernel_eq_skeleton]; unfold cc1__scale_mul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored1_covers _)

/-- The proof data of the region's pipeline on core c: the arrays as the region finds them; after the body at
    point t each input's buffer at its block and the output's at the scaled block; the untouched rest of the core as
    invariant; nothing owed; full shares. -/
def dat1 (c : Dev nD) : Dat τ (Elt F) Unit ℕ (UR sig nD τ) ℕ cfg1 c where
  A w := V c (Pipeline.arrRef spec1 w)
  after w t := match w with
    | ⟨0, _⟩ => inBlock1 V c 0 t
    | ⟨1, _⟩ => inBlock1 V c 1 t
    | ⟨2, _⟩ => stored1 (inBlock1 V c 0 t) (inBlock1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = inBlock1 V c 0 t := by dsimp only [dat1]
theorem dat1_after1 (c : Dev nD) (t : Fin cfg1.N) : (dat1 V c).after 1 t = inBlock1 V c 1 t := by dsimp only [dat1]
theorem dat1_after2 (c : Dev nD) (t : Fin cfg1.N) : (dat1 V c).after 2 t = stored1 (inBlock1 V c 0 t) (inBlock1 V c 1 t) := by dsimp only [dat1]

/-- Each input's current staging buffer holds its block at every point. -/
theorem dat1_before0 (c : Dev nD) (t : Fin cfg1.N) (d) : (dat1 V c).before 0 t d = inBlock1 V c 0 t :=
  ((dat1 V c).before_in_eq_fetched 0 rfl (fun _ => rfl) (fun _ _ _ => rfl)
      (fun t => by rw [dat1_after0]; unfold Dat.blockOf inBlock1; rw [dat1_A]; try rfl) t d).trans
    (by unfold Dat.fetched Dat.blockOf inBlock1; rw [dat1_A]; try rfl)
theorem dat1_before1 (c : Dev nD) (t : Fin cfg1.N) (d) : (dat1 V c).before 1 t d = inBlock1 V c 1 t :=
  ((dat1 V c).before_in_eq_fetched 1 rfl (fun _ => rfl) (fun _ _ _ => rfl)
      (fun t => by rw [dat1_after1]; unfold Dat.blockOf inBlock1; rw [dat1_A]; try rfl) t d).trans
    (by unfold Dat.fetched Dat.blockOf inBlock1; rw [dat1_A]; try rfl)

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (body_triple1 c Set.univ _ _ _ _ _ _ _ (inBlock1 V c 0 t) (inBlock1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact body_at1 V c t

end Cert.KernelIdeal.Hand

end
-- ==== Proof.KIReg2.lean ====
/-
  Region 2 of the program: one call of the row-normalising kernel on a grid of 25 points. Point t reads rows
  6000·t … 6000·t+5999 of its one input array and writes the same rows of its output array: every entry of a row
  is the leaky-rectified entry divided by max(‖row‖₂, ε), so a block of the output depends on the same block of
  the input only. Everything here is stated at ANY contents V of the buffers when the region is entered.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 6000×64 block as a rectangle: the one load and the one store of the body go through it. -/
abbrev whole2 : Rect S6000x64 := Rect.unit (s := S6000x64) ![0, 0] S6000x64.size inb_S6000x64_S6000x64_0_0

/-- What the body leaves in the output's staging buffer: its one store, of the normalised block. -/
def stored2 (x0 : Vec F S6000x64 .f32) : Vec F S6000x64 .f32 :=
  View.canon [⟨whole2, k2_pay1 (View.ld x0 whole2)⟩]

/-- The one store covers the whole buffer. -/
theorem stored2_covers (p0 : Vec F S6000x64 .f32) (y : S6000x64.Idx) :
    ∃ pc ∈ ([⟨whole2, p0⟩] : List (View.Piece (Elt F) S6000x64 .f32)), y ∈ pc.1.set :=
  View.cover_of_tiled [⟨whole2, p0⟩] S6000x64.size (by rfl) y

set_option maxHeartbeats 1000000 in
/-- The body on whole staging buffers: the input's at x0 and the output's at anything end with the input's
    unchanged and the output's at the normalised block (the body also loads the output buffer, and drops it). -/
theorem body_triple2 (c : Dev nD) (E : Set ℕ) (arg0 : Memref sig .tc .vmem S6000x64 .f32) (harg0 : arg0.IsWhole) (arg1 : Memref sig .tc .vmem S6000x64 .f32) (harg1 : arg1.IsWhole)
    (i : grid2.Coords) (x0 : Vec F S6000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (stored2 x0)) -∗ K ⟨⟩))
      ⊢ wp frame (wpE (defs₀ (F := F)) Variants.none c none) E (cc2__lrelu_l2norm_kernel i arg0 harg0 arg1 harg1) K := by
  simp only [cc2__lrelu_l2norm_kernel_eq_skeleton]; unfold cc2__lrelu_l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored2_covers _)

/-- The proof data of the region's pipeline on core c: the arrays as the region finds them; after the body at
    point t the input's buffer at its block and the output's at the normalised block; the untouched rest of the
    core as invariant; nothing owed; full shares. -/
def dat2 (c : Dev nD) : Dat τ (Elt F) Unit ℕ (UR sig nD τ) ℕ cfg2 c where
  A w := V c (Pipeline.arrRef spec2 w)
  after w t := match w with
    | ⟨0, _⟩ => inBlock2 V c 0 t
    | ⟨1, _⟩ => stored2 (inBlock2 V c 0 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = inBlock2 V c 0 t := by dsimp only [dat2]
theorem dat2_after1 (c : Dev nD) (t : Fin cfg2.N) : (dat2 V c).after 1 t = stored2 (inBlock2 V c 0 t) := by dsimp only [dat2]

/-- The input's current staging buffer holds its block at every point. -/
theorem dat2_before0 (c : Dev nD) (t : Fin cfg2.N) (d) : (dat2 V c).before 0 t d = inBlock2 V c 0 t :=
  ((dat2 V c).before_in_eq_fetched 0 rfl (fun _ => rfl) (fun _ _ _ => rfl)
      (fun t => by rw [dat2_after0]; unfold Dat.blockOf inBlock2; rw [dat2_A]; try rfl) t d).trans
    (by unfold Dat.fetched Dat.blockOf inBlock2; rw [dat2_A]; try rfl)

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem body_at2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [dat2_before0]
  rw [show (dat2 V c).Φ t.succ = (dat2 V c).Φ t.castSucc from rfl,
    show (dat2 V c).owesAt () t.succ = (dat2 V c).owesAt () t.castSucc from rfl,
    dat2_after0, dat2_after1]
  iintro ⟨HΦ, Ho, ⟨%d0, H0⟩, ⟨%d1, H1⟩⟩
  iapply (body_triple2 c Set.univ _ _ _ _ _ (inBlock2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation2 (c : Dev nD) : BodyObligation (dat2 (F := F) V c) (defs₀ (F := F)) Variants.none () Set.univ := fun t => by
  rw [bigSep_W2, bigSep_W2]
  exact body_at2 V c t

end Cert.KernelIdeal.Hand

end
-- ==== Proof.KIReg3.lean ====
/-
  Region 3 of the program: one call of the scaling kernel on a grid of 150 points. Point t reads rows
  16000·t … 16000·t+15999 of the gathered messages (64 lanes) and of the edge-weight column (one lane) and writes the
  same rows of the product: entry (e, l) is message (e, l) times weight e. Everything here is stated at ANY contents V
  of the buffers when the region is entered.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole 16000×64 block and the whole 16000×1 column as rectangles. -/
abbrev whole3 : Rect S16000x64 := Rect.unit (s := S16000x64) ![0, 0] S16000x64.size inb_S16000x64_S16000x64_0_0
abbrev wholeCol3 : Rect S16000x1 := Rect.unit (s := S16000x1) ![0, 0] S16000x1.size inb_S16000x1_S16000x1_0_0

/-- What the body leaves in the output's staging buffer: its one store, of the scaled block. -/
def stored3 (x0 : Vec F S16000x64 .f32) (x1 : Vec F S16000x1 .f32) : Vec F S16000x64 .f32 :=
  View.canon [⟨whole3, k3_pay1 (View.ld x0 whole3) (View.ld x1 wholeCol3)⟩]

/-- The one store covers the whole buffer. -/
theorem stored3_covers (p0 : Vec F S16000x64 .f32) (y : S16000x64.Idx) :
    ∃ pc ∈ ([⟨whole3, p0⟩] : List (View.Piece (Elt F) S16000x64 .f32)), y ∈ pc.1.set :=
  View.cover_of_tiled [⟨whole3, p0⟩] S16000x64.size (by rfl) y

set_option maxHeartbeats 1000000 in
/-- The body on whole staging buffers: the inputs' at x0, x1 and the output's at anything end with the inputs'
    unchanged and the output's at the scaled block (the body also loads the output buffer, and drops it). -/
theorem body_triple3 (c : Dev nD) (E : Set ℕ) (arg0 : Memref sig .tc .vmem S16000x64 .f32) (harg0 : arg0.IsWhole) (arg1 : Memref sig .tc .vmem S16000x1 .f32) (harg1 : arg1.IsWhole)
    (arg2 : Memref sig .tc .vmem S16000x64 .f32) (harg2 : arg2.IsWhole)
    (i : grid3.Coords) (x0 : Vec F S16000x64 .f32) (x1 : Vec F S16000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (stored3 x0 x1)) -∗ K ⟨⟩))
      ⊢ wp frame (wpE (defs₀ (F := F)) Variants.none c none) E (cc3__scale_mul_kernel i arg0 harg0 arg1 harg1 arg2 harg2) K := by
  simp only [cc3__scale_mul_kernel_eq_skeleton]; unfold cc3__scale_mul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored3_covers _)

/-- The proof data of the region's pipeline on core c: the arrays as the region finds them; after the body at
    point t each input's buffer at its block and the output's at the scaled block; the untouched rest of the core as
    invariant; nothing owed; full shares. -/
def dat3 (c : Dev nD) : Dat τ (Elt F) Unit ℕ (UR sig nD τ) ℕ cfg3 c where
  A w := V c (Pipeline.arrRef spec3 w)
  after w t := match w with
    | ⟨0, _⟩ => inBlock3 V c 0 t
    | ⟨1, _⟩ => inBlock3 V c 1 t
    | ⟨2, _⟩ => stored3 (inBlock3 V c 0 t) (inBlock3 V c 1 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = inBlock3 V c 0 t := by dsimp only [dat3]
theorem dat3_after1 (c : Dev nD) (t : Fin cfg3.N) : (dat3 V c).after 1 t = inBlock3 V c 1 t := by dsimp only [dat3]
theorem dat3_after2 (c : Dev nD) (t : Fin cfg3.N) : (dat3 V c).after 2 t = stored3 (inBlock3 V c 0 t) (inBlock3 V c 1 t) := by dsimp only [dat3]

/-- Each input's current staging buffer holds its block at every point. -/
theorem dat3_before0 (c : Dev nD) (t : Fin cfg3.N) (d) : (dat3 V c).before 0 t d = inBlock3 V c 0 t :=
  ((dat3 V c).before_in_eq_fetched 0 rfl (fun _ => rfl) (fun _ _ _ => rfl)
      (fun t => by rw [dat3_after0]; unfold Dat.blockOf inBlock3; rw [dat3_A]; try rfl) t d).trans
    (by unfold Dat.fetched Dat.blockOf inBlock3; rw [dat3_A]; try rfl)
theorem dat3_before1 (c : Dev nD) (t : Fin cfg3.N) (d) : (dat3 V c).before 1 t d = inBlock3 V c 1 t :=
  ((dat3 V c).before_in_eq_fetched 1 rfl (fun _ => rfl) (fun _ _ _ => rfl)
      (fun t => by rw [dat3_after1]; unfold Dat.blockOf inBlock3; rw [dat3_A]; try rfl) t d).trans
    (by unfold Dat.fetched Dat.blockOf inBlock3; rw [dat3_A]; try rfl)

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem body_at3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [dat3_before0, dat3_before1]
  rw [show (dat3 V c).Φ t.succ = (dat3 V c).Φ t.castSucc from rfl,
    show (dat3 V c).owesAt () t.succ = (dat3 V c).owesAt () t.castSucc from rfl,
    dat3_after0, dat3_after1, dat3_after2]
  iintro ⟨HΦ, Ho, ⟨%d0, H0⟩, ⟨%d1, H1⟩, ⟨%d2, H2⟩⟩
  iapply (body_triple3 c Set.univ _ _ _ _ _ _ _ (inBlock3 V c 0 t) (inBlock3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (dat3 (F := F) V c) (defs₀ (F := F)) Variants.none () Set.univ := fun t => by
  rw [bigSep_W3, bigSep_W3]
  exact body_at3 V c t

end Cert.KernelIdeal.Hand

end
-- ==== Proof.KIReg4.lean ====
/-
  Region 4 of the program: one call of the row-normalising kernel on a grid of 25 points. Point t reads rows
  6000·t … 6000·t+5999 of its one input array and writes the same rows of its output array: every entry of a row
  is the leaky-rectified entry divided by max(‖row‖₂, ε), so a block of the output depends on the same block of
  the input only. Everything here is stated at ANY contents V of the buffers when the region is entered.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole 6000×64 block as a rectangle: the one load and the one store of the body go through it. -/
abbrev whole4 : Rect S6000x64 := Rect.unit (s := S6000x64) ![0, 0] S6000x64.size inb_S6000x64_S6000x64_0_0

/-- What the body leaves in the output's staging buffer: its one store, of the normalised block. -/
def stored4 (x0 : Vec F S6000x64 .f32) : Vec F S6000x64 .f32 :=
  View.canon [⟨whole4, k4_pay1 (View.ld x0 whole4)⟩]

/-- The one store covers the whole buffer. -/
theorem stored4_covers (p0 : Vec F S6000x64 .f32) (y : S6000x64.Idx) :
    ∃ pc ∈ ([⟨whole4, p0⟩] : List (View.Piece (Elt F) S6000x64 .f32)), y ∈ pc.1.set :=
  View.cover_of_tiled [⟨whole4, p0⟩] S6000x64.size (by rfl) y

set_option maxHeartbeats 1000000 in
/-- The body on whole staging buffers: the input's at x0 and the output's at anything end with the input's
    unchanged and the output's at the normalised block (the body also loads the output buffer, and drops it). -/
theorem body_triple4 (c : Dev nD) (E : Set ℕ) (arg0 : Memref sig .tc .vmem S6000x64 .f32) (harg0 : arg0.IsWhole) (arg1 : Memref sig .tc .vmem S6000x64 .f32) (harg1 : arg1.IsWhole)
    (i : grid4.Coords) (x0 : Vec F S6000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (stored4 x0)) -∗ K ⟨⟩))
      ⊢ wp frame (wpE (defs₀ (F := F)) Variants.none c none) E (cc4__lrelu_l2norm_kernel i arg0 harg0 arg1 harg1) K := by
  simp only [cc4__lrelu_l2norm_kernel_eq_skeleton]; unfold cc4__lrelu_l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored4_covers _)

/-- The proof data of the region's pipeline on core c: the arrays as the region finds them; after the body at
    point t the input's buffer at its block and the output's at the normalised block; the untouched rest of the
    core as invariant; nothing owed; full shares. -/
def dat4 (c : Dev nD) : Dat τ (Elt F) Unit ℕ (UR sig nD τ) ℕ cfg4 c where
  A w := V c (Pipeline.arrRef spec4 w)
  after w t := match w with
    | ⟨0, _⟩ => inBlock4 V c 0 t
    | ⟨1, _⟩ => stored4 (inBlock4 V c 0 t)
  Φ _ := Pipeline.ΦA spec4 c
  q _ := fullShare
  owed _ := 0

theorem dat4_A (c : Dev nD) (w : Fin cfg4.W) : (dat4 V c).A w = V c (Pipeline.arrRef spec4 w) := by
  dsimp only [dat4]
theorem dat4_after0 (c : Dev nD) (t : Fin cfg4.N) : (dat4 V c).after 0 t = inBlock4 V c 0 t := by dsimp only [dat4]
theorem dat4_after1 (c : Dev nD) (t : Fin cfg4.N) : (dat4 V c).after 1 t = stored4 (inBlock4 V c 0 t) := by dsimp only [dat4]

/-- The input's current staging buffer holds its block at every point. -/
theorem dat4_before0 (c : Dev nD) (t : Fin cfg4.N) (d) : (dat4 V c).before 0 t d = inBlock4 V c 0 t :=
  ((dat4 V c).before_in_eq_fetched 0 rfl (fun _ => rfl) (fun _ _ _ => rfl)
      (fun t => by rw [dat4_after0]; unfold Dat.blockOf inBlock4; rw [dat4_A]; try rfl) t d).trans
    (by unfold Dat.fetched Dat.blockOf inBlock4; rw [dat4_A]; try rfl)

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

theorem body_at4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [dat4_before0]
  rw [show (dat4 V c).Φ t.succ = (dat4 V c).Φ t.castSucc from rfl,
    show (dat4 V c).owesAt () t.succ = (dat4 V c).owesAt () t.castSucc from rfl,
    dat4_after0, dat4_after1]
  iintro ⟨HΦ, Ho, ⟨%d0, H0⟩, ⟨%d1, H1⟩⟩
  iapply (body_triple4 c Set.univ _ _ _ _ _ (inBlock4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation4 (c : Dev nD) : BodyObligation (dat4 (F := F) V c) (defs₀ (F := F)) Variants.none () Set.univ := fun t => by
  rw [bigSep_W4, bigSep_W4]
  exact body_at4 V c t

end Cert.KernelIdeal.Hand

end
-- ==== Proof.KIReg5.lean ====
/-
  Region 5 of the program: one call of the scaling kernel on a grid of 150 points. Point t reads rows
  16000·t … 16000·t+15999 of the gathered messages (64 lanes) and of the edge-weight column (one lane) and writes the
  same rows of the product: entry (e, l) is message (e, l) times weight e. Everything here is stated at ANY contents V
  of the buffers when the region is entered.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole 16000×64 block and the whole 16000×1 column as rectangles. -/
abbrev whole5 : Rect S16000x64 := Rect.unit (s := S16000x64) ![0, 0] S16000x64.size inb_S16000x64_S16000x64_0_0
abbrev wholeCol5 : Rect S16000x1 := Rect.unit (s := S16000x1) ![0, 0] S16000x1.size inb_S16000x1_S16000x1_0_0

/-- What the body leaves in the output's staging buffer: its one store, of the scaled block. -/
def stored5 (x0 : Vec F S16000x64 .f32) (x1 : Vec F S16000x1 .f32) : Vec F S16000x64 .f32 :=
  View.canon [⟨whole5, k5_pay1 (View.ld x0 whole5) (View.ld x1 wholeCol5)⟩]

/-- The one store covers the whole buffer. -/
theorem stored5_covers (p0 : Vec F S16000x64 .f32) (y : S16000x64.Idx) :
    ∃ pc ∈ ([⟨whole5, p0⟩] : List (View.Piece (Elt F) S16000x64 .f32)), y ∈ pc.1.set :=
  View.cover_of_tiled [⟨whole5, p0⟩] S16000x64.size (by rfl) y

set_option maxHeartbeats 1000000 in
/-- The body on whole staging buffers: the inputs' at x0, x1 and the output's at anything end with the inputs'
    unchanged and the output's at the scaled block (the body also loads the output buffer, and drops it). -/
theorem body_triple5 (c : Dev nD) (E : Set ℕ) (arg0 : Memref sig .tc .vmem S16000x64 .f32) (harg0 : arg0.IsWhole) (arg1 : Memref sig .tc .vmem S16000x1 .f32) (harg1 : arg1.IsWhole)
    (arg2 : Memref sig .tc .vmem S16000x64 .f32) (harg2 : arg2.IsWhole)
    (i : grid5.Coords) (x0 : Vec F S16000x64 .f32) (x1 : Vec F S16000x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (stored5 x0 x1)) -∗ K ⟨⟩))
      ⊢ wp frame (wpE (defs₀ (F := F)) Variants.none c none) E (cc5__scale_mul_kernel i arg0 harg0 arg1 harg1 arg2 harg2) K := by
  simp only [cc5__scale_mul_kernel_eq_skeleton]; unfold cc5__scale_mul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored5_covers _)

/-- The proof data of the region's pipeline on core c: the arrays as the region finds them; after the body at
    point t each input's buffer at its block and the output's at the scaled block; the untouched rest of the core as
    invariant; nothing owed; full shares. -/
def dat5 (c : Dev nD) : Dat τ (Elt F) Unit ℕ (UR sig nD τ) ℕ cfg5 c where
  A w := V c (Pipeline.arrRef spec5 w)
  after w t := match w with
    | ⟨0, _⟩ => inBlock5 V c 0 t
    | ⟨1, _⟩ => inBlock5 V c 1 t
    | ⟨2, _⟩ => stored5 (inBlock5 V c 0 t) (inBlock5 V c 1 t)
  Φ _ := Pipeline.ΦA spec5 c
  q _ := fullShare
  owed _ := 0

theorem dat5_A (c : Dev nD) (w : Fin cfg5.W) : (dat5 V c).A w = V c (Pipeline.arrRef spec5 w) := by
  dsimp only [dat5]
theorem dat5_after0 (c : Dev nD) (t : Fin cfg5.N) : (dat5 V c).after 0 t = inBlock5 V c 0 t := by dsimp only [dat5]
theorem dat5_after1 (c : Dev nD) (t : Fin cfg5.N) : (dat5 V c).after 1 t = inBlock5 V c 1 t := by dsimp only [dat5]
theorem dat5_after2 (c : Dev nD) (t : Fin cfg5.N) : (dat5 V c).after 2 t = stored5 (inBlock5 V c 0 t) (inBlock5 V c 1 t) := by dsimp only [dat5]

/-- Each input's current staging buffer holds its block at every point. -/
theorem dat5_before0 (c : Dev nD) (t : Fin cfg5.N) (d) : (dat5 V c).before 0 t d = inBlock5 V c 0 t :=
  ((dat5 V c).before_in_eq_fetched 0 rfl (fun _ => rfl) (fun _ _ _ => rfl)
      (fun t => by rw [dat5_after0]; unfold Dat.blockOf inBlock5; rw [dat5_A]; try rfl) t d).trans
    (by unfold Dat.fetched Dat.blockOf inBlock5; rw [dat5_A]; try rfl)
theorem dat5_before1 (c : Dev nD) (t : Fin cfg5.N) (d) : (dat5 V c).before 1 t d = inBlock5 V c 1 t :=
  ((dat5 V c).before_in_eq_fetched 1 rfl (fun _ => rfl) (fun _ _ _ => rfl)
      (fun t => by rw [dat5_after1]; unfold Dat.blockOf inBlock5; rw [dat5_A]; try rfl) t d).trans
    (by unfold Dat.fetched Dat.blockOf inBlock5; rw [dat5_A]; try rfl)

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem body_at5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [dat5_before0, dat5_before1]
  rw [show (dat5 V c).Φ t.succ = (dat5 V c).Φ t.castSucc from rfl,
    show (dat5 V c).owesAt () t.succ = (dat5 V c).owesAt () t.castSucc from rfl,
    dat5_after0, dat5_after1, dat5_after2]
  iintro ⟨HΦ, Ho, ⟨%d0, H0⟩, ⟨%d1, H1⟩, ⟨%d2, H2⟩⟩
  iapply (body_triple5 c Set.univ _ _ _ _ _ _ _ (inBlock5 V c 0 t) (inBlock5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation5 (c : Dev nD) : BodyObligation (dat5 (F := F) V c) (defs₀ (F := F)) Variants.none () Set.univ := fun t => by
  rw [bigSep_W5, bigSep_W5]
  exact body_at5 V c t

end Cert.KernelIdeal.Hand

end
-- ==== Proof.KIReg6.lean ====
/-
  Region 6 of the program: one call of the row-normalising kernel on a grid of 25 points. Point t reads rows
  6000·t … 6000·t+5999 of its one input array and writes the same rows of its output array: every entry of a row
  is the leaky-rectified entry divided by max(‖row‖₂, ε), so a block of the output depends on the same block of
  the input only. Everything here is stated at ANY contents V of the buffers when the region is entered.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def inBlock6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The whole 6000×64 block as a rectangle: the one load and the one store of the body go through it. -/
abbrev whole6 : Rect S6000x64 := Rect.unit (s := S6000x64) ![0, 0] S6000x64.size inb_S6000x64_S6000x64_0_0

/-- What the body leaves in the output's staging buffer: its one store, of the normalised block. -/
def stored6 (x0 : Vec F S6000x64 .f32) : Vec F S6000x64 .f32 :=
  View.canon [⟨whole6, k6_pay1 (View.ld x0 whole6)⟩]

/-- The one store covers the whole buffer. -/
theorem stored6_covers (p0 : Vec F S6000x64 .f32) (y : S6000x64.Idx) :
    ∃ pc ∈ ([⟨whole6, p0⟩] : List (View.Piece (Elt F) S6000x64 .f32)), y ∈ pc.1.set :=
  View.cover_of_tiled [⟨whole6, p0⟩] S6000x64.size (by rfl) y

set_option maxHeartbeats 1000000 in
/-- The body on whole staging buffers: the input's at x0 and the output's at anything end with the input's
    unchanged and the output's at the normalised block (the body also loads the output buffer, and drops it). -/
theorem body_triple6 (c : Dev nD) (E : Set ℕ) (arg0 : Memref sig .tc .vmem S6000x64 .f32) (harg0 : arg0.IsWhole) (arg1 : Memref sig .tc .vmem S6000x64 .f32) (harg1 : arg1.IsWhole)
    (i : grid6.Coords) (x0 : Vec F S6000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (stored6 x0)) -∗ K ⟨⟩))
      ⊢ wp frame (wpE (defs₀ (F := F)) Variants.none c none) E (cc6__lrelu_l2norm_kernel i arg0 harg0 arg1 harg1) K := by
  simp only [cc6__lrelu_l2norm_kernel_eq_skeleton]; unfold cc6__lrelu_l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored6_covers _)

/-- The proof data of the region's pipeline on core c: the arrays as the region finds them; after the body at
    point t the input's buffer at its block and the output's at the normalised block; the untouched rest of the
    core as invariant; nothing owed; full shares. -/
def dat6 (c : Dev nD) : Dat τ (Elt F) Unit ℕ (UR sig nD τ) ℕ cfg6 c where
  A w := V c (Pipeline.arrRef spec6 w)
  after w t := match w with
    | ⟨0, _⟩ => inBlock6 V c 0 t
    | ⟨1, _⟩ => stored6 (inBlock6 V c 0 t)
  Φ _ := Pipeline.ΦA spec6 c
  q _ := fullShare
  owed _ := 0

theorem dat6_A (c : Dev nD) (w : Fin cfg6.W) : (dat6 V c).A w = V c (Pipeline.arrRef spec6 w) := by
  dsimp only [dat6]
theorem dat6_after0 (c : Dev nD) (t : Fin cfg6.N) : (dat6 V c).after 0 t = inBlock6 V c 0 t := by dsimp only [dat6]
theorem dat6_after1 (c : Dev nD) (t : Fin cfg6.N) : (dat6 V c).after 1 t = stored6 (inBlock6 V c 0 t) := by dsimp only [dat6]

/-- The input's current staging buffer holds its block at every point. -/
theorem dat6_before0 (c : Dev nD) (t : Fin cfg6.N) (d) : (dat6 V c).before 0 t d = inBlock6 V c 0 t :=
  ((dat6 V c).before_in_eq_fetched 0 rfl (fun _ => rfl) (fun _ _ _ => rfl)
      (fun t => by rw [dat6_after0]; unfold Dat.blockOf inBlock6; rw [dat6_A]; try rfl) t d).trans
    (by unfold Dat.fetched Dat.blockOf inBlock6; rw [dat6_A]; try rfl)

/-- What the body is called with at point t, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t))

theorem body_at6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [dat6_before0]
  rw [show (dat6 V c).Φ t.succ = (dat6 V c).Φ t.castSucc from rfl,
    show (dat6 V c).owesAt () t.succ = (dat6 V c).owesAt () t.castSucc from rfl,
    dat6_after0, dat6_after1]
  iintro ⟨HΦ, Ho, ⟨%d0, H0⟩, ⟨%d1, H1⟩⟩
  iapply (body_triple6 c Set.univ _ _ _ _ _ (inBlock6 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation6 (c : Dev nD) : BodyObligation (dat6 (F := F) V c) (defs₀ (F := F)) Variants.none () Set.univ := fun t => by
  rw [bigSep_W6, bigSep_W6]
  exact body_at6 V c t

end Cert.KernelIdeal.Hand

end
-- ==== Proof.KIFold.lean ====
/-
  The buffer contents of one core at every boundary between the program's segments, as a fold from the launch memory:
  a stretch of host operations applies them in order; a kernel region replaces each of its arrays by what the grid's
  write-backs leave and keeps every other buffer. W0 is the launch; region k is entered at W(2k+1) and left at W(2k+2);
  the three closing stretches of host operations lead to W15, W16 and W17, the contents at the return.
  Also here: every region's proof data at its own entry contents, the part of the thread state that rides beside the
  buffers, and the fact that no argument array is ever written (so each reads, at every boundary, as launched).
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points
import proofs.«180941_j14654428414616_1_alg».proof.Proof.KIReg0
import proofs.«180941_j14654428414616_1_alg».proof.Proof.KIReg1
import proofs.«180941_j14654428414616_1_alg».proof.Proof.KIReg2
import proofs.«180941_j14654428414616_1_alg».proof.Proof.KIReg3
import proofs.«180941_j14654428414616_1_alg».proof.Proof.KIReg4
import proofs.«180941_j14654428414616_1_alg».proof.Proof.KIReg5
import proofs.«180941_j14654428414616_1_alg».proof.Proof.KIReg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)

/-- After the host stretch before region 0: region 0's entry. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exitArr0 (c : Dev nD) (w : Fin cfg0.W) : (dat0 (V1 m ρ) c).arrAt w cfg0.N = V2 m ρ c (Pipeline.arrRef spec0 w) :=
  (W2_arr m ρ c w).symm
theorem exitRest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1: region 1's entry. -/
abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem exitArr1 (c : Dev nD) (w : Fin cfg1.W) : (dat1 (V3 m ρ) c).arrAt w cfg1.N = V4 m ρ c (Pipeline.arrRef spec1 w) :=
  (W4_arr m ρ c w).symm
theorem exitRest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2: region 2's entry. -/
abbrev W5 : Dev nD → Valuation τ sig (Elt F) := fun c => StableHlo.after main_part0_ops2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem exitArr2 (c : Dev nD) (w : Fin cfg2.W) : (dat2 (V5 m ρ) c).arrAt w cfg2.N = V6 m ρ c (Pipeline.arrRef spec2 w) :=
  (W6_arr m ρ c w).symm
theorem exitRest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3: region 3's entry. -/
abbrev W7 : Dev nD → Valuation τ sig (Elt F) := fun c => StableHlo.after main_part0_ops3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem exitArr3 (c : Dev nD) (w : Fin cfg3.W) : (dat3 (V7 m ρ) c).arrAt w cfg3.N = V8 m ρ c (Pipeline.arrRef spec3 w) :=
  (W8_arr m ρ c w).symm
theorem exitRest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch before region 4: region 4's entry. -/
abbrev W9 : Dev nD → Valuation τ sig (Elt F) := fun c => StableHlo.after main_part0_ops4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem exitArr4 (c : Dev nD) (w : Fin cfg4.W) : (dat4 (V9 m ρ) c).arrAt w cfg4.N = V10 m ρ c (Pipeline.arrRef spec4 w) :=
  (W10_arr m ρ c w).symm
theorem exitRest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch before region 5: region 5's entry. -/
abbrev W11 : Dev nD → Valuation τ sig (Elt F) := fun c => StableHlo.after main_part0_ops5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem exitArr5 (c : Dev nD) (w : Fin cfg5.W) : (dat5 (V11 m ρ) c).arrAt w cfg5.N = V12 m ρ c (Pipeline.arrRef spec5 w) :=
  (W12_arr m ρ c w).symm
theorem exitRest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch before region 6: region 6's entry. -/
abbrev W13 : Dev nD → Valuation τ sig (Elt F) := fun c => StableHlo.after main_part0_ops6 (W12 m ρ c)
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem exitArr6 (c : Dev nD) (w : Fin cfg6.W) : (dat6 (V13 m ρ) c).arrAt w cfg6.N = V14 m ρ c (Pipeline.arrRef spec6 w) :=
  (W14_arr m ρ c w).symm
theorem exitRest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- The three closing stretches of host operations. -/
abbrev W15 : Dev nD → Valuation τ sig (Elt F) := fun c => StableHlo.after main_part0_ops7 (W14 m ρ c)
abbrev W16 : Dev nD → Valuation τ sig (Elt F) := fun c => StableHlo.after main_part1_ops0 (W15 m ρ c)
abbrev W17 : Dev nD → Valuation τ sig (Elt F) := fun c => StableHlo.after main_part2_ops0 (W16 m ρ c)

/-! ## The proof data family and what rides beside the buffers -/

/-- No pipeline has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and its debts, at nothing. -/
abbrev R (c : Dev nD) : sProp 𝕄 := iprop((∃ r, prngReg c r) ∗ ∃ W, owes (c : Thread nD τ) (0 : CellTallies nD τ sig Unit) W)
/-- A stretch of host operations as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the stretch allocates a buffer. -/
theorem main_part0_ops0_fresh : (main_part0_ops0 : List (HloOp τ sig (Elt F))).Forall fun op => op.fresh = ∅ := by
  simp only [List.Forall]; repeat' constructor
/-- No operation of the stretch allocates a buffer. -/
theorem main_part0_ops1_fresh : (main_part0_ops1 : List (HloOp τ sig (Elt F))).Forall fun op => op.fresh = ∅ := by
  simp only [List.Forall]; repeat' constructor
/-- No operation of the stretch allocates a buffer. -/
theorem main_part0_ops2_fresh : (main_part0_ops2 : List (HloOp τ sig (Elt F))).Forall fun op => op.fresh = ∅ := by
  simp only [List.Forall]; repeat' constructor
/-- No operation of the stretch allocates a buffer. -/
theorem main_part0_ops3_fresh : (main_part0_ops3 : List (HloOp τ sig (Elt F))).Forall fun op => op.fresh = ∅ := by
  simp only [List.Forall]; repeat' constructor
/-- No operation of the stretch allocates a buffer. -/
theorem main_part0_ops4_fresh : (main_part0_ops4 : List (HloOp τ sig (Elt F))).Forall fun op => op.fresh = ∅ := by
  simp only [List.Forall]; repeat' constructor
/-- No operation of the stretch allocates a buffer. -/
theorem main_part0_ops5_fresh : (main_part0_ops5 : List (HloOp τ sig (Elt F))).Forall fun op => op.fresh = ∅ := by
  simp only [List.Forall]; repeat' constructor
/-- No operation of the stretch allocates a buffer. -/
theorem main_part0_ops6_fresh : (main_part0_ops6 : List (HloOp τ sig (Elt F))).Forall fun op => op.fresh = ∅ := by
  simp only [List.Forall]; repeat' constructor
/-- No operation of the stretch allocates a buffer. -/
theorem main_part0_ops7_fresh : (main_part0_ops7 : List (HloOp τ sig (Elt F))).Forall fun op => op.fresh = ∅ := by
  simp only [List.Forall]; repeat' constructor
/-- No operation of the stretch allocates a buffer. -/
theorem main_part1_ops0_fresh : (main_part1_ops0 : List (HloOp τ sig (Elt F))).Forall fun op => op.fresh = ∅ := by
  simp only [List.Forall]; repeat' constructor
/-- No operation of the stretch allocates a buffer. -/
theorem main_part2_ops0_fresh : (main_part2_ops0 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at the return's contents, the generator register at
    some state. -/
abbrev Tₙ (c : Dev nD) : sProp 𝕄 := iprop(StableHlo.held (c : Thread nD τ) (Pipeline.ucRefs τ sig) (W17 m ρ c) ∗ ∃ r, prngReg c r)

/-! ## No argument array is ever written -/

theorem W17_main_arg0 (c : Dev nD) : W17 m ρ c (Proc.devRef .tc main_arg0) = m ((c : Thread nD τ).loc main_arg0) := by
  have h17 : W17 m ρ c (Proc.devRef .tc main_arg0) = W14 m ρ c (Proc.devRef .tc main_arg0) := by
    show StableHlo.after main_part2_ops0 (StableHlo.after main_part1_ops0 (StableHlo.after main_part0_ops7 (W14 m ρ c))) (Proc.devRef .tc main_arg0) = _
    generalize W14 m ρ c = X
    open StableHlo in after_results_simp
  rw [h17]
  rw [W14_of_ne m ρ c main_arg0 (by decide)]
  have h13 : W13 m ρ c (Proc.devRef .tc main_arg0) = W12 m ρ c (Proc.devRef .tc main_arg0) := by
    show StableHlo.after main_part0_ops6 (W12 m ρ c) (Proc.devRef .tc main_arg0) = _
    generalize W12 m ρ c = X
    open StableHlo in after_results_simp
  rw [h13]
  rw [W12_of_ne m ρ c main_arg0 (by decide)]
  have h11 : W11 m ρ c (Proc.devRef .tc main_arg0) = W10 m ρ c (Proc.devRef .tc main_arg0) := by
    show StableHlo.after main_part0_ops5 (W10 m ρ c) (Proc.devRef .tc main_arg0) = _
    generalize W10 m ρ c = X
    open StableHlo in after_results_simp
  rw [h11]
  rw [W10_of_ne m ρ c main_arg0 (by decide)]
  have h9 : W9 m ρ c (Proc.devRef .tc main_arg0) = W8 m ρ c (Proc.devRef .tc main_arg0) := by
    show StableHlo.after main_part0_ops4 (W8 m ρ c) (Proc.devRef .tc main_arg0) = _
    generalize W8 m ρ c = X
    open StableHlo in after_results_simp
  rw [h9]
  rw [W8_of_ne m ρ c main_arg0 (by decide)]
  have h7 : W7 m ρ c (Proc.devRef .tc main_arg0) = W6 m ρ c (Proc.devRef .tc main_arg0) := by
    show StableHlo.after main_part0_ops3 (W6 m ρ c) (Proc.devRef .tc main_arg0) = _
    generalize W6 m ρ c = X
    open StableHlo in after_results_simp
  rw [h7]
  rw [W6_of_ne m ρ c main_arg0 (by decide)]
  have h5 : W5 m ρ c (Proc.devRef .tc main_arg0) = W4 m ρ c (Proc.devRef .tc main_arg0) := by
    show StableHlo.after main_part0_ops2 (W4 m ρ c) (Proc.devRef .tc main_arg0) = _
    generalize W4 m ρ c = X
    open StableHlo in after_results_simp
  rw [h5]
  rw [W4_of_ne m ρ c main_arg0 (by decide)]
  have h3 : W3 m ρ c (Proc.devRef .tc main_arg0) = W2 m ρ c (Proc.devRef .tc main_arg0) := by
    show StableHlo.after main_part0_ops1 (W2 m ρ c) (Proc.devRef .tc main_arg0) = _
    generalize W2 m ρ c = X
    open StableHlo in after_results_simp
  rw [h3]
  rw [W2_of_ne m ρ c main_arg0 (by decide)]
  have h1 : W1 m ρ c (Proc.devRef .tc main_arg0) = W0 m ρ c (Proc.devRef .tc main_arg0) := by
    show StableHlo.after main_part0_ops0 (W0 m ρ c) (Proc.devRef .tc main_arg0) = _
    generalize W0 m ρ c = X
    open StableHlo in after_results_simp
  rw [h1]

theorem W17_main_arg1 (c : Dev nD) : W17 m ρ c (Proc.devRef .tc main_arg1) = m ((c : Thread nD τ).loc main_arg1) := by
  have h17 : W17 m ρ c (Proc.devRef .tc main_arg1) = W14 m ρ c (Proc.devRef .tc main_arg1) := by
    show StableHlo.after main_part2_ops0 (StableHlo.after main_part1_ops0 (StableHlo.after main_part0_ops7 (W14 m ρ c))) (Proc.devRef .tc main_arg1) = _
    generalize W14 m ρ c = X
    open StableHlo in after_results_simp
  rw [h17]
  rw [W14_of_ne m ρ c main_arg1 (by decide)]
  have h13 : W13 m ρ c (Proc.devRef .tc main_arg1) = W12 m ρ c (Proc.devRef .tc main_arg1) := by
    show StableHlo.after main_part0_ops6 (W12 m ρ c) (Proc.devRef .tc main_arg1) = _
    generalize W12 m ρ c = X
    open StableHlo in after_results_simp
  rw [h13]
  rw [W12_of_ne m ρ c main_arg1 (by decide)]
  have h11 : W11 m ρ c (Proc.devRef .tc main_arg1) = W10 m ρ c (Proc.devRef .tc main_arg1) := by
    show StableHlo.after main_part0_ops5 (W10 m ρ c) (Proc.devRef .tc main_arg1) = _
    generalize W10 m ρ c = X
    open StableHlo in after_results_simp
  rw [h11]
  rw [W10_of_ne m ρ c main_arg1 (by decide)]
  have h9 : W9 m ρ c (Proc.devRef .tc main_arg1) = W8 m ρ c (Proc.devRef .tc main_arg1) := by
    show StableHlo.after main_part0_ops4 (W8 m ρ c) (Proc.devRef .tc main_arg1) = _
    generalize W8 m ρ c = X
    open StableHlo in after_results_simp
  rw [h9]
  rw [W8_of_ne m ρ c main_arg1 (by decide)]
  have h7 : W7 m ρ c (Proc.devRef .tc main_arg1) = W6 m ρ c (Proc.devRef .tc main_arg1) := by
    show StableHlo.after main_part0_ops3 (W6 m ρ c) (Proc.devRef .tc main_arg1) = _
    generalize W6 m ρ c = X
    open StableHlo in after_results_simp
  rw [h7]
  rw [W6_of_ne m ρ c main_arg1 (by decide)]
  have h5 : W5 m ρ c (Proc.devRef .tc main_arg1) = W4 m ρ c (Proc.devRef .tc main_arg1) := by
    show StableHlo.after main_part0_ops2 (W4 m ρ c) (Proc.devRef .tc main_arg1) = _
    generalize W4 m ρ c = X
    open StableHlo in after_results_simp
  rw [h5]
  rw [W4_of_ne m ρ c main_arg1 (by decide)]
  have h3 : W3 m ρ c (Proc.devRef .tc main_arg1) = W2 m ρ c (Proc.devRef .tc main_arg1) := by
    show StableHlo.after main_part0_ops1 (W2 m ρ c) (Proc.devRef .tc main_arg1) = _
    generalize W2 m ρ c = X
    open StableHlo in after_results_simp
  rw [h3]
  rw [W2_of_ne m ρ c main_arg1 (by decide)]
  have h1 : W1 m ρ c (Proc.devRef .tc main_arg1) = W0 m ρ c (Proc.devRef .tc main_arg1) := by
    show StableHlo.after main_part0_ops0 (W0 m ρ c) (Proc.devRef .tc main_arg1) = _
    generalize W0 m ρ c = X
    open StableHlo in after_results_simp
  rw [h1]

theorem W17_main_arg2 (c : Dev nD) : W17 m ρ c (Proc.devRef .tc main_arg2) = m ((c : Thread nD τ).loc main_arg2) := by
  have h17 : W17 m ρ c (Proc.devRef .tc main_arg2) = W14 m ρ c (Proc.devRef .tc main_arg2) := by
    show StableHlo.after main_part2_ops0 (StableHlo.after main_part1_ops0 (StableHlo.after main_part0_ops7 (W14 m ρ c))) (Proc.devRef .tc main_arg2) = _
    generalize W14 m ρ c = X
    open StableHlo in after_results_simp
  rw [h17]
  rw [W14_of_ne m ρ c main_arg2 (by decide)]
  have h13 : W13 m ρ c (Proc.devRef .tc main_arg2) = W12 m ρ c (Proc.devRef .tc main_arg2) := by
    show StableHlo.after main_part0_ops6 (W12 m ρ c) (Proc.devRef .tc main_arg2) = _
    generalize W12 m ρ c = X
    open StableHlo in after_results_simp
  rw [h13]
  rw [W12_of_ne m ρ c main_arg2 (by decide)]
  have h11 : W11 m ρ c (Proc.devRef .tc main_arg2) = W10 m ρ c (Proc.devRef .tc main_arg2) := by
    show StableHlo.after main_part0_ops5 (W10 m ρ c) (Proc.devRef .tc main_arg2) = _
    generalize W10 m ρ c = X
    open StableHlo in after_results_simp
  rw [h11]
  rw [W10_of_ne m ρ c main_arg2 (by decide)]
  have h9 : W9 m ρ c (Proc.devRef .tc main_arg2) = W8 m ρ c (Proc.devRef .tc main_arg2) := by
    show StableHlo.after main_part0_ops4 (W8 m ρ c) (Proc.devRef .tc main_arg2) = _
    generalize W8 m ρ c = X
    open StableHlo in after_results_simp
  rw [h9]
  rw [W8_of_ne m ρ c main_arg2 (by decide)]
  have h7 : W7 m ρ c (Proc.devRef .tc main_arg2) = W6 m ρ c (Proc.devRef .tc main_arg2) := by
    show StableHlo.after main_part0_ops3 (W6 m ρ c) (Proc.devRef .tc main_arg2) = _
    generalize W6 m ρ c = X
    open StableHlo in after_results_simp
  rw [h7]
  rw [W6_of_ne m ρ c main_arg2 (by decide)]
  have h5 : W5 m ρ c (Proc.devRef .tc main_arg2) = W4 m ρ c (Proc.devRef .tc main_arg2) := by
    show StableHlo.after main_part0_ops2 (W4 m ρ c) (Proc.devRef .tc main_arg2) = _
    generalize W4 m ρ c = X
    open StableHlo in after_results_simp
  rw [h5]
  rw [W4_of_ne m ρ c main_arg2 (by decide)]
  have h3 : W3 m ρ c (Proc.devRef .tc main_arg2) = W2 m ρ c (Proc.devRef .tc main_arg2) := by
    show StableHlo.after main_part0_ops1 (W2 m ρ c) (Proc.devRef .tc main_arg2) = _
    generalize W2 m ρ c = X
    open StableHlo in after_results_simp
  rw [h3]
  rw [W2_of_ne m ρ c main_arg2 (by decide)]
  have h1 : W1 m ρ c (Proc.devRef .tc main_arg2) = W0 m ρ c (Proc.devRef .tc main_arg2) := by
    show StableHlo.after main_part0_ops0 (W0 m ρ c) (Proc.devRef .tc main_arg2) = _
    generalize W0 m ρ c = X
    open StableHlo in after_results_simp
  rw [h1]

theorem W17_main_arg3 (c : Dev nD) : W17 m ρ c (Proc.devRef .tc main_arg3) = m ((c : Thread nD τ).loc main_arg3) := by
  have h17 : W17 m ρ c (Proc.devRef .tc main_arg3) = W14 m ρ c (Proc.devRef .tc main_arg3) := by
    show StableHlo.after main_part2_ops0 (StableHlo.after main_part1_ops0 (StableHlo.after main_part0_ops7 (W14 m ρ c))) (Proc.devRef .tc main_arg3) = _
    generalize W14 m ρ c = X
    open StableHlo in after_results_simp
  rw [h17]
  rw [W14_of_ne m ρ c main_arg3 (by decide)]
  have h13 : W13 m ρ c (Proc.devRef .tc main_arg3) = W12 m ρ c (Proc.devRef .tc main_arg3) := by
    show StableHlo.after main_part0_ops6 (W12 m ρ c) (Proc.devRef .tc main_arg3) = _
    generalize W12 m ρ c = X
    open StableHlo in after_results_simp
  rw [h13]
  rw [W12_of_ne m ρ c main_arg3 (by decide)]
  have h11 : W11 m ρ c (Proc.devRef .tc main_arg3) = W10 m ρ c (Proc.devRef .tc main_arg3) := by
    show StableHlo.after main_part0_ops5 (W10 m ρ c) (Proc.devRef .tc main_arg3) = _
    generalize W10 m ρ c = X
    open StableHlo in after_results_simp
  rw [h11]
  rw [W10_of_ne m ρ c main_arg3 (by decide)]
  have h9 : W9 m ρ c (Proc.devRef .tc main_arg3) = W8 m ρ c (Proc.devRef .tc main_arg3) := by
    show StableHlo.after main_part0_ops4 (W8 m ρ c) (Proc.devRef .tc main_arg3) = _
    generalize W8 m ρ c = X
    open StableHlo in after_results_simp
  rw [h9]
  rw [W8_of_ne m ρ c main_arg3 (by decide)]
  have h7 : W7 m ρ c (Proc.devRef .tc main_arg3) = W6 m ρ c (Proc.devRef .tc main_arg3) := by
    show StableHlo.after main_part0_ops3 (W6 m ρ c) (Proc.devRef .tc main_arg3) = _
    generalize W6 m ρ c = X
    open StableHlo in after_results_simp
  rw [h7]
  rw [W6_of_ne m ρ c main_arg3 (by decide)]
  have h5 : W5 m ρ c (Proc.devRef .tc main_arg3) = W4 m ρ c (Proc.devRef .tc main_arg3) := by
    show StableHlo.after main_part0_ops2 (W4 m ρ c) (Proc.devRef .tc main_arg3) = _
    generalize W4 m ρ c = X
    open StableHlo in after_results_simp
  rw [h5]
  rw [W4_of_ne m ρ c main_arg3 (by decide)]
  have h3 : W3 m ρ c (Proc.devRef .tc main_arg3) = W2 m ρ c (Proc.devRef .tc main_arg3) := by
    show StableHlo.after main_part0_ops1 (W2 m ρ c) (Proc.devRef .tc main_arg3) = _
    generalize W2 m ρ c = X
    open StableHlo in after_results_simp
  rw [h3]
  rw [W2_of_ne m ρ c main_arg3 (by decide)]
  have h1 : W1 m ρ c (Proc.devRef .tc main_arg3) = W0 m ρ c (Proc.devRef .tc main_arg3) := by
    show StableHlo.after main_part0_ops0 (W0 m ρ c) (Proc.devRef .tc main_arg3) = _
    generalize W0 m ρ c = X
    open StableHlo in after_results_simp
  rw [h1]

theorem W17_main_arg4 (c : Dev nD) : W17 m ρ c (Proc.devRef .tc main_arg4) = m ((c : Thread nD τ).loc main_arg4) := by
  have h17 : W17 m ρ c (Proc.devRef .tc main_arg4) = W14 m ρ c (Proc.devRef .tc main_arg4) := by
    show StableHlo.after main_part2_ops0 (StableHlo.after main_part1_ops0 (StableHlo.after main_part0_ops7 (W14 m ρ c))) (Proc.devRef .tc main_arg4) = _
    generalize W14 m ρ c = X
    open StableHlo in after_results_simp
  rw [h17]
  rw [W14_of_ne m ρ c main_arg4 (by decide)]
  have h13 : W13 m ρ c (Proc.devRef .tc main_arg4) = W12 m ρ c (Proc.devRef .tc main_arg4) := by
    show StableHlo.after main_part0_ops6 (W12 m ρ c) (Proc.devRef .tc main_arg4) = _
    generalize W12 m ρ c = X
    open StableHlo in after_results_simp
  rw [h13]
  rw [W12_of_ne m ρ c main_arg4 (by decide)]
  have h11 : W11 m ρ c (Proc.devRef .tc main_arg4) = W10 m ρ c (Proc.devRef .tc main_arg4) := by
    show StableHlo.after main_part0_ops5 (W10 m ρ c) (Proc.devRef .tc main_arg4) = _
    generalize W10 m ρ c = X
    open StableHlo in after_results_simp
  rw [h11]
  rw [W10_of_ne m ρ c main_arg4 (by decide)]
  have h9 : W9 m ρ c (Proc.devRef .tc main_arg4) = W8 m ρ c (Proc.devRef .tc main_arg4) := by
    show StableHlo.after main_part0_ops4 (W8 m ρ c) (Proc.devRef .tc main_arg4) = _
    generalize W8 m ρ c = X
    open StableHlo in after_results_simp
  rw [h9]
  rw [W8_of_ne m ρ c main_arg4 (by decide)]
  have h7 : W7 m ρ c (Proc.devRef .tc main_arg4) = W6 m ρ c (Proc.devRef .tc main_arg4) := by
    show StableHlo.after main_part0_ops3 (W6 m ρ c) (Proc.devRef .tc main_arg4) = _
    generalize W6 m ρ c = X
    open StableHlo in after_results_simp
  rw [h7]
  rw [W6_of_ne m ρ c main_arg4 (by decide)]
  have h5 : W5 m ρ c (Proc.devRef .tc main_arg4) = W4 m ρ c (Proc.devRef .tc main_arg4) := by
    show StableHlo.after main_part0_ops2 (W4 m ρ c) (Proc.devRef .tc main_arg4) = _
    generalize W4 m ρ c = X
    open StableHlo in after_results_simp
  rw [h5]
  rw [W4_of_ne m ρ c main_arg4 (by decide)]
  have h3 : W3 m ρ c (Proc.devRef .tc main_arg4) = W2 m ρ c (Proc.devRef .tc main_arg4) := by
    show StableHlo.after main_part0_ops1 (W2 m ρ c) (Proc.devRef .tc main_arg4) = _
    generalize W2 m ρ c = X
    open StableHlo in after_results_simp
  rw [h3]
  rw [W2_of_ne m ρ c main_arg4 (by decide)]
  have h1 : W1 m ρ c (Proc.devRef .tc main_arg4) = W0 m ρ c (Proc.devRef .tc main_arg4) := by
    show StableHlo.after main_part0_ops0 (W0 m ρ c) (Proc.devRef .tc main_arg4) = _
    generalize W0 m ρ c = X
    open StableHlo in after_results_simp
  rw [h1]

theorem W17_main_arg5 (c : Dev nD) : W17 m ρ c (Proc.devRef .tc main_arg5) = m ((c : Thread nD τ).loc main_arg5) := by
  have h17 : W17 m ρ c (Proc.devRef .tc main_arg5) = W14 m ρ c (Proc.devRef .tc main_arg5) := by
    show StableHlo.after main_part2_ops0 (StableHlo.after main_part1_ops0 (StableHlo.after main_part0_ops7 (W14 m ρ c))) (Proc.devRef .tc main_arg5) = _
    generalize W14 m ρ c = X
    open StableHlo in after_results_simp
  rw [h17]
  rw [W14_of_ne m ρ c main_arg5 (by decide)]
  have h13 : W13 m ρ c (Proc.devRef .tc main_arg5) = W12 m ρ c (Proc.devRef .tc main_arg5) := by
    show StableHlo.after main_part0_ops6 (W12 m ρ c) (Proc.devRef .tc main_arg5) = _
    generalize W12 m ρ c = X
    open StableHlo in after_results_simp
  rw [h13]
  rw [W12_of_ne m ρ c main_arg5 (by decide)]
  have h11 : W11 m ρ c (Proc.devRef .tc main_arg5) = W10 m ρ c (Proc.devRef .tc main_arg5) := by
    show StableHlo.after main_part0_ops5 (W10 m ρ c) (Proc.devRef .tc main_arg5) = _
    generalize W10 m ρ c = X
    open StableHlo in after_results_simp
  rw [h11]
  rw [W10_of_ne m ρ c main_arg5 (by decide)]
  have h9 : W9 m ρ c (Proc.devRef .tc main_arg5) = W8 m ρ c (Proc.devRef .tc main_arg5) := by
    show StableHlo.after main_part0_ops4 (W8 m ρ c) (Proc.devRef .tc main_arg5) = _
    generalize W8 m ρ c = X
    open StableHlo in after_results_simp
  rw [h9]
  rw [W8_of_ne m ρ c main_arg5 (by decide)]
  have h7 : W7 m ρ c (Proc.devRef .tc main_arg5) = W6 m ρ c (Proc.devRef .tc main_arg5) := by
    show StableHlo.after main_part0_ops3 (W6 m ρ c) (Proc.devRef .tc main_arg5) = _
    generalize W6 m ρ c = X
    open StableHlo in after_results_simp
  rw [h7]
  rw [W6_of_ne m ρ c main_arg5 (by decide)]
  have h5 : W5 m ρ c (Proc.devRef .tc main_arg5) = W4 m ρ c (Proc.devRef .tc main_arg5) := by
    show StableHlo.after main_part0_ops2 (W4 m ρ c) (Proc.devRef .tc main_arg5) = _
    generalize W4 m ρ c = X
    open StableHlo in after_results_simp
  rw [h5]
  rw [W4_of_ne m ρ c main_arg5 (by decide)]
  have h3 : W3 m ρ c (Proc.devRef .tc main_arg5) = W2 m ρ c (Proc.devRef .tc main_arg5) := by
    show StableHlo.after main_part0_ops1 (W2 m ρ c) (Proc.devRef .tc main_arg5) = _
    generalize W2 m ρ c = X
    open StableHlo in after_results_simp
  rw [h3]
  rw [W2_of_ne m ρ c main_arg5 (by decide)]
  have h1 : W1 m ρ c (Proc.devRef .tc main_arg5) = W0 m ρ c (Proc.devRef .tc main_arg5) := by
    show StableHlo.after main_part0_ops0 (W0 m ρ c) (Proc.devRef .tc main_arg5) = _
    generalize W0 m ρ c = X
    open StableHlo in after_results_simp
  rw [h1]

theorem W17_main_arg6 (c : Dev nD) : W17 m ρ c (Proc.devRef .tc main_arg6) = m ((c : Thread nD τ).loc main_arg6) := by
  have h17 : W17 m ρ c (Proc.devRef .tc main_arg6) = W14 m ρ c (Proc.devRef .tc main_arg6) := by
    show StableHlo.after main_part2_ops0 (StableHlo.after main_part1_ops0 (StableHlo.after main_part0_ops7 (W14 m ρ c))) (Proc.devRef .tc main_arg6) = _
    generalize W14 m ρ c = X
    open StableHlo in after_results_simp
  rw [h17]
  rw [W14_of_ne m ρ c main_arg6 (by decide)]
  have h13 : W13 m ρ c (Proc.devRef .tc main_arg6) = W12 m ρ c (Proc.devRef .tc main_arg6) := by
    show StableHlo.after main_part0_ops6 (W12 m ρ c) (Proc.devRef .tc main_arg6) = _
    generalize W12 m ρ c = X
    open StableHlo in after_results_simp
  rw [h13]
  rw [W12_of_ne m ρ c main_arg6 (by decide)]
  have h11 : W11 m ρ c (Proc.devRef .tc main_arg6) = W10 m ρ c (Proc.devRef .tc main_arg6) := by
    show StableHlo.after main_part0_ops5 (W10 m ρ c) (Proc.devRef .tc main_arg6) = _
    generalize W10 m ρ c = X
    open StableHlo in after_results_simp
  rw [h11]
  rw [W10_of_ne m ρ c main_arg6 (by decide)]
  have h9 : W9 m ρ c (Proc.devRef .tc main_arg6) = W8 m ρ c (Proc.devRef .tc main_arg6) := by
    show StableHlo.after main_part0_ops4 (W8 m ρ c) (Proc.devRef .tc main_arg6) = _
    generalize W8 m ρ c = X
    open StableHlo in after_results_simp
  rw [h9]
  rw [W8_of_ne m ρ c main_arg6 (by decide)]
  have h7 : W7 m ρ c (Proc.devRef .tc main_arg6) = W6 m ρ c (Proc.devRef .tc main_arg6) := by
    show StableHlo.after main_part0_ops3 (W6 m ρ c) (Proc.devRef .tc main_arg6) = _
    generalize W6 m ρ c = X
    open StableHlo in after_results_simp
  rw [h7]
  rw [W6_of_ne m ρ c main_arg6 (by decide)]
  have h5 : W5 m ρ c (Proc.devRef .tc main_arg6) = W4 m ρ c (Proc.devRef .tc main_arg6) := by
    show StableHlo.after main_part0_ops2 (W4 m ρ c) (Proc.devRef .tc main_arg6) = _
    generalize W4 m ρ c = X
    open StableHlo in after_results_simp
  rw [h5]
  rw [W4_of_ne m ρ c main_arg6 (by decide)]
  have h3 : W3 m ρ c (Proc.devRef .tc main_arg6) = W2 m ρ c (Proc.devRef .tc main_arg6) := by
    show StableHlo.after main_part0_ops1 (W2 m ρ c) (Proc.devRef .tc main_arg6) = _
    generalize W2 m ρ c = X
    open StableHlo in after_results_simp
  rw [h3]
  rw [W2_of_ne m ρ c main_arg6 (by decide)]
  have h1 : W1 m ρ c (Proc.devRef .tc main_arg6) = W0 m ρ c (Proc.devRef .tc main_arg6) := by
    show StableHlo.after main_part0_ops0 (W0 m ρ c) (Proc.devRef .tc main_arg6) = _
    generalize W0 m ρ c = X
    open StableHlo in after_results_simp
  rw [h1]

theorem W17_main_arg7 (c : Dev nD) : W17 m ρ c (Proc.devRef .tc main_arg7) = m ((c : Thread nD τ).loc main_arg7) := by
  have h17 : W17 m ρ c (Proc.devRef .tc main_arg7) = W14 m ρ c (Proc.devRef .tc main_arg7) := by
    show StableHlo.after main_part2_ops0 (StableHlo.after main_part1_ops0 (StableHlo.after main_part0_ops7 (W14 m ρ c))) (Proc.devRef .tc main_arg7) = _
    generalize W14 m ρ c = X
    open StableHlo in after_results_simp
  rw [h17]
  rw [W14_of_ne m ρ c main_arg7 (by decide)]
  have h13 : W13 m ρ c (Proc.devRef .tc main_arg7) = W12 m ρ c (Proc.devRef .tc main_arg7) := by
    show StableHlo.after main_part0_ops6 (W12 m ρ c) (Proc.devRef .tc main_arg7) = _
    generalize W12 m ρ c = X
    open StableHlo in after_results_simp
  rw [h13]
  rw [W12_of_ne m ρ c main_arg7 (by decide)]
  have h11 : W11 m ρ c (Proc.devRef .tc main_arg7) = W10 m ρ c (Proc.devRef .tc main_arg7) := by
    show StableHlo.after main_part0_ops5 (W10 m ρ c) (Proc.devRef .tc main_arg7) = _
    generalize W10 m ρ c = X
    open StableHlo in after_results_simp
  rw [h11]
  rw [W10_of_ne m ρ c main_arg7 (by decide)]
  have h9 : W9 m ρ c (Proc.devRef .tc main_arg7) = W8 m ρ c (Proc.devRef .tc main_arg7) := by
    show StableHlo.after main_part0_ops4 (W8 m ρ c) (Proc.devRef .tc main_arg7) = _
    generalize W8 m ρ c = X
    open StableHlo in after_results_simp
  rw [h9]
  rw [W8_of_ne m ρ c main_arg7 (by decide)]
  have h7 : W7 m ρ c (Proc.devRef .tc main_arg7) = W6 m ρ c (Proc.devRef .tc main_arg7) := by
    show StableHlo.after main_part0_ops3 (W6 m ρ c) (Proc.devRef .tc main_arg7) = _
    generalize W6 m ρ c = X
    open StableHlo in after_results_simp
  rw [h7]
  rw [W6_of_ne m ρ c main_arg7 (by decide)]
  have h5 : W5 m ρ c (Proc.devRef .tc main_arg7) = W4 m ρ c (Proc.devRef .tc main_arg7) := by
    show StableHlo.after main_part0_ops2 (W4 m ρ c) (Proc.devRef .tc main_arg7) = _
    generalize W4 m ρ c = X
    open StableHlo in after_results_simp
  rw [h5]
  rw [W4_of_ne m ρ c main_arg7 (by decide)]
  have h3 : W3 m ρ c (Proc.devRef .tc main_arg7) = W2 m ρ c (Proc.devRef .tc main_arg7) := by
    show StableHlo.after main_part0_ops1 (W2 m ρ c) (Proc.devRef .tc main_arg7) = _
    generalize W2 m ρ c = X
    open StableHlo in after_results_simp
  rw [h3]
  rw [W2_of_ne m ρ c main_arg7 (by decide)]
  have h1 : W1 m ρ c (Proc.devRef .tc main_arg7) = W0 m ρ c (Proc.devRef .tc main_arg7) := by
    show StableHlo.after main_part0_ops0 (W0 m ρ c) (Proc.devRef .tc main_arg7) = _
    generalize W0 m ρ c = X
    open StableHlo in after_results_simp
  rw [h1]

theorem W17_main_arg8 (c : Dev nD) : W17 m ρ c (Proc.devRef .tc main_arg8) = m ((c : Thread nD τ).loc main_arg8) := by
  have h17 : W17 m ρ c (Proc.devRef .tc main_arg8) = W14 m ρ c (Proc.devRef .tc main_arg8) := by
    show StableHlo.after main_part2_ops0 (StableHlo.after main_part1_ops0 (StableHlo.after main_part0_ops7 (W14 m ρ c))) (Proc.devRef .tc main_arg8) = _
    generalize W14 m ρ c = X
    open StableHlo in after_results_simp
  rw [h17]
  rw [W14_of_ne m ρ c main_arg8 (by decide)]
  have h13 : W13 m ρ c (Proc.devRef .tc main_arg8) = W12 m ρ c (Proc.devRef .tc main_arg8) := by
    show StableHlo.after main_part0_ops6 (W12 m ρ c) (Proc.devRef .tc main_arg8) = _
    generalize W12 m ρ c = X
    open StableHlo in after_results_simp
  rw [h13]
  rw [W12_of_ne m ρ c main_arg8 (by decide)]
  have h11 : W11 m ρ c (Proc.devRef .tc main_arg8) = W10 m ρ c (Proc.devRef .tc main_arg8) := by
    show StableHlo.after main_part0_ops5 (W10 m ρ c) (Proc.devRef .tc main_arg8) = _
    generalize W10 m ρ c = X
    open StableHlo in after_results_simp
  rw [h11]
  rw [W10_of_ne m ρ c main_arg8 (by decide)]
  have h9 : W9 m ρ c (Proc.devRef .tc main_arg8) = W8 m ρ c (Proc.devRef .tc main_arg8) := by
    show StableHlo.after main_part0_ops4 (W8 m ρ c) (Proc.devRef .tc main_arg8) = _
    generalize W8 m ρ c = X
    open StableHlo in after_results_simp
  rw [h9]
  rw [W8_of_ne m ρ c main_arg8 (by decide)]
  have h7 : W7 m ρ c (Proc.devRef .tc main_arg8) = W6 m ρ c (Proc.devRef .tc main_arg8) := by
    show StableHlo.after main_part0_ops3 (W6 m ρ c) (Proc.devRef .tc main_arg8) = _
    generalize W6 m ρ c = X
    open StableHlo in after_results_simp
  rw [h7]
  rw [W6_of_ne m ρ c main_arg8 (by decide)]
  have h5 : W5 m ρ c (Proc.devRef .tc main_arg8) = W4 m ρ c (Proc.devRef .tc main_arg8) := by
    show StableHlo.after main_part0_ops2 (W4 m ρ c) (Proc.devRef .tc main_arg8) = _
    generalize W4 m ρ c = X
    open StableHlo in after_results_simp
  rw [h5]
  rw [W4_of_ne m ρ c main_arg8 (by decide)]
  have h3 : W3 m ρ c (Proc.devRef .tc main_arg8) = W2 m ρ c (Proc.devRef .tc main_arg8) := by
    show StableHlo.after main_part0_ops1 (W2 m ρ c) (Proc.devRef .tc main_arg8) = _
    generalize W2 m ρ c = X
    open StableHlo in after_results_simp
  rw [h3]
  rw [W2_of_ne m ρ c main_arg8 (by decide)]
  have h1 : W1 m ρ c (Proc.devRef .tc main_arg8) = W0 m ρ c (Proc.devRef .tc main_arg8) := by
    show StableHlo.after main_part0_ops0 (W0 m ρ c) (Proc.devRef .tc main_arg8) = _
    generalize W0 m ρ c = X
    open StableHlo in after_results_simp
  rw [h1]

end Cert.KernelIdeal.Hand

end
-- ==== Proof.KISeg0.lean ====
/-
  Region 0 as a segment of the run: entered with every unscoped buffer at W1, left with them at W2. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points
import proofs.«180941_j14654428414616_1_alg».proof.Proof.KIFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg1.lean ====
/-
  Region 1 as a segment of the run: entered with every unscoped buffer at W3, left with them at W4. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points
import proofs.«180941_j14654428414616_1_alg».proof.Proof.KIFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg2.lean ====
/-
  Region 2 as a segment of the run: entered with every unscoped buffer at W5, left with them at W6. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points
import proofs.«180941_j14654428414616_1_alg».proof.Proof.KIFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg3.lean ====
/-
  Region 3 as a segment of the run: entered with every unscoped buffer at W7, left with them at W8. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points
import proofs.«180941_j14654428414616_1_alg».proof.Proof.KIFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (exitArr3 m ρ c) (exitRest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg4.lean ====
/-
  Region 4 as a segment of the run: entered with every unscoped buffer at W9, left with them at W10. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points
import proofs.«180941_j14654428414616_1_alg».proof.Proof.KIFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (exitArr4 m ρ c) (exitRest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg5.lean ====
/-
  Region 5 as a segment of the run: entered with every unscoped buffer at W11, left with them at W12. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points
import proofs.«180941_j14654428414616_1_alg».proof.Proof.KIFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (exitArr5 m ρ c) (exitRest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg6.lean ====
/-
  Region 6 as a segment of the run: entered with every unscoped buffer at W13, left with them at W14. Its arrays are
  split out of the unscoped buffers at entry and put back, at what the grid's write-backs leave, at the exit; the
  generator register goes into the kernel's invariant and comes back; nothing is owed; the kernel has no semaphore of
  its own.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points
import proofs.«180941_j14654428414616_1_alg».proof.Proof.KIFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (exitArr6 m ρ c) (exitRest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRun.lean ====
/-
  The run of the whole program: @main is seventeen segments — a stretch of host operations before each of the seven
  kernel regions, and three closing stretches — whose thread states chain from the launch to the return. Every weakly
  fair execution therefore terminates without a fault, and the final memory holds, at every unscoped buffer, the
  contents W17 of the fold; in particular every argument array is as launched.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points
import proofs.«180941_j14654428414616_1_alg».proof.Proof.KISeg0
import proofs.«180941_j14654428414616_1_alg».proof.Proof.KISeg1
import proofs.«180941_j14654428414616_1_alg».proof.Proof.KISeg2
import proofs.«180941_j14654428414616_1_alg».proof.Proof.KISeg3
import proofs.«180941_j14654428414616_1_alg».proof.Proof.KISeg4
import proofs.«180941_j14654428414616_1_alg».proof.Proof.KISeg5
import proofs.«180941_j14654428414616_1_alg».proof.Proof.KISeg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's segments in order. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .region (reg1 m ρ),
    .host (hseg main_part0_ops2 main_part0_ops2_sub main_part0_ops2_fresh (W4 m ρ)),
    .region (reg2 m ρ),
    .host (hseg main_part0_ops3 main_part0_ops3_sub main_part0_ops3_fresh (W6 m ρ)),
    .region (reg3 m ρ),
    .host (hseg main_part0_ops4 main_part0_ops4_sub main_part0_ops4_fresh (W8 m ρ)),
    .region (reg4 m ρ),
    .host (hseg main_part0_ops5 main_part0_ops5_sub main_part0_ops5_fresh (W10 m ρ)),
    .region (reg5 m ρ),
    .host (hseg main_part0_ops6 main_part0_ops6_sub main_part0_ops6_fresh (W12 m ρ)),
    .region (reg6 m ρ),
    .host (hseg main_part0_ops7 main_part0_ops7_sub main_part0_ops7_fresh (W14 m ρ)),
    .host (hseg main_part1_ops0 main_part1_ops0_sub main_part1_ops0_fresh (W15 m ρ)),
    .host (hseg main_part2_ops0 main_part2_ops0_sub main_part2_ops0_fresh (W16 m ρ)) ]

/-- @main is the run of the segments. -/
theorem main_run (c : Dev nD) : main (F := F) c = Pipeline.Seg.run (segs m ρ) := (main_chain_windows c).trans (by chain_rfl)

set_option backward.isDefEq.respectTransparency.types false in
/-- Every weakly fair execution of @main terminates, nothing faulting, with every unscoped buffer at the fold's last
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W17 m ρ c) ∗ ((∃ r, prngReg c r) ∗ ∃ W, owes (c : Thread nD τ) (0 : CellTallies nD τ sig Unit) W))
        ⊢ iprop((StableHlo.held (c : Thread nD τ) (Pipeline.ucRefs τ sig) (W17 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

/-- The frame: the program runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W17_main_arg0 m ρ c),
      (h c _ (mem_uc main_arg1 (by decide))).trans (W17_main_arg1 m ρ c),
      (h c _ (mem_uc main_arg2 (by decide))).trans (W17_main_arg2 m ρ c),
      (h c _ (mem_uc main_arg3 (by decide))).trans (W17_main_arg3 m ρ c),
      (h c _ (mem_uc main_arg4 (by decide))).trans (W17_main_arg4 m ρ c),
      (h c _ (mem_uc main_arg5 (by decide))).trans (W17_main_arg5 m ρ c),
      (h c _ (mem_uc main_arg6 (by decide))).trans (W17_main_arg6 m ρ c),
      (h c _ (mem_uc main_arg7 (by decide))).trans (W17_main_arg7 m ρ c),
      (h c _ (mem_uc main_arg8 (by decide))).trans (W17_main_arg8 m ρ c)⟩) (run_all m ρ)

end Cert.KernelIdeal.Hand

end
-- ==== Proof.KIKept.lean ====
/-
  Every argument array, read at any boundary of the fold, holds its launch contents: no stretch of host operations and no
  kernel region writes one.
-/
import proofs.«180941_j14654428414616_1_alg».proof.Proof.Gen.KernelIdeal.Launch
import proofs.«180941_j14654428414616_1_alg».proof.Proof.Gen.KernelIdeal.Skeleton
import proofs.«180941_j14654428414616_1_alg».proof.Proof.Gen.KernelIdeal.Points
import proofs.«180941_j14654428414616_1_alg».proof.Proof.KIFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W0_main_arg0 (c : Dev nD) : W0 m ρ c (Proc.devRef .tc main_arg0) = m ((c : Thread nD τ).loc main_arg0) := rfl
theorem W1_main_arg0' (c : Dev nD) : W1 m ρ c (Proc.devRef .tc main_arg0) = m ((c : Thread nD τ).loc main_arg0) := by
  refine Eq.trans ?_ (W0_main_arg0 m ρ c)
  show StableHlo.after main_part0_ops0 (W0 m ρ c) (Proc.devRef .tc main_arg0) = _
  generalize W0 m ρ c = X
  open StableHlo in after_results_simp
theorem W2_main_arg0' (c : Dev nD) : W2 m ρ c (Proc.devRef .tc main_arg0) = m ((c : Thread nD τ).loc main_arg0) :=
  (W2_of_ne m ρ c main_arg0 (by decide)).trans (W1_main_arg0' m ρ c)
theorem W3_main_arg0' (c : Dev nD) : W3 m ρ c (Proc.devRef .tc main_arg0) = m ((c : Thread nD τ).loc main_arg0) := by
  refine Eq.trans ?_ (W2_main_arg0' m ρ c)
  show StableHlo.after main_part0_ops1 (W2 m ρ c) (Proc.devRef .tc main_arg0) = _
  generalize W2 m ρ c = X
  open StableHlo in after_results_simp
theorem W4_main_arg0' (c : Dev nD) : W4 m ρ c (Proc.devRef .tc main_arg0) = m ((c : Thread nD τ).loc main_arg0) :=
  (W4_of_ne m ρ c main_arg0 (by decide)).trans (W3_main_arg0' m ρ c)
theorem W5_main_arg0' (c : Dev nD) : W5 m ρ c (Proc.devRef .tc main_arg0) = m ((c : Thread nD τ).loc main_arg0) := by
  refine Eq.trans ?_ (W4_main_arg0' m ρ c)
  show StableHlo.after main_part0_ops2 (W4 m ρ c) (Proc.devRef .tc main_arg0) = _
  generalize W4 m ρ c = X
  open StableHlo in after_results_simp
theorem W6_main_arg0' (c : Dev nD) : W6 m ρ c (Proc.devRef .tc main_arg0) = m ((c : Thread nD τ).loc main_arg0) :=
  (W6_of_ne m ρ c main_arg0 (by decide)).trans (W5_main_arg0' m ρ c)
theorem W7_main_arg0' (c : Dev nD) : W7 m ρ c (Proc.devRef .tc main_arg0) = m ((c : Thread nD τ).loc main_arg0) := by
  refine Eq.trans ?_ (W6_main_arg0' m ρ c)
  show StableHlo.after main_part0_ops3 (W6 m ρ c) (Proc.devRef .tc main_arg0) = _
  generalize W6 m ρ c = X
  open StableHlo in after_results_simp
theorem W8_main_arg0' (c : Dev nD) : W8 m ρ c (Proc.devRef .tc main_arg0) = m ((c : Thread nD τ).loc main_arg0) :=
  (W8_of_ne m ρ c main_arg0 (by decide)).trans (W7_main_arg0' m ρ c)
theorem W9_main_arg0' (c : Dev nD) : W9 m ρ c (Proc.devRef .tc main_arg0) = m ((c : Thread nD τ).loc main_arg0) := by
  refine Eq.trans ?_ (W8_main_arg0' m ρ c)
  show StableHlo.after main_part0_ops4 (W8 m ρ c) (Proc.devRef .tc main_arg0) = _
  generalize W8 m ρ c = X
  open StableHlo in after_results_simp
theorem W10_main_arg0' (c : Dev nD) : W10 m ρ c (Proc.devRef .tc main_arg0) = m ((c : Thread nD τ).loc main_arg0) :=
  (W10_of_ne m ρ c main_arg0 (by decide)).trans (W9_main_arg0' m ρ c)
theorem W11_main_arg0' (c : Dev nD) : W11 m ρ c (Proc.devRef .tc main_arg0) = m ((c : Thread nD τ).loc main_arg0) := by
  refine Eq.trans ?_ (W10_main_arg0' m ρ c)
  show StableHlo.after main_part0_ops5 (W10 m ρ c) (Proc.devRef .tc main_arg0) = _
  generalize W10 m ρ c = X
  open StableHlo in after_results_simp
theorem W12_main_arg0' (c : Dev nD) : W12 m ρ c (Proc.devRef .tc main_arg0) = m ((c : Thread nD τ).loc main_arg0) :=
  (W12_of_ne m ρ c main_arg0 (by decide)).trans (W11_main_arg0' m ρ c)
theorem W13_main_arg0' (c : Dev nD) : W13 m ρ c (Proc.devRef .tc main_arg0) = m ((c : Thread nD τ).loc main_arg0) := by
  refine Eq.trans ?_ (W12_main_arg0' m ρ c)
  show StableHlo.after main_part0_ops6 (W12 m ρ c) (Proc.devRef .tc main_arg0) = _
  generalize W12 m ρ c = X
  open StableHlo in after_results_simp
theorem W14_main_arg0' (c : Dev nD) : W14 m ρ c (Proc.devRef .tc main_arg0) = m ((c : Thread nD τ).loc main_arg0) :=
  (W14_of_ne m ρ c main_arg0 (by decide)).trans (W13_main_arg0' m ρ c)
theorem W15_main_arg0' (c : Dev nD) : W15 m ρ c (Proc.devRef .tc main_arg0) = m ((c : Thread nD τ).loc main_arg0) := by
  refine Eq.trans ?_ (W14_main_arg0' m ρ c)
  show StableHlo.after main_part0_ops7 (W14 m ρ c) (Proc.devRef .tc main_arg0) = _
  generalize W14 m ρ c = X
  open StableHlo in after_results_simp
theorem W16_main_arg0' (c : Dev nD) : W16 m ρ c (Proc.devRef .tc main_arg0) = m ((c : Thread nD τ).loc main_arg0) := by
  refine Eq.trans ?_ (W15_main_arg0' m ρ c)
  show StableHlo.after main_part1_ops0 (W15 m ρ c) (Proc.devRef .tc main_arg0) = _
  generalize W15 m ρ c = X
  open StableHlo in after_results_simp
theorem W17_main_arg0' (c : Dev nD) : W17 m ρ c (Proc.devRef .tc main_arg0) = m ((c : Thread nD τ).loc main_arg0) := by
  refine Eq.trans ?_ (W16_main_arg0' m ρ c)
  show StableHlo.after main_part2_ops0 (W16 m ρ c) (Proc.devRef .tc main_arg0) = _
  generalize W16 m ρ c = X
  open StableHlo in after_results_simp

theorem W0_main_arg1 (c : Dev nD) : W0 m ρ c (Proc.devRef .tc main_arg1) = m ((c : Thread nD τ).loc main_arg1) := rfl
theorem W1_main_arg1' (c : Dev nD) : W1 m ρ c (Proc.devRef .tc main_arg1) = m ((c : Thread nD τ).loc main_arg1) := by
  refine Eq.trans ?_ (W0_main_arg1 m ρ c)
  show StableHlo.after main_part0_ops0 (W0 m ρ c) (Proc.devRef .tc main_arg1) = _
  generalize W0 m ρ c = X
  open StableHlo in after_results_simp
theorem W2_main_arg1' (c : Dev nD) : W2 m ρ c (Proc.devRef .tc main_arg1) = m ((c : Thread nD τ).loc main_arg1) :=
  (W2_of_ne m ρ c main_arg1 (by decide)).trans (W1_main_arg1' m ρ c)
theorem W3_main_arg1' (c : Dev nD) : W3 m ρ c (Proc.devRef .tc main_arg1) = m ((c : Thread nD τ).loc main_arg1) := by
  refine Eq.trans ?_ (W2_main_arg1' m ρ c)
  show StableHlo.after main_part0_ops1 (W2 m ρ c) (Proc.devRef .tc main_arg1) = _
  generalize W2 m ρ c = X
  open StableHlo in after_results_simp
theorem W4_main_arg1' (c : Dev nD) : W4 m ρ c (Proc.devRef .tc main_arg1) = m ((c : Thread nD τ).loc main_arg1) :=
  (W4_of_ne m ρ c main_arg1 (by decide)).trans (W3_main_arg1' m ρ c)
theorem W5_main_arg1' (c : Dev nD) : W5 m ρ c (Proc.devRef .tc main_arg1) = m ((c : Thread nD τ).loc main_arg1) := by
  refine Eq.trans ?_ (W4_main_arg1' m ρ c)
  show StableHlo.after main_part0_ops2 (W4 m ρ c) (Proc.devRef .tc main_arg1) = _
  generalize W4 m ρ c = X
  open StableHlo in after_results_simp
theorem W6_main_arg1' (c : Dev nD) : W6 m ρ c (Proc.devRef .tc main_arg1) = m ((c : Thread nD τ).loc main_arg1) :=
  (W6_of_ne m ρ c main_arg1 (by decide)).trans (W5_main_arg1' m ρ c)
theorem W7_main_arg1' (c : Dev nD) : W7 m ρ c (Proc.devRef .tc main_arg1) = m ((c : Thread nD τ).loc main_arg1) := by
  refine Eq.trans ?_ (W6_main_arg1' m ρ c)
  show StableHlo.after main_part0_ops3 (W6 m ρ c) (Proc.devRef .tc main_arg1) = _
  generalize W6 m ρ c = X
  open StableHlo in after_results_simp
theorem W8_main_arg1' (c : Dev nD) : W8 m ρ c (Proc.devRef .tc main_arg1) = m ((c : Thread nD τ).loc main_arg1) :=
  (W8_of_ne m ρ c main_arg1 (by decide)).trans (W7_main_arg1' m ρ c)
theorem W9_main_arg1' (c : Dev nD) : W9 m ρ c (Proc.devRef .tc main_arg1) = m ((c : Thread nD τ).loc main_arg1) := by
  refine Eq.trans ?_ (W8_main_arg1' m ρ c)
  show StableHlo.after main_part0_ops4 (W8 m ρ c) (Proc.devRef .tc main_arg1) = _
  generalize W8 m ρ c = X
  open StableHlo in after_results_simp
theorem W10_main_arg1' (c : Dev nD) : W10 m ρ c (Proc.devRef .tc main_arg1) = m ((c : Thread nD τ).loc main_arg1) :=
  (W10_of_ne m ρ c main_arg1 (by decide)).trans (W9_main_arg1' m ρ c)
theorem W11_main_arg1' (c : Dev nD) : W11 m ρ c (Proc.devRef .tc main_arg1) = m ((c : Thread nD τ).loc main_arg1) := by
  refine Eq.trans ?_ (W10_main_arg1' m ρ c)
  show StableHlo.after main_part0_ops5 (W10 m ρ c) (Proc.devRef .tc main_arg1) = _
  generalize W10 m ρ c = X
  open StableHlo in after_results_simp
theorem W12_main_arg1' (c : Dev nD) : W12 m ρ c (Proc.devRef .tc main_arg1) = m ((c : Thread nD τ).loc main_arg1) :=
  (W12_of_ne m ρ c main_arg1 (by decide)).trans (W11_main_arg1' m ρ c)
theorem W13_main_arg1' (c : Dev nD) : W13 m ρ c (Proc.devRef .tc main_arg1) = m ((c : Thread nD τ).loc main_arg1) := by
  refine Eq.trans ?_ (W12_main_arg1' m ρ c)
  show StableHlo.after main_part0_ops6 (W12 m ρ c) (Proc.devRef .tc main_arg1) = _
  generalize W12 m ρ c = X
  open StableHlo in after_results_simp
theorem W14_main_arg1' (c : Dev nD) : W14 m ρ c (Proc.devRef .tc main_arg1) = m ((c : Thread nD τ).loc main_arg1) :=
  (W14_of_ne m ρ c main_arg1 (by decide)).trans (W13_main_arg1' m ρ c)
theorem W15_main_arg1' (c : Dev nD) : W15 m ρ c (Proc.devRef .tc main_arg1) = m ((c : Thread nD τ).loc main_arg1) := by
  refine Eq.trans ?_ (W14_main_arg1' m ρ c)
  show StableHlo.after main_part0_ops7 (W14 m ρ c) (Proc.devRef .tc main_arg1) = _
  generalize W14 m ρ c = X
  open StableHlo in after_results_simp
theorem W16_main_arg1' (c : Dev nD) : W16 m ρ c (Proc.devRef .tc main_arg1) = m ((c : Thread nD τ).loc main_arg1) := by
  refine Eq.trans ?_ (W15_main_arg1' m ρ c)
  show StableHlo.after main_part1_ops0 (W15 m ρ c) (Proc.devRef .tc main_arg1) = _
  generalize W15 m ρ c = X
  open StableHlo in after_results_simp
theorem W17_main_arg1' (c : Dev nD) : W17 m ρ c (Proc.devRef .tc main_arg1) = m ((c : Thread nD τ).loc main_arg1) := by
  refine Eq.trans ?_ (W16_main_arg1' m ρ c)
  show StableHlo.after main_part2_ops0 (W16 m ρ c) (Proc.devRef .tc main_arg1) = _
  generalize W16 m ρ c = X
  open StableHlo in after_results_simp

theorem W0_main_arg2 (c : Dev nD) : W0 m ρ c (Proc.devRef .tc main_arg2) = m ((c : Thread nD τ).loc main_arg2) := rfl
theorem W1_main_arg2' (c : Dev nD) : W1 m ρ c (Proc.devRef .tc main_arg2) = m ((c : Thread nD τ).loc main_arg2) := by
  refine Eq.trans ?_ (W0_main_arg2 m ρ c)
  show StableHlo.after main_part0_ops0 (W0 m ρ c) (Proc.devRef .tc main_arg2) = _
  generalize W0 m ρ c = X
  open StableHlo in after_results_simp
theorem W2_main_arg2' (c : Dev nD) : W2 m ρ c (Proc.devRef .tc main_arg2) = m ((c : Thread nD τ).loc main_arg2) :=
  (W2_of_ne m ρ c main_arg2 (by decide)).trans (W1_main_arg2' m ρ c)
theorem W3_main_arg2' (c : Dev nD) : W3 m ρ c (Proc.devRef .tc main_arg2) = m ((c : Thread nD τ).loc main_arg2) := by
  refine Eq.trans ?_ (W2_main_arg2' m ρ c)
  show StableHlo.after main_part0_ops1 (W2 m ρ c) (Proc.devRef .tc main_arg2) = _
  generalize W2 m ρ c = X
  open StableHlo in after_results_simp
theorem W4_main_arg2' (c : Dev nD) : W4 m ρ c (Proc.devRef .tc main_arg2) = m ((c : Thread nD τ).loc main_arg2) :=
  (W4_of_ne m ρ c main_arg2 (by decide)).trans (W3_main_arg2' m ρ c)
theorem W5_main_arg2' (c : Dev nD) : W5 m ρ c (Proc.devRef .tc main_arg2) = m ((c : Thread nD τ).loc main_arg2) := by
  refine Eq.trans ?_ (W4_main_arg2' m ρ c)
  show StableHlo.after main_part0_ops2 (W4 m ρ c) (Proc.devRef .tc main_arg2) = _
  generalize W4 m ρ c = X
  open StableHlo in after_results_simp
theorem W6_main_arg2' (c : Dev nD) : W6 m ρ c (Proc.devRef .tc main_arg2) = m ((c : Thread nD τ).loc main_arg2) :=
  (W6_of_ne m ρ c main_arg2 (by decide)).trans (W5_main_arg2' m ρ c)
theorem W7_main_arg2' (c : Dev nD) : W7 m ρ c (Proc.devRef .tc main_arg2) = m ((c : Thread nD τ).loc main_arg2) := by
  refine Eq.trans ?_ (W6_main_arg2' m ρ c)
  show StableHlo.after main_part0_ops3 (W6 m ρ c) (Proc.devRef .tc main_arg2) = _
  generalize W6 m ρ c = X
  open StableHlo in after_results_simp
theorem W8_main_arg2' (c : Dev nD) : W8 m ρ c (Proc.devRef .tc main_arg2) = m ((c : Thread nD τ).loc main_arg2) :=
  (W8_of_ne m ρ c main_arg2 (by decide)).trans (W7_main_arg2' m ρ c)
theorem W9_main_arg2' (c : Dev nD) : W9 m ρ c (Proc.devRef .tc main_arg2) = m ((c : Thread nD τ).loc main_arg2) := by
  refine Eq.trans ?_ (W8_main_arg2' m ρ c)
  show StableHlo.after main_part0_ops4 (W8 m ρ c) (Proc.devRef .tc main_arg2) = _
  generalize W8 m ρ c = X
  open StableHlo in after_results_simp
theorem W10_main_arg2' (c : Dev nD) : W10 m ρ c (Proc.devRef .tc main_arg2) = m ((c : Thread nD τ).loc main_arg2) :=
  (W10_of_ne m ρ c main_arg2 (by decide)).trans (W9_main_arg2' m ρ c)
theorem W11_main_arg2' (c : Dev nD) : W11 m ρ c (Proc.devRef .tc main_arg2) = m ((c : Thread nD τ).loc main_arg2) := by
  refine Eq.trans ?_ (W10_main_arg2' m ρ c)
  show StableHlo.after main_part0_ops5 (W10 m ρ c) (Proc.devRef .tc main_arg2) = _
  generalize W10 m ρ c = X
  open StableHlo in after_results_simp
theorem W12_main_arg2' (c : Dev nD) : W12 m ρ c (Proc.devRef .tc main_arg2) = m ((c : Thread nD τ).loc main_arg2) :=
  (W12_of_ne m ρ c main_arg2 (by decide)).trans (W11_main_arg2' m ρ c)
theorem W13_main_arg2' (c : Dev nD) : W13 m ρ c (Proc.devRef .tc main_arg2) = m ((c : Thread nD τ).loc main_arg2) := by
  refine Eq.trans ?_ (W12_main_arg2' m ρ c)
  show StableHlo.after main_part0_ops6 (W12 m ρ c) (Proc.devRef .tc main_arg2) = _
  generalize W12 m ρ c = X
  open StableHlo in after_results_simp
theorem W14_main_arg2' (c : Dev nD) : W14 m ρ c (Proc.devRef .tc main_arg2) = m ((c : Thread nD τ).loc main_arg2) :=
  (W14_of_ne m ρ c main_arg2 (by decide)).trans (W13_main_arg2' m ρ c)
theorem W15_main_arg2' (c : Dev nD) : W15 m ρ c (Proc.devRef .tc main_arg2) = m ((c : Thread nD τ).loc main_arg2) := by
  refine Eq.trans ?_ (W14_main_arg2' m ρ c)
  show StableHlo.after main_part0_ops7 (W14 m ρ c) (Proc.devRef .tc main_arg2) = _
  generalize W14 m ρ c = X
  open StableHlo in after_results_simp
theorem W16_main_arg2' (c : Dev nD) : W16 m ρ c (Proc.devRef .tc main_arg2) = m ((c : Thread nD τ).loc main_arg2) := by
  refine Eq.trans ?_ (W15_main_arg2' m ρ c)
  show StableHlo.after main_part1_ops0 (W15 m ρ c) (Proc.devRef .tc main_arg2) = _
  generalize W15 m ρ c = X
  open StableHlo in after_results_simp
theorem W17_main_arg2' (c : Dev nD) : W17 m ρ c (Proc.devRef .tc main_arg2) = m ((c : Thread nD τ).loc main_arg2) := by
  refine Eq.trans ?_ (W16_main_arg2' m ρ c)
  show StableHlo.after main_part2_ops0 (W16 m ρ c) (Proc.devRef .tc main_arg2) = _
  generalize W16 m ρ c = X
  open StableHlo in after_results_simp

theorem W0_main_arg3 (c : Dev nD) : W0 m ρ c (Proc.devRef .tc main_arg3) = m ((c : Thread nD τ).loc main_arg3) := rfl
theorem W1_main_arg3' (c : Dev nD) : W1 m ρ c (Proc.devRef .tc main_arg3) = m ((c : Thread nD τ).loc main_arg3) := by
  refine Eq.trans ?_ (W0_main_arg3 m ρ c)
  show StableHlo.after main_part0_ops0 (W0 m ρ c) (Proc.devRef .tc main_arg3) = _
  generalize W0 m ρ c = X
  open StableHlo in after_results_simp
theorem W2_main_arg3' (c : Dev nD) : W2 m ρ c (Proc.devRef .tc main_arg3) = m ((c : Thread nD τ).loc main_arg3) :=
  (W2_of_ne m ρ c main_arg3 (by decide)).trans (W1_main_arg3' m ρ c)
theorem W3_main_arg3' (c : Dev nD) : W3 m ρ c (Proc.devRef .tc main_arg3) = m ((c : Thread nD τ).loc main_arg3) := by
  refine Eq.trans ?_ (W2_main_arg3' m ρ c)
  show StableHlo.after main_part0_ops1 (W2 m ρ c) (Proc.devRef .tc main_arg3) = _
  generalize W2 m ρ c = X
  open StableHlo in after_results_simp
theorem W4_main_arg3' (c : Dev nD) : W4 m ρ c (Proc.devRef .tc main_arg3) = m ((c : Thread nD τ).loc main_arg3) :=
  (W4_of_ne m ρ c main_arg3 (by decide)).trans (W3_main_arg3' m ρ c)
theorem W5_main_arg3' (c : Dev nD) : W5 m ρ c (Proc.devRef .tc main_arg3) = m ((c : Thread nD τ).loc main_arg3) := by
  refine Eq.trans ?_ (W4_main_arg3' m ρ c)
  show StableHlo.after main_part0_ops2 (W4 m ρ c) (Proc.devRef .tc main_arg3) = _
  generalize W4 m ρ c = X
  open StableHlo in after_results_simp
theorem W6_main_arg3' (c : Dev nD) : W6 m ρ c (Proc.devRef .tc main_arg3) = m ((c : Thread nD τ).loc main_arg3) :=
  (W6_of_ne m ρ c main_arg3 (by decide)).trans (W5_main_arg3' m ρ c)
theorem W7_main_arg3' (c : Dev nD) : W7 m ρ c (Proc.devRef .tc main_arg3) = m ((c : Thread nD τ).loc main_arg3) := by
  refine Eq.trans ?_ (W6_main_arg3' m ρ c)
  show StableHlo.after main_part0_ops3 (W6 m ρ c) (Proc.devRef .tc main_arg3) = _
  generalize W6 m ρ c = X
  open StableHlo in after_results_simp
theorem W8_main_arg3' (c : Dev nD) : W8 m ρ c (Proc.devRef .tc main_arg3) = m ((c : Thread nD τ).loc main_arg3) :=
  (W8_of_ne m ρ c main_arg3 (by decide)).trans (W7_main_arg3' m ρ c)
theorem W9_main_arg3' (c : Dev nD) : W9 m ρ c (Proc.devRef .tc main_arg3) = m ((c : Thread nD τ).loc main_arg3) := by
  refine Eq.trans ?_ (W8_main_arg3' m ρ c)
  show StableHlo.after main_part0_ops4 (W8 m ρ c) (Proc.devRef .tc main_arg3) = _
  generalize W8 m ρ c = X
  open StableHlo in after_results_simp
theorem W10_main_arg3' (c : Dev nD) : W10 m ρ c (Proc.devRef .tc main_arg3) = m ((c : Thread nD τ).loc main_arg3) :=
  (W10_of_ne m ρ c main_arg3 (by decide)).trans (W9_main_arg3' m ρ c)
theorem W11_main_arg3' (c : Dev nD) : W11 m ρ c (Proc.devRef .tc main_arg3) = m ((c : Thread nD τ).loc main_arg3) := by
  refine Eq.trans ?_ (W10_main_arg3' m ρ c)
  show StableHlo.after main_part0_ops5 (W10 m ρ c) (Proc.devRef .tc main_arg3) = _
  generalize W10 m ρ c = X
  open StableHlo in after_results_simp
theorem W12_main_arg3' (c : Dev nD) : W12 m ρ c (Proc.devRef .tc main_arg3) = m ((c : Thread nD τ).loc main_arg3) :=
  (W12_of_ne m ρ c main_arg3 (by decide)).trans (W11_main_arg3' m ρ c)
theorem W13_main_arg3' (c : Dev nD) : W13 m ρ c (Proc.devRef .tc main_arg3) = m ((c : Thread nD τ).loc main_arg3) := by
  refine Eq.trans ?_ (W12_main_arg3' m ρ c)
  show StableHlo.after main_part0_ops6 (W12 m ρ c) (Proc.devRef .tc main_arg3) = _
  generalize W12 m ρ c = X
  open StableHlo in after_results_simp
theorem W14_main_arg3' (c : Dev nD) : W14 m ρ c (Proc.devRef .tc main_arg3) = m ((c : Thread nD τ).loc main_arg3) :=
  (W14_of_ne m ρ c main_arg3 (by decide)).trans (W13_main_arg3' m ρ c)
theorem W15_main_arg3' (c : Dev nD) : W15 m ρ c (Proc.devRef .tc main_arg3) = m ((c : Thread nD τ).loc main_arg3) := by
  refine Eq.trans ?_ (W14_main_arg3' m ρ c)
  show StableHlo.after main_part0_ops7 (W14 m ρ c) (Proc.devRef .tc main_arg3) = _
  generalize W14 m ρ c = X
  open StableHlo in after_results_simp
theorem W16_main_arg3' (c : Dev nD) : W16 m ρ c (Proc.devRef .tc main_arg3) = m ((c : Thread nD τ).loc main_arg3) := by
  refine Eq.trans ?_ (W15_main_arg3' m ρ c)
  show StableHlo.after main_part1_ops0 (W15 m ρ c) (Proc.devRef .tc main_arg3) = _
  generalize W15 m ρ c = X
  open StableHlo in after_results_simp
theorem W17_main_arg3' (c : Dev nD) : W17 m ρ c (Proc.devRef .tc main_arg3) = m ((c : Thread nD τ).loc main_arg3) := by
  refine Eq.trans ?_ (W16_main_arg3' m ρ c)
  show StableHlo.after main_part2_ops0 (W16 m ρ c) (Proc.devRef .tc main_arg3) = _
  generalize W16 m ρ c = X
  open StableHlo in after_results_simp

theorem W0_main_arg4 (c : Dev nD) : W0 m ρ c (Proc.devRef .tc main_arg4) = m ((c : Thread nD τ).loc main_arg4) := rfl
theorem W1_main_arg4' (c : Dev nD) : W1 m ρ c (Proc.devRef .tc main_arg4) = m ((c : Thread nD τ).loc main_arg4) := by
  refine Eq.trans ?_ (W0_main_arg4 m ρ c)
  show StableHlo.after main_part0_ops0 (W0 m ρ c) (Proc.devRef .tc main_arg4) = _
  generalize W0 m ρ c = X
  open StableHlo in after_results_simp
theorem W2_main_arg4' (c : Dev nD) : W2 m ρ c (Proc.devRef .tc main_arg4) = m ((c : Thread nD τ).loc main_arg4) :=
  (W2_of_ne m ρ c main_arg4 (by decide)).trans (W1_main_arg4' m ρ c)
theorem W3_main_arg4' (c : Dev nD) : W3 m ρ c (Proc.devRef .tc main_arg4) = m ((c : Thread nD τ).loc main_arg4) := by
  refine Eq.trans ?_ (W2_main_arg4' m ρ c)
  show StableHlo.after main_part0_ops1 (W2 m ρ c) (Proc.devRef .tc main_arg4) = _
  generalize W2 m ρ c = X
  open StableHlo in after_results_simp
theorem W4_main_arg4' (c : Dev nD) : W4 m ρ c (Proc.devRef .tc main_arg4) = m ((c : Thread nD τ).loc main_arg4) :=
  (W4_of_ne m ρ c main_arg4 (by decide)).trans (W3_main_arg4' m ρ c)
theorem W5_main_arg4' (c : Dev nD) : W5 m ρ c (Proc.devRef .tc main_arg4) = m ((c : Thread nD τ).loc main_arg4) := by
  refine Eq.trans ?_ (W4_main_arg4' m ρ c)
  show StableHlo.after main_part0_ops2 (W4 m ρ c) (Proc.devRef .tc main_arg4) = _
  generalize W4 m ρ c = X
  open StableHlo in after_results_simp
theorem W6_main_arg4' (c : Dev nD) : W6 m ρ c (Proc.devRef .tc main_arg4) = m ((c : Thread nD τ).loc main_arg4) :=
  (W6_of_ne m ρ c main_arg4 (by decide)).trans (W5_main_arg4' m ρ c)
theorem W7_main_arg4' (c : Dev nD) : W7 m ρ c (Proc.devRef .tc main_arg4) = m ((c : Thread nD τ).loc main_arg4) := by
  refine Eq.trans ?_ (W6_main_arg4' m ρ c)
  show StableHlo.after main_part0_ops3 (W6 m ρ c) (Proc.devRef .tc main_arg4) = _
  generalize W6 m ρ c = X
  open StableHlo in after_results_simp
theorem W8_main_arg4' (c : Dev nD) : W8 m ρ c (Proc.devRef .tc main_arg4) = m ((c : Thread nD τ).loc main_arg4) :=
  (W8_of_ne m ρ c main_arg4 (by decide)).trans (W7_main_arg4' m ρ c)
theorem W9_main_arg4' (c : Dev nD) : W9 m ρ c (Proc.devRef .tc main_arg4) = m ((c : Thread nD τ).loc main_arg4) := by
  refine Eq.trans ?_ (W8_main_arg4' m ρ c)
  show StableHlo.after main_part0_ops4 (W8 m ρ c) (Proc.devRef .tc main_arg4) = _
  generalize W8 m ρ c = X
  open StableHlo in after_results_simp
theorem W10_main_arg4' (c : Dev nD) : W10 m ρ c (Proc.devRef .tc main_arg4) = m ((c : Thread nD τ).loc main_arg4) :=
  (W10_of_ne m ρ c main_arg4 (by decide)).trans (W9_main_arg4' m ρ c)
theorem W11_main_arg4' (c : Dev nD) : W11 m ρ c (Proc.devRef .tc main_arg4) = m ((c : Thread nD τ).loc main_arg4) := by
  refine Eq.trans ?_ (W10_main_arg4' m ρ c)
  show StableHlo.after main_part0_ops5 (W10 m ρ c) (Proc.devRef .tc main_arg4) = _
  generalize W10 m ρ c = X
  open StableHlo in after_results_simp
theorem W12_main_arg4' (c : Dev nD) : W12 m ρ c (Proc.devRef .tc main_arg4) = m ((c : Thread nD τ).loc main_arg4) :=
  (W12_of_ne m ρ c main_arg4 (by decide)).trans (W11_main_arg4' m ρ c)
theorem W13_main_arg4' (c : Dev nD) : W13 m ρ c (Proc.devRef .tc main_arg4) = m ((c : Thread nD τ).loc main_arg4) := by
  refine Eq.trans ?_ (W12_main_arg4' m ρ c)
  show StableHlo.after main_part0_ops6 (W12 m ρ c) (Proc.devRef .tc main_arg4) = _
  generalize W12 m ρ c = X
  open StableHlo in after_results_simp
theorem W14_main_arg4' (c : Dev nD) : W14 m ρ c (Proc.devRef .tc main_arg4) = m ((c : Thread nD τ).loc main_arg4) :=
  (W14_of_ne m ρ c main_arg4 (by decide)).trans (W13_main_arg4' m ρ c)
theorem W15_main_arg4' (c : Dev nD) : W15 m ρ c (Proc.devRef .tc main_arg4) = m ((c : Thread nD τ).loc main_arg4) := by
  refine Eq.trans ?_ (W14_main_arg4' m ρ c)
  show StableHlo.after main_part0_ops7 (W14 m ρ c) (Proc.devRef .tc main_arg4) = _
  generalize W14 m ρ c = X
  open StableHlo in after_results_simp
theorem W16_main_arg4' (c : Dev nD) : W16 m ρ c (Proc.devRef .tc main_arg4) = m ((c : Thread nD τ).loc main_arg4) := by
  refine Eq.trans ?_ (W15_main_arg4' m ρ c)
  show StableHlo.after main_part1_ops0 (W15 m ρ c) (Proc.devRef .tc main_arg4) = _
  generalize W15 m ρ c = X
  open StableHlo in after_results_simp
theorem W17_main_arg4' (c : Dev nD) : W17 m ρ c (Proc.devRef .tc main_arg4) = m ((c : Thread nD τ).loc main_arg4) := by
  refine Eq.trans ?_ (W16_main_arg4' m ρ c)
  show StableHlo.after main_part2_ops0 (W16 m ρ c) (Proc.devRef .tc main_arg4) = _
  generalize W16 m ρ c = X
  open StableHlo in after_results_simp

theorem W0_main_arg5 (c : Dev nD) : W0 m ρ c (Proc.devRef .tc main_arg5) = m ((c : Thread nD τ).loc main_arg5) := rfl
theorem W1_main_arg5' (c : Dev nD) : W1 m ρ c (Proc.devRef .tc main_arg5) = m ((c : Thread nD τ).loc main_arg5) := by
  refine Eq.trans ?_ (W0_main_arg5 m ρ c)
  show StableHlo.after main_part0_ops0 (W0 m ρ c) (Proc.devRef .tc main_arg5) = _
  generalize W0 m ρ c = X
  open StableHlo in after_results_simp
theorem W2_main_arg5' (c : Dev nD) : W2 m ρ c (Proc.devRef .tc main_arg5) = m ((c : Thread nD τ).loc main_arg5) :=
  (W2_of_ne m ρ c main_arg5 (by decide)).trans (W1_main_arg5' m ρ c)
theorem W3_main_arg5' (c : Dev nD) : W3 m ρ c (Proc.devRef .tc main_arg5) = m ((c : Thread nD τ).loc main_arg5) := by
  refine Eq.trans ?_ (W2_main_arg5' m ρ c)
  show StableHlo.after main_part0_ops1 (W2 m ρ c) (Proc.devRef .tc main_arg5) = _
  generalize W2 m ρ c = X
  open StableHlo in after_results_simp
theorem W4_main_arg5' (c : Dev nD) : W4 m ρ c (Proc.devRef .tc main_arg5) = m ((c : Thread nD τ).loc main_arg5) :=
  (W4_of_ne m ρ c main_arg5 (by decide)).trans (W3_main_arg5' m ρ c)
theorem W5_main_arg5' (c : Dev nD) : W5 m ρ c (Proc.devRef .tc main_arg5) = m ((c : Thread nD τ).loc main_arg5) := by
  refine Eq.trans ?_ (W4_main_arg5' m ρ c)
  show StableHlo.after main_part0_ops2 (W4 m ρ c) (Proc.devRef .tc main_arg5) = _
  generalize W4 m ρ c = X
  open StableHlo in after_results_simp
theorem W6_main_arg5' (c : Dev nD) : W6 m ρ c (Proc.devRef .tc main_arg5) = m ((c : Thread nD τ).loc main_arg5) :=
  (W6_of_ne m ρ c main_arg5 (by decide)).trans (W5_main_arg5' m ρ c)
theorem W7_main_arg5' (c : Dev nD) : W7 m ρ c (Proc.devRef .tc main_arg5) = m ((c : Thread nD τ).loc main_arg5) := by
  refine Eq.trans ?_ (W6_main_arg5' m ρ c)
  show StableHlo.after main_part0_ops3 (W6 m ρ c) (Proc.devRef .tc main_arg5) = _
  generalize W6 m ρ c = X
  open StableHlo in after_results_simp
theorem W8_main_arg5' (c : Dev nD) : W8 m ρ c (Proc.devRef .tc main_arg5) = m ((c : Thread nD τ).loc main_arg5) :=
  (W8_of_ne m ρ c main_arg5 (by decide)).trans (W7_main_arg5' m ρ c)
theorem W9_main_arg5' (c : Dev nD) : W9 m ρ c (Proc.devRef .tc main_arg5) = m ((c : Thread nD τ).loc main_arg5) := by
  refine Eq.trans ?_ (W8_main_arg5' m ρ c)
  show StableHlo.after main_part0_ops4 (W8 m ρ c) (Proc.devRef .tc main_arg5) = _
  generalize W8 m ρ c = X
  open StableHlo in after_results_simp
theorem W10_main_arg5' (c : Dev nD) : W10 m ρ c (Proc.devRef .tc main_arg5) = m ((c : Thread nD τ).loc main_arg5) :=
  (W10_of_ne m ρ c main_arg5 (by decide)).trans (W9_main_arg5' m ρ c)
theorem W11_main_arg5' (c : Dev nD) : W11 m ρ c (Proc.devRef .tc main_arg5) = m ((c : Thread nD τ).loc main_arg5) := by
  refine Eq.trans ?_ (W10_main_arg5' m ρ c)
  show StableHlo.after main_part0_ops5 (W10 m ρ c) (Proc.devRef .tc main_arg5) = _
  generalize W10 m ρ c = X
  open StableHlo in after_results_simp
theorem W12_main_arg5' (c : Dev nD) : W12 m ρ c (Proc.devRef .tc main_arg5) = m ((c : Thread nD τ).loc main_arg5) :=
  (W12_of_ne m ρ c main_arg5 (by decide)).trans (W11_main_arg5' m ρ c)
theorem W13_main_arg5' (c : Dev nD) : W13 m ρ c (Proc.devRef .tc main_arg5) = m ((c : Thread nD τ).loc main_arg5) := by
  refine Eq.trans ?_ (W12_main_arg5' m ρ c)
  show StableHlo.after main_part0_ops6 (W12 m ρ c) (Proc.devRef .tc main_arg5) = _
  generalize W12 m ρ c = X
  open StableHlo in after_results_simp
theorem W14_main_arg5' (c : Dev nD) : W14 m ρ c (Proc.devRef .tc main_arg5) = m ((c : Thread nD τ).loc main_arg5) :=
  (W14_of_ne m ρ c main_arg5 (by decide)).trans (W13_main_arg5' m ρ c)
theorem W15_main_arg5' (c : Dev nD) : W15 m ρ c (Proc.devRef .tc main_arg5) = m ((c : Thread nD τ).loc main_arg5) := by
  refine Eq.trans ?_ (W14_main_arg5' m ρ c)
  show StableHlo.after main_part0_ops7 (W14 m ρ c) (Proc.devRef .tc main_arg5) = _
  generalize W14 m ρ c = X
  open StableHlo in after_results_simp
theorem W16_main_arg5' (c : Dev nD) : W16 m ρ c (Proc.devRef .tc main_arg5) = m ((c : Thread nD τ).loc main_arg5) := by
  refine Eq.trans ?_ (W15_main_arg5' m ρ c)
  show StableHlo.after main_part1_ops0 (W15 m ρ c) (Proc.devRef .tc main_arg5) = _
  generalize W15 m ρ c = X
  open StableHlo in after_results_simp
theorem W17_main_arg5' (c : Dev nD) : W17 m ρ c (Proc.devRef .tc main_arg5) = m ((c : Thread nD τ).loc main_arg5) := by
  refine Eq.trans ?_ (W16_main_arg5' m ρ c)
  show StableHlo.after main_part2_ops0 (W16 m ρ c) (Proc.devRef .tc main_arg5) = _
  generalize W16 m ρ c = X
  open StableHlo in after_results_simp

theorem W0_main_arg6 (c : Dev nD) : W0 m ρ c (Proc.devRef .tc main_arg6) = m ((c : Thread nD τ).loc main_arg6) := rfl
theorem W1_main_arg6' (c : Dev nD) : W1 m ρ c (Proc.devRef .tc main_arg6) = m ((c : Thread nD τ).loc main_arg6) := by
  refine Eq.trans ?_ (W0_main_arg6 m ρ c)
  show StableHlo.after main_part0_ops0 (W0 m ρ c) (Proc.devRef .tc main_arg6) = _
  generalize W0 m ρ c = X
  open StableHlo in after_results_simp
theorem W2_main_arg6' (c : Dev nD) : W2 m ρ c (Proc.devRef .tc main_arg6) = m ((c : Thread nD τ).loc main_arg6) :=
  (W2_of_ne m ρ c main_arg6 (by decide)).trans (W1_main_arg6' m ρ c)
theorem W3_main_arg6' (c : Dev nD) : W3 m ρ c (Proc.devRef .tc main_arg6) = m ((c : Thread nD τ).loc main_arg6) := by
  refine Eq.trans ?_ (W2_main_arg6' m ρ c)
  show StableHlo.after main_part0_ops1 (W2 m ρ c) (Proc.devRef .tc main_arg6) = _
  generalize W2 m ρ c = X
  open StableHlo in after_results_simp
theorem W4_main_arg6' (c : Dev nD) : W4 m ρ c (Proc.devRef .tc main_arg6) = m ((c : Thread nD τ).loc main_arg6) :=
  (W4_of_ne m ρ c main_arg6 (by decide)).trans (W3_main_arg6' m ρ c)
theorem W5_main_arg6' (c : Dev nD) : W5 m ρ c (Proc.devRef .tc main_arg6) = m ((c : Thread nD τ).loc main_arg6) := by
  refine Eq.trans ?_ (W4_main_arg6' m ρ c)
  show StableHlo.after main_part0_ops2 (W4 m ρ c) (Proc.devRef .tc main_arg6) = _
  generalize W4 m ρ c = X
  open StableHlo in after_results_simp
theorem W6_main_arg6' (c : Dev nD) : W6 m ρ c (Proc.devRef .tc main_arg6) = m ((c : Thread nD τ).loc main_arg6) :=
  (W6_of_ne m ρ c main_arg6 (by decide)).trans (W5_main_arg6' m ρ c)
theorem W7_main_arg6' (c : Dev nD) : W7 m ρ c (Proc.devRef .tc main_arg6) = m ((c : Thread nD τ).loc main_arg6) := by
  refine Eq.trans ?_ (W6_main_arg6' m ρ c)
  show StableHlo.after main_part0_ops3 (W6 m ρ c) (Proc.devRef .tc main_arg6) = _
  generalize W6 m ρ c = X
  open StableHlo in after_results_simp
theorem W8_main_arg6' (c : Dev nD) : W8 m ρ c (Proc.devRef .tc main_arg6) = m ((c : Thread nD τ).loc main_arg6) :=
  (W8_of_ne m ρ c main_arg6 (by decide)).trans (W7_main_arg6' m ρ c)
theorem W9_main_arg6' (c : Dev nD) : W9 m ρ c (Proc.devRef .tc main_arg6) = m ((c : Thread nD τ).loc main_arg6) := by
  refine Eq.trans ?_ (W8_main_arg6' m ρ c)
  show StableHlo.after main_part0_ops4 (W8 m ρ c) (Proc.devRef .tc main_arg6) = _
  generalize W8 m ρ c = X
  open StableHlo in after_results_simp
theorem W10_main_arg6' (c : Dev nD) : W10 m ρ c (Proc.devRef .tc main_arg6) = m ((c : Thread nD τ).loc main_arg6) :=
  (W10_of_ne m ρ c main_arg6 (by decide)).trans (W9_main_arg6' m ρ c)
theorem W11_main_arg6' (c : Dev nD) : W11 m ρ c (Proc.devRef .tc main_arg6) = m ((c : Thread nD τ).loc main_arg6) := by
  refine Eq.trans ?_ (W10_main_arg6' m ρ c)
  show StableHlo.after main_part0_ops5 (W10 m ρ c) (Proc.devRef .tc main_arg6) = _
  generalize W10 m ρ c = X
  open StableHlo in after_results_simp
theorem W12_main_arg6' (c : Dev nD) : W12 m ρ c (Proc.devRef .tc main_arg6) = m ((c : Thread nD τ).loc main_arg6) :=
  (W12_of_ne m ρ c main_arg6 (by decide)).trans (W11_main_arg6' m ρ c)
theorem W13_main_arg6' (c : Dev nD) : W13 m ρ c (Proc.devRef .tc main_arg6) = m ((c : Thread nD τ).loc main_arg6) := by
  refine Eq.trans ?_ (W12_main_arg6' m ρ c)
  show StableHlo.after main_part0_ops6 (W12 m ρ c) (Proc.devRef .tc main_arg6) = _
  generalize W12 m ρ c = X
  open StableHlo in after_results_simp
theorem W14_main_arg6' (c : Dev nD) : W14 m ρ c (Proc.devRef .tc main_arg6) = m ((c : Thread nD τ).loc main_arg6) :=
  (W14_of_ne m ρ c main_arg6 (by decide)).trans (W13_main_arg6' m ρ c)
theorem W15_main_arg6' (c : Dev nD) : W15 m ρ c (Proc.devRef .tc main_arg6) = m ((c : Thread nD τ).loc main_arg6) := by
  refine Eq.trans ?_ (W14_main_arg6' m ρ c)
  show StableHlo.after main_part0_ops7 (W14 m ρ c) (Proc.devRef .tc main_arg6) = _
  generalize W14 m ρ c = X
  open StableHlo in after_results_simp
theorem W16_main_arg6' (c : Dev nD) : W16 m ρ c (Proc.devRef .tc main_arg6) = m ((c : Thread nD τ).loc main_arg6) := by
  refine Eq.trans ?_ (W15_main_arg6' m ρ c)
  show StableHlo.after main_part1_ops0 (W15 m ρ c) (Proc.devRef .tc main_arg6) = _
  generalize W15 m ρ c = X
  open StableHlo in after_results_simp
theorem W17_main_arg6' (c : Dev nD) : W17 m ρ c (Proc.devRef .tc main_arg6) = m ((c : Thread nD τ).loc main_arg6) := by
  refine Eq.trans ?_ (W16_main_arg6' m ρ c)
  show StableHlo.after main_part2_ops0 (W16 m ρ c) (Proc.devRef .tc main_arg6) = _
  generalize W16 m ρ c = X
  open StableHlo in after_results_simp

theorem W0_main_arg7 (c : Dev nD) : W0 m ρ c (Proc.devRef .tc main_arg7) = m ((c : Thread nD τ).loc main_arg7) := rfl
theorem W1_main_arg7' (c : Dev nD) : W1 m ρ c (Proc.devRef .tc main_arg7) = m ((c : Thread nD τ).loc main_arg7) := by
  refine Eq.trans ?_ (W0_main_arg7 m ρ c)
  show StableHlo.after main_part0_ops0 (W0 m ρ c) (Proc.devRef .tc main_arg7) = _
  generalize W0 m ρ c = X
  open StableHlo in after_results_simp
theorem W2_main_arg7' (c : Dev nD) : W2 m ρ c (Proc.devRef .tc main_arg7) = m ((c : Thread nD τ).loc main_arg7) :=
  (W2_of_ne m ρ c main_arg7 (by decide)).trans (W1_main_arg7' m ρ c)
theorem W3_main_arg7' (c : Dev nD) : W3 m ρ c (Proc.devRef .tc main_arg7) = m ((c : Thread nD τ).loc main_arg7) := by
  refine Eq.trans ?_ (W2_main_arg7' m ρ c)
  show StableHlo.after main_part0_ops1 (W2 m ρ c) (Proc.devRef .tc main_arg7) = _
  generalize W2 m ρ c = X
  open StableHlo in after_results_simp
theorem W4_main_arg7' (c : Dev nD) : W4 m ρ c (Proc.devRef .tc main_arg7) = m ((c : Thread nD τ).loc main_arg7) :=
  (W4_of_ne m ρ c main_arg7 (by decide)).trans (W3_main_arg7' m ρ c)
theorem W5_main_arg7' (c : Dev nD) : W5 m ρ c (Proc.devRef .tc main_arg7) = m ((c : Thread nD τ).loc main_arg7) := by
  refine Eq.trans ?_ (W4_main_arg7' m ρ c)
  show StableHlo.after main_part0_ops2 (W4 m ρ c) (Proc.devRef .tc main_arg7) = _
  generalize W4 m ρ c = X
  open StableHlo in after_results_simp
theorem W6_main_arg7' (c : Dev nD) : W6 m ρ c (Proc.devRef .tc main_arg7) = m ((c : Thread nD τ).loc main_arg7) :=
  (W6_of_ne m ρ c main_arg7 (by decide)).trans (W5_main_arg7' m ρ c)
theorem W7_main_arg7' (c : Dev nD) : W7 m ρ c (Proc.devRef .tc main_arg7) = m ((c : Thread nD τ).loc main_arg7) := by
  refine Eq.trans ?_ (W6_main_arg7' m ρ c)
  show StableHlo.after main_part0_ops3 (W6 m ρ c) (Proc.devRef .tc main_arg7) = _
  generalize W6 m ρ c = X
  open StableHlo in after_results_simp
theorem W8_main_arg7' (c : Dev nD) : W8 m ρ c (Proc.devRef .tc main_arg7) = m ((c : Thread nD τ).loc main_arg7) :=
  (W8_of_ne m ρ c main_arg7 (by decide)).trans (W7_main_arg7' m ρ c)
theorem W9_main_arg7' (c : Dev nD) : W9 m ρ c (Proc.devRef .tc main_arg7) = m ((c : Thread nD τ).loc main_arg7) := by
  refine Eq.trans ?_ (W8_main_arg7' m ρ c)
  show StableHlo.after main_part0_ops4 (W8 m ρ c) (Proc.devRef .tc main_arg7) = _
  generalize W8 m ρ c = X
  open StableHlo in after_results_simp
theorem W10_main_arg7' (c : Dev nD) : W10 m ρ c (Proc.devRef .tc main_arg7) = m ((c : Thread nD τ).loc main_arg7) :=
  (W10_of_ne m ρ c main_arg7 (by decide)).trans (W9_main_arg7' m ρ c)
theorem W11_main_arg7' (c : Dev nD) : W11 m ρ c (Proc.devRef .tc main_arg7) = m ((c : Thread nD τ).loc main_arg7) := by
  refine Eq.trans ?_ (W10_main_arg7' m ρ c)
  show StableHlo.after main_part0_ops5 (W10 m ρ c) (Proc.devRef .tc main_arg7) = _
  generalize W10 m ρ c = X
  open StableHlo in after_results_simp
theorem W12_main_arg7' (c : Dev nD) : W12 m ρ c (Proc.devRef .tc main_arg7) = m ((c : Thread nD τ).loc main_arg7) :=
  (W12_of_ne m ρ c main_arg7 (by decide)).trans (W11_main_arg7' m ρ c)
theorem W13_main_arg7' (c : Dev nD) : W13 m ρ c (Proc.devRef .tc main_arg7) = m ((c : Thread nD τ).loc main_arg7) := by
  refine Eq.trans ?_ (W12_main_arg7' m ρ c)
  show StableHlo.after main_part0_ops6 (W12 m ρ c) (Proc.devRef .tc main_arg7) = _
  generalize W12 m ρ c = X
  open StableHlo in after_results_simp
theorem W14_main_arg7' (c : Dev nD) : W14 m ρ c (Proc.devRef .tc main_arg7) = m ((c : Thread nD τ).loc main_arg7) :=
  (W14_of_ne m ρ c main_arg7 (by decide)).trans (W13_main_arg7' m ρ c)
theorem W15_main_arg7' (c : Dev nD) : W15 m ρ c (Proc.devRef .tc main_arg7) = m ((c : Thread nD τ).loc main_arg7) := by
  refine Eq.trans ?_ (W14_main_arg7' m ρ c)
  show StableHlo.after main_part0_ops7 (W14 m ρ c) (Proc.devRef .tc main_arg7) = _
  generalize W14 m ρ c = X
  open StableHlo in after_results_simp
theorem W16_main_arg7' (c : Dev nD) : W16 m ρ c (Proc.devRef .tc main_arg7) = m ((c : Thread nD τ).loc main_arg7) := by
  refine Eq.trans ?_ (W15_main_arg7' m ρ c)
  show StableHlo.after main_part1_ops0 (W15 m ρ c) (Proc.devRef .tc main_arg7) = _
  generalize W15 m ρ c = X
  open StableHlo in after_results_simp
theorem W17_main_arg7' (c : Dev nD) : W17 m ρ c (Proc.devRef .tc main_arg7) = m ((c : Thread nD τ).loc main_arg7) := by
  refine Eq.trans ?_ (W16_main_arg7' m ρ c)
  show StableHlo.after main_part2_ops0 (W16 m ρ c) (Proc.devRef .tc main_arg7) = _
  generalize W16 m ρ c = X
  open StableHlo in after_results_simp

theorem W0_main_arg8 (c : Dev nD) : W0 m ρ c (Proc.devRef .tc main_arg8) = m ((c : Thread nD τ).loc main_arg8) := rfl
theorem W1_main_arg8' (c : Dev nD) : W1 m ρ c (Proc.devRef .tc main_arg8) = m ((c : Thread nD τ).loc main_arg8) := by
  refine Eq.trans ?_ (W0_main_arg8 m ρ c)
  show StableHlo.after main_part0_ops0 (W0 m ρ c) (Proc.devRef .tc main_arg8) = _
  generalize W0 m ρ c = X
  open StableHlo in after_results_simp
theorem W2_main_arg8' (c : Dev nD) : W2 m ρ c (Proc.devRef .tc main_arg8) = m ((c : Thread nD τ).loc main_arg8) :=
  (W2_of_ne m ρ c main_arg8 (by decide)).trans (W1_main_arg8' m ρ c)
theorem W3_main_arg8' (c : Dev nD) : W3 m ρ c (Proc.devRef .tc main_arg8) = m ((c : Thread nD τ).loc main_arg8) := by
  refine Eq.trans ?_ (W2_main_arg8' m ρ c)
  show StableHlo.after main_part0_ops1 (W2 m ρ c) (Proc.devRef .tc main_arg8) = _
  generalize W2 m ρ c = X
  open StableHlo in after_results_simp
theorem W4_main_arg8' (c : Dev nD) : W4 m ρ c (Proc.devRef .tc main_arg8) = m ((c : Thread nD τ).loc main_arg8) :=
  (W4_of_ne m ρ c main_arg8 (by decide)).trans (W3_main_arg8' m ρ c)
theorem W5_main_arg8' (c : Dev nD) : W5 m ρ c (Proc.devRef .tc main_arg8) = m ((c : Thread nD τ).loc main_arg8) := by
  refine Eq.trans ?_ (W4_main_arg8' m ρ c)
  show StableHlo.after main_part0_ops2 (W4 m ρ c) (Proc.devRef .tc main_arg8) = _
  generalize W4 m ρ c = X
  open StableHlo in after_results_simp
theorem W6_main_arg8' (c : Dev nD) : W6 m ρ c (Proc.devRef .tc main_arg8) = m ((c : Thread nD τ).loc main_arg8) :=
  (W6_of_ne m ρ c main_arg8 (by decide)).trans (W5_main_arg8' m ρ c)
theorem W7_main_arg8' (c : Dev nD) : W7 m ρ c (Proc.devRef .tc main_arg8) = m ((c : Thread nD τ).loc main_arg8) := by
  refine Eq.trans ?_ (W6_main_arg8' m ρ c)
  show StableHlo.after main_part0_ops3 (W6 m ρ c) (Proc.devRef .tc main_arg8) = _
  generalize W6 m ρ c = X
  open StableHlo in after_results_simp
theorem W8_main_arg8' (c : Dev nD) : W8 m ρ c (Proc.devRef .tc main_arg8) = m ((c : Thread nD τ).loc main_arg8) :=
  (W8_of_ne m ρ c main_arg8 (by decide)).trans (W7_main_arg8' m ρ c)
theorem W9_main_arg8' (c : Dev nD) : W9 m ρ c (Proc.devRef .tc main_arg8) = m ((c : Thread nD τ).loc main_arg8) := by
  refine Eq.trans ?_ (W8_main_arg8' m ρ c)
  show StableHlo.after main_part0_ops4 (W8 m ρ c) (Proc.devRef .tc main_arg8) = _
  generalize W8 m ρ c = X
  open StableHlo in after_results_simp
theorem W10_main_arg8' (c : Dev nD) : W10 m ρ c (Proc.devRef .tc main_arg8) = m ((c : Thread nD τ).loc main_arg8) :=
  (W10_of_ne m ρ c main_arg8 (by decide)).trans (W9_main_arg8' m ρ c)
theorem W11_main_arg8' (c : Dev nD) : W11 m ρ c (Proc.devRef .tc main_arg8) = m ((c : Thread nD τ).loc main_arg8) := by
  refine Eq.trans ?_ (W10_main_arg8' m ρ c)
  show StableHlo.after main_part0_ops5 (W10 m ρ c) (Proc.devRef .tc main_arg8) = _
  generalize W10 m ρ c = X
  open StableHlo in after_results_simp
theorem W12_main_arg8' (c : Dev nD) : W12 m ρ c (Proc.devRef .tc main_arg8) = m ((c : Thread nD τ).loc main_arg8) :=
  (W12_of_ne m ρ c main_arg8 (by decide)).trans (W11_main_arg8' m ρ c)
theorem W13_main_arg8' (c : Dev nD) : W13 m ρ c (Proc.devRef .tc main_arg8) = m ((c : Thread nD τ).loc main_arg8) := by
  refine Eq.trans ?_ (W12_main_arg8' m ρ c)
  show StableHlo.after main_part0_ops6 (W12 m ρ c) (Proc.devRef .tc main_arg8) = _
  generalize W12 m ρ c = X
  open StableHlo in after_results_simp
theorem W14_main_arg8' (c : Dev nD) : W14 m ρ c (Proc.devRef .tc main_arg8) = m ((c : Thread nD τ).loc main_arg8) :=
  (W14_of_ne m ρ c main_arg8 (by decide)).trans (W13_main_arg8' m ρ c)
theorem W15_main_arg8' (c : Dev nD) : W15 m ρ c (Proc.devRef .tc main_arg8) = m ((c : Thread nD τ).loc main_arg8) := by
  refine Eq.trans ?_ (W14_main_arg8' m ρ c)
  show StableHlo.after main_part0_ops7 (W14 m ρ c) (Proc.devRef .tc main_arg8) = _
  generalize W14 m ρ c = X
  open StableHlo in after_results_simp
theorem W16_main_arg8' (c : Dev nD) : W16 m ρ c (Proc.devRef .tc main_arg8) = m ((c : Thread nD τ).loc main_arg8) := by
  refine Eq.trans ?_ (W15_main_arg8' m ρ c)
  show StableHlo.after main_part1_ops0 (W15 m ρ c) (Proc.devRef .tc main_arg8) = _
  generalize W15 m ρ c = X
  open StableHlo in after_results_simp
theorem W17_main_arg8' (c : Dev nD) : W17 m ρ c (Proc.devRef .tc main_arg8) = m ((c : Thread nD τ).loc main_arg8) := by
  refine Eq.trans ?_ (W16_main_arg8' m ρ c)
  show StableHlo.after main_part2_ops0 (W16 m ρ c) (Proc.devRef .tc main_arg8) = _
  generalize W16 m ρ c = X
  open StableHlo in after_results_simp

end Cert.KernelIdeal.Hand

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.NormSpec.lean ====
/-
  The mathematics both programs compute, on the extended reals, one row at a time.

  A row x of 64 entries is first rectified entry by entry (lrelu: x where 0 ≤ x, else slope · x, the slope being the
  programs' shared f32 literal), then divided by max(√(Σ_j lrelu(x_j)²), ε) with ε the shared f32 literal: rowNorm.
  An array of n rows is normalised row by row (normRows). A message array of n rows is scaled row by row by a column
  of n weights (scaleRows). Nothing here needs the entries to be finite.
-/
import Idealize.ShloMosaic.Lib.ValueIdx
import Idealize.ShloMosaic.PureOps.Ideal.Laws

noncomputable section

namespace Cert.Spec

open Idealize.ShloMosaic Idealize.ShloMosaic.ValueIdx

/-- The leaky rectifier: x where the comparison 0 ≤ x holds, else slope · x. -/
def lrelu (x : EReal) : EReal :=
  Scalar.select (FloatOps.cmpf (F := Ideal) (φ := .f32) .oge x (Ideal.ofBits .f32 0x00000000#32)) x
    (Ideal.ofBits .f32 0x3DCCCCCD#32 * x)

/-- Entry l of the rectified row divided by max(its Euclidean norm, ε). -/
def rowNorm (row : Fin 64 → EReal) (l : Fin 64) : EReal :=
  Ideal.div (lrelu (row l))
    (max (Ideal.sqrt (∑ j : Fin 64, lrelu (row j) * lrelu (row j))) (Ideal.ofBits .f32 0x2B8CBCCC#32))

/-- An [n, 64] array normalised row by row. -/
def normRows {n : ℕ} (x : (⟨2, ![n, 64]⟩ : Shape).Idx → EReal) : (⟨2, ![n, 64]⟩ : Shape).Idx → EReal :=
  fun i => rowNorm (fun j => x (ix2 (⟨(i 0).val, idx2_lt0 i⟩ : Fin n) j)) ⟨(i 1).val, idx2_lt1 i⟩

theorem normRows_ix2 {n : ℕ} (x : (⟨2, ![n, 64]⟩ : Shape).Idx → EReal) (r : Fin n) (l : Fin 64) :
    normRows x (ix2 r l) = rowNorm (fun j => x (ix2 r j)) l := rfl

/-- An [n, 64] array scaled row by row by an [n, 1] column. -/
def scaleRows {n : ℕ} (p : (⟨2, ![n, 64]⟩ : Shape).Idx → EReal) (v : (⟨2, ![n, 1]⟩ : Shape).Idx → EReal) :
    (⟨2, ![n, 64]⟩ : Shape).Idx → EReal :=
  fun i => p i * v (ix2 (⟨(i 0).val, idx2_lt0 i⟩ : Fin n) (0 : Fin 1))

theorem scaleRows_ix2 {n : ℕ} (p : (⟨2, ![n, 64]⟩ : Shape).Idx → EReal) (v : (⟨2, ![n, 1]⟩ : Shape).Idx → EReal)
    (r : Fin n) (l : Fin 64) : scaleRows p v (ix2 r l) = p (ix2 r l) * v (ix2 r (0 : Fin 1)) := rfl

/-- A block of rows o … o+b-1 of an array, normalised, is the same rows of the array normalised: a row's result
    depends on that row only. -/
theorem normRows_block {n b : ℕ} (X : (⟨2, ![n, 64]⟩ : Shape).Idx → EReal) (B : (⟨2, ![b, 64]⟩ : Shape).Idx → EReal)
    (o : ℕ) (ho : o + b ≤ n)
    (hB : ∀ (y : Fin b) (l : Fin 64), B (ix2 y l) = X (ix2 (⟨o + y.val, by have := y.isLt; omega⟩ : Fin n) l))
    (y : Fin b) (l : Fin 64) :
    normRows B (ix2 y l) = normRows X (ix2 (⟨o + y.val, by have := y.isLt; omega⟩ : Fin n) l) := by
  rw [normRows_ix2, normRows_ix2]
  exact congrArg (fun row => rowNorm row l) (funext fun j => hB y j)

/-- The same for scaling. -/
theorem scaleRows_block {n b : ℕ} (P : (⟨2, ![n, 64]⟩ : Shape).Idx → EReal) (Wt : (⟨2, ![n, 1]⟩ : Shape).Idx → EReal)
    (Bp : (⟨2, ![b, 64]⟩ : Shape).Idx → EReal) (Bw : (⟨2, ![b, 1]⟩ : Shape).Idx → EReal)
    (o : ℕ) (ho : o + b ≤ n)
    (hp : ∀ (y : Fin b) (l : Fin 64), Bp (ix2 y l) = P (ix2 (⟨o + y.val, by have := y.isLt; omega⟩ : Fin n) l))
    (hw : ∀ (y : Fin b), Bw (ix2 y (0 : Fin 1)) = Wt (ix2 (⟨o + y.val, by have := y.isLt; omega⟩ : Fin n) (0 : Fin 1)))
    (y : Fin b) (l : Fin 64) :
    scaleRows Bp Bw (ix2 y l) = scaleRows P Wt (ix2 (⟨o + y.val, by have := y.isLt; omega⟩ : Fin n) l) := by
  rw [scaleRows_ix2, scaleRows_ix2, hp y l, hw y]

end Cert.Spec

end
-- ==== Proof.KPayNorm.lean ====
/-
  The row-normalising kernel's arithmetic, read at an index of its 6000×64 block at the ideal instance.

  The body rectifies the loaded block entry by entry, sums the squares along the 64 lanes into a column of 6000 row
  sums, takes the square root, clamps it below by ε, broadcasts the column back over the lanes and divides. At entry
  (r, l) that is rowNorm of row r of the loaded block, at lane l: the stored block is normRows of the loaded block.
-/
import proofs.«180941_j14654428414616_1_alg».proof.Proof.Gen.KernelIdeal.Skeleton
import proofs.«180941_j14654428414616_1_alg».proof.Proof.LibKeepdims
import proofs.«180941_j14654428414616_1_alg».proof.Proof.NormSpec
import Idealize.ShloMosaic.Lib.Pipeline.Value

noncomputable section

namespace Cert.KernelIdeal.Val

open Idealize.ShloMosaic Idealize.ShloMosaic.ValueIdx Cert.KernelIdeal Cert.KernelIdeal.Gen Cert.Spec

/-- The rectified block, as the body spells it. -/
def lrBlock (x0 : FVec Ideal S6000x64 .f32) : FVec Ideal S6000x64 .f32 :=
  select (cmpf .oge (shapeCast S6000x64 x0 shapeCasts_S6000x64_S6000x64) (broadcast S6000x64 (Scalar.ofBits (F := Ideal) .f32 0x00000000#32)))
    (shapeCast S6000x64 x0 shapeCasts_S6000x64_S6000x64)
    (mulf (broadcast S6000x64 (Scalar.ofBits (F := Ideal) .f32 0x3DCCCCCD#32)) (shapeCast S6000x64 x0 shapeCasts_S6000x64_S6000x64))

/-- The column of clamped row norms, as the body spells it. -/
def colBlock (x0 : FVec Ideal S6000x64 .f32) : FVec Ideal S6000x1 .f32 :=
  maximumf (sqrt (shapeCast S6000x1
      (multiReduction .add [1] S6000 (mulf (lrBlock x0) (lrBlock x0)) 0x00000000#32 reduces_S6000x64_S6000 (.inl rfl) rfl)
      shapeCasts_S6000_S6000x1))
    (broadcast S6000x1 (Scalar.ofBits (F := Ideal) .f32 0x2B8CBCCC#32))

/-- Each entry of the rectified block is the rectifier of the loaded entry. -/
theorem lrBlock_apply (x0 : FVec Ideal S6000x64 .f32) (i : S6000x64.Idx) : lrBlock x0 i = lrelu (x0 i) := by
  unfold lrBlock
  rw [shapeCast_self]
  rfl

/-- Row r of the column is the clamped Euclidean norm of the rectified row r. -/
theorem colBlock_apply (x0 : FVec Ideal S6000x64 .f32) (r : Fin 6000) :
    colBlock x0 (ix2 r (0 : Fin 1))
      = max (Ideal.sqrt (∑ j : Fin 64, lrelu (x0 (ix2 r j)) * lrelu (x0 (ix2 r j)))) (Ideal.ofBits .f32 0x2B8CBCCC#32) := by
  unfold colBlock
  show max (Ideal.sqrt (shapeCast S6000x1
      (multiReduction .add [1] S6000 (mulf (lrBlock x0) (lrBlock x0)) 0x00000000#32 reduces_S6000x64_S6000 (.inl rfl) rfl)
      shapeCasts_S6000_S6000x1 (ix2 r (0 : Fin 1)))) (Ideal.ofBits .f32 0x2B8CBCCC#32) = _
  rw [Keepdims.shapeCast_a_a1_apply, Keepdims.rowSum_apply]
  refine congrArg (fun s => max (Ideal.sqrt s) _) (Finset.sum_congr rfl fun j _ => ?_)
  show lrBlock x0 (ix2 r j) * lrBlock x0 (ix2 r j) = _
  rw [lrBlock_apply]

/-- The stored block is the loaded block normalised row by row. -/
theorem normPay_eq (x0 : FVec Ideal S6000x64 .f32) :
    divf (lrBlock x0) (broadcastTo S6000x64 (colBlock x0) broadcasts_S6000x1_S6000x64) = normRows (n := 6000) x0 := by
  funext j
  obtain ⟨r, l, rfl⟩ : ∃ (r : Fin 6000) (l : Fin 64), j = ix2 r l := ⟨j 0, j 1, eq_ix2 j⟩
  rw [normRows_ix2]
  show Ideal.div (lrBlock x0 (ix2 r l)) (broadcastTo S6000x64 (colBlock x0) broadcasts_S6000x1_S6000x64 (ix2 r l)) = _
  rw [Keepdims.broadcastTo_a1_ab_apply, colBlock_apply, lrBlock_apply]
  rfl

/-- The payloads of the four normalising regions are that term. -/
theorem k0_pay1_eq (x0 : Vec Ideal S6000x64 .f32) : k0_pay1 x0 = normRows (n := 6000) x0 := normPay_eq x0
theorem k2_pay1_eq (x0 : Vec Ideal S6000x64 .f32) : k2_pay1 x0 = normRows (n := 6000) x0 := normPay_eq x0
theorem k4_pay1_eq (x0 : Vec Ideal S6000x64 .f32) : k4_pay1 x0 = normRows (n := 6000) x0 := normPay_eq x0
theorem k6_pay1_eq (x0 : Vec Ideal S6000x64 .f32) : k6_pay1 x0 = normRows (n := 6000) x0 := normPay_eq x0

end Cert.KernelIdeal.Val

end
-- ==== Proof.KIVal0.lean ====
/-
  Region 0 at the ideal instance, from blocks to the array: point t of the grid writes back rows 6000·t … 6000·t+5999
  of the input array normalised row by row, and the 25 blocks tile the 150000 rows; so after the region the output array
  is the input array normalised row by row (normRows), whatever the contents V the region is entered with.
-/
import proofs.«180941_j14654428414616_1_alg».proof.Proof.KIReg0
import proofs.«180941_j14654428414616_1_alg».proof.Proof.KPayNorm
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem zeroOffsets0 : (![0, 0] : Fin 2 → Nat) = fun _ => 0 := funext fun a => by fin_cases a <;> rfl

/-- Both windows' block at point t is block (t, 0). -/
theorem blockIdx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point t is rows 6000·t … of the input array. -/
theorem inBlock0_apply (c : Dev nD) (t : Fin cfg0.N) (ht : t.val < 25) (y : Fin 6000) (l : Fin 64) :
    inBlock0 V c 0 t (ix2 y l) = V c main_v0 (ix2 (⟨6000 * t.val + y.val, by have := y.isLt; omega⟩ : Fin 150000) l) := by
  obtain ⟨e0, e1, e2, e3⟩ := blockIdx0 t
  show V c main_v0 (((cfg0.win 0).blk t).view.emb (ix2 y l)) = _
  refine congrArg (V c main_v0) (funext fun a => Fin.ext ?_)
  match a with
  | ⟨0, _⟩ => show win0_0.index t (0 : Fin 2) * 6000 + 1 * y.val = 6000 * t.val + y.val; omega
  | ⟨1, _⟩ => show win0_0.index t (1 : Fin 2) * 64 + 1 * l.val = l.val; omega

/-- What point t writes back is block t of the normalised input array. -/
theorem flushed0_eq (c : Dev nD) (t : Fin cfg0.N) :
    (dat0 V c).flushed 1 t = ((cfg0.win 1).blk t).view.read (Elt Ideal) (normRows (n := 150000) (V c main_v0)) := by
  have ht : t.val < 25 := by have h := t.isLt; have hN : cfg0.N = 25 := N_0; omega
  obtain ⟨e0, e1, e2, e3⟩ := blockIdx0 t
  show (cfg0.win 1).cut (grid0.coords t) ((dat0 V c).after 1 t) = _
  rw [dat0_after1]
  unfold stored0
  rw [View.canon_unit_zero zeroOffsets0]
  simp only [View.ld_unit_zero (S := S6000x64) zeroOffsets0]
  rw [Val.k0_pay1_eq]
  refine funext fun (j : S6000x64.Idx) => ?_
  obtain ⟨y, l, rfl⟩ : ∃ (y : Fin 6000) (l : Fin 64), j = ix2 y l := ⟨j 0, j 1, eq_ix2 j⟩
  have hemb : ((cfg0.win 1).blk t).view.emb (ix2 y l) = ix2 (⟨6000 * t.val + y.val, by have := y.isLt; omega⟩ : Fin 150000) l := by
    refine funext fun a => Fin.ext ?_
    match a with
    | ⟨0, _⟩ => show win0_1.index t (0 : Fin 2) * 6000 + 1 * y.val = 6000 * t.val + y.val; omega
    | ⟨1, _⟩ => show win0_1.index t (1 : Fin 2) * 64 + 1 * l.val = l.val; omega
  show normRows (n := 6000) (inBlock0 V c 0 t) (ix2 y l) = normRows (n := 150000) (V c main_v0) (((cfg0.win 1).blk t).view.emb (ix2 y l))
  rw [hemb]
  exact normRows_block (V c main_v0) (inBlock0 V c 0 t) (6000 * t.val) (by omega) (fun y' l' => inBlock0_apply V c t ht y' l') y l

/-- An index of the output array is in point t's block iff each coordinate is in the block's range. -/
theorem mem_blk0 (t : Fin cfg0.N) (i : S150000x64.Idx) :
    i ∈ ((cfg0.win 1).blk t).view.set ↔ ∀ a : Fin 2, win0_1.index t a * S6000x64.size a ≤ (i a).val ∧ (i a).val < win0_1.index t a * S6000x64.size a + S6000x64.size a := by
  show i ∈ ((View.whole main_v1).slice (win0_1.rect t)).set ↔ _
  rw [View.set_slice_whole, Rect.mem_set_unit]
  exact Iff.rfl

/-- Row r of the output is written by point r / 6000. -/
theorem cover0 (i : S150000x64.Idx) : ∃ t : Fin cfg0.N, (cfg0.win 1).flush t = true ∧ i ∈ ((cfg0.win 1).blk t).view.set := by
  have hi0 : (i 0).val < 150000 := (i 0).isLt
  have hi1 : (i 1).val < 64 := (i 1).isLt
  have hN : cfg0.N = 25 := N_0
  obtain ⟨t, htv⟩ : ∃ t : Fin cfg0.N, t.val = (i 0).val / 6000 := ⟨⟨(i 0).val / 6000, by omega⟩, rfl⟩
  obtain ⟨e0, e1, e2, e3⟩ := blockIdx0 t
  refine ⟨t, flush0_1 t, ?_⟩
  rw [mem_blk0]
  intro a
  match a with
  | ⟨0, _⟩ => show win0_1.index t (0 : Fin 2) * 6000 ≤ (i 0).val ∧ (i 0).val < win0_1.index t (0 : Fin 2) * 6000 + 6000; omega
  | ⟨1, _⟩ => show win0_1.index t (1 : Fin 2) * 64 ≤ (i 1).val ∧ (i 1).val < win0_1.index t (1 : Fin 2) * 64 + 64; omega

/-- After the region the output array is the input array normalised row by row. -/
theorem region0_array (c : Dev nD) : (dat0 V c).arrAt 1 cfg0.N = normRows (n := 150000) (V c main_v0) :=
  (dat0 V c).arrAt_eq_of_cover 1 (normRows (n := 150000) (V c main_v0)) (fun t _ => flushed0_eq V c t) (cover0)

end Cert.KernelIdeal.Hand

end
-- ==== Proof.KPayScale.lean ====
/-
  The scaling kernel's arithmetic, read at an index of its 16000×64 block at the ideal instance: the loaded message
  block times the loaded weight column broadcast over the 64 lanes. At entry (r, l) that is message (r, l) times
  weight r: the stored block is scaleRows of the two loaded blocks.
-/
import proofs.«180941_j14654428414616_1_alg».proof.Proof.Gen.KernelIdeal.Skeleton
import proofs.«180941_j14654428414616_1_alg».proof.Proof.LibKeepdims
import proofs.«180941_j14654428414616_1_alg».proof.Proof.NormSpec
import Idealize.ShloMosaic.Lib.Pipeline.Value

noncomputable section

namespace Cert.KernelIdeal.Val

open Idealize.ShloMosaic Idealize.ShloMosaic.ValueIdx Cert.KernelIdeal Cert.KernelIdeal.Gen Cert.Spec

/-- The stored block is the message block scaled row by row by the weight column. -/
theorem scalePay_eq (x0 : FVec Ideal S16000x64 .f32) (x1 : FVec Ideal S16000x1 .f32) :
    mulf (shapeCast S16000x64 x0 shapeCasts_S16000x64_S16000x64)
        (broadcastTo S16000x64 (shapeCast S16000x1 x1 shapeCasts_S16000x1_S16000x1) broadcasts_S16000x1_S16000x64)
      = scaleRows (n := 16000) x0 x1 := by
  funext j
  obtain ⟨r, l, rfl⟩ : ∃ (r : Fin 16000) (l : Fin 64), j = ix2 r l := ⟨j 0, j 1, eq_ix2 j⟩
  rw [scaleRows_ix2, shapeCast_self, shapeCast_self]
  show x0 (ix2 r l) * broadcastTo S16000x64 x1 broadcasts_S16000x1_S16000x64 (ix2 r l) = _
  rw [Keepdims.broadcastTo_a1_ab_apply]

/-- The payloads of the three scaling regions are that term. -/
theorem k1_pay1_eq (x0 : Vec Ideal S16000x64 .f32) (x1 : Vec Ideal S16000x1 .f32) : k1_pay1 x0 x1 = scaleRows (n := 16000) x0 x1 := scalePay_eq x0 x1
theorem k3_pay1_eq (x0 : Vec Ideal S16000x64 .f32) (x1 : Vec Ideal S16000x1 .f32) : k3_pay1 x0 x1 = scaleRows (n := 16000) x0 x1 := scalePay_eq x0 x1
theorem k5_pay1_eq (x0 : Vec Ideal S16000x64 .f32) (x1 : Vec Ideal S16000x1 .f32) : k5_pay1 x0 x1 = scaleRows (n := 16000) x0 x1 := scalePay_eq x0 x1

end Cert.KernelIdeal.Val

end
-- ==== Proof.KIVal1.lean ====
/-
  Region 1 at the ideal instance, from blocks to the array: point t of the grid writes back rows 16000·t … 16000·t+15999
  of the message array, each scaled by its row's weight, and the 150 blocks tile the 2400000 rows; so after the region
  the output array is the message array scaled row by row by the weight column (scaleRows), whatever the contents V the
  region is entered with.
-/
import proofs.«180941_j14654428414616_1_alg».proof.Proof.KIReg1
import proofs.«180941_j14654428414616_1_alg».proof.Proof.KPayScale
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem zeroOffsets1 : (![0, 0] : Fin 2 → Nat) = fun _ => 0 := funext fun a => by fin_cases a <;> rfl

/-- Every window's block at point t is block (t, 0). -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The message block at point t is rows 16000·t … of the message array. -/
theorem inBlock1_apply0 (c : Dev nD) (t : Fin cfg1.N) (ht : t.val < 150) (y : Fin 16000) (l : Fin 64) :
    inBlock1 V c 0 t (ix2 y l) = V c main_v8 (ix2 (⟨16000 * t.val + y.val, by have := y.isLt; omega⟩ : Fin 2400000) l) := by
  obtain ⟨e0, e1, e2, e3, e4, e5⟩ := blockIdx1 t
  show V c main_v8 (((cfg1.win 0).blk t).view.emb (ix2 y l)) = _
  refine congrArg (V c main_v8) (funext fun a => Fin.ext ?_)
  match a with
  | ⟨0, _⟩ => show win1_0.index t (0 : Fin 2) * 16000 + 1 * y.val = 16000 * t.val + y.val; omega
  | ⟨1, _⟩ => show win1_0.index t (1 : Fin 2) * 64 + 1 * l.val = l.val; omega

/-- The weight block at point t is rows 16000·t … of the weight column. -/
theorem inBlock1_apply1 (c : Dev nD) (t : Fin cfg1.N) (ht : t.val < 150) (y : Fin 16000) :
    inBlock1 V c 1 t (ix2 y (0 : Fin 1)) = V c main_v9 (ix2 (⟨16000 * t.val + y.val, by have := y.isLt; omega⟩ : Fin 2400000) (0 : Fin 1)) := by
  obtain ⟨e0, e1, e2, e3, e4, e5⟩ := blockIdx1 t
  show V c main_v9 (((cfg1.win 1).blk t).view.emb (ix2 y (0 : Fin 1))) = _
  refine congrArg (V c main_v9) (funext fun a => Fin.ext ?_)
  match a with
  | ⟨0, _⟩ => show win1_1.index t (0 : Fin 2) * 16000 + 1 * y.val = 16000 * t.val + y.val; omega
  | ⟨1, _⟩ => show win1_1.index t (1 : Fin 2) * 1 + 1 * 0 = 0; omega

/-- What point t writes back is block t of the scaled message array. -/
theorem flushed1_eq (c : Dev nD) (t : Fin cfg1.N) :
    (dat1 V c).flushed 2 t = ((cfg1.win 2).blk t).view.read (Elt Ideal) (scaleRows (n := 2400000) (V c main_v8) (V c main_v9)) := by
  have ht : t.val < 150 := by have h := t.isLt; have hN : cfg1.N = 150 := N_1; omega
  obtain ⟨e0, e1, e2, e3, e4, e5⟩ := blockIdx1 t
  show (cfg1.win 2).cut (grid1.coords t) ((dat1 V c).after 2 t) = _
  rw [dat1_after2]
  unfold stored1
  rw [View.canon_unit_zero zeroOffsets1]
  simp only [View.ld_unit_zero (S := S16000x64) zeroOffsets1, View.ld_unit_zero (S := S16000x1) zeroOffsets1]
  rw [Val.k1_pay1_eq]
  refine funext fun (j : S16000x64.Idx) => ?_
  obtain ⟨y, l, rfl⟩ : ∃ (y : Fin 16000) (l : Fin 64), j = ix2 y l := ⟨j 0, j 1, eq_ix2 j⟩
  have hemb : ((cfg1.win 2).blk t).view.emb (ix2 y l) = ix2 (⟨16000 * t.val + y.val, by have := y.isLt; omega⟩ : Fin 2400000) l := by
    refine funext fun a => Fin.ext ?_
    match a with
    | ⟨0, _⟩ => show win1_2.index t (0 : Fin 2) * 16000 + 1 * y.val = 16000 * t.val + y.val; omega
    | ⟨1, _⟩ => show win1_2.index t (1 : Fin 2) * 64 + 1 * l.val = l.val; omega
  show scaleRows (n := 16000) (inBlock1 V c 0 t) (inBlock1 V c 1 t) (ix2 y l)
    = scaleRows (n := 2400000) (V c main_v8) (V c main_v9) (((cfg1.win 2).blk t).view.emb (ix2 y l))
  rw [hemb]
  exact scaleRows_block (V c main_v8) (V c main_v9) (inBlock1 V c 0 t) (inBlock1 V c 1 t) (16000 * t.val) (by omega)
    (fun y' l' => inBlock1_apply0 V c t ht y' l') (fun y' => inBlock1_apply1 V c t ht y') y l

/-- An index of the output array is in point t's block iff each coordinate is in the block's range. -/
theorem mem_blk1 (t : Fin cfg1.N) (i : S2400000x64.Idx) :
    i ∈ ((cfg1.win 2).blk t).view.set ↔ ∀ a : Fin 2, win1_2.index t a * S16000x64.size a ≤ (i a).val ∧ (i a).val < win1_2.index t a * S16000x64.size a + S16000x64.size a := by
  show i ∈ ((View.whole main_v10).slice (win1_2.rect t)).set ↔ _
  rw [View.set_slice_whole, Rect.mem_set_unit]
  exact Iff.rfl

/-- Row e of the output is written by point e / 16000. -/
theorem cover1 (i : S2400000x64.Idx) : ∃ t : Fin cfg1.N, (cfg1.win 2).flush t = true ∧ i ∈ ((cfg1.win 2).blk t).view.set := by
  have hi0 : (i 0).val < 2400000 := (i 0).isLt
  have hi1 : (i 1).val < 64 := (i 1).isLt
  have hN : cfg1.N = 150 := N_1
  obtain ⟨t, htv⟩ : ∃ t : Fin cfg1.N, t.val = (i 0).val / 16000 := ⟨⟨(i 0).val / 16000, by omega⟩, rfl⟩
  obtain ⟨e0, e1, e2, e3, e4, e5⟩ := blockIdx1 t
  refine ⟨t, flush1_2 t, ?_⟩
  rw [mem_blk1]
  intro a
  match a with
  | ⟨0, _⟩ => show win1_2.index t (0 : Fin 2) * 16000 ≤ (i 0).val ∧ (i 0).val < win1_2.index t (0 : Fin 2) * 16000 + 16000; omega
  | ⟨1, _⟩ => show win1_2.index t (1 : Fin 2) * 64 ≤ (i 1).val ∧ (i 1).val < win1_2.index t (1 : Fin 2) * 64 + 64; omega

/-- After the region the output array is the message array scaled row by row by the weight column. -/
theorem region1_array (c : Dev nD) : (dat1 V c).arrAt 2 cfg1.N = scaleRows (n := 2400000) (V c main_v8) (V c main_v9) :=
  (dat1 V c).arrAt_eq_of_cover 2 (scaleRows (n := 2400000) (V c main_v8) (V c main_v9)) (fun t _ => flushed1_eq V c t) (cover1)

end Cert.KernelIdeal.Hand

end
-- ==== Proof.KIVal2.lean ====
/-
  Region 2 at the ideal instance, from blocks to the array: point t of the grid writes back rows 6000·t … 6000·t+5999
  of the input array normalised row by row, and the 25 blocks tile the 150000 rows; so after the region the output array
  is the input array normalised row by row (normRows), whatever the contents V the region is entered with.
-/
import proofs.«180941_j14654428414616_1_alg».proof.Proof.KIReg2
import proofs.«180941_j14654428414616_1_alg».proof.Proof.KPayNorm
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem zeroOffsets2 : (![0, 0] : Fin 2 → Nat) = fun _ => 0 := funext fun a => by fin_cases a <;> rfl

/-- Both windows' block at point t is block (t, 0). -/
theorem blockIdx2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The input block at point t is rows 6000·t … of the input array. -/
theorem inBlock2_apply (c : Dev nD) (t : Fin cfg2.N) (ht : t.val < 25) (y : Fin 6000) (l : Fin 64) :
    inBlock2 V c 0 t (ix2 y l) = V c main_v13 (ix2 (⟨6000 * t.val + y.val, by have := y.isLt; omega⟩ : Fin 150000) l) := by
  obtain ⟨e0, e1, e2, e3⟩ := blockIdx2 t
  show V c main_v13 (((cfg2.win 0).blk t).view.emb (ix2 y l)) = _
  refine congrArg (V c main_v13) (funext fun a => Fin.ext ?_)
  match a with
  | ⟨0, _⟩ => show win2_0.index t (0 : Fin 2) * 6000 + 1 * y.val = 6000 * t.val + y.val; omega
  | ⟨1, _⟩ => show win2_0.index t (1 : Fin 2) * 64 + 1 * l.val = l.val; omega

/-- What point t writes back is block t of the normalised input array. -/
theorem flushed2_eq (c : Dev nD) (t : Fin cfg2.N) :
    (dat2 V c).flushed 1 t = ((cfg2.win 1).blk t).view.read (Elt Ideal) (normRows (n := 150000) (V c main_v13)) := by
  have ht : t.val < 25 := by have h := t.isLt; have hN : cfg2.N = 25 := N_2; omega
  obtain ⟨e0, e1, e2, e3⟩ := blockIdx2 t
  show (cfg2.win 1).cut (grid2.coords t) ((dat2 V c).after 1 t) = _
  rw [dat2_after1]
  unfold stored2
  rw [View.canon_unit_zero zeroOffsets2]
  simp only [View.ld_unit_zero (S := S6000x64) zeroOffsets2]
  rw [Val.k2_pay1_eq]
  refine funext fun (j : S6000x64.Idx) => ?_
  obtain ⟨y, l, rfl⟩ : ∃ (y : Fin 6000) (l : Fin 64), j = ix2 y l := ⟨j 0, j 1, eq_ix2 j⟩
  have hemb : ((cfg2.win 1).blk t).view.emb (ix2 y l) = ix2 (⟨6000 * t.val + y.val, by have := y.isLt; omega⟩ : Fin 150000) l := by
    refine funext fun a => Fin.ext ?_
    match a with
    | ⟨0, _⟩ => show win2_1.index t (0 : Fin 2) * 6000 + 1 * y.val = 6000 * t.val + y.val; omega
    | ⟨1, _⟩ => show win2_1.index t (1 : Fin 2) * 64 + 1 * l.val = l.val; omega
  show normRows (n := 6000) (inBlock2 V c 0 t) (ix2 y l) = normRows (n := 150000) (V c main_v13) (((cfg2.win 1).blk t).view.emb (ix2 y l))
  rw [hemb]
  exact normRows_block (V c main_v13) (inBlock2 V c 0 t) (6000 * t.val) (by omega) (fun y' l' => inBlock2_apply V c t ht y' l') y l

/-- An index of the output array is in point t's block iff each coordinate is in the block's range. -/
theorem mem_blk2 (t : Fin cfg2.N) (i : S150000x64.Idx) :
    i ∈ ((cfg2.win 1).blk t).view.set ↔ ∀ a : Fin 2, win2_1.index t a * S6000x64.size a ≤ (i a).val ∧ (i a).val < win2_1.index t a * S6000x64.size a + S6000x64.size a := by
  show i ∈ ((View.whole main_v14).slice (win2_1.rect t)).set ↔ _
  rw [View.set_slice_whole, Rect.mem_set_unit]
  exact Iff.rfl

/-- Row r of the output is written by point r / 6000. -/
theorem cover2 (i : S150000x64.Idx) : ∃ t : Fin cfg2.N, (cfg2.win 1).flush t = true ∧ i ∈ ((cfg2.win 1).blk t).view.set := by
  have hi0 : (i 0).val < 150000 := (i 0).isLt
  have hi1 : (i 1).val < 64 := (i 1).isLt
  have hN : cfg2.N = 25 := N_2
  obtain ⟨t, htv⟩ : ∃ t : Fin cfg2.N, t.val = (i 0).val / 6000 := ⟨⟨(i 0).val / 6000, by omega⟩, rfl⟩
  obtain ⟨e0, e1, e2, e3⟩ := blockIdx2 t
  refine ⟨t, flush2_1 t, ?_⟩
  rw [mem_blk2]
  intro a
  match a with
  | ⟨0, _⟩ => show win2_1.index t (0 : Fin 2) * 6000 ≤ (i 0).val ∧ (i 0).val < win2_1.index t (0 : Fin 2) * 6000 + 6000; omega
  | ⟨1, _⟩ => show win2_1.index t (1 : Fin 2) * 64 ≤ (i 1).val ∧ (i 1).val < win2_1.index t (1 : Fin 2) * 64 + 64; omega

/-- After the region the output array is the input array normalised row by row. -/
theorem region2_array (c : Dev nD) : (dat2 V c).arrAt 1 cfg2.N = normRows (n := 150000) (V c main_v13) :=
  (dat2 V c).arrAt_eq_of_cover 1 (normRows (n := 150000) (V c main_v13)) (fun t _ => flushed2_eq V c t) (cover2)

end Cert.KernelIdeal.Hand

end
-- ==== Proof.KIVal3.lean ====
/-
  Region 3 at the ideal instance, from blocks to the array: point t of the grid writes back rows 16000·t … 16000·t+15999
  of the message array, each scaled by its row's weight, and the 150 blocks tile the 2400000 rows; so after the region
  the output array is the message array scaled row by row by the weight column (scaleRows), whatever the contents V the
  region is entered with.
-/
import proofs.«180941_j14654428414616_1_alg».proof.Proof.KIReg3
import proofs.«180941_j14654428414616_1_alg».proof.Proof.KPayScale
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem zeroOffsets3 : (![0, 0] : Fin 2 → Nat) = fun _ => 0 := funext fun a => by fin_cases a <;> rfl

/-- Every window's block at point t is block (t, 0). -/
theorem blockIdx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The message block at point t is rows 16000·t … of the message array. -/
theorem inBlock3_apply0 (c : Dev nD) (t : Fin cfg3.N) (ht : t.val < 150) (y : Fin 16000) (l : Fin 64) :
    inBlock3 V c 0 t (ix2 y l) = V c main_v22 (ix2 (⟨16000 * t.val + y.val, by have := y.isLt; omega⟩ : Fin 2400000) l) := by
  obtain ⟨e0, e1, e2, e3, e4, e5⟩ := blockIdx3 t
  show V c main_v22 (((cfg3.win 0).blk t).view.emb (ix2 y l)) = _
  refine congrArg (V c main_v22) (funext fun a => Fin.ext ?_)
  match a with
  | ⟨0, _⟩ => show win3_0.index t (0 : Fin 2) * 16000 + 1 * y.val = 16000 * t.val + y.val; omega
  | ⟨1, _⟩ => show win3_0.index t (1 : Fin 2) * 64 + 1 * l.val = l.val; omega

/-- The weight block at point t is rows 16000·t … of the weight column. -/
theorem inBlock3_apply1 (c : Dev nD) (t : Fin cfg3.N) (ht : t.val < 150) (y : Fin 16000) :
    inBlock3 V c 1 t (ix2 y (0 : Fin 1)) = V c main_v23 (ix2 (⟨16000 * t.val + y.val, by have := y.isLt; omega⟩ : Fin 2400000) (0 : Fin 1)) := by
  obtain ⟨e0, e1, e2, e3, e4, e5⟩ := blockIdx3 t
  show V c main_v23 (((cfg3.win 1).blk t).view.emb (ix2 y (0 : Fin 1))) = _
  refine congrArg (V c main_v23) (funext fun a => Fin.ext ?_)
  match a with
  | ⟨0, _⟩ => show win3_1.index t (0 : Fin 2) * 16000 + 1 * y.val = 16000 * t.val + y.val; omega
  | ⟨1, _⟩ => show win3_1.index t (1 : Fin 2) * 1 + 1 * 0 = 0; omega

/-- What point t writes back is block t of the scaled message array. -/
theorem flushed3_eq (c : Dev nD) (t : Fin cfg3.N) :
    (dat3 V c).flushed 2 t = ((cfg3.win 2).blk t).view.read (Elt Ideal) (scaleRows (n := 2400000) (V c main_v22) (V c main_v23)) := by
  have ht : t.val < 150 := by have h := t.isLt; have hN : cfg3.N = 150 := N_3; omega
  obtain ⟨e0, e1, e2, e3, e4, e5⟩ := blockIdx3 t
  show (cfg3.win 2).cut (grid3.coords t) ((dat3 V c).after 2 t) = _
  rw [dat3_after2]
  unfold stored3
  rw [View.canon_unit_zero zeroOffsets3]
  simp only [View.ld_unit_zero (S := S16000x64) zeroOffsets3, View.ld_unit_zero (S := S16000x1) zeroOffsets3]
  rw [Val.k3_pay1_eq]
  refine funext fun (j : S16000x64.Idx) => ?_
  obtain ⟨y, l, rfl⟩ : ∃ (y : Fin 16000) (l : Fin 64), j = ix2 y l := ⟨j 0, j 1, eq_ix2 j⟩
  have hemb : ((cfg3.win 2).blk t).view.emb (ix2 y l) = ix2 (⟨16000 * t.val + y.val, by have := y.isLt; omega⟩ : Fin 2400000) l := by
    refine funext fun a => Fin.ext ?_
    match a with
    | ⟨0, _⟩ => show win3_2.index t (0 : Fin 2) * 16000 + 1 * y.val = 16000 * t.val + y.val; omega
    | ⟨1, _⟩ => show win3_2.index t (1 : Fin 2) * 64 + 1 * l.val = l.val; omega
  show scaleRows (n := 16000) (inBlock3 V c 0 t) (inBlock3 V c 1 t) (ix2 y l)
    = scaleRows (n := 2400000) (V c main_v22) (V c main_v23) (((cfg3.win 2).blk t).view.emb (ix2 y l))
  rw [hemb]
  exact scaleRows_block (V c main_v22) (V c main_v23) (inBlock3 V c 0 t) (inBlock3 V c 1 t) (16000 * t.val) (by omega)
    (fun y' l' => inBlock3_apply0 V c t ht y' l') (fun y' => inBlock3_apply1 V c t ht y') y l

/-- An index of the output array is in point t's block iff each coordinate is in the block's range. -/
theorem mem_blk3 (t : Fin cfg3.N) (i : S2400000x64.Idx) :
    i ∈ ((cfg3.win 2).blk t).view.set ↔ ∀ a : Fin 2, win3_2.index t a * S16000x64.size a ≤ (i a).val ∧ (i a).val < win3_2.index t a * S16000x64.size a + S16000x64.size a := by
  show i ∈ ((View.whole main_v24).slice (win3_2.rect t)).set ↔ _
  rw [View.set_slice_whole, Rect.mem_set_unit]
  exact Iff.rfl

/-- Row e of the output is written by point e / 16000. -/
theorem cover3 (i : S2400000x64.Idx) : ∃ t : Fin cfg3.N, (cfg3.win 2).flush t = true ∧ i ∈ ((cfg3.win 2).blk t).view.set := by
  have hi0 : (i 0).val < 2400000 := (i 0).isLt
  have hi1 : (i 1).val < 64 := (i 1).isLt
  have hN : cfg3.N = 150 := N_3
  obtain ⟨t, htv⟩ : ∃ t : Fin cfg3.N, t.val = (i 0).val / 16000 := ⟨⟨(i 0).val / 16000, by omega⟩, rfl⟩
  obtain ⟨e0, e1, e2, e3, e4, e5⟩ := blockIdx3 t
  refine ⟨t, flush3_2 t, ?_⟩
  rw [mem_blk3]
  intro a
  match a with
  | ⟨0, _⟩ => show win3_2.index t (0 : Fin 2) * 16000 ≤ (i 0).val ∧ (i 0).val < win3_2.index t (0 : Fin 2) * 16000 + 16000; omega
  | ⟨1, _⟩ => show win3_2.index t (1 : Fin 2) * 64 ≤ (i 1).val ∧ (i 1).val < win3_2.index t (1 : Fin 2) * 64 + 64; omega

/-- After the region the output array is the message array scaled row by row by the weight column. -/
theorem region3_array (c : Dev nD) : (dat3 V c).arrAt 2 cfg3.N = scaleRows (n := 2400000) (V c main_v22) (V c main_v23) :=
  (dat3 V c).arrAt_eq_of_cover 2 (scaleRows (n := 2400000) (V c main_v22) (V c main_v23)) (fun t _ => flushed3_eq V c t) (cover3)

end Cert.KernelIdeal.Hand

end
-- ==== Proof.KIVal4.lean ====
/-
  Region 4 at the ideal instance, from blocks to the array: point t of the grid writes back rows 6000·t … 6000·t+5999
  of the input array normalised row by row, and the 25 blocks tile the 150000 rows; so after the region the output array
  is the input array normalised row by row (normRows), whatever the contents V the region is entered with.
-/
import proofs.«180941_j14654428414616_1_alg».proof.Proof.KIReg4
import proofs.«180941_j14654428414616_1_alg».proof.Proof.KPayNorm
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem zeroOffsets4 : (![0, 0] : Fin 2 → Nat) = fun _ => 0 := funext fun a => by fin_cases a <;> rfl

/-- Both windows' block at point t is block (t, 0). -/
theorem blockIdx4 : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- The input block at point t is rows 6000·t … of the input array. -/
theorem inBlock4_apply (c : Dev nD) (t : Fin cfg4.N) (ht : t.val < 25) (y : Fin 6000) (l : Fin 64) :
    inBlock4 V c 0 t (ix2 y l) = V c main_v27 (ix2 (⟨6000 * t.val + y.val, by have := y.isLt; omega⟩ : Fin 150000) l) := by
  obtain ⟨e0, e1, e2, e3⟩ := blockIdx4 t
  show V c main_v27 (((cfg4.win 0).blk t).view.emb (ix2 y l)) = _
  refine congrArg (V c main_v27) (funext fun a => Fin.ext ?_)
  match a with
  | ⟨0, _⟩ => show win4_0.index t (0 : Fin 2) * 6000 + 1 * y.val = 6000 * t.val + y.val; omega
  | ⟨1, _⟩ => show win4_0.index t (1 : Fin 2) * 64 + 1 * l.val = l.val; omega

/-- What point t writes back is block t of the normalised input array. -/
theorem flushed4_eq (c : Dev nD) (t : Fin cfg4.N) :
    (dat4 V c).flushed 1 t = ((cfg4.win 1).blk t).view.read (Elt Ideal) (normRows (n := 150000) (V c main_v27)) := by
  have ht : t.val < 25 := by have h := t.isLt; have hN : cfg4.N = 25 := N_4; omega
  obtain ⟨e0, e1, e2, e3⟩ := blockIdx4 t
  show (cfg4.win 1).cut (grid4.coords t) ((dat4 V c).after 1 t) = _
  rw [dat4_after1]
  unfold stored4
  rw [View.canon_unit_zero zeroOffsets4]
  simp only [View.ld_unit_zero (S := S6000x64) zeroOffsets4]
  rw [Val.k4_pay1_eq]
  refine funext fun (j : S6000x64.Idx) => ?_
  obtain ⟨y, l, rfl⟩ : ∃ (y : Fin 6000) (l : Fin 64), j = ix2 y l := ⟨j 0, j 1, eq_ix2 j⟩
  have hemb : ((cfg4.win 1).blk t).view.emb (ix2 y l) = ix2 (⟨6000 * t.val + y.val, by have := y.isLt; omega⟩ : Fin 150000) l := by
    refine funext fun a => Fin.ext ?_
    match a with
    | ⟨0, _⟩ => show win4_1.index t (0 : Fin 2) * 6000 + 1 * y.val = 6000 * t.val + y.val; omega
    | ⟨1, _⟩ => show win4_1.index t (1 : Fin 2) * 64 + 1 * l.val = l.val; omega
  show normRows (n := 6000) (inBlock4 V c 0 t) (ix2 y l) = normRows (n := 150000) (V c main_v27) (((cfg4.win 1).blk t).view.emb (ix2 y l))
  rw [hemb]
  exact normRows_block (V c main_v27) (inBlock4 V c 0 t) (6000 * t.val) (by omega) (fun y' l' => inBlock4_apply V c t ht y' l') y l

/-- An index of the output array is in point t's block iff each coordinate is in the block's range. -/
theorem mem_blk4 (t : Fin cfg4.N) (i : S150000x64.Idx) :
    i ∈ ((cfg4.win 1).blk t).view.set ↔ ∀ a : Fin 2, win4_1.index t a * S6000x64.size a ≤ (i a).val ∧ (i a).val < win4_1.index t a * S6000x64.size a + S6000x64.size a := by
  show i ∈ ((View.whole main_v28).slice (win4_1.rect t)).set ↔ _
  rw [View.set_slice_whole, Rect.mem_set_unit]
  exact Iff.rfl

/-- Row r of the output is written by point r / 6000. -/
theorem cover4 (i : S150000x64.Idx) : ∃ t : Fin cfg4.N, (cfg4.win 1).flush t = true ∧ i ∈ ((cfg4.win 1).blk t).view.set := by
  have hi0 : (i 0).val < 150000 := (i 0).isLt
  have hi1 : (i 1).val < 64 := (i 1).isLt
  have hN : cfg4.N = 25 := N_4
  obtain ⟨t, htv⟩ : ∃ t : Fin cfg4.N, t.val = (i 0).val / 6000 := ⟨⟨(i 0).val / 6000, by omega⟩, rfl⟩
  obtain ⟨e0, e1, e2, e3⟩ := blockIdx4 t
  refine ⟨t, flush4_1 t, ?_⟩
  rw [mem_blk4]
  intro a
  match a with
  | ⟨0, _⟩ => show win4_1.index t (0 : Fin 2) * 6000 ≤ (i 0).val ∧ (i 0).val < win4_1.index t (0 : Fin 2) * 6000 + 6000; omega
  | ⟨1, _⟩ => show win4_1.index t (1 : Fin 2) * 64 ≤ (i 1).val ∧ (i 1).val < win4_1.index t (1 : Fin 2) * 64 + 64; omega

/-- After the region the output array is the input array normalised row by row. -/
theorem region4_array (c : Dev nD) : (dat4 V c).arrAt 1 cfg4.N = normRows (n := 150000) (V c main_v27) :=
  (dat4 V c).arrAt_eq_of_cover 1 (normRows (n := 150000) (V c main_v27)) (fun t _ => flushed4_eq V c t) (cover4)

end Cert.KernelIdeal.Hand

end
-- ==== Proof.KIVal5.lean ====
/-
  Region 5 at the ideal instance, from blocks to the array: point t of the grid writes back rows 16000·t … 16000·t+15999
  of the message array, each scaled by its row's weight, and the 150 blocks tile the 2400000 rows; so after the region
  the output array is the message array scaled row by row by the weight column (scaleRows), whatever the contents V the
  region is entered with.
-/
import proofs.«180941_j14654428414616_1_alg».proof.Proof.KIReg5
import proofs.«180941_j14654428414616_1_alg».proof.Proof.KPayScale
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem zeroOffsets5 : (![0, 0] : Fin 2 → Nat) = fun _ => 0 := funext fun a => by fin_cases a <;> rfl

/-- Every window's block at point t is block (t, 0). -/
theorem blockIdx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The message block at point t is rows 16000·t … of the message array. -/
theorem inBlock5_apply0 (c : Dev nD) (t : Fin cfg5.N) (ht : t.val < 150) (y : Fin 16000) (l : Fin 64) :
    inBlock5 V c 0 t (ix2 y l) = V c main_v36 (ix2 (⟨16000 * t.val + y.val, by have := y.isLt; omega⟩ : Fin 2400000) l) := by
  obtain ⟨e0, e1, e2, e3, e4, e5⟩ := blockIdx5 t
  show V c main_v36 (((cfg5.win 0).blk t).view.emb (ix2 y l)) = _
  refine congrArg (V c main_v36) (funext fun a => Fin.ext ?_)
  match a with
  | ⟨0, _⟩ => show win5_0.index t (0 : Fin 2) * 16000 + 1 * y.val = 16000 * t.val + y.val; omega
  | ⟨1, _⟩ => show win5_0.index t (1 : Fin 2) * 64 + 1 * l.val = l.val; omega

/-- The weight block at point t is rows 16000·t … of the weight column. -/
theorem inBlock5_apply1 (c : Dev nD) (t : Fin cfg5.N) (ht : t.val < 150) (y : Fin 16000) :
    inBlock5 V c 1 t (ix2 y (0 : Fin 1)) = V c main_v37 (ix2 (⟨16000 * t.val + y.val, by have := y.isLt; omega⟩ : Fin 2400000) (0 : Fin 1)) := by
  obtain ⟨e0, e1, e2, e3, e4, e5⟩ := blockIdx5 t
  show V c main_v37 (((cfg5.win 1).blk t).view.emb (ix2 y (0 : Fin 1))) = _
  refine congrArg (V c main_v37) (funext fun a => Fin.ext ?_)
  match a with
  | ⟨0, _⟩ => show win5_1.index t (0 : Fin 2) * 16000 + 1 * y.val = 16000 * t.val + y.val; omega
  | ⟨1, _⟩ => show win5_1.index t (1 : Fin 2) * 1 + 1 * 0 = 0; omega

/-- What point t writes back is block t of the scaled message array. -/
theorem flushed5_eq (c : Dev nD) (t : Fin cfg5.N) :
    (dat5 V c).flushed 2 t = ((cfg5.win 2).blk t).view.read (Elt Ideal) (scaleRows (n := 2400000) (V c main_v36) (V c main_v37)) := by
  have ht : t.val < 150 := by have h := t.isLt; have hN : cfg5.N = 150 := N_5; omega
  obtain ⟨e0, e1, e2, e3, e4, e5⟩ := blockIdx5 t
  show (cfg5.win 2).cut (grid5.coords t) ((dat5 V c).after 2 t) = _
  rw [dat5_after2]
  unfold stored5
  rw [View.canon_unit_zero zeroOffsets5]
  simp only [View.ld_unit_zero (S := S16000x64) zeroOffsets5, View.ld_unit_zero (S := S16000x1) zeroOffsets5]
  rw [Val.k5_pay1_eq]
  refine funext fun (j : S16000x64.Idx) => ?_
  obtain ⟨y, l, rfl⟩ : ∃ (y : Fin 16000) (l : Fin 64), j = ix2 y l := ⟨j 0, j 1, eq_ix2 j⟩
  have hemb : ((cfg5.win 2).blk t).view.emb (ix2 y l) = ix2 (⟨16000 * t.val + y.val, by have := y.isLt; omega⟩ : Fin 2400000) l := by
    refine funext fun a => Fin.ext ?_
    match a with
    | ⟨0, _⟩ => show win5_2.index t (0 : Fin 2) * 16000 + 1 * y.val = 16000 * t.val + y.val; omega
    | ⟨1, _⟩ => show win5_2.index t (1 : Fin 2) * 64 + 1 * l.val = l.val; omega
  show scaleRows (n := 16000) (inBlock5 V c 0 t) (inBlock5 V c 1 t) (ix2 y l)
    = scaleRows (n := 2400000) (V c main_v36) (V c main_v37) (((cfg5.win 2).blk t).view.emb (ix2 y l))
  rw [hemb]
  exact scaleRows_block (V c main_v36) (V c main_v37) (inBlock5 V c 0 t) (inBlock5 V c 1 t) (16000 * t.val) (by omega)
    (fun y' l' => inBlock5_apply0 V c t ht y' l') (fun y' => inBlock5_apply1 V c t ht y') y l

/-- An index of the output array is in point t's block iff each coordinate is in the block's range. -/
theorem mem_blk5 (t : Fin cfg5.N) (i : S2400000x64.Idx) :
    i ∈ ((cfg5.win 2).blk t).view.set ↔ ∀ a : Fin 2, win5_2.index t a * S16000x64.size a ≤ (i a).val ∧ (i a).val < win5_2.index t a * S16000x64.size a + S16000x64.size a := by
  show i ∈ ((View.whole main_v38).slice (win5_2.rect t)).set ↔ _
  rw [View.set_slice_whole, Rect.mem_set_unit]
  exact Iff.rfl

/-- Row e of the output is written by point e / 16000. -/
theorem cover5 (i : S2400000x64.Idx) : ∃ t : Fin cfg5.N, (cfg5.win 2).flush t = true ∧ i ∈ ((cfg5.win 2).blk t).view.set := by
  have hi0 : (i 0).val < 2400000 := (i 0).isLt
  have hi1 : (i 1).val < 64 := (i 1).isLt
  have hN : cfg5.N = 150 := N_5
  obtain ⟨t, htv⟩ : ∃ t : Fin cfg5.N, t.val = (i 0).val / 16000 := ⟨⟨(i 0).val / 16000, by omega⟩, rfl⟩
  obtain ⟨e0, e1, e2, e3, e4, e5⟩ := blockIdx5 t
  refine ⟨t, flush5_2 t, ?_⟩
  rw [mem_blk5]
  intro a
  match a with
  | ⟨0, _⟩ => show win5_2.index t (0 : Fin 2) * 16000 ≤ (i 0).val ∧ (i 0).val < win5_2.index t (0 : Fin 2) * 16000 + 16000; omega
  | ⟨1, _⟩ => show win5_2.index t (1 : Fin 2) * 64 ≤ (i 1).val ∧ (i 1).val < win5_2.index t (1 : Fin 2) * 64 + 64; omega

/-- After the region the output array is the message array scaled row by row by the weight column. -/
theorem region5_array (c : Dev nD) : (dat5 V c).arrAt 2 cfg5.N = scaleRows (n := 2400000) (V c main_v36) (V c main_v37) :=
  (dat5 V c).arrAt_eq_of_cover 2 (scaleRows (n := 2400000) (V c main_v36) (V c main_v37)) (fun t _ => flushed5_eq V c t) (cover5)

end Cert.KernelIdeal.Hand

end
-- ==== Proof.KIVal6.lean ====
/-
  Region 6 at the ideal instance, from blocks to the array: point t of the grid writes back rows 6000·t … 6000·t+5999
  of the input array normalised row by row, and the 25 blocks tile the 150000 rows; so after the region the output array
  is the input array normalised row by row (normRows), whatever the contents V the region is entered with.
-/
import proofs.«180941_j14654428414616_1_alg».proof.Proof.KIReg6
import proofs.«180941_j14654428414616_1_alg».proof.Proof.KPayNorm
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem zeroOffsets6 : (![0, 0] : Fin 2 → Nat) = fun _ => 0 := funext fun a => by fin_cases a <;> rfl

/-- Both windows' block at point t is block (t, 0). -/
theorem blockIdx6 : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- The input block at point t is rows 6000·t … of the input array. -/
theorem inBlock6_apply (c : Dev nD) (t : Fin cfg6.N) (ht : t.val < 25) (y : Fin 6000) (l : Fin 64) :
    inBlock6 V c 0 t (ix2 y l) = V c main_v41 (ix2 (⟨6000 * t.val + y.val, by have := y.isLt; omega⟩ : Fin 150000) l) := by
  obtain ⟨e0, e1, e2, e3⟩ := blockIdx6 t
  show V c main_v41 (((cfg6.win 0).blk t).view.emb (ix2 y l)) = _
  refine congrArg (V c main_v41) (funext fun a => Fin.ext ?_)
  match a with
  | ⟨0, _⟩ => show win6_0.index t (0 : Fin 2) * 6000 + 1 * y.val = 6000 * t.val + y.val; omega
  | ⟨1, _⟩ => show win6_0.index t (1 : Fin 2) * 64 + 1 * l.val = l.val; omega

/-- What point t writes back is block t of the normalised input array. -/
theorem flushed6_eq (c : Dev nD) (t : Fin cfg6.N) :
    (dat6 V c).flushed 1 t = ((cfg6.win 1).blk t).view.read (Elt Ideal) (normRows (n := 150000) (V c main_v41)) := by
  have ht : t.val < 25 := by have h := t.isLt; have hN : cfg6.N = 25 := N_6; omega
  obtain ⟨e0, e1, e2, e3⟩ := blockIdx6 t
  show (cfg6.win 1).cut (grid6.coords t) ((dat6 V c).after 1 t) = _
  rw [dat6_after1]
  unfold stored6
  rw [View.canon_unit_zero zeroOffsets6]
  simp only [View.ld_unit_zero (S := S6000x64) zeroOffsets6]
  rw [Val.k6_pay1_eq]
  refine funext fun (j : S6000x64.Idx) => ?_
  obtain ⟨y, l, rfl⟩ : ∃ (y : Fin 6000) (l : Fin 64), j = ix2 y l := ⟨j 0, j 1, eq_ix2 j⟩
  have hemb : ((cfg6.win 1).blk t).view.emb (ix2 y l) = ix2 (⟨6000 * t.val + y.val, by have := y.isLt; omega⟩ : Fin 150000) l := by
    refine funext fun a => Fin.ext ?_
    match a with
    | ⟨0, _⟩ => show win6_1.index t (0 : Fin 2) * 6000 + 1 * y.val = 6000 * t.val + y.val; omega
    | ⟨1, _⟩ => show win6_1.index t (1 : Fin 2) * 64 + 1 * l.val = l.val; omega
  show normRows (n := 6000) (inBlock6 V c 0 t) (ix2 y l) = normRows (n := 150000) (V c main_v41) (((cfg6.win 1).blk t).view.emb (ix2 y l))
  rw [hemb]
  exact normRows_block (V c main_v41) (inBlock6 V c 0 t) (6000 * t.val) (by omega) (fun y' l' => inBlock6_apply V c t ht y' l') y l

/-- An index of the output array is in point t's block iff each coordinate is in the block's range. -/
theorem mem_blk6 (t : Fin cfg6.N) (i : S150000x64.Idx) :
    i ∈ ((cfg6.win 1).blk t).view.set ↔ ∀ a : Fin 2, win6_1.index t a * S6000x64.size a ≤ (i a).val ∧ (i a).val < win6_1.index t a * S6000x64.size a + S6000x64.size a := by
  show i ∈ ((View.whole main_v42).slice (win6_1.rect t)).set ↔ _
  rw [View.set_slice_whole, Rect.mem_set_unit]
  exact Iff.rfl

/-- Row r of the output is written by point r / 6000. -/
theorem cover6 (i : S150000x64.Idx) : ∃ t : Fin cfg6.N, (cfg6.win 1).flush t = true ∧ i ∈ ((cfg6.win 1).blk t).view.set := by
  have hi0 : (i 0).val < 150000 := (i 0).isLt
  have hi1 : (i 1).val < 64 := (i 1).isLt
  have hN : cfg6.N = 25 := N_6
  obtain ⟨t, htv⟩ : ∃ t : Fin cfg6.N, t.val = (i 0).val / 6000 := ⟨⟨(i 0).val / 6000, by omega⟩, rfl⟩
  obtain ⟨e0, e1, e2, e3⟩ := blockIdx6 t
  refine ⟨t, flush6_1 t, ?_⟩
  rw [mem_blk6]
  intro a
  match a with
  | ⟨0, _⟩ => show win6_1.index t (0 : Fin 2) * 6000 ≤ (i 0).val ∧ (i 0).val < win6_1.index t (0 : Fin 2) * 6000 + 6000; omega
  | ⟨1, _⟩ => show win6_1.index t (1 : Fin 2) * 64 ≤ (i 1).val ∧ (i 1).val < win6_1.index t (1 : Fin 2) * 64 + 64; omega

/-- After the region the output array is the input array normalised row by row. -/
theorem region6_array (c : Dev nD) : (dat6 V c).arrAt 1 cfg6.N = normRows (n := 150000) (V c main_v41) :=
  (dat6 V c).arrAt_eq_of_cover 1 (normRows (n := 150000) (V c main_v41)) (fun t _ => flushed6_eq V c t) (cover6)

end Cert.KernelIdeal.Hand

end
-- ==== Proof.RefFold.lean ====
/-
  The reference's buffer contents stretch by stretch: Y0 is the launch, Y(q+1) the contents after the q-th of the seventeen
  stretches of its operations; the contents at the return are Y17. No stretch writes an argument array.
-/
import proofs.«180941_j14654428414616_1_alg».proof.Proof.RefRun

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Two lines of operations one after the other fold as their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (m : (ℓ : Loc nD τ sig) → Buf (Elt F) ℓ)

abbrev Y0 (c : Dev nD) : Valuation τ sig (Elt F) := launchContents m c
abbrev Y1 (c : Dev nD) : Valuation τ sig (Elt F) := after opsA (Y0 m c)
abbrev Y2 (c : Dev nD) : Valuation τ sig (Elt F) := after opsB (Y1 m c)
abbrev Y3 (c : Dev nD) : Valuation τ sig (Elt F) := after opsC (Y2 m c)
abbrev Y4 (c : Dev nD) : Valuation τ sig (Elt F) := after opsD (Y3 m c)
abbrev Y5 (c : Dev nD) : Valuation τ sig (Elt F) := after opsE (Y4 m c)
abbrev Y6 (c : Dev nD) : Valuation τ sig (Elt F) := after opsF (Y5 m c)
abbrev Y7 (c : Dev nD) : Valuation τ sig (Elt F) := after opsG (Y6 m c)
abbrev Y8 (c : Dev nD) : Valuation τ sig (Elt F) := after opsH (Y7 m c)
abbrev Y9 (c : Dev nD) : Valuation τ sig (Elt F) := after opsI (Y8 m c)
abbrev Y10 (c : Dev nD) : Valuation τ sig (Elt F) := after opsJ (Y9 m c)
abbrev Y11 (c : Dev nD) : Valuation τ sig (Elt F) := after opsK (Y10 m c)
abbrev Y12 (c : Dev nD) : Valuation τ sig (Elt F) := after opsL (Y11 m c)
abbrev Y13 (c : Dev nD) : Valuation τ sig (Elt F) := after opsM (Y12 m c)
abbrev Y14 (c : Dev nD) : Valuation τ sig (Elt F) := after opsN (Y13 m c)
abbrev Y15 (c : Dev nD) : Valuation τ sig (Elt F) := after opsT1 (Y14 m c)
abbrev Y16 (c : Dev nD) : Valuation τ sig (Elt F) := after opsT2 (Y15 m c)
abbrev Y17 (c : Dev nD) : Valuation τ sig (Elt F) := after opsT3 (Y16 m c)

/-- The fold of all the operations is the last of these. -/
theorem after_ops (c : Dev nD) : after ops (launchContents m c) = Y17 m c := by
  rw [ops_split]
  simp only [after_append]

end Cert.ReferenceIdeal.RunP

end
-- ==== Proof.RefKept.lean ====
/-
  Every argument array of the reference, read after any of its stretches, holds its launch contents.
-/
import proofs.«180941_j14654428414616_1_alg».proof.Proof.RefFold

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

theorem Y0_main_arg0 (c : Dev nD) : Y0 m c (Proc.devRef .tc main_arg0) = m ((c.tc : Thread nD τ).loc main_arg0) := rfl
theorem Y1_main_arg0 (c : Dev nD) : Y1 m c (Proc.devRef .tc main_arg0) = m ((c.tc : Thread nD τ).loc main_arg0) := by
  refine Eq.trans ?_ (Y0_main_arg0 m c)
  show after opsA (Y0 m c) (Proc.devRef .tc main_arg0) = _
  generalize Y0 m c = X
  after_results_simp
theorem Y2_main_arg0 (c : Dev nD) : Y2 m c (Proc.devRef .tc main_arg0) = m ((c.tc : Thread nD τ).loc main_arg0) := by
  refine Eq.trans ?_ (Y1_main_arg0 m c)
  show after opsB (Y1 m c) (Proc.devRef .tc main_arg0) = _
  generalize Y1 m c = X
  after_results_simp
theorem Y3_main_arg0 (c : Dev nD) : Y3 m c (Proc.devRef .tc main_arg0) = m ((c.tc : Thread nD τ).loc main_arg0) := by
  refine Eq.trans ?_ (Y2_main_arg0 m c)
  show after opsC (Y2 m c) (Proc.devRef .tc main_arg0) = _
  generalize Y2 m c = X
  after_results_simp
theorem Y4_main_arg0 (c : Dev nD) : Y4 m c (Proc.devRef .tc main_arg0) = m ((c.tc : Thread nD τ).loc main_arg0) := by
  refine Eq.trans ?_ (Y3_main_arg0 m c)
  show after opsD (Y3 m c) (Proc.devRef .tc main_arg0) = _
  generalize Y3 m c = X
  after_results_simp
theorem Y5_main_arg0 (c : Dev nD) : Y5 m c (Proc.devRef .tc main_arg0) = m ((c.tc : Thread nD τ).loc main_arg0) := by
  refine Eq.trans ?_ (Y4_main_arg0 m c)
  show after opsE (Y4 m c) (Proc.devRef .tc main_arg0) = _
  generalize Y4 m c = X
  after_results_simp
theorem Y6_main_arg0 (c : Dev nD) : Y6 m c (Proc.devRef .tc main_arg0) = m ((c.tc : Thread nD τ).loc main_arg0) := by
  refine Eq.trans ?_ (Y5_main_arg0 m c)
  show after opsF (Y5 m c) (Proc.devRef .tc main_arg0) = _
  generalize Y5 m c = X
  after_results_simp
theorem Y7_main_arg0 (c : Dev nD) : Y7 m c (Proc.devRef .tc main_arg0) = m ((c.tc : Thread nD τ).loc main_arg0) := by
  refine Eq.trans ?_ (Y6_main_arg0 m c)
  show after opsG (Y6 m c) (Proc.devRef .tc main_arg0) = _
  generalize Y6 m c = X
  after_results_simp
theorem Y8_main_arg0 (c : Dev nD) : Y8 m c (Proc.devRef .tc main_arg0) = m ((c.tc : Thread nD τ).loc main_arg0) := by
  refine Eq.trans ?_ (Y7_main_arg0 m c)
  show after opsH (Y7 m c) (Proc.devRef .tc main_arg0) = _
  generalize Y7 m c = X
  after_results_simp
theorem Y9_main_arg0 (c : Dev nD) : Y9 m c (Proc.devRef .tc main_arg0) = m ((c.tc : Thread nD τ).loc main_arg0) := by
  refine Eq.trans ?_ (Y8_main_arg0 m c)
  show after opsI (Y8 m c) (Proc.devRef .tc main_arg0) = _
  generalize Y8 m c = X
  after_results_simp
theorem Y10_main_arg0 (c : Dev nD) : Y10 m c (Proc.devRef .tc main_arg0) = m ((c.tc : Thread nD τ).loc main_arg0) := by
  refine Eq.trans ?_ (Y9_main_arg0 m c)
  show after opsJ (Y9 m c) (Proc.devRef .tc main_arg0) = _
  generalize Y9 m c = X
  after_results_simp
theorem Y11_main_arg0 (c : Dev nD) : Y11 m c (Proc.devRef .tc main_arg0) = m ((c.tc : Thread nD τ).loc main_arg0) := by
  refine Eq.trans ?_ (Y10_main_arg0 m c)
  show after opsK (Y10 m c) (Proc.devRef .tc main_arg0) = _
  generalize Y10 m c = X
  after_results_simp
theorem Y12_main_arg0 (c : Dev nD) : Y12 m c (Proc.devRef .tc main_arg0) = m ((c.tc : Thread nD τ).loc main_arg0) := by
  refine Eq.trans ?_ (Y11_main_arg0 m c)
  show after opsL (Y11 m c) (Proc.devRef .tc main_arg0) = _
  generalize Y11 m c = X
  after_results_simp
theorem Y13_main_arg0 (c : Dev nD) : Y13 m c (Proc.devRef .tc main_arg0) = m ((c.tc : Thread nD τ).loc main_arg0) := by
  refine Eq.trans ?_ (Y12_main_arg0 m c)
  show after opsM (Y12 m c) (Proc.devRef .tc main_arg0) = _
  generalize Y12 m c = X
  after_results_simp
theorem Y14_main_arg0 (c : Dev nD) : Y14 m c (Proc.devRef .tc main_arg0) = m ((c.tc : Thread nD τ).loc main_arg0) := by
  refine Eq.trans ?_ (Y13_main_arg0 m c)
  show after opsN (Y13 m c) (Proc.devRef .tc main_arg0) = _
  generalize Y13 m c = X
  after_results_simp
theorem Y15_main_arg0 (c : Dev nD) : Y15 m c (Proc.devRef .tc main_arg0) = m ((c.tc : Thread nD τ).loc main_arg0) := by
  refine Eq.trans ?_ (Y14_main_arg0 m c)
  show after opsT1 (Y14 m c) (Proc.devRef .tc main_arg0) = _
  generalize Y14 m c = X
  after_results_simp
theorem Y16_main_arg0 (c : Dev nD) : Y16 m c (Proc.devRef .tc main_arg0) = m ((c.tc : Thread nD τ).loc main_arg0) := by
  refine Eq.trans ?_ (Y15_main_arg0 m c)
  show after opsT2 (Y15 m c) (Proc.devRef .tc main_arg0) = _
  generalize Y15 m c = X
  after_results_simp
theorem Y17_main_arg0 (c : Dev nD) : Y17 m c (Proc.devRef .tc main_arg0) = m ((c.tc : Thread nD τ).loc main_arg0) := by
  refine Eq.trans ?_ (Y16_main_arg0 m c)
  show after opsT3 (Y16 m c) (Proc.devRef .tc main_arg0) = _
  generalize Y16 m c = X
  after_results_simp

theorem Y0_main_arg1 (c : Dev nD) : Y0 m c (Proc.devRef .tc main_arg1) = m ((c.tc : Thread nD τ).loc main_arg1) := rfl
theorem Y1_main_arg1 (c : Dev nD) : Y1 m c (Proc.devRef .tc main_arg1) = m ((c.tc : Thread nD τ).loc main_arg1) := by
  refine Eq.trans ?_ (Y0_main_arg1 m c)
  show after opsA (Y0 m c) (Proc.devRef .tc main_arg1) = _
  generalize Y0 m c = X
  after_results_simp
theorem Y2_main_arg1 (c : Dev nD) : Y2 m c (Proc.devRef .tc main_arg1) = m ((c.tc : Thread nD τ).loc main_arg1) := by
  refine Eq.trans ?_ (Y1_main_arg1 m c)
  show after opsB (Y1 m c) (Proc.devRef .tc main_arg1) = _
  generalize Y1 m c = X
  after_results_simp
theorem Y3_main_arg1 (c : Dev nD) : Y3 m c (Proc.devRef .tc main_arg1) = m ((c.tc : Thread nD τ).loc main_arg1) := by
  refine Eq.trans ?_ (Y2_main_arg1 m c)
  show after opsC (Y2 m c) (Proc.devRef .tc main_arg1) = _
  generalize Y2 m c = X
  after_results_simp
theorem Y4_main_arg1 (c : Dev nD) : Y4 m c (Proc.devRef .tc main_arg1) = m ((c.tc : Thread nD τ).loc main_arg1) := by
  refine Eq.trans ?_ (Y3_main_arg1 m c)
  show after opsD (Y3 m c) (Proc.devRef .tc main_arg1) = _
  generalize Y3 m c = X
  after_results_simp
theorem Y5_main_arg1 (c : Dev nD) : Y5 m c (Proc.devRef .tc main_arg1) = m ((c.tc : Thread nD τ).loc main_arg1) := by
  refine Eq.trans ?_ (Y4_main_arg1 m c)
  show after opsE (Y4 m c) (Proc.devRef .tc main_arg1) = _
  generalize Y4 m c = X
  after_results_simp
theorem Y6_main_arg1 (c : Dev nD) : Y6 m c (Proc.devRef .tc main_arg1) = m ((c.tc : Thread nD τ).loc main_arg1) := by
  refine Eq.trans ?_ (Y5_main_arg1 m c)
  show after opsF (Y5 m c) (Proc.devRef .tc main_arg1) = _
  generalize Y5 m c = X
  after_results_simp
theorem Y7_main_arg1 (c : Dev nD) : Y7 m c (Proc.devRef .tc main_arg1) = m ((c.tc : Thread nD τ).loc main_arg1) := by
  refine Eq.trans ?_ (Y6_main_arg1 m c)
  show after opsG (Y6 m c) (Proc.devRef .tc main_arg1) = _
  generalize Y6 m c = X
  after_results_simp
theorem Y8_main_arg1 (c : Dev nD) : Y8 m c (Proc.devRef .tc main_arg1) = m ((c.tc : Thread nD τ).loc main_arg1) := by
  refine Eq.trans ?_ (Y7_main_arg1 m c)
  show after opsH (Y7 m c) (Proc.devRef .tc main_arg1) = _
  generalize Y7 m c = X
  after_results_simp
theorem Y9_main_arg1 (c : Dev nD) : Y9 m c (Proc.devRef .tc main_arg1) = m ((c.tc : Thread nD τ).loc main_arg1) := by
  refine Eq.trans ?_ (Y8_main_arg1 m c)
  show after opsI (Y8 m c) (Proc.devRef .tc main_arg1) = _
  generalize Y8 m c = X
  after_results_simp
theorem Y10_main_arg1 (c : Dev nD) : Y10 m c (Proc.devRef .tc main_arg1) = m ((c.tc : Thread nD τ).loc main_arg1) := by
  refine Eq.trans ?_ (Y9_main_arg1 m c)
  show after opsJ (Y9 m c) (Proc.devRef .tc main_arg1) = _
  generalize Y9 m c = X
  after_results_simp
theorem Y11_main_arg1 (c : Dev nD) : Y11 m c (Proc.devRef .tc main_arg1) = m ((c.tc : Thread nD τ).loc main_arg1) := by
  refine Eq.trans ?_ (Y10_main_arg1 m c)
  show after opsK (Y10 m c) (Proc.devRef .tc main_arg1) = _
  generalize Y10 m c = X
  after_results_simp
theorem Y12_main_arg1 (c : Dev nD) : Y12 m c (Proc.devRef .tc main_arg1) = m ((c.tc : Thread nD τ).loc main_arg1) := by
  refine Eq.trans ?_ (Y11_main_arg1 m c)
  show after opsL (Y11 m c) (Proc.devRef .tc main_arg1) = _
  generalize Y11 m c = X
  after_results_simp
theorem Y13_main_arg1 (c : Dev nD) : Y13 m c (Proc.devRef .tc main_arg1) = m ((c.tc : Thread nD τ).loc main_arg1) := by
  refine Eq.trans ?_ (Y12_main_arg1 m c)
  show after opsM (Y12 m c) (Proc.devRef .tc main_arg1) = _
  generalize Y12 m c = X
  after_results_simp
theorem Y14_main_arg1 (c : Dev nD) : Y14 m c (Proc.devRef .tc main_arg1) = m ((c.tc : Thread nD τ).loc main_arg1) := by
  refine Eq.trans ?_ (Y13_main_arg1 m c)
  show after opsN (Y13 m c) (Proc.devRef .tc main_arg1) = _
  generalize Y13 m c = X
  after_results_simp
theorem Y15_main_arg1 (c : Dev nD) : Y15 m c (Proc.devRef .tc main_arg1) = m ((c.tc : Thread nD τ).loc main_arg1) := by
  refine Eq.trans ?_ (Y14_main_arg1 m c)
  show after opsT1 (Y14 m c) (Proc.devRef .tc main_arg1) = _
  generalize Y14 m c = X
  after_results_simp
theorem Y16_main_arg1 (c : Dev nD) : Y16 m c (Proc.devRef .tc main_arg1) = m ((c.tc : Thread nD τ).loc main_arg1) := by
  refine Eq.trans ?_ (Y15_main_arg1 m c)
  show after opsT2 (Y15 m c) (Proc.devRef .tc main_arg1) = _
  generalize Y15 m c = X
  after_results_simp
theorem Y17_main_arg1 (c : Dev nD) : Y17 m c (Proc.devRef .tc main_arg1) = m ((c.tc : Thread nD τ).loc main_arg1) := by
  refine Eq.trans ?_ (Y16_main_arg1 m c)
  show after opsT3 (Y16 m c) (Proc.devRef .tc main_arg1) = _
  generalize Y16 m c = X
  after_results_simp

theorem Y0_main_arg2 (c : Dev nD) : Y0 m c (Proc.devRef .tc main_arg2) = m ((c.tc : Thread nD τ).loc main_arg2) := rfl
theorem Y1_main_arg2 (c : Dev nD) : Y1 m c (Proc.devRef .tc main_arg2) = m ((c.tc : Thread nD τ).loc main_arg2) := by
  refine Eq.trans ?_ (Y0_main_arg2 m c)
  show after opsA (Y0 m c) (Proc.devRef .tc main_arg2) = _
  generalize Y0 m c = X
  after_results_simp
theorem Y2_main_arg2 (c : Dev nD) : Y2 m c (Proc.devRef .tc main_arg2) = m ((c.tc : Thread nD τ).loc main_arg2) := by
  refine Eq.trans ?_ (Y1_main_arg2 m c)
  show after opsB (Y1 m c) (Proc.devRef .tc main_arg2) = _
  generalize Y1 m c = X
  after_results_simp
theorem Y3_main_arg2 (c : Dev nD) : Y3 m c (Proc.devRef .tc main_arg2) = m ((c.tc : Thread nD τ).loc main_arg2) := by
  refine Eq.trans ?_ (Y2_main_arg2 m c)
  show after opsC (Y2 m c) (Proc.devRef .tc main_arg2) = _
  generalize Y2 m c = X
  after_results_simp
theorem Y4_main_arg2 (c : Dev nD) : Y4 m c (Proc.devRef .tc main_arg2) = m ((c.tc : Thread nD τ).loc main_arg2) := by
  refine Eq.trans ?_ (Y3_main_arg2 m c)
  show after opsD (Y3 m c) (Proc.devRef .tc main_arg2) = _
  generalize Y3 m c = X
  after_results_simp
theorem Y5_main_arg2 (c : Dev nD) : Y5 m c (Proc.devRef .tc main_arg2) = m ((c.tc : Thread nD τ).loc main_arg2) := by
  refine Eq.trans ?_ (Y4_main_arg2 m c)
  show after opsE (Y4 m c) (Proc.devRef .tc main_arg2) = _
  generalize Y4 m c = X
  after_results_simp
theorem Y6_main_arg2 (c : Dev nD) : Y6 m c (Proc.devRef .tc main_arg2) = m ((c.tc : Thread nD τ).loc main_arg2) := by
  refine Eq.trans ?_ (Y5_main_arg2 m c)
  show after opsF (Y5 m c) (Proc.devRef .tc main_arg2) = _
  generalize Y5 m c = X
  after_results_simp
theorem Y7_main_arg2 (c : Dev nD) : Y7 m c (Proc.devRef .tc main_arg2) = m ((c.tc : Thread nD τ).loc main_arg2) := by
  refine Eq.trans ?_ (Y6_main_arg2 m c)
  show after opsG (Y6 m c) (Proc.devRef .tc main_arg2) = _
  generalize Y6 m c = X
  after_results_simp
theorem Y8_main_arg2 (c : Dev nD) : Y8 m c (Proc.devRef .tc main_arg2) = m ((c.tc : Thread nD τ).loc main_arg2) := by
  refine Eq.trans ?_ (Y7_main_arg2 m c)
  show after opsH (Y7 m c) (Proc.devRef .tc main_arg2) = _
  generalize Y7 m c = X
  after_results_simp
theorem Y9_main_arg2 (c : Dev nD) : Y9 m c (Proc.devRef .tc main_arg2) = m ((c.tc : Thread nD τ).loc main_arg2) := by
  refine Eq.trans ?_ (Y8_main_arg2 m c)
  show after opsI (Y8 m c) (Proc.devRef .tc main_arg2) = _
  generalize Y8 m c = X
  after_results_simp
theorem Y10_main_arg2 (c : Dev nD) : Y10 m c (Proc.devRef .tc main_arg2) = m ((c.tc : Thread nD τ).loc main_arg2) := by
  refine Eq.trans ?_ (Y9_main_arg2 m c)
  show after opsJ (Y9 m c) (Proc.devRef .tc main_arg2) = _
  generalize Y9 m c = X
  after_results_simp
theorem Y11_main_arg2 (c : Dev nD) : Y11 m c (Proc.devRef .tc main_arg2) = m ((c.tc : Thread nD τ).loc main_arg2) := by
  refine Eq.trans ?_ (Y10_main_arg2 m c)
  show after opsK (Y10 m c) (Proc.devRef .tc main_arg2) = _
  generalize Y10 m c = X
  after_results_simp
theorem Y12_main_arg2 (c : Dev nD) : Y12 m c (Proc.devRef .tc main_arg2) = m ((c.tc : Thread nD τ).loc main_arg2) := by
  refine Eq.trans ?_ (Y11_main_arg2 m c)
  show after opsL (Y11 m c) (Proc.devRef .tc main_arg2) = _
  generalize Y11 m c = X
  after_results_simp
theorem Y13_main_arg2 (c : Dev nD) : Y13 m c (Proc.devRef .tc main_arg2) = m ((c.tc : Thread nD τ).loc main_arg2) := by
  refine Eq.trans ?_ (Y12_main_arg2 m c)
  show after opsM (Y12 m c) (Proc.devRef .tc main_arg2) = _
  generalize Y12 m c = X
  after_results_simp
theorem Y14_main_arg2 (c : Dev nD) : Y14 m c (Proc.devRef .tc main_arg2) = m ((c.tc : Thread nD τ).loc main_arg2) := by
  refine Eq.trans ?_ (Y13_main_arg2 m c)
  show after opsN (Y13 m c) (Proc.devRef .tc main_arg2) = _
  generalize Y13 m c = X
  after_results_simp
theorem Y15_main_arg2 (c : Dev nD) : Y15 m c (Proc.devRef .tc main_arg2) = m ((c.tc : Thread nD τ).loc main_arg2) := by
  refine Eq.trans ?_ (Y14_main_arg2 m c)
  show after opsT1 (Y14 m c) (Proc.devRef .tc main_arg2) = _
  generalize Y14 m c = X
  after_results_simp
theorem Y16_main_arg2 (c : Dev nD) : Y16 m c (Proc.devRef .tc main_arg2) = m ((c.tc : Thread nD τ).loc main_arg2) := by
  refine Eq.trans ?_ (Y15_main_arg2 m c)
  show after opsT2 (Y15 m c) (Proc.devRef .tc main_arg2) = _
  generalize Y15 m c = X
  after_results_simp
theorem Y17_main_arg2 (c : Dev nD) : Y17 m c (Proc.devRef .tc main_arg2) = m ((c.tc : Thread nD τ).loc main_arg2) := by
  refine Eq.trans ?_ (Y16_main_arg2 m c)
  show after opsT3 (Y16 m c) (Proc.devRef .tc main_arg2) = _
  generalize Y16 m c = X
  after_results_simp

theorem Y0_main_arg3 (c : Dev nD) : Y0 m c (Proc.devRef .tc main_arg3) = m ((c.tc : Thread nD τ).loc main_arg3) := rfl
theorem Y1_main_arg3 (c : Dev nD) : Y1 m c (Proc.devRef .tc main_arg3) = m ((c.tc : Thread nD τ).loc main_arg3) := by
  refine Eq.trans ?_ (Y0_main_arg3 m c)
  show after opsA (Y0 m c) (Proc.devRef .tc main_arg3) = _
  generalize Y0 m c = X
  after_results_simp
theorem Y2_main_arg3 (c : Dev nD) : Y2 m c (Proc.devRef .tc main_arg3) = m ((c.tc : Thread nD τ).loc main_arg3) := by
  refine Eq.trans ?_ (Y1_main_arg3 m c)
  show after opsB (Y1 m c) (Proc.devRef .tc main_arg3) = _
  generalize Y1 m c = X
  after_results_simp
theorem Y3_main_arg3 (c : Dev nD) : Y3 m c (Proc.devRef .tc main_arg3) = m ((c.tc : Thread nD τ).loc main_arg3) := by
  refine Eq.trans ?_ (Y2_main_arg3 m c)
  show after opsC (Y2 m c) (Proc.devRef .tc main_arg3) = _
  generalize Y2 m c = X
  after_results_simp
theorem Y4_main_arg3 (c : Dev nD) : Y4 m c (Proc.devRef .tc main_arg3) = m ((c.tc : Thread nD τ).loc main_arg3) := by
  refine Eq.trans ?_ (Y3_main_arg3 m c)
  show after opsD (Y3 m c) (Proc.devRef .tc main_arg3) = _
  generalize Y3 m c = X
  after_results_simp
theorem Y5_main_arg3 (c : Dev nD) : Y5 m c (Proc.devRef .tc main_arg3) = m ((c.tc : Thread nD τ).loc main_arg3) := by
  refine Eq.trans ?_ (Y4_main_arg3 m c)
  show after opsE (Y4 m c) (Proc.devRef .tc main_arg3) = _
  generalize Y4 m c = X
  after_results_simp
theorem Y6_main_arg3 (c : Dev nD) : Y6 m c (Proc.devRef .tc main_arg3) = m ((c.tc : Thread nD τ).loc main_arg3) := by
  refine Eq.trans ?_ (Y5_main_arg3 m c)
  show after opsF (Y5 m c) (Proc.devRef .tc main_arg3) = _
  generalize Y5 m c = X
  after_results_simp
theorem Y7_main_arg3 (c : Dev nD) : Y7 m c (Proc.devRef .tc main_arg3) = m ((c.tc : Thread nD τ).loc main_arg3) := by
  refine Eq.trans ?_ (Y6_main_arg3 m c)
  show after opsG (Y6 m c) (Proc.devRef .tc main_arg3) = _
  generalize Y6 m c = X
  after_results_simp
theorem Y8_main_arg3 (c : Dev nD) : Y8 m c (Proc.devRef .tc main_arg3) = m ((c.tc : Thread nD τ).loc main_arg3) := by
  refine Eq.trans ?_ (Y7_main_arg3 m c)
  show after opsH (Y7 m c) (Proc.devRef .tc main_arg3) = _
  generalize Y7 m c = X
  after_results_simp
theorem Y9_main_arg3 (c : Dev nD) : Y9 m c (Proc.devRef .tc main_arg3) = m ((c.tc : Thread nD τ).loc main_arg3) := by
  refine Eq.trans ?_ (Y8_main_arg3 m c)
  show after opsI (Y8 m c) (Proc.devRef .tc main_arg3) = _
  generalize Y8 m c = X
  after_results_simp
theorem Y10_main_arg3 (c : Dev nD) : Y10 m c (Proc.devRef .tc main_arg3) = m ((c.tc : Thread nD τ).loc main_arg3) := by
  refine Eq.trans ?_ (Y9_main_arg3 m c)
  show after opsJ (Y9 m c) (Proc.devRef .tc main_arg3) = _
  generalize Y9 m c = X
  after_results_simp
theorem Y11_main_arg3 (c : Dev nD) : Y11 m c (Proc.devRef .tc main_arg3) = m ((c.tc : Thread nD τ).loc main_arg3) := by
  refine Eq.trans ?_ (Y10_main_arg3 m c)
  show after opsK (Y10 m c) (Proc.devRef .tc main_arg3) = _
  generalize Y10 m c = X
  after_results_simp
theorem Y12_main_arg3 (c : Dev nD) : Y12 m c (Proc.devRef .tc main_arg3) = m ((c.tc : Thread nD τ).loc main_arg3) := by
  refine Eq.trans ?_ (Y11_main_arg3 m c)
  show after opsL (Y11 m c) (Proc.devRef .tc main_arg3) = _
  generalize Y11 m c = X
  after_results_simp
theorem Y13_main_arg3 (c : Dev nD) : Y13 m c (Proc.devRef .tc main_arg3) = m ((c.tc : Thread nD τ).loc main_arg3) := by
  refine Eq.trans ?_ (Y12_main_arg3 m c)
  show after opsM (Y12 m c) (Proc.devRef .tc main_arg3) = _
  generalize Y12 m c = X
  after_results_simp
theorem Y14_main_arg3 (c : Dev nD) : Y14 m c (Proc.devRef .tc main_arg3) = m ((c.tc : Thread nD τ).loc main_arg3) := by
  refine Eq.trans ?_ (Y13_main_arg3 m c)
  show after opsN (Y13 m c) (Proc.devRef .tc main_arg3) = _
  generalize Y13 m c = X
  after_results_simp
theorem Y15_main_arg3 (c : Dev nD) : Y15 m c (Proc.devRef .tc main_arg3) = m ((c.tc : Thread nD τ).loc main_arg3) := by
  refine Eq.trans ?_ (Y14_main_arg3 m c)
  show after opsT1 (Y14 m c) (Proc.devRef .tc main_arg3) = _
  generalize Y14 m c = X
  after_results_simp
theorem Y16_main_arg3 (c : Dev nD) : Y16 m c (Proc.devRef .tc main_arg3) = m ((c.tc : Thread nD τ).loc main_arg3) := by
  refine Eq.trans ?_ (Y15_main_arg3 m c)
  show after opsT2 (Y15 m c) (Proc.devRef .tc main_arg3) = _
  generalize Y15 m c = X
  after_results_simp
theorem Y17_main_arg3 (c : Dev nD) : Y17 m c (Proc.devRef .tc main_arg3) = m ((c.tc : Thread nD τ).loc main_arg3) := by
  refine Eq.trans ?_ (Y16_main_arg3 m c)
  show after opsT3 (Y16 m c) (Proc.devRef .tc main_arg3) = _
  generalize Y16 m c = X
  after_results_simp

theorem Y0_main_arg4 (c : Dev nD) : Y0 m c (Proc.devRef .tc main_arg4) = m ((c.tc : Thread nD τ).loc main_arg4) := rfl
theorem Y1_main_arg4 (c : Dev nD) : Y1 m c (Proc.devRef .tc main_arg4) = m ((c.tc : Thread nD τ).loc main_arg4) := by
  refine Eq.trans ?_ (Y0_main_arg4 m c)
  show after opsA (Y0 m c) (Proc.devRef .tc main_arg4) = _
  generalize Y0 m c = X
  after_results_simp
theorem Y2_main_arg4 (c : Dev nD) : Y2 m c (Proc.devRef .tc main_arg4) = m ((c.tc : Thread nD τ).loc main_arg4) := by
  refine Eq.trans ?_ (Y1_main_arg4 m c)
  show after opsB (Y1 m c) (Proc.devRef .tc main_arg4) = _
  generalize Y1 m c = X
  after_results_simp
theorem Y3_main_arg4 (c : Dev nD) : Y3 m c (Proc.devRef .tc main_arg4) = m ((c.tc : Thread nD τ).loc main_arg4) := by
  refine Eq.trans ?_ (Y2_main_arg4 m c)
  show after opsC (Y2 m c) (Proc.devRef .tc main_arg4) = _
  generalize Y2 m c = X
  after_results_simp
theorem Y4_main_arg4 (c : Dev nD) : Y4 m c (Proc.devRef .tc main_arg4) = m ((c.tc : Thread nD τ).loc main_arg4) := by
  refine Eq.trans ?_ (Y3_main_arg4 m c)
  show after opsD (Y3 m c) (Proc.devRef .tc main_arg4) = _
  generalize Y3 m c = X
  after_results_simp
theorem Y5_main_arg4 (c : Dev nD) : Y5 m c (Proc.devRef .tc main_arg4) = m ((c.tc : Thread nD τ).loc main_arg4) := by
  refine Eq.trans ?_ (Y4_main_arg4 m c)
  show after opsE (Y4 m c) (Proc.devRef .tc main_arg4) = _
  generalize Y4 m c = X
  after_results_simp
theorem Y6_main_arg4 (c : Dev nD) : Y6 m c (Proc.devRef .tc main_arg4) = m ((c.tc : Thread nD τ).loc main_arg4) := by
  refine Eq.trans ?_ (Y5_main_arg4 m c)
  show after opsF (Y5 m c) (Proc.devRef .tc main_arg4) = _
  generalize Y5 m c = X
  after_results_simp
theorem Y7_main_arg4 (c : Dev nD) : Y7 m c (Proc.devRef .tc main_arg4) = m ((c.tc : Thread nD τ).loc main_arg4) := by
  refine Eq.trans ?_ (Y6_main_arg4 m c)
  show after opsG (Y6 m c) (Proc.devRef .tc main_arg4) = _
  generalize Y6 m c = X
  after_results_simp
theorem Y8_main_arg4 (c : Dev nD) : Y8 m c (Proc.devRef .tc main_arg4) = m ((c.tc : Thread nD τ).loc main_arg4) := by
  refine Eq.trans ?_ (Y7_main_arg4 m c)
  show after opsH (Y7 m c) (Proc.devRef .tc main_arg4) = _
  generalize Y7 m c = X
  after_results_simp
theorem Y9_main_arg4 (c : Dev nD) : Y9 m c (Proc.devRef .tc main_arg4) = m ((c.tc : Thread nD τ).loc main_arg4) := by
  refine Eq.trans ?_ (Y8_main_arg4 m c)
  show after opsI (Y8 m c) (Proc.devRef .tc main_arg4) = _
  generalize Y8 m c = X
  after_results_simp
theorem Y10_main_arg4 (c : Dev nD) : Y10 m c (Proc.devRef .tc main_arg4) = m ((c.tc : Thread nD τ).loc main_arg4) := by
  refine Eq.trans ?_ (Y9_main_arg4 m c)
  show after opsJ (Y9 m c) (Proc.devRef .tc main_arg4) = _
  generalize Y9 m c = X
  after_results_simp
theorem Y11_main_arg4 (c : Dev nD) : Y11 m c (Proc.devRef .tc main_arg4) = m ((c.tc : Thread nD τ).loc main_arg4) := by
  refine Eq.trans ?_ (Y10_main_arg4 m c)
  show after opsK (Y10 m c) (Proc.devRef .tc main_arg4) = _
  generalize Y10 m c = X
  after_results_simp
theorem Y12_main_arg4 (c : Dev nD) : Y12 m c (Proc.devRef .tc main_arg4) = m ((c.tc : Thread nD τ).loc main_arg4) := by
  refine Eq.trans ?_ (Y11_main_arg4 m c)
  show after opsL (Y11 m c) (Proc.devRef .tc main_arg4) = _
  generalize Y11 m c = X
  after_results_simp
theorem Y13_main_arg4 (c : Dev nD) : Y13 m c (Proc.devRef .tc main_arg4) = m ((c.tc : Thread nD τ).loc main_arg4) := by
  refine Eq.trans ?_ (Y12_main_arg4 m c)
  show after opsM (Y12 m c) (Proc.devRef .tc main_arg4) = _
  generalize Y12 m c = X
  after_results_simp
theorem Y14_main_arg4 (c : Dev nD) : Y14 m c (Proc.devRef .tc main_arg4) = m ((c.tc : Thread nD τ).loc main_arg4) := by
  refine Eq.trans ?_ (Y13_main_arg4 m c)
  show after opsN (Y13 m c) (Proc.devRef .tc main_arg4) = _
  generalize Y13 m c = X
  after_results_simp
theorem Y15_main_arg4 (c : Dev nD) : Y15 m c (Proc.devRef .tc main_arg4) = m ((c.tc : Thread nD τ).loc main_arg4) := by
  refine Eq.trans ?_ (Y14_main_arg4 m c)
  show after opsT1 (Y14 m c) (Proc.devRef .tc main_arg4) = _
  generalize Y14 m c = X
  after_results_simp
theorem Y16_main_arg4 (c : Dev nD) : Y16 m c (Proc.devRef .tc main_arg4) = m ((c.tc : Thread nD τ).loc main_arg4) := by
  refine Eq.trans ?_ (Y15_main_arg4 m c)
  show after opsT2 (Y15 m c) (Proc.devRef .tc main_arg4) = _
  generalize Y15 m c = X
  after_results_simp
theorem Y17_main_arg4 (c : Dev nD) : Y17 m c (Proc.devRef .tc main_arg4) = m ((c.tc : Thread nD τ).loc main_arg4) := by
  refine Eq.trans ?_ (Y16_main_arg4 m c)
  show after opsT3 (Y16 m c) (Proc.devRef .tc main_arg4) = _
  generalize Y16 m c = X
  after_results_simp

theorem Y0_main_arg5 (c : Dev nD) : Y0 m c (Proc.devRef .tc main_arg5) = m ((c.tc : Thread nD τ).loc main_arg5) := rfl
theorem Y1_main_arg5 (c : Dev nD) : Y1 m c (Proc.devRef .tc main_arg5) = m ((c.tc : Thread nD τ).loc main_arg5) := by
  refine Eq.trans ?_ (Y0_main_arg5 m c)
  show after opsA (Y0 m c) (Proc.devRef .tc main_arg5) = _
  generalize Y0 m c = X
  after_results_simp
theorem Y2_main_arg5 (c : Dev nD) : Y2 m c (Proc.devRef .tc main_arg5) = m ((c.tc : Thread nD τ).loc main_arg5) := by
  refine Eq.trans ?_ (Y1_main_arg5 m c)
  show after opsB (Y1 m c) (Proc.devRef .tc main_arg5) = _
  generalize Y1 m c = X
  after_results_simp
theorem Y3_main_arg5 (c : Dev nD) : Y3 m c (Proc.devRef .tc main_arg5) = m ((c.tc : Thread nD τ).loc main_arg5) := by
  refine Eq.trans ?_ (Y2_main_arg5 m c)
  show after opsC (Y2 m c) (Proc.devRef .tc main_arg5) = _
  generalize Y2 m c = X
  after_results_simp
theorem Y4_main_arg5 (c : Dev nD) : Y4 m c (Proc.devRef .tc main_arg5) = m ((c.tc : Thread nD τ).loc main_arg5) := by
  refine Eq.trans ?_ (Y3_main_arg5 m c)
  show after opsD (Y3 m c) (Proc.devRef .tc main_arg5) = _
  generalize Y3 m c = X
  after_results_simp
theorem Y5_main_arg5 (c : Dev nD) : Y5 m c (Proc.devRef .tc main_arg5) = m ((c.tc : Thread nD τ).loc main_arg5) := by
  refine Eq.trans ?_ (Y4_main_arg5 m c)
  show after opsE (Y4 m c) (Proc.devRef .tc main_arg5) = _
  generalize Y4 m c = X
  after_results_simp
theorem Y6_main_arg5 (c : Dev nD) : Y6 m c (Proc.devRef .tc main_arg5) = m ((c.tc : Thread nD τ).loc main_arg5) := by
  refine Eq.trans ?_ (Y5_main_arg5 m c)
  show after opsF (Y5 m c) (Proc.devRef .tc main_arg5) = _
  generalize Y5 m c = X
  after_results_simp
theorem Y7_main_arg5 (c : Dev nD) : Y7 m c (Proc.devRef .tc main_arg5) = m ((c.tc : Thread nD τ).loc main_arg5) := by
  refine Eq.trans ?_ (Y6_main_arg5 m c)
  show after opsG (Y6 m c) (Proc.devRef .tc main_arg5) = _
  generalize Y6 m c = X
  after_results_simp
theorem Y8_main_arg5 (c : Dev nD) : Y8 m c (Proc.devRef .tc main_arg5) = m ((c.tc : Thread nD τ).loc main_arg5) := by
  refine Eq.trans ?_ (Y7_main_arg5 m c)
  show after opsH (Y7 m c) (Proc.devRef .tc main_arg5) = _
  generalize Y7 m c = X
  after_results_simp
theorem Y9_main_arg5 (c : Dev nD) : Y9 m c (Proc.devRef .tc main_arg5) = m ((c.tc : Thread nD τ).loc main_arg5) := by
  refine Eq.trans ?_ (Y8_main_arg5 m c)
  show after opsI (Y8 m c) (Proc.devRef .tc main_arg5) = _
  generalize Y8 m c = X
  after_results_simp
theorem Y10_main_arg5 (c : Dev nD) : Y10 m c (Proc.devRef .tc main_arg5) = m ((c.tc : Thread nD τ).loc main_arg5) := by
  refine Eq.trans ?_ (Y9_main_arg5 m c)
  show after opsJ (Y9 m c) (Proc.devRef .tc main_arg5) = _
  generalize Y9 m c = X
  after_results_simp
theorem Y11_main_arg5 (c : Dev nD) : Y11 m c (Proc.devRef .tc main_arg5) = m ((c.tc : Thread nD τ).loc main_arg5) := by
  refine Eq.trans ?_ (Y10_main_arg5 m c)
  show after opsK (Y10 m c) (Proc.devRef .tc main_arg5) = _
  generalize Y10 m c = X
  after_results_simp
theorem Y12_main_arg5 (c : Dev nD) : Y12 m c (Proc.devRef .tc main_arg5) = m ((c.tc : Thread nD τ).loc main_arg5) := by
  refine Eq.trans ?_ (Y11_main_arg5 m c)
  show after opsL (Y11 m c) (Proc.devRef .tc main_arg5) = _
  generalize Y11 m c = X
  after_results_simp
theorem Y13_main_arg5 (c : Dev nD) : Y13 m c (Proc.devRef .tc main_arg5) = m ((c.tc : Thread nD τ).loc main_arg5) := by
  refine Eq.trans ?_ (Y12_main_arg5 m c)
  show after opsM (Y12 m c) (Proc.devRef .tc main_arg5) = _
  generalize Y12 m c = X
  after_results_simp
theorem Y14_main_arg5 (c : Dev nD) : Y14 m c (Proc.devRef .tc main_arg5) = m ((c.tc : Thread nD τ).loc main_arg5) := by
  refine Eq.trans ?_ (Y13_main_arg5 m c)
  show after opsN (Y13 m c) (Proc.devRef .tc main_arg5) = _
  generalize Y13 m c = X
  after_results_simp
theorem Y15_main_arg5 (c : Dev nD) : Y15 m c (Proc.devRef .tc main_arg5) = m ((c.tc : Thread nD τ).loc main_arg5) := by
  refine Eq.trans ?_ (Y14_main_arg5 m c)
  show after opsT1 (Y14 m c) (Proc.devRef .tc main_arg5) = _
  generalize Y14 m c = X
  after_results_simp
theorem Y16_main_arg5 (c : Dev nD) : Y16 m c (Proc.devRef .tc main_arg5) = m ((c.tc : Thread nD τ).loc main_arg5) := by
  refine Eq.trans ?_ (Y15_main_arg5 m c)
  show after opsT2 (Y15 m c) (Proc.devRef .tc main_arg5) = _
  generalize Y15 m c = X
  after_results_simp
theorem Y17_main_arg5 (c : Dev nD) : Y17 m c (Proc.devRef .tc main_arg5) = m ((c.tc : Thread nD τ).loc main_arg5) := by
  refine Eq.trans ?_ (Y16_main_arg5 m c)
  show after opsT3 (Y16 m c) (Proc.devRef .tc main_arg5) = _
  generalize Y16 m c = X
  after_results_simp

theorem Y0_main_arg6 (c : Dev nD) : Y0 m c (Proc.devRef .tc main_arg6) = m ((c.tc : Thread nD τ).loc main_arg6) := rfl
theorem Y1_main_arg6 (c : Dev nD) : Y1 m c (Proc.devRef .tc main_arg6) = m ((c.tc : Thread nD τ).loc main_arg6) := by
  refine Eq.trans ?_ (Y0_main_arg6 m c)
  show after opsA (Y0 m c) (Proc.devRef .tc main_arg6) = _
  generalize Y0 m c = X
  after_results_simp
theorem Y2_main_arg6 (c : Dev nD) : Y2 m c (Proc.devRef .tc main_arg6) = m ((c.tc : Thread nD τ).loc main_arg6) := by
  refine Eq.trans ?_ (Y1_main_arg6 m c)
  show after opsB (Y1 m c) (Proc.devRef .tc main_arg6) = _
  generalize Y1 m c = X
  after_results_simp
theorem Y3_main_arg6 (c : Dev nD) : Y3 m c (Proc.devRef .tc main_arg6) = m ((c.tc : Thread nD τ).loc main_arg6) := by
  refine Eq.trans ?_ (Y2_main_arg6 m c)
  show after opsC (Y2 m c) (Proc.devRef .tc main_arg6) = _
  generalize Y2 m c = X
  after_results_simp
theorem Y4_main_arg6 (c : Dev nD) : Y4 m c (Proc.devRef .tc main_arg6) = m ((c.tc : Thread nD τ).loc main_arg6) := by
  refine Eq.trans ?_ (Y3_main_arg6 m c)
  show after opsD (Y3 m c) (Proc.devRef .tc main_arg6) = _
  generalize Y3 m c = X
  after_results_simp
theorem Y5_main_arg6 (c : Dev nD) : Y5 m c (Proc.devRef .tc main_arg6) = m ((c.tc : Thread nD τ).loc main_arg6) := by
  refine Eq.trans ?_ (Y4_main_arg6 m c)
  show after opsE (Y4 m c) (Proc.devRef .tc main_arg6) = _
  generalize Y4 m c = X
  after_results_simp
theorem Y6_main_arg6 (c : Dev nD) : Y6 m c (Proc.devRef .tc main_arg6) = m ((c.tc : Thread nD τ).loc main_arg6) := by
  refine Eq.trans ?_ (Y5_main_arg6 m c)
  show after opsF (Y5 m c) (Proc.devRef .tc main_arg6) = _
  generalize Y5 m c = X
  after_results_simp
theorem Y7_main_arg6 (c : Dev nD) : Y7 m c (Proc.devRef .tc main_arg6) = m ((c.tc : Thread nD τ).loc main_arg6) := by
  refine Eq.trans ?_ (Y6_main_arg6 m c)
  show after opsG (Y6 m c) (Proc.devRef .tc main_arg6) = _
  generalize Y6 m c = X
  after_results_simp
theorem Y8_main_arg6 (c : Dev nD) : Y8 m c (Proc.devRef .tc main_arg6) = m ((c.tc : Thread nD τ).loc main_arg6) := by
  refine Eq.trans ?_ (Y7_main_arg6 m c)
  show after opsH (Y7 m c) (Proc.devRef .tc main_arg6) = _
  generalize Y7 m c = X
  after_results_simp
theorem Y9_main_arg6 (c : Dev nD) : Y9 m c (Proc.devRef .tc main_arg6) = m ((c.tc : Thread nD τ).loc main_arg6) := by
  refine Eq.trans ?_ (Y8_main_arg6 m c)
  show after opsI (Y8 m c) (Proc.devRef .tc main_arg6) = _
  generalize Y8 m c = X
  after_results_simp
theorem Y10_main_arg6 (c : Dev nD) : Y10 m c (Proc.devRef .tc main_arg6) = m ((c.tc : Thread nD τ).loc main_arg6) := by
  refine Eq.trans ?_ (Y9_main_arg6 m c)
  show after opsJ (Y9 m c) (Proc.devRef .tc main_arg6) = _
  generalize Y9 m c = X
  after_results_simp
theorem Y11_main_arg6 (c : Dev nD) : Y11 m c (Proc.devRef .tc main_arg6) = m ((c.tc : Thread nD τ).loc main_arg6) := by
  refine Eq.trans ?_ (Y10_main_arg6 m c)
  show after opsK (Y10 m c) (Proc.devRef .tc main_arg6) = _
  generalize Y10 m c = X
  after_results_simp
theorem Y12_main_arg6 (c : Dev nD) : Y12 m c (Proc.devRef .tc main_arg6) = m ((c.tc : Thread nD τ).loc main_arg6) := by
  refine Eq.trans ?_ (Y11_main_arg6 m c)
  show after opsL (Y11 m c) (Proc.devRef .tc main_arg6) = _
  generalize Y11 m c = X
  after_results_simp
theorem Y13_main_arg6 (c : Dev nD) : Y13 m c (Proc.devRef .tc main_arg6) = m ((c.tc : Thread nD τ).loc main_arg6) := by
  refine Eq.trans ?_ (Y12_main_arg6 m c)
  show after opsM (Y12 m c) (Proc.devRef .tc main_arg6) = _
  generalize Y12 m c = X
  after_results_simp
theorem Y14_main_arg6 (c : Dev nD) : Y14 m c (Proc.devRef .tc main_arg6) = m ((c.tc : Thread nD τ).loc main_arg6) := by
  refine Eq.trans ?_ (Y13_main_arg6 m c)
  show after opsN (Y13 m c) (Proc.devRef .tc main_arg6) = _
  generalize Y13 m c = X
  after_results_simp
theorem Y15_main_arg6 (c : Dev nD) : Y15 m c (Proc.devRef .tc main_arg6) = m ((c.tc : Thread nD τ).loc main_arg6) := by
  refine Eq.trans ?_ (Y14_main_arg6 m c)
  show after opsT1 (Y14 m c) (Proc.devRef .tc main_arg6) = _
  generalize Y14 m c = X
  after_results_simp
theorem Y16_main_arg6 (c : Dev nD) : Y16 m c (Proc.devRef .tc main_arg6) = m ((c.tc : Thread nD τ).loc main_arg6) := by
  refine Eq.trans ?_ (Y15_main_arg6 m c)
  show after opsT2 (Y15 m c) (Proc.devRef .tc main_arg6) = _
  generalize Y15 m c = X
  after_results_simp
theorem Y17_main_arg6 (c : Dev nD) : Y17 m c (Proc.devRef .tc main_arg6) = m ((c.tc : Thread nD τ).loc main_arg6) := by
  refine Eq.trans ?_ (Y16_main_arg6 m c)
  show after opsT3 (Y16 m c) (Proc.devRef .tc main_arg6) = _
  generalize Y16 m c = X
  after_results_simp

theorem Y0_main_arg7 (c : Dev nD) : Y0 m c (Proc.devRef .tc main_arg7) = m ((c.tc : Thread nD τ).loc main_arg7) := rfl
theorem Y1_main_arg7 (c : Dev nD) : Y1 m c (Proc.devRef .tc main_arg7) = m ((c.tc : Thread nD τ).loc main_arg7) := by
  refine Eq.trans ?_ (Y0_main_arg7 m c)
  show after opsA (Y0 m c) (Proc.devRef .tc main_arg7) = _
  generalize Y0 m c = X
  after_results_simp
theorem Y2_main_arg7 (c : Dev nD) : Y2 m c (Proc.devRef .tc main_arg7) = m ((c.tc : Thread nD τ).loc main_arg7) := by
  refine Eq.trans ?_ (Y1_main_arg7 m c)
  show after opsB (Y1 m c) (Proc.devRef .tc main_arg7) = _
  generalize Y1 m c = X
  after_results_simp
theorem Y3_main_arg7 (c : Dev nD) : Y3 m c (Proc.devRef .tc main_arg7) = m ((c.tc : Thread nD τ).loc main_arg7) := by
  refine Eq.trans ?_ (Y2_main_arg7 m c)
  show after opsC (Y2 m c) (Proc.devRef .tc main_arg7) = _
  generalize Y2 m c = X
  after_results_simp
theorem Y4_main_arg7 (c : Dev nD) : Y4 m c (Proc.devRef .tc main_arg7) = m ((c.tc : Thread nD τ).loc main_arg7) := by
  refine Eq.trans ?_ (Y3_main_arg7 m c)
  show after opsD (Y3 m c) (Proc.devRef .tc main_arg7) = _
  generalize Y3 m c = X
  after_results_simp
theorem Y5_main_arg7 (c : Dev nD) : Y5 m c (Proc.devRef .tc main_arg7) = m ((c.tc : Thread nD τ).loc main_arg7) := by
  refine Eq.trans ?_ (Y4_main_arg7 m c)
  show after opsE (Y4 m c) (Proc.devRef .tc main_arg7) = _
  generalize Y4 m c = X
  after_results_simp
theorem Y6_main_arg7 (c : Dev nD) : Y6 m c (Proc.devRef .tc main_arg7) = m ((c.tc : Thread nD τ).loc main_arg7) := by
  refine Eq.trans ?_ (Y5_main_arg7 m c)
  show after opsF (Y5 m c) (Proc.devRef .tc main_arg7) = _
  generalize Y5 m c = X
  after_results_simp
theorem Y7_main_arg7 (c : Dev nD) : Y7 m c (Proc.devRef .tc main_arg7) = m ((c.tc : Thread nD τ).loc main_arg7) := by
  refine Eq.trans ?_ (Y6_main_arg7 m c)
  show after opsG (Y6 m c) (Proc.devRef .tc main_arg7) = _
  generalize Y6 m c = X
  after_results_simp
theorem Y8_main_arg7 (c : Dev nD) : Y8 m c (Proc.devRef .tc main_arg7) = m ((c.tc : Thread nD τ).loc main_arg7) := by
  refine Eq.trans ?_ (Y7_main_arg7 m c)
  show after opsH (Y7 m c) (Proc.devRef .tc main_arg7) = _
  generalize Y7 m c = X
  after_results_simp
theorem Y9_main_arg7 (c : Dev nD) : Y9 m c (Proc.devRef .tc main_arg7) = m ((c.tc : Thread nD τ).loc main_arg7) := by
  refine Eq.trans ?_ (Y8_main_arg7 m c)
  show after opsI (Y8 m c) (Proc.devRef .tc main_arg7) = _
  generalize Y8 m c = X
  after_results_simp
theorem Y10_main_arg7 (c : Dev nD) : Y10 m c (Proc.devRef .tc main_arg7) = m ((c.tc : Thread nD τ).loc main_arg7) := by
  refine Eq.trans ?_ (Y9_main_arg7 m c)
  show after opsJ (Y9 m c) (Proc.devRef .tc main_arg7) = _
  generalize Y9 m c = X
  after_results_simp
theorem Y11_main_arg7 (c : Dev nD) : Y11 m c (Proc.devRef .tc main_arg7) = m ((c.tc : Thread nD τ).loc main_arg7) := by
  refine Eq.trans ?_ (Y10_main_arg7 m c)
  show after opsK (Y10 m c) (Proc.devRef .tc main_arg7) = _
  generalize Y10 m c = X
  after_results_simp
theorem Y12_main_arg7 (c : Dev nD) : Y12 m c (Proc.devRef .tc main_arg7) = m ((c.tc : Thread nD τ).loc main_arg7) := by
  refine Eq.trans ?_ (Y11_main_arg7 m c)
  show after opsL (Y11 m c) (Proc.devRef .tc main_arg7) = _
  generalize Y11 m c = X
  after_results_simp
theorem Y13_main_arg7 (c : Dev nD) : Y13 m c (Proc.devRef .tc main_arg7) = m ((c.tc : Thread nD τ).loc main_arg7) := by
  refine Eq.trans ?_ (Y12_main_arg7 m c)
  show after opsM (Y12 m c) (Proc.devRef .tc main_arg7) = _
  generalize Y12 m c = X
  after_results_simp
theorem Y14_main_arg7 (c : Dev nD) : Y14 m c (Proc.devRef .tc main_arg7) = m ((c.tc : Thread nD τ).loc main_arg7) := by
  refine Eq.trans ?_ (Y13_main_arg7 m c)
  show after opsN (Y13 m c) (Proc.devRef .tc main_arg7) = _
  generalize Y13 m c = X
  after_results_simp
theorem Y15_main_arg7 (c : Dev nD) : Y15 m c (Proc.devRef .tc main_arg7) = m ((c.tc : Thread nD τ).loc main_arg7) := by
  refine Eq.trans ?_ (Y14_main_arg7 m c)
  show after opsT1 (Y14 m c) (Proc.devRef .tc main_arg7) = _
  generalize Y14 m c = X
  after_results_simp
theorem Y16_main_arg7 (c : Dev nD) : Y16 m c (Proc.devRef .tc main_arg7) = m ((c.tc : Thread nD τ).loc main_arg7) := by
  refine Eq.trans ?_ (Y15_main_arg7 m c)
  show after opsT2 (Y15 m c) (Proc.devRef .tc main_arg7) = _
  generalize Y15 m c = X
  after_results_simp
theorem Y17_main_arg7 (c : Dev nD) : Y17 m c (Proc.devRef .tc main_arg7) = m ((c.tc : Thread nD τ).loc main_arg7) := by
  refine Eq.trans ?_ (Y16_main_arg7 m c)
  show after opsT3 (Y16 m c) (Proc.devRef .tc main_arg7) = _
  generalize Y16 m c = X
  after_results_simp

theorem Y0_main_arg8 (c : Dev nD) : Y0 m c (Proc.devRef .tc main_arg8) = m ((c.tc : Thread nD τ).loc main_arg8) := rfl
theorem Y1_main_arg8 (c : Dev nD) : Y1 m c (Proc.devRef .tc main_arg8) = m ((c.tc : Thread nD τ).loc main_arg8) := by
  refine Eq.trans ?_ (Y0_main_arg8 m c)
  show after opsA (Y0 m c) (Proc.devRef .tc main_arg8) = _
  generalize Y0 m c = X
  after_results_simp
theorem Y2_main_arg8 (c : Dev nD) : Y2 m c (Proc.devRef .tc main_arg8) = m ((c.tc : Thread nD τ).loc main_arg8) := by
  refine Eq.trans ?_ (Y1_main_arg8 m c)
  show after opsB (Y1 m c) (Proc.devRef .tc main_arg8) = _
  generalize Y1 m c = X
  after_results_simp
theorem Y3_main_arg8 (c : Dev nD) : Y3 m c (Proc.devRef .tc main_arg8) = m ((c.tc : Thread nD τ).loc main_arg8) := by
  refine Eq.trans ?_ (Y2_main_arg8 m c)
  show after opsC (Y2 m c) (Proc.devRef .tc main_arg8) = _
  generalize Y2 m c = X
  after_results_simp
theorem Y4_main_arg8 (c : Dev nD) : Y4 m c (Proc.devRef .tc main_arg8) = m ((c.tc : Thread nD τ).loc main_arg8) := by
  refine Eq.trans ?_ (Y3_main_arg8 m c)
  show after opsD (Y3 m c) (Proc.devRef .tc main_arg8) = _
  generalize Y3 m c = X
  after_results_simp
theorem Y5_main_arg8 (c : Dev nD) : Y5 m c (Proc.devRef .tc main_arg8) = m ((c.tc : Thread nD τ).loc main_arg8) := by
  refine Eq.trans ?_ (Y4_main_arg8 m c)
  show after opsE (Y4 m c) (Proc.devRef .tc main_arg8) = _
  generalize Y4 m c = X
  after_results_simp
theorem Y6_main_arg8 (c : Dev nD) : Y6 m c (Proc.devRef .tc main_arg8) = m ((c.tc : Thread nD τ).loc main_arg8) := by
  refine Eq.trans ?_ (Y5_main_arg8 m c)
  show after opsF (Y5 m c) (Proc.devRef .tc main_arg8) = _
  generalize Y5 m c = X
  after_results_simp
theorem Y7_main_arg8 (c : Dev nD) : Y7 m c (Proc.devRef .tc main_arg8) = m ((c.tc : Thread nD τ).loc main_arg8) := by
  refine Eq.trans ?_ (Y6_main_arg8 m c)
  show after opsG (Y6 m c) (Proc.devRef .tc main_arg8) = _
  generalize Y6 m c = X
  after_results_simp
theorem Y8_main_arg8 (c : Dev nD) : Y8 m c (Proc.devRef .tc main_arg8) = m ((c.tc : Thread nD τ).loc main_arg8) := by
  refine Eq.trans ?_ (Y7_main_arg8 m c)
  show after opsH (Y7 m c) (Proc.devRef .tc main_arg8) = _
  generalize Y7 m c = X
  after_results_simp
theorem Y9_main_arg8 (c : Dev nD) : Y9 m c (Proc.devRef .tc main_arg8) = m ((c.tc : Thread nD τ).loc main_arg8) := by
  refine Eq.trans ?_ (Y8_main_arg8 m c)
  show after opsI (Y8 m c) (Proc.devRef .tc main_arg8) = _
  generalize Y8 m c = X
  after_results_simp
theorem Y10_main_arg8 (c : Dev nD) : Y10 m c (Proc.devRef .tc main_arg8) = m ((c.tc : Thread nD τ).loc main_arg8) := by
  refine Eq.trans ?_ (Y9_main_arg8 m c)
  show after opsJ (Y9 m c) (Proc.devRef .tc main_arg8) = _
  generalize Y9 m c = X
  after_results_simp
theorem Y11_main_arg8 (c : Dev nD) : Y11 m c (Proc.devRef .tc main_arg8) = m ((c.tc : Thread nD τ).loc main_arg8) := by
  refine Eq.trans ?_ (Y10_main_arg8 m c)
  show after opsK (Y10 m c) (Proc.devRef .tc main_arg8) = _
  generalize Y10 m c = X
  after_results_simp
theorem Y12_main_arg8 (c : Dev nD) : Y12 m c (Proc.devRef .tc main_arg8) = m ((c.tc : Thread nD τ).loc main_arg8) := by
  refine Eq.trans ?_ (Y11_main_arg8 m c)
  show after opsL (Y11 m c) (Proc.devRef .tc main_arg8) = _
  generalize Y11 m c = X
  after_results_simp
theorem Y13_main_arg8 (c : Dev nD) : Y13 m c (Proc.devRef .tc main_arg8) = m ((c.tc : Thread nD τ).loc main_arg8) := by
  refine Eq.trans ?_ (Y12_main_arg8 m c)
  show after opsM (Y12 m c) (Proc.devRef .tc main_arg8) = _
  generalize Y12 m c = X
  after_results_simp
theorem Y14_main_arg8 (c : Dev nD) : Y14 m c (Proc.devRef .tc main_arg8) = m ((c.tc : Thread nD τ).loc main_arg8) := by
  refine Eq.trans ?_ (Y13_main_arg8 m c)
  show after opsN (Y13 m c) (Proc.devRef .tc main_arg8) = _
  generalize Y13 m c = X
  after_results_simp
theorem Y15_main_arg8 (c : Dev nD) : Y15 m c (Proc.devRef .tc main_arg8) = m ((c.tc : Thread nD τ).loc main_arg8) := by
  refine Eq.trans ?_ (Y14_main_arg8 m c)
  show after opsT1 (Y14 m c) (Proc.devRef .tc main_arg8) = _
  generalize Y14 m c = X
  after_results_simp
theorem Y16_main_arg8 (c : Dev nD) : Y16 m c (Proc.devRef .tc main_arg8) = m ((c.tc : Thread nD τ).loc main_arg8) := by
  refine Eq.trans ?_ (Y15_main_arg8 m c)
  show after opsT2 (Y15 m c) (Proc.devRef .tc main_arg8) = _
  generalize Y15 m c = X
  after_results_simp
theorem Y17_main_arg8 (c : Dev nD) : Y17 m c (Proc.devRef .tc main_arg8) = m ((c.tc : Thread nD τ).loc main_arg8) := by
  refine Eq.trans ?_ (Y16_main_arg8 m c)
  show after opsT3 (Y16 m c) (Proc.devRef .tc main_arg8) = _
  generalize Y16 m c = X
  after_results_simp

end Cert.ReferenceIdeal.RunP

end
-- ==== Proof.HostOps.lean ====
/-
  The reference's host operations read at an index, at the ideal instance.

  Its row normalisation is the same arithmetic as the kernel's, spelt with host operations on the whole 150000×64
  array: rectify, sum the squares of each row (a host reduction from the zero constant), broadcast to a column, square
  root, clamp below by ε, broadcast over the lanes, divide. At entry (r, l) that is rowNorm of row r at lane l: the
  composite is normRows. Its message scaling multiplies the weight column, broadcast over the lanes, by the gathered
  messages: scaleRows, multiplication on the extended reals being commutative.
-/
import proofs.«180941_j14654428414616_1_alg».proof.Proof.Gen.ReferenceIdeal
import proofs.«180941_j14654428414616_1_alg».proof.Proof.LibKeepdims
import proofs.«180941_j14654428414616_1_alg».proof.Proof.NormSpec
import Idealize.ShloMosaic.Lib.Pipeline.Value

noncomputable section

namespace Cert.ReferenceIdeal.Val

open Idealize.ShloMosaic Idealize.ShloMosaic.ValueIdx Cert.ReferenceIdeal Cert.ReferenceIdeal.Gen Cert.Spec

/-- A scalar constant broadcast to the whole array reads, everywhere, the constant's value. -/
theorem splat_apply (b : BitVec 32) (i : S150000x64.Idx) :
    broadcastInDim S150000x64 ![] bcast_S_S150000x64 (constant (F := Ideal) S_ .f32 b) i = Ideal.ofBits .f32 b :=
  broadcastInDim_apply _ bcast_S_S150000x64 _ i ix0 (fun a => a.elim0)
theorem splatCol_apply (b : BitVec 32) (i : S150000x1.Idx) :
    broadcastInDim S150000x1 ![] bcast_S_S150000x1 (constant (F := Ideal) S_ .f32 b) i = Ideal.ofBits .f32 b :=
  broadcastInDim_apply _ bcast_S_S150000x1 _ i ix0 (fun a => a.elim0)

/-- The rectified array, as the reference spells it. -/
def hostLr (x : FVec Ideal S150000x64 .f32) : FVec Ideal S150000x64 .f32 :=
  select (cmpf .oge x (broadcastInDim S150000x64 ![] bcast_S_S150000x64 (constant (F := Ideal) S_ .f32 0x00000000#32))) x
    (mulf (broadcastInDim S150000x64 ![] bcast_S_S150000x64 (constant (F := Ideal) S_ .f32 0x3DCCCCCD#32)) x)

/-- The column of clamped row norms, as the reference spells it. -/
def hostCol (x : FVec Ideal S150000x64 .f32) : FVec Ideal S150000x1 .f32 :=
  maximumf (Host.sqrt (broadcastInDim S150000x1 ![0] bcast_S150000_S150000x1_0
      (Host.reduceAdd (mulf (hostLr x) (hostLr x)) (constant (F := Ideal) S_ .f32 0x00000000#32) reducesTo_S150000x64_S150000_d1 h_S_)))
    (broadcastInDim S150000x1 ![] bcast_S_S150000x1 (constant (F := Ideal) S_ .f32 0x2B8CBCCC#32))

/-- The reference's normalisation of a whole array. -/
def hostNorm (x : FVec Ideal S150000x64 .f32) : FVec Ideal S150000x64 .f32 :=
  Host.divf (hostLr x) (broadcastInDim S150000x64 ![0, 1] bcast_S150000x1_S150000x64_0_1 (hostCol x))

theorem hostLr_apply (x : FVec Ideal S150000x64 .f32) (i : S150000x64.Idx) : hostLr x i = lrelu (x i) := by
  unfold hostLr
  rw [select_apply, cmpf_apply, mulf_apply, splat_apply, splat_apply]
  rfl

/-- The host's sum along the lanes of row r, from the zero constant, is the sum of the row's entries. -/
theorem hostRowSum_apply (y : FVec Ideal S150000x64 .f32) (r : Fin 150000) :
    Host.reduceAdd y (constant (F := Ideal) S_ .f32 0x00000000#32) reducesTo_S150000x64_S150000_d1 h_S_ (ix1 r)
      = ∑ j : Fin 64, y (ix2 r j) := by
  simp only [Host.reduceAdd, Ideal.hostReduceAdd_def]
  rw [Ideal.hostReduceAdd_single reducesTo_S150000x64_S150000_d1 (by decide)]
  have h0 : (constant (F := Ideal) S_ .f32 0x00000000#32) (Shape.Idx.first h_S_) = (0 : EReal) := Ideal.ofBits_zero_f32
  rw [h0, zero_add]
  refine Finset.sum_congr rfl fun k _ => ?_
  exact congrArg y (funext fun a => Fin.ext (by match a with | ⟨0, _⟩ => rfl | ⟨1, _⟩ => rfl))

/-- Pointwise host operations at an index. -/
theorem hostSqrt_apply {s : Shape} (y : FVec Ideal s .f32) (i : s.Idx) : Host.sqrt y i = Ideal.sqrt (y i) := rfl
theorem hostDivf_apply {s : Shape} (a b : FVec Ideal s .f32) (i : s.Idx) : Host.divf a b i = Ideal.div (a i) (b i) := rfl

theorem hostCol_apply (x : FVec Ideal S150000x64 .f32) (r : Fin 150000) :
    hostCol x (ix2 r (0 : Fin 1))
      = max (Ideal.sqrt (∑ j : Fin 64, lrelu (x (ix2 r j)) * lrelu (x (ix2 r j)))) (Ideal.ofBits .f32 0x2B8CBCCC#32) := by
  unfold hostCol
  rw [maximumf_apply, hostSqrt_apply, splatCol_apply]
  rw [broadcastInDim_apply _ bcast_S150000_S150000x1_0 _ (ix2 r (0 : Fin 1)) (ix1 r) (fun a => match a with
    | ⟨0, _⟩ => by show r.val = if (150000 : Nat) = 1 then 0 else r.val; rw [if_neg (by decide)])]
  rw [hostRowSum_apply]
  refine congrArg (fun s => max (Ideal.sqrt s) _) (Finset.sum_congr rfl fun j _ => ?_)
  rw [mulf_apply, hostLr_apply]

/-- The reference's normalisation is normRows. -/
theorem hostNorm_eq (x : FVec Ideal S150000x64 .f32) : hostNorm x = normRows (n := 150000) x := by
  funext j
  obtain ⟨r, l, rfl⟩ : ∃ (r : Fin 150000) (l : Fin 64), j = ix2 r l := ⟨j 0, j 1, eq_ix2 j⟩
  rw [normRows_ix2]
  unfold hostNorm
  rw [hostDivf_apply]
  rw [broadcastInDim_apply _ bcast_S150000x1_S150000x64_0_1 _ (ix2 r l) (ix2 r (0 : Fin 1)) (fun a => match a with
    | ⟨0, _⟩ => by show r.val = if (150000 : Nat) = 1 then 0 else r.val; rw [if_neg (by decide)]
    | ⟨1, _⟩ => by show 0 = if (1 : Nat) = 1 then 0 else l.val; rw [if_pos rfl])]
  rw [hostCol_apply, hostLr_apply]
  rfl

/-- The reference's scaling of the gathered messages by the weight column is scaleRows. -/
theorem hostScale_eq (p : FVec Ideal S2400000x64 .f32) (v : FVec Ideal S2400000x1 .f32) :
    mulf (broadcastInDim S2400000x64 ![0, 1] bcast_S2400000x1_S2400000x64_0_1 v) p = scaleRows (n := 2400000) p v := by
  funext j
  obtain ⟨e, l, rfl⟩ : ∃ (e : Fin 2400000) (l : Fin 64), j = ix2 e l := ⟨j 0, j 1, eq_ix2 j⟩
  rw [scaleRows_ix2, mulf_apply]
  rw [broadcastInDim_apply _ bcast_S2400000x1_S2400000x64_0_1 v (ix2 e l) (ix2 e (0 : Fin 1)) (fun a => match a with
    | ⟨0, _⟩ => by show e.val = if (2400000 : Nat) = 1 then 0 else e.val; rw [if_neg (by decide)]
    | ⟨1, _⟩ => by show 0 = if (1 : Nat) = 1 then 0 else l.val; rw [if_pos rfl])]
  exact mul_comm _ _

/-- The weight vector as a column: a reshape [n] → [n, 1] and a broadcast along axis 0 read the same entry. -/
theorem column_eq (a : (⟨1, ![2400000]⟩ : Shape).Idx → EReal)
    (hc : (⟨1, ![2400000]⟩ : Shape).ShapeCasts ⟨2, ![2400000, 1]⟩) :
    shapeCast ⟨2, ![2400000, 1]⟩ a hc = broadcastInDim S2400000x1 ![0] bcast_S2400000_S2400000x1_0 a := by
  funext j
  obtain ⟨e, u, rfl⟩ : ∃ (e : Fin 2400000) (u : Fin 1), j = ix2 e u := ⟨j 0, j 1, eq_ix2 j⟩
  rw [Keepdims.shapeCast_a_a1_apply]
  exact (broadcastInDim_apply _ bcast_S2400000_S2400000x1_0 a (ix2 e u) (ix1 e) (fun a' => match a' with
    | ⟨0, _⟩ => by show e.val = if (2400000 : Nat) = 1 then 0 else e.val; rw [if_neg (by decide)])).symm

end Cert.ReferenceIdeal.Val

end
-- ==== Proof.LibNary3.lean ====
/-
  The result of a host operation over a literal family of THREE operand buffers (a concatenation of three arrays) with
  each operand's contents read at its own buffer: the composed function applied to the three contents in order. With the
  operands spelt this way the contents of each can be computed further, which the general statement (the operand read at
  an index of the family, under a binder) does not allow.
-/
import Idealize.ShloMosaic.Lib.StableHlo.Run

noncomputable section

namespace Idealize.ShloMosaic.StableHlo

variable {τ : Topo} {sig : RefSig} {Val : EltTy → Type} {x a b y : Ref sig .tc}

/-- A three-operand operation's result at its result buffer: its function of the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, in the form a single simplification pass uses (the result buffer not indexed). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.BridgeStages.lean ====
/-
  One stretch of host operations at a time, the two programs side by side. X stands for the kernel program's buffer
  contents before the stretch and Y for the reference's; if they agree on the buffers the stretch reads, the stretch
  leaves equal contents in the buffer it writes: both programs apply the same operations there (the weight column is a
  reshape on one side and a broadcast along axis 0 on the other: the same column). The reference's normalising and
  scaling stretches, which the kernel program runs as kernel regions, are read as normRows and scaleRows.
-/
import proofs.«180941_j14654428414616_1_alg».proof.Proof.Gen.KernelIdeal.Launch
import proofs.«180941_j14654428414616_1_alg».proof.Proof.RefRun
import proofs.«180941_j14654428414616_1_alg».proof.Proof.HostOps
import proofs.«180941_j14654428414616_1_alg».proof.Proof.LibNary3
import Idealize.ShloMosaic.Lib.StableHlo.Run

set_option maxRecDepth 16384

noncomputable section

namespace Cert.Bridge

open Idealize.ShloMosaic Idealize.ShloMosaic.TcCoe Idealize.SL.Sem Idealize.ShloMosaic.StableHlo Cert.Spec

variable (X : Valuation Cert.KernelIdeal.τ Cert.KernelIdeal.sig (Elt Ideal)) (Y : Valuation Cert.ReferenceIdeal.τ Cert.ReferenceIdeal.sig (Elt Ideal))

set_option maxHeartbeats 2000000 in
theorem stageA_main_v0 (h0 : X (Proc.devRef .tc Cert.KernelIdeal.main_arg7) = Y (Proc.devRef .tc Cert.ReferenceIdeal.main_arg7)) (h1 : X (Proc.devRef .tc Cert.KernelIdeal.main_arg8) = Y (Proc.devRef .tc Cert.ReferenceIdeal.main_arg8)) :
    after Cert.KernelIdeal.Gen.main_part0_ops0 X (Proc.devRef .tc Cert.KernelIdeal.main_v0) = after Cert.ReferenceIdeal.RunP.opsA Y (Proc.devRef .tc Cert.ReferenceIdeal.main_v0) := by
  after_results_simp
  rw [h0, h1]
  try rfl

set_option maxHeartbeats 2000000 in
theorem stageC_main_v8 (h0 : X (Proc.devRef .tc Cert.KernelIdeal.main_v1) = Y (Proc.devRef .tc Cert.ReferenceIdeal.main_v13)) (h1 : X (Proc.devRef .tc Cert.KernelIdeal.main_arg5) = Y (Proc.devRef .tc Cert.ReferenceIdeal.main_arg5)) :
    after Cert.KernelIdeal.Gen.main_part0_ops1 X (Proc.devRef .tc Cert.KernelIdeal.main_v8) = after Cert.ReferenceIdeal.RunP.opsC Y (Proc.devRef .tc Cert.ReferenceIdeal.main_v21) := by
  after_results_simp
  rw [h0, h1]
  try rfl

set_option maxHeartbeats 2000000 in
theorem stageC_main_v9 (h0 : X (Proc.devRef .tc Cert.KernelIdeal.main_arg6) = Y (Proc.devRef .tc Cert.ReferenceIdeal.main_arg6)) :
    after Cert.KernelIdeal.Gen.main_part0_ops1 X (Proc.devRef .tc Cert.KernelIdeal.main_v9) = after Cert.ReferenceIdeal.RunP.opsC Y (Proc.devRef .tc Cert.ReferenceIdeal.main_v14) := by
  after_results_simp
  rw [← h0]
  exact Cert.ReferenceIdeal.Val.column_eq _ _

set_option maxHeartbeats 2000000 in
theorem stageC_main_v1 (h0 : X (Proc.devRef .tc Cert.KernelIdeal.main_v1) = Y (Proc.devRef .tc Cert.ReferenceIdeal.main_v13)) :
    after Cert.KernelIdeal.Gen.main_part0_ops1 X (Proc.devRef .tc Cert.KernelIdeal.main_v1) = after Cert.ReferenceIdeal.RunP.opsC Y (Proc.devRef .tc Cert.ReferenceIdeal.main_v13) := by
  after_results_simp
  exact h0

set_option maxHeartbeats 2000000 in
theorem stageE_main_v13 (h0 : X (Proc.devRef .tc Cert.KernelIdeal.main_v10) = Y (Proc.devRef .tc Cert.ReferenceIdeal.main_v23)) (h1 : X (Proc.devRef .tc Cert.KernelIdeal.main_arg4) = Y (Proc.devRef .tc Cert.ReferenceIdeal.main_arg4)) :
    after Cert.KernelIdeal.Gen.main_part0_ops2 X (Proc.devRef .tc Cert.KernelIdeal.main_v13) = after Cert.ReferenceIdeal.RunP.opsE Y (Proc.devRef .tc Cert.ReferenceIdeal.main_v26) := by
  after_results_simp
  rw [h0, h1]
  try rfl

set_option maxHeartbeats 2000000 in
theorem stageE_main_v1 (h0 : X (Proc.devRef .tc Cert.KernelIdeal.main_v1) = Y (Proc.devRef .tc Cert.ReferenceIdeal.main_v13)) :
    after Cert.KernelIdeal.Gen.main_part0_ops2 X (Proc.devRef .tc Cert.KernelIdeal.main_v1) = after Cert.ReferenceIdeal.RunP.opsE Y (Proc.devRef .tc Cert.ReferenceIdeal.main_v13) := by
  after_results_simp
  exact h0

set_option maxHeartbeats 2000000 in
theorem stageG_main_v15 (h0 : X (Proc.devRef .tc Cert.KernelIdeal.main_v1) = Y (Proc.devRef .tc Cert.ReferenceIdeal.main_v13)) (h1 : X (Proc.devRef .tc Cert.KernelIdeal.main_v14) = Y (Proc.devRef .tc Cert.ReferenceIdeal.main_v39)) :
    after Cert.KernelIdeal.Gen.main_part0_ops3 X (Proc.devRef .tc Cert.KernelIdeal.main_v15) = after Cert.ReferenceIdeal.RunP.opsG Y (Proc.devRef .tc Cert.ReferenceIdeal.main_v40) := by
  after_results_simp
  rw [h0, h1]
  try rfl

set_option maxHeartbeats 2000000 in
theorem stageG_main_v22 (h0 : X (Proc.devRef .tc Cert.KernelIdeal.main_v14) = Y (Proc.devRef .tc Cert.ReferenceIdeal.main_v39)) (h1 : X (Proc.devRef .tc Cert.KernelIdeal.main_arg5) = Y (Proc.devRef .tc Cert.ReferenceIdeal.main_arg5)) :
    after Cert.KernelIdeal.Gen.main_part0_ops3 X (Proc.devRef .tc Cert.KernelIdeal.main_v22) = after Cert.ReferenceIdeal.RunP.opsG Y (Proc.devRef .tc Cert.ReferenceIdeal.main_v48) := by
  after_results_simp
  rw [h0, h1]
  try rfl

set_option maxHeartbeats 2000000 in
theorem stageG_main_v23 (h0 : X (Proc.devRef .tc Cert.KernelIdeal.main_arg6) = Y (Proc.devRef .tc Cert.ReferenceIdeal.main_arg6)) :
    after Cert.KernelIdeal.Gen.main_part0_ops3 X (Proc.devRef .tc Cert.KernelIdeal.main_v23) = after Cert.ReferenceIdeal.RunP.opsG Y (Proc.devRef .tc Cert.ReferenceIdeal.main_v41) := by
  after_results_simp
  rw [← h0]
  exact Cert.ReferenceIdeal.Val.column_eq _ _

set_option maxHeartbeats 2000000 in
theorem stageI_main_v27 (h0 : X (Proc.devRef .tc Cert.KernelIdeal.main_v24) = Y (Proc.devRef .tc Cert.ReferenceIdeal.main_v50)) (h1 : X (Proc.devRef .tc Cert.KernelIdeal.main_arg4) = Y (Proc.devRef .tc Cert.ReferenceIdeal.main_arg4)) :
    after Cert.KernelIdeal.Gen.main_part0_ops4 X (Proc.devRef .tc Cert.KernelIdeal.main_v27) = after Cert.ReferenceIdeal.RunP.opsI Y (Proc.devRef .tc Cert.ReferenceIdeal.main_v53) := by
  after_results_simp
  rw [h0, h1]
  try rfl

set_option maxHeartbeats 2000000 in
theorem stageI_main_v15 (h0 : X (Proc.devRef .tc Cert.KernelIdeal.main_v15) = Y (Proc.devRef .tc Cert.ReferenceIdeal.main_v40)) :
    after Cert.KernelIdeal.Gen.main_part0_ops4 X (Proc.devRef .tc Cert.KernelIdeal.main_v15) = after Cert.ReferenceIdeal.RunP.opsI Y (Proc.devRef .tc Cert.ReferenceIdeal.main_v40) := by
  after_results_simp
  exact h0

set_option maxHeartbeats 2000000 in
theorem stageK_main_v29 (h0 : X (Proc.devRef .tc Cert.KernelIdeal.main_v15) = Y (Proc.devRef .tc Cert.ReferenceIdeal.main_v40)) (h1 : X (Proc.devRef .tc Cert.KernelIdeal.main_v28) = Y (Proc.devRef .tc Cert.ReferenceIdeal.main_v66)) :
    after Cert.KernelIdeal.Gen.main_part0_ops5 X (Proc.devRef .tc Cert.KernelIdeal.main_v29) = after Cert.ReferenceIdeal.RunP.opsK Y (Proc.devRef .tc Cert.ReferenceIdeal.main_v67) := by
  after_results_simp
  rw [h0, h1]
  try rfl

set_option maxHeartbeats 2000000 in
theorem stageK_main_v36 (h0 : X (Proc.devRef .tc Cert.KernelIdeal.main_v28) = Y (Proc.devRef .tc Cert.ReferenceIdeal.main_v66)) (h1 : X (Proc.devRef .tc Cert.KernelIdeal.main_arg5) = Y (Proc.devRef .tc Cert.ReferenceIdeal.main_arg5)) :
    after Cert.KernelIdeal.Gen.main_part0_ops5 X (Proc.devRef .tc Cert.KernelIdeal.main_v36) = after Cert.ReferenceIdeal.RunP.opsK Y (Proc.devRef .tc Cert.ReferenceIdeal.main_v75) := by
  after_results_simp
  rw [h0, h1]
  try rfl

set_option maxHeartbeats 2000000 in
theorem stageK_main_v37 (h0 : X (Proc.devRef .tc Cert.KernelIdeal.main_arg6) = Y (Proc.devRef .tc Cert.ReferenceIdeal.main_arg6)) :
    after Cert.KernelIdeal.Gen.main_part0_ops5 X (Proc.devRef .tc Cert.KernelIdeal.main_v37) = after Cert.ReferenceIdeal.RunP.opsK Y (Proc.devRef .tc Cert.ReferenceIdeal.main_v68) := by
  after_results_simp
  rw [← h0]
  exact Cert.ReferenceIdeal.Val.column_eq _ _

set_option maxHeartbeats 2000000 in
theorem stageM_main_v41 (h0 : X (Proc.devRef .tc Cert.KernelIdeal.main_v38) = Y (Proc.devRef .tc Cert.ReferenceIdeal.main_v77)) (h1 : X (Proc.devRef .tc Cert.KernelIdeal.main_arg4) = Y (Proc.devRef .tc Cert.ReferenceIdeal.main_arg4)) :
    after Cert.KernelIdeal.Gen.main_part0_ops6 X (Proc.devRef .tc Cert.KernelIdeal.main_v41) = after Cert.ReferenceIdeal.RunP.opsM Y (Proc.devRef .tc Cert.ReferenceIdeal.main_v80) := by
  after_results_simp
  rw [h0, h1]
  try rfl

set_option maxHeartbeats 2000000 in
theorem stageM_main_v29 (h0 : X (Proc.devRef .tc Cert.KernelIdeal.main_v29) = Y (Proc.devRef .tc Cert.ReferenceIdeal.main_v67)) :
    after Cert.KernelIdeal.Gen.main_part0_ops6 X (Proc.devRef .tc Cert.KernelIdeal.main_v29) = after Cert.ReferenceIdeal.RunP.opsM Y (Proc.devRef .tc Cert.ReferenceIdeal.main_v67) := by
  after_results_simp
  exact h0

set_option maxHeartbeats 2000000 in
theorem stageT1_main_v46 (h0 : X (Proc.devRef .tc Cert.KernelIdeal.main_v29) = Y (Proc.devRef .tc Cert.ReferenceIdeal.main_v67)) (h1 : X (Proc.devRef .tc Cert.KernelIdeal.main_v42) = Y (Proc.devRef .tc Cert.ReferenceIdeal.main_v93)) :
    after Cert.KernelIdeal.Gen.main_part0_ops7 X (Proc.devRef .tc Cert.KernelIdeal.main_v46) = after Cert.ReferenceIdeal.RunP.opsT1 Y (Proc.devRef .tc Cert.ReferenceIdeal.main_v97) := by
  after_results_simp
  rw [h0, h1]
  try rfl

set_option maxHeartbeats 2000000 in
theorem stageT1_main_v47 (h0 : X (Proc.devRef .tc Cert.KernelIdeal.main_v29) = Y (Proc.devRef .tc Cert.ReferenceIdeal.main_v67)) (h1 : X (Proc.devRef .tc Cert.KernelIdeal.main_v42) = Y (Proc.devRef .tc Cert.ReferenceIdeal.main_v93)) :
    after Cert.KernelIdeal.Gen.main_part0_ops7 X (Proc.devRef .tc Cert.KernelIdeal.main_v47) = after Cert.ReferenceIdeal.RunP.opsT1 Y (Proc.devRef .tc Cert.ReferenceIdeal.main_v98) := by
  after_results_simp
  rw [h0, h1]
  try rfl

set_option maxHeartbeats 2000000 in
theorem stageT1_main_v48  :
    after Cert.KernelIdeal.Gen.main_part0_ops7 X (Proc.devRef .tc Cert.KernelIdeal.main_v48) = after Cert.ReferenceIdeal.RunP.opsT1 Y (Proc.devRef .tc Cert.ReferenceIdeal.main_v99) := by
  after_results_simp
  try rfl

set_option maxHeartbeats 2000000 in
theorem stageT2_main_v69 (h0 : X (Proc.devRef .tc Cert.KernelIdeal.main_v46) = Y (Proc.devRef .tc Cert.ReferenceIdeal.main_v97)) (h1 : X (Proc.devRef .tc Cert.KernelIdeal.main_v47) = Y (Proc.devRef .tc Cert.ReferenceIdeal.main_v98)) (h2 : X (Proc.devRef .tc Cert.KernelIdeal.main_v48) = Y (Proc.devRef .tc Cert.ReferenceIdeal.main_v99)) (h3 : X (Proc.devRef .tc Cert.KernelIdeal.main_arg0) = Y (Proc.devRef .tc Cert.ReferenceIdeal.main_arg0)) (h4 : X (Proc.devRef .tc Cert.KernelIdeal.main_arg1) = Y (Proc.devRef .tc Cert.ReferenceIdeal.main_arg1)) :
    after Cert.KernelIdeal.Gen.main_part1_ops0 X (Proc.devRef .tc Cert.KernelIdeal.main_v69) = after Cert.ReferenceIdeal.RunP.opsT2 Y (Proc.devRef .tc Cert.ReferenceIdeal.main_v120) := by
  after_results_simp
  rw [h0, h1, h2, h3, h4]
  try rfl

set_option maxHeartbeats 2000000 in
theorem stageT2_main_v84 (h0 : X (Proc.devRef .tc Cert.KernelIdeal.main_v46) = Y (Proc.devRef .tc Cert.ReferenceIdeal.main_v97)) (h1 : X (Proc.devRef .tc Cert.KernelIdeal.main_v47) = Y (Proc.devRef .tc Cert.ReferenceIdeal.main_v98)) (h2 : X (Proc.devRef .tc Cert.KernelIdeal.main_v48) = Y (Proc.devRef .tc Cert.ReferenceIdeal.main_v99)) (h3 : X (Proc.devRef .tc Cert.KernelIdeal.main_arg0) = Y (Proc.devRef .tc Cert.ReferenceIdeal.main_arg0)) (h4 : X (Proc.devRef .tc Cert.KernelIdeal.main_arg2) = Y (Proc.devRef .tc Cert.ReferenceIdeal.main_arg2)) :
    after Cert.KernelIdeal.Gen.main_part1_ops0 X (Proc.devRef .tc Cert.KernelIdeal.main_v84) = after Cert.ReferenceIdeal.RunP.opsT2 Y (Proc.devRef .tc Cert.ReferenceIdeal.main_v135) := by
  after_results_simp
  rw [h0, h1, h2, h3, h4]
  try rfl

set_option maxHeartbeats 2000000 in
theorem stageT2_main_v94 (h0 : X (Proc.devRef .tc Cert.KernelIdeal.main_v46) = Y (Proc.devRef .tc Cert.ReferenceIdeal.main_v97)) (h1 : X (Proc.devRef .tc Cert.KernelIdeal.main_v47) = Y (Proc.devRef .tc Cert.ReferenceIdeal.main_v98)) (h2 : X (Proc.devRef .tc Cert.KernelIdeal.main_v48) = Y (Proc.devRef .tc Cert.ReferenceIdeal.main_v99)) (h3 : X (Proc.devRef .tc Cert.KernelIdeal.main_arg0) = Y (Proc.devRef .tc Cert.ReferenceIdeal.main_arg0)) (h4 : X (Proc.devRef .tc Cert.KernelIdeal.main_arg3) = Y (Proc.devRef .tc Cert.ReferenceIdeal.main_arg3)) :
    after Cert.KernelIdeal.Gen.main_part1_ops0 X (Proc.devRef .tc Cert.KernelIdeal.main_v94) = after Cert.ReferenceIdeal.RunP.opsT2 Y (Proc.devRef .tc Cert.ReferenceIdeal.main_v145) := by
  after_results_simp
  rw [h0, h1, h2, h3, h4]
  try rfl

set_option maxHeartbeats 4000000 in
theorem stageT3_main_v103 (h0 : X (Proc.devRef .tc Cert.KernelIdeal.main_v69) = Y (Proc.devRef .tc Cert.ReferenceIdeal.main_v120)) (h1 : X (Proc.devRef .tc Cert.KernelIdeal.main_v84) = Y (Proc.devRef .tc Cert.ReferenceIdeal.main_v135)) (h2 : X (Proc.devRef .tc Cert.KernelIdeal.main_v94) = Y (Proc.devRef .tc Cert.ReferenceIdeal.main_v145)) :
    after Cert.KernelIdeal.Gen.main_part2_ops0 X (Proc.devRef .tc Cert.KernelIdeal.main_v103) = after Cert.ReferenceIdeal.RunP.opsT3 Y (Proc.devRef .tc Cert.ReferenceIdeal.main_v154) := by
  simp (disch := decide) only [after_cons, after_nil, nary3_result',
    nullary_result', unary_result', binary_result', ternary_result',
    nullary_result_ne', unary_result_ne', binary_result_ne', ternary_result_ne', nary_result_ne']
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rw [h0, h1, h2]
  try rfl

/-- The reference's normalising stretch B. -/
theorem refNormB : after Cert.ReferenceIdeal.RunP.opsB Y (Proc.devRef .tc Cert.ReferenceIdeal.main_v13) = normRows (n := 150000) (Y (Proc.devRef .tc Cert.ReferenceIdeal.main_v0)) := by
  after_results_simp
  exact Cert.ReferenceIdeal.Val.hostNorm_eq _

/-- The reference's normalising stretch F. -/
theorem refNormF : after Cert.ReferenceIdeal.RunP.opsF Y (Proc.devRef .tc Cert.ReferenceIdeal.main_v39) = normRows (n := 150000) (Y (Proc.devRef .tc Cert.ReferenceIdeal.main_v26)) := by
  after_results_simp
  exact Cert.ReferenceIdeal.Val.hostNorm_eq _

/-- The reference's normalising stretch J. -/
theorem refNormJ : after Cert.ReferenceIdeal.RunP.opsJ Y (Proc.devRef .tc Cert.ReferenceIdeal.main_v66) = normRows (n := 150000) (Y (Proc.devRef .tc Cert.ReferenceIdeal.main_v53)) := by
  after_results_simp
  exact Cert.ReferenceIdeal.Val.hostNorm_eq _

/-- The reference's normalising stretch N. -/
theorem refNormN : after Cert.ReferenceIdeal.RunP.opsN Y (Proc.devRef .tc Cert.ReferenceIdeal.main_v93) = normRows (n := 150000) (Y (Proc.devRef .tc Cert.ReferenceIdeal.main_v80)) := by
  after_results_simp
  exact Cert.ReferenceIdeal.Val.hostNorm_eq _

/-- The reference's scaling stretch D. -/
theorem refScaleD : after Cert.ReferenceIdeal.RunP.opsD Y (Proc.devRef .tc Cert.ReferenceIdeal.main_v23) = scaleRows (n := 2400000) (Y (Proc.devRef .tc Cert.ReferenceIdeal.main_v21)) (Y (Proc.devRef .tc Cert.ReferenceIdeal.main_v14)) := by
  after_results_simp
  exact Cert.ReferenceIdeal.Val.hostScale_eq _ _

/-- The reference's scaling stretch H. -/
theorem refScaleH : after Cert.ReferenceIdeal.RunP.opsH Y (Proc.devRef .tc Cert.ReferenceIdeal.main_v50) = scaleRows (n := 2400000) (Y (Proc.devRef .tc Cert.ReferenceIdeal.main_v48)) (Y (Proc.devRef .tc Cert.ReferenceIdeal.main_v41)) := by
  after_results_simp
  exact Cert.ReferenceIdeal.Val.hostScale_eq _ _

/-- The reference's scaling stretch L. -/
theorem refScaleL : after Cert.ReferenceIdeal.RunP.opsL Y (Proc.devRef .tc Cert.ReferenceIdeal.main_v77) = scaleRows (n := 2400000) (Y (Proc.devRef .tc Cert.ReferenceIdeal.main_v75)) (Y (Proc.devRef .tc Cert.ReferenceIdeal.main_v68)) := by
  after_results_simp
  exact Cert.ReferenceIdeal.Val.hostScale_eq _ _

theorem refKeepD_main_v13 : after Cert.ReferenceIdeal.RunP.opsD Y (Proc.devRef .tc Cert.ReferenceIdeal.main_v13) = Y (Proc.devRef .tc Cert.ReferenceIdeal.main_v13) := by
  after_results_simp

theorem refKeepF_main_v13 : after Cert.ReferenceIdeal.RunP.opsF Y (Proc.devRef .tc Cert.ReferenceIdeal.main_v13) = Y (Proc.devRef .tc Cert.ReferenceIdeal.main_v13) := by
  after_results_simp

theorem refKeepH_main_v40 : after Cert.ReferenceIdeal.RunP.opsH Y (Proc.devRef .tc Cert.ReferenceIdeal.main_v40) = Y (Proc.devRef .tc Cert.ReferenceIdeal.main_v40) := by
  after_results_simp

theorem refKeepJ_main_v40 : after Cert.ReferenceIdeal.RunP.opsJ Y (Proc.devRef .tc Cert.ReferenceIdeal.main_v40) = Y (Proc.devRef .tc Cert.ReferenceIdeal.main_v40) := by
  after_results_simp

theorem refKeepL_main_v67 : after Cert.ReferenceIdeal.RunP.opsL Y (Proc.devRef .tc Cert.ReferenceIdeal.main_v67) = Y (Proc.devRef .tc Cert.ReferenceIdeal.main_v67) := by
  after_results_simp

theorem refKeepN_main_v67 : after Cert.ReferenceIdeal.RunP.opsN Y (Proc.devRef .tc Cert.ReferenceIdeal.main_v67) = Y (Proc.devRef .tc Cert.ReferenceIdeal.main_v67) := by
  after_results_simp

end Cert.Bridge

end
-- ==== Proof.Bridge.lean ====
/-
  The two idealized programs end with equal results. The kernel program's buffer contents (the fold W0 … W17 through its
  host stretches and kernel regions) and the reference's (Y0 … Y17 through its seventeen stretches) are compared boundary
  by boundary: at boundary j every buffer that is still read later holds the same array on both sides. A host stretch
  preserves this because both programs apply the same operations; a kernel region preserves it because its output array
  is normRows (or scaleRows) of its input arrays, which is what the reference's host operations compute there. The
  argument arrays agree throughout: they agree at launch and neither program writes them.
-/
import proofs.«180941_j14654428414616_1_alg».proof.Proof.KIRun
import proofs.«180941_j14654428414616_1_alg».proof.Proof.KIKept
import proofs.«180941_j14654428414616_1_alg».proof.Proof.KIVal0
import proofs.«180941_j14654428414616_1_alg».proof.Proof.KIVal1
import proofs.«180941_j14654428414616_1_alg».proof.Proof.KIVal2
import proofs.«180941_j14654428414616_1_alg».proof.Proof.KIVal3
import proofs.«180941_j14654428414616_1_alg».proof.Proof.KIVal4
import proofs.«180941_j14654428414616_1_alg».proof.Proof.KIVal5
import proofs.«180941_j14654428414616_1_alg».proof.Proof.KIVal6
import proofs.«180941_j14654428414616_1_alg».proof.Proof.RefKept
import proofs.«180941_j14654428414616_1_alg».proof.Proof.BridgeStages

set_option maxRecDepth 16384

noncomputable section

namespace Cert.Bridge

open Idealize.ShloMosaic Idealize.ShloMosaic.TcCoe Idealize.SL.Sem Idealize.ShloMosaic.StableHlo Cert.Spec

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
variable (c : Dev Cert.KernelIdeal.nD)
include hagree

/-! ## The argument arrays agree at every boundary -/
theorem arg0_main_arg7 : Cert.KernelIdeal.Hand.W0 m ρ c (Proc.devRef .tc Cert.KernelIdeal.main_arg7) = Cert.ReferenceIdeal.RunP.Y0 m' c (Proc.devRef .tc Cert.ReferenceIdeal.main_arg7) :=
  (Cert.KernelIdeal.Hand.W0_main_arg7 m ρ c).trans (((hagree c).2.2.2.2.2.2.2.1).symm.trans (Cert.ReferenceIdeal.RunP.Y0_main_arg7 m' c).symm)
theorem arg0_main_arg8 : Cert.KernelIdeal.Hand.W0 m ρ c (Proc.devRef .tc Cert.KernelIdeal.main_arg8) = Cert.ReferenceIdeal.RunP.Y0 m' c (Proc.devRef .tc Cert.ReferenceIdeal.main_arg8) :=
  (Cert.KernelIdeal.Hand.W0_main_arg8 m ρ c).trans (((hagree c).2.2.2.2.2.2.2.2).symm.trans (Cert.ReferenceIdeal.RunP.Y0_main_arg8 m' c).symm)
theorem arg2_main_arg5 : Cert.KernelIdeal.Hand.W2 m ρ c (Proc.devRef .tc Cert.KernelIdeal.main_arg5) = Cert.ReferenceIdeal.RunP.Y2 m' c (Proc.devRef .tc Cert.ReferenceIdeal.main_arg5) :=
  (Cert.KernelIdeal.Hand.W2_main_arg5' m ρ c).trans (((hagree c).2.2.2.2.2.1).symm.trans (Cert.ReferenceIdeal.RunP.Y2_main_arg5 m' c).symm)
theorem arg2_main_arg6 : Cert.KernelIdeal.Hand.W2 m ρ c (Proc.devRef .tc Cert.KernelIdeal.main_arg6) = Cert.ReferenceIdeal.RunP.Y2 m' c (Proc.devRef .tc Cert.ReferenceIdeal.main_arg6) :=
  (Cert.KernelIdeal.Hand.W2_main_arg6' m ρ c).trans (((hagree c).2.2.2.2.2.2.1).symm.trans (Cert.ReferenceIdeal.RunP.Y2_main_arg6 m' c).symm)
theorem arg4_main_arg4 : Cert.KernelIdeal.Hand.W4 m ρ c (Proc.devRef .tc Cert.KernelIdeal.main_arg4) = Cert.ReferenceIdeal.RunP.Y4 m' c (Proc.devRef .tc Cert.ReferenceIdeal.main_arg4) :=
  (Cert.KernelIdeal.Hand.W4_main_arg4' m ρ c).trans (((hagree c).2.2.2.2.1).symm.trans (Cert.ReferenceIdeal.RunP.Y4_main_arg4 m' c).symm)
theorem arg6_main_arg5 : Cert.KernelIdeal.Hand.W6 m ρ c (Proc.devRef .tc Cert.KernelIdeal.main_arg5) = Cert.ReferenceIdeal.RunP.Y6 m' c (Proc.devRef .tc Cert.ReferenceIdeal.main_arg5) :=
  (Cert.KernelIdeal.Hand.W6_main_arg5' m ρ c).trans (((hagree c).2.2.2.2.2.1).symm.trans (Cert.ReferenceIdeal.RunP.Y6_main_arg5 m' c).symm)
theorem arg6_main_arg6 : Cert.KernelIdeal.Hand.W6 m ρ c (Proc.devRef .tc Cert.KernelIdeal.main_arg6) = Cert.ReferenceIdeal.RunP.Y6 m' c (Proc.devRef .tc Cert.ReferenceIdeal.main_arg6) :=
  (Cert.KernelIdeal.Hand.W6_main_arg6' m ρ c).trans (((hagree c).2.2.2.2.2.2.1).symm.trans (Cert.ReferenceIdeal.RunP.Y6_main_arg6 m' c).symm)
theorem arg8_main_arg4 : Cert.KernelIdeal.Hand.W8 m ρ c (Proc.devRef .tc Cert.KernelIdeal.main_arg4) = Cert.ReferenceIdeal.RunP.Y8 m' c (Proc.devRef .tc Cert.ReferenceIdeal.main_arg4) :=
  (Cert.KernelIdeal.Hand.W8_main_arg4' m ρ c).trans (((hagree c).2.2.2.2.1).symm.trans (Cert.ReferenceIdeal.RunP.Y8_main_arg4 m' c).symm)
theorem arg10_main_arg5 : Cert.KernelIdeal.Hand.W10 m ρ c (Proc.devRef .tc Cert.KernelIdeal.main_arg5) = Cert.ReferenceIdeal.RunP.Y10 m' c (Proc.devRef .tc Cert.ReferenceIdeal.main_arg5) :=
  (Cert.KernelIdeal.Hand.W10_main_arg5' m ρ c).trans (((hagree c).2.2.2.2.2.1).symm.trans (Cert.ReferenceIdeal.RunP.Y10_main_arg5 m' c).symm)
theorem arg10_main_arg6 : Cert.KernelIdeal.Hand.W10 m ρ c (Proc.devRef .tc Cert.KernelIdeal.main_arg6) = Cert.ReferenceIdeal.RunP.Y10 m' c (Proc.devRef .tc Cert.ReferenceIdeal.main_arg6) :=
  (Cert.KernelIdeal.Hand.W10_main_arg6' m ρ c).trans (((hagree c).2.2.2.2.2.2.1).symm.trans (Cert.ReferenceIdeal.RunP.Y10_main_arg6 m' c).symm)
theorem arg12_main_arg4 : Cert.KernelIdeal.Hand.W12 m ρ c (Proc.devRef .tc Cert.KernelIdeal.main_arg4) = Cert.ReferenceIdeal.RunP.Y12 m' c (Proc.devRef .tc Cert.ReferenceIdeal.main_arg4) :=
  (Cert.KernelIdeal.Hand.W12_main_arg4' m ρ c).trans (((hagree c).2.2.2.2.1).symm.trans (Cert.ReferenceIdeal.RunP.Y12_main_arg4 m' c).symm)
theorem arg15_main_arg0 : Cert.KernelIdeal.Hand.W15 m ρ c (Proc.devRef .tc Cert.KernelIdeal.main_arg0) = Cert.ReferenceIdeal.RunP.Y15 m' c (Proc.devRef .tc Cert.ReferenceIdeal.main_arg0) :=
  (Cert.KernelIdeal.Hand.W15_main_arg0' m ρ c).trans (((hagree c).1).symm.trans (Cert.ReferenceIdeal.RunP.Y15_main_arg0 m' c).symm)
theorem arg15_main_arg1 : Cert.KernelIdeal.Hand.W15 m ρ c (Proc.devRef .tc Cert.KernelIdeal.main_arg1) = Cert.ReferenceIdeal.RunP.Y15 m' c (Proc.devRef .tc Cert.ReferenceIdeal.main_arg1) :=
  (Cert.KernelIdeal.Hand.W15_main_arg1' m ρ c).trans (((hagree c).2.1).symm.trans (Cert.ReferenceIdeal.RunP.Y15_main_arg1 m' c).symm)
theorem arg15_main_arg2 : Cert.KernelIdeal.Hand.W15 m ρ c (Proc.devRef .tc Cert.KernelIdeal.main_arg2) = Cert.ReferenceIdeal.RunP.Y15 m' c (Proc.devRef .tc Cert.ReferenceIdeal.main_arg2) :=
  (Cert.KernelIdeal.Hand.W15_main_arg2' m ρ c).trans (((hagree c).2.2.1).symm.trans (Cert.ReferenceIdeal.RunP.Y15_main_arg2 m' c).symm)
theorem arg15_main_arg3 : Cert.KernelIdeal.Hand.W15 m ρ c (Proc.devRef .tc Cert.KernelIdeal.main_arg3) = Cert.ReferenceIdeal.RunP.Y15 m' c (Proc.devRef .tc Cert.ReferenceIdeal.main_arg3) :=
  (Cert.KernelIdeal.Hand.W15_main_arg3' m ρ c).trans (((hagree c).2.2.2.1).symm.trans (Cert.ReferenceIdeal.RunP.Y15_main_arg3 m' c).symm)

/-! ## Boundary 1: after the host stretch A -/
theorem eq1_main_v0 : Cert.KernelIdeal.Hand.W1 m ρ c (Proc.devRef .tc Cert.KernelIdeal.main_v0) = Cert.ReferenceIdeal.RunP.Y1 m' c (Proc.devRef .tc Cert.ReferenceIdeal.main_v0) :=
  stageA_main_v0 (Cert.KernelIdeal.Hand.W0 m ρ c) (Cert.ReferenceIdeal.RunP.Y0 m' c) (arg0_main_arg7 m ρ m' hagree c) (arg0_main_arg8 m ρ m' hagree c)

/-! ## Boundary 2: after kernel region 0 (the reference's normalising stretch B) -/
theorem eq2_main_v1 : Cert.KernelIdeal.Hand.W2 m ρ c (Proc.devRef .tc Cert.KernelIdeal.main_v1) = Cert.ReferenceIdeal.RunP.Y2 m' c (Proc.devRef .tc Cert.ReferenceIdeal.main_v13) := by
  have hK : Cert.KernelIdeal.Hand.W2 m ρ c (Proc.devRef .tc Cert.KernelIdeal.main_v1) = normRows (n := 150000) (Cert.KernelIdeal.Hand.W1 m ρ c (Proc.devRef .tc Cert.KernelIdeal.main_v0)) :=
    (Cert.KernelIdeal.Hand.W2_arr m ρ c 1).trans (Cert.KernelIdeal.Hand.region0_array (Cert.KernelIdeal.Hand.V1 m ρ) c)
  have hR : Cert.ReferenceIdeal.RunP.Y2 m' c (Proc.devRef .tc Cert.ReferenceIdeal.main_v13) = normRows (n := 150000) (Cert.ReferenceIdeal.RunP.Y1 m' c (Proc.devRef .tc Cert.ReferenceIdeal.main_v0)) := refNormB (Cert.ReferenceIdeal.RunP.Y1 m' c)
  rw [hK, hR, eq1_main_v0 m ρ m' hagree c]

/-! ## Boundary 3: after the host stretch C -/
theorem eq3_main_v8 : Cert.KernelIdeal.Hand.W3 m ρ c (Proc.devRef .tc Cert.KernelIdeal.main_v8) = Cert.ReferenceIdeal.RunP.Y3 m' c (Proc.devRef .tc Cert.ReferenceIdeal.main_v21) :=
  stageC_main_v8 (Cert.KernelIdeal.Hand.W2 m ρ c) (Cert.ReferenceIdeal.RunP.Y2 m' c) (eq2_main_v1 m ρ m' hagree c) (arg2_main_arg5 m ρ m' hagree c)
theorem eq3_main_v9 : Cert.KernelIdeal.Hand.W3 m ρ c (Proc.devRef .tc Cert.KernelIdeal.main_v9) = Cert.ReferenceIdeal.RunP.Y3 m' c (Proc.devRef .tc Cert.ReferenceIdeal.main_v14) :=
  stageC_main_v9 (Cert.KernelIdeal.Hand.W2 m ρ c) (Cert.ReferenceIdeal.RunP.Y2 m' c) (arg2_main_arg6 m ρ m' hagree c)
theorem eq3_main_v1 : Cert.KernelIdeal.Hand.W3 m ρ c (Proc.devRef .tc Cert.KernelIdeal.main_v1) = Cert.ReferenceIdeal.RunP.Y3 m' c (Proc.devRef .tc Cert.ReferenceIdeal.main_v13) :=
  stageC_main_v1 (Cert.KernelIdeal.Hand.W2 m ρ c) (Cert.ReferenceIdeal.RunP.Y2 m' c) (eq2_main_v1 m ρ m' hagree c)

/-! ## Boundary 4: after kernel region 1 (the reference's scaling stretch D) -/
theorem eq4_main_v10 : Cert.KernelIdeal.Hand.W4 m ρ c (Proc.devRef .tc Cert.KernelIdeal.main_v10) = Cert.ReferenceIdeal.RunP.Y4 m' c (Proc.devRef .tc Cert.ReferenceIdeal.main_v23) := by
  have hK : Cert.KernelIdeal.Hand.W4 m ρ c (Proc.devRef .tc Cert.KernelIdeal.main_v10) = scaleRows (n := 2400000) (Cert.KernelIdeal.Hand.W3 m ρ c (Proc.devRef .tc Cert.KernelIdeal.main_v8)) (Cert.KernelIdeal.Hand.W3 m ρ c (Proc.devRef .tc Cert.KernelIdeal.main_v9)) :=
    (Cert.KernelIdeal.Hand.W4_arr m ρ c 2).trans (Cert.KernelIdeal.Hand.region1_array (Cert.KernelIdeal.Hand.V3 m ρ) c)
  have hR : Cert.ReferenceIdeal.RunP.Y4 m' c (Proc.devRef .tc Cert.ReferenceIdeal.main_v23) = scaleRows (n := 2400000) (Cert.ReferenceIdeal.RunP.Y3 m' c (Proc.devRef .tc Cert.ReferenceIdeal.main_v21)) (Cert.ReferenceIdeal.RunP.Y3 m' c (Proc.devRef .tc Cert.ReferenceIdeal.main_v14)) := refScaleD (Cert.ReferenceIdeal.RunP.Y3 m' c)
  rw [hK, hR, eq3_main_v8 m ρ m' hagree c, eq3_main_v9 m ρ m' hagree c]
theorem eq4_main_v1 : Cert.KernelIdeal.Hand.W4 m ρ c (Proc.devRef .tc Cert.KernelIdeal.main_v1) = Cert.ReferenceIdeal.RunP.Y4 m' c (Proc.devRef .tc Cert.ReferenceIdeal.main_v13) :=
  (Cert.KernelIdeal.Hand.W4_of_ne m ρ c Cert.KernelIdeal.main_v1 (by decide)).trans ((eq3_main_v1 m ρ m' hagree c).trans (refKeepD_main_v13 (Cert.ReferenceIdeal.RunP.Y3 m' c)).symm)

/-! ## Boundary 5: after the host stretch E -/
theorem eq5_main_v13 : Cert.KernelIdeal.Hand.W5 m ρ c (Proc.devRef .tc Cert.KernelIdeal.main_v13) = Cert.ReferenceIdeal.RunP.Y5 m' c (Proc.devRef .tc Cert.ReferenceIdeal.main_v26) :=
  stageE_main_v13 (Cert.KernelIdeal.Hand.W4 m ρ c) (Cert.ReferenceIdeal.RunP.Y4 m' c) (eq4_main_v10 m ρ m' hagree c) (arg4_main_arg4 m ρ m' hagree c)
theorem eq5_main_v1 : Cert.KernelIdeal.Hand.W5 m ρ c (Proc.devRef .tc Cert.KernelIdeal.main_v1) = Cert.ReferenceIdeal.RunP.Y5 m' c (Proc.devRef .tc Cert.ReferenceIdeal.main_v13) :=
  stageE_main_v1 (Cert.KernelIdeal.Hand.W4 m ρ c) (Cert.ReferenceIdeal.RunP.Y4 m' c) (eq4_main_v1 m ρ m' hagree c)

/-! ## Boundary 6: after kernel region 2 (the reference's normalising stretch F) -/
theorem eq6_main_v14 : Cert.KernelIdeal.Hand.W6 m ρ c (Proc.devRef .tc Cert.KernelIdeal.main_v14) = Cert.ReferenceIdeal.RunP.Y6 m' c (Proc.devRef .tc Cert.ReferenceIdeal.main_v39) := by
  have hK : Cert.KernelIdeal.Hand.W6 m ρ c (Proc.devRef .tc Cert.KernelIdeal.main_v14) = normRows (n := 150000) (Cert.KernelIdeal.Hand.W5 m ρ c (Proc.devRef .tc Cert.KernelIdeal.main_v13)) :=
    (Cert.KernelIdeal.Hand.W6_arr m ρ c 1).trans (Cert.KernelIdeal.Hand.region2_array (Cert.KernelIdeal.Hand.V5 m ρ) c)
  have hR : Cert.ReferenceIdeal.RunP.Y6 m' c (Proc.devRef .tc Cert.ReferenceIdeal.main_v39) = normRows (n := 150000) (Cert.ReferenceIdeal.RunP.Y5 m' c (Proc.devRef .tc Cert.ReferenceIdeal.main_v26)) := refNormF (Cert.ReferenceIdeal.RunP.Y5 m' c)
  rw [hK, hR, eq5_main_v13 m ρ m' hagree c]
theorem eq6_main_v1 : Cert.KernelIdeal.Hand.W6 m ρ c (Proc.devRef .tc Cert.KernelIdeal.main_v1) = Cert.ReferenceIdeal.RunP.Y6 m' c (Proc.devRef .tc Cert.ReferenceIdeal.main_v13) :=
  (Cert.KernelIdeal.Hand.W6_of_ne m ρ c Cert.KernelIdeal.main_v1 (by decide)).trans ((eq5_main_v1 m ρ m' hagree c).trans (refKeepF_main_v13 (Cert.ReferenceIdeal.RunP.Y5 m' c)).symm)

/-! ## Boundary 7: after the host stretch G -/
theorem eq7_main_v15 : Cert.KernelIdeal.Hand.W7 m ρ c (Proc.devRef .tc Cert.KernelIdeal.main_v15) = Cert.ReferenceIdeal.RunP.Y7 m' c (Proc.devRef .tc Cert.ReferenceIdeal.main_v40) :=
  stageG_main_v15 (Cert.KernelIdeal.Hand.W6 m ρ c) (Cert.ReferenceIdeal.RunP.Y6 m' c) (eq6_main_v1 m ρ m' hagree c) (eq6_main_v14 m ρ m' hagree c)
theorem eq7_main_v22 : Cert.KernelIdeal.Hand.W7 m ρ c (Proc.devRef .tc Cert.KernelIdeal.main_v22) = Cert.ReferenceIdeal.RunP.Y7 m' c (Proc.devRef .tc Cert.ReferenceIdeal.main_v48) :=
  stageG_main_v22 (Cert.KernelIdeal.Hand.W6 m ρ c) (Cert.ReferenceIdeal.RunP.Y6 m' c) (eq6_main_v14 m ρ m' hagree c) (arg6_main_arg5 m ρ m' hagree c)
theorem eq7_main_v23 : Cert.KernelIdeal.Hand.W7 m ρ c (Proc.devRef .tc Cert.KernelIdeal.main_v23) = Cert.ReferenceIdeal.RunP.Y7 m' c (Proc.devRef .tc Cert.ReferenceIdeal.main_v41) :=
  stageG_main_v23 (Cert.KernelIdeal.Hand.W6 m ρ c) (Cert.ReferenceIdeal.RunP.Y6 m' c) (arg6_main_arg6 m ρ m' hagree c)

/-! ## Boundary 8: after kernel region 3 (the reference's scaling stretch H) -/
theorem eq8_main_v24 : Cert.KernelIdeal.Hand.W8 m ρ c (Proc.devRef .tc Cert.KernelIdeal.main_v24) = Cert.ReferenceIdeal.RunP.Y8 m' c (Proc.devRef .tc Cert.ReferenceIdeal.main_v50) := by
  have hK : Cert.KernelIdeal.Hand.W8 m ρ c (Proc.devRef .tc Cert.KernelIdeal.main_v24) = scaleRows (n := 2400000) (Cert.KernelIdeal.Hand.W7 m ρ c (Proc.devRef .tc Cert.KernelIdeal.main_v22)) (Cert.KernelIdeal.Hand.W7 m ρ c (Proc.devRef .tc Cert.KernelIdeal.main_v23)) :=
    (Cert.KernelIdeal.Hand.W8_arr m ρ c 2).trans (Cert.KernelIdeal.Hand.region3_array (Cert.KernelIdeal.Hand.V7 m ρ) c)
  have hR : Cert.ReferenceIdeal.RunP.Y8 m' c (Proc.devRef .tc Cert.ReferenceIdeal.main_v50) = scaleRows (n := 2400000) (Cert.ReferenceIdeal.RunP.Y7 m' c (Proc.devRef .tc Cert.ReferenceIdeal.main_v48)) (Cert.ReferenceIdeal.RunP.Y7 m' c (Proc.devRef .tc Cert.ReferenceIdeal.main_v41)) := refScaleH (Cert.ReferenceIdeal.RunP.Y7 m' c)
  rw [hK, hR, eq7_main_v22 m ρ m' hagree c, eq7_main_v23 m ρ m' hagree c]
theorem eq8_main_v15 : Cert.KernelIdeal.Hand.W8 m ρ c (Proc.devRef .tc Cert.KernelIdeal.main_v15) = Cert.ReferenceIdeal.RunP.Y8 m' c (Proc.devRef .tc Cert.ReferenceIdeal.main_v40) :=
  (Cert.KernelIdeal.Hand.W8_of_ne m ρ c Cert.KernelIdeal.main_v15 (by decide)).trans ((eq7_main_v15 m ρ m' hagree c).trans (refKeepH_main_v40 (Cert.ReferenceIdeal.RunP.Y7 m' c)).symm)

/-! ## Boundary 9: after the host stretch I -/
theorem eq9_main_v27 : Cert.KernelIdeal.Hand.W9 m ρ c (Proc.devRef .tc Cert.KernelIdeal.main_v27) = Cert.ReferenceIdeal.RunP.Y9 m' c (Proc.devRef .tc Cert.ReferenceIdeal.main_v53) :=
  stageI_main_v27 (Cert.KernelIdeal.Hand.W8 m ρ c) (Cert.ReferenceIdeal.RunP.Y8 m' c) (eq8_main_v24 m ρ m' hagree c) (arg8_main_arg4 m ρ m' hagree c)
theorem eq9_main_v15 : Cert.KernelIdeal.Hand.W9 m ρ c (Proc.devRef .tc Cert.KernelIdeal.main_v15) = Cert.ReferenceIdeal.RunP.Y9 m' c (Proc.devRef .tc Cert.ReferenceIdeal.main_v40) :=
  stageI_main_v15 (Cert.KernelIdeal.Hand.W8 m ρ c) (Cert.ReferenceIdeal.RunP.Y8 m' c) (eq8_main_v15 m ρ m' hagree c)

/-! ## Boundary 10: after kernel region 4 (the reference's normalising stretch J) -/
theorem eq10_main_v28 : Cert.KernelIdeal.Hand.W10 m ρ c (Proc.devRef .tc Cert.KernelIdeal.main_v28) = Cert.ReferenceIdeal.RunP.Y10 m' c (Proc.devRef .tc Cert.ReferenceIdeal.main_v66) := by
  have hK : Cert.KernelIdeal.Hand.W10 m ρ c (Proc.devRef .tc Cert.KernelIdeal.main_v28) = normRows (n := 150000) (Cert.KernelIdeal.Hand.W9 m ρ c (Proc.devRef .tc Cert.KernelIdeal.main_v27)) :=
    (Cert.KernelIdeal.Hand.W10_arr m ρ c 1).trans (Cert.KernelIdeal.Hand.region4_array (Cert.KernelIdeal.Hand.V9 m ρ) c)
  have hR : Cert.ReferenceIdeal.RunP.Y10 m' c (Proc.devRef .tc Cert.ReferenceIdeal.main_v66) = normRows (n := 150000) (Cert.ReferenceIdeal.RunP.Y9 m' c (Proc.devRef .tc Cert.ReferenceIdeal.main_v53)) := refNormJ (Cert.ReferenceIdeal.RunP.Y9 m' c)
  rw [hK, hR, eq9_main_v27 m ρ m' hagree c]
theorem eq10_main_v15 : Cert.KernelIdeal.Hand.W10 m ρ c (Proc.devRef .tc Cert.KernelIdeal.main_v15) = Cert.ReferenceIdeal.RunP.Y10 m' c (Proc.devRef .tc Cert.ReferenceIdeal.main_v40) :=
  (Cert.KernelIdeal.Hand.W10_of_ne m ρ c Cert.KernelIdeal.main_v15 (by decide)).trans ((eq9_main_v15 m ρ m' hagree c).trans (refKeepJ_main_v40 (Cert.ReferenceIdeal.RunP.Y9 m' c)).symm)

/-! ## Boundary 11: after the host stretch K -/
theorem eq11_main_v29 : Cert.KernelIdeal.Hand.W11 m ρ c (Proc.devRef .tc Cert.KernelIdeal.main_v29) = Cert.ReferenceIdeal.RunP.Y11 m' c (Proc.devRef .tc Cert.ReferenceIdeal.main_v67) :=
  stageK_main_v29 (Cert.KernelIdeal.Hand.W10 m ρ c) (Cert.ReferenceIdeal.RunP.Y10 m' c) (eq10_main_v15 m ρ m' hagree c) (eq10_main_v28 m ρ m' hagree c)
theorem eq11_main_v36 : Cert.KernelIdeal.Hand.W11 m ρ c (Proc.devRef .tc Cert.KernelIdeal.main_v36) = Cert.ReferenceIdeal.RunP.Y11 m' c (Proc.devRef .tc Cert.ReferenceIdeal.main_v75) :=
  stageK_main_v36 (Cert.KernelIdeal.Hand.W10 m ρ c) (Cert.ReferenceIdeal.RunP.Y10 m' c) (eq10_main_v28 m ρ m' hagree c) (arg10_main_arg5 m ρ m' hagree c)
theorem eq11_main_v37 : Cert.KernelIdeal.Hand.W11 m ρ c (Proc.devRef .tc Cert.KernelIdeal.main_v37) = Cert.ReferenceIdeal.RunP.Y11 m' c (Proc.devRef .tc Cert.ReferenceIdeal.main_v68) :=
  stageK_main_v37 (Cert.KernelIdeal.Hand.W10 m ρ c) (Cert.ReferenceIdeal.RunP.Y10 m' c) (arg10_main_arg6 m ρ m' hagree c)

/-! ## Boundary 12: after kernel region 5 (the reference's scaling stretch L) -/
theorem eq12_main_v38 : Cert.KernelIdeal.Hand.W12 m ρ c (Proc.devRef .tc Cert.KernelIdeal.main_v38) = Cert.ReferenceIdeal.RunP.Y12 m' c (Proc.devRef .tc Cert.ReferenceIdeal.main_v77) := by
  have hK : Cert.KernelIdeal.Hand.W12 m ρ c (Proc.devRef .tc Cert.KernelIdeal.main_v38) = scaleRows (n := 2400000) (Cert.KernelIdeal.Hand.W11 m ρ c (Proc.devRef .tc Cert.KernelIdeal.main_v36)) (Cert.KernelIdeal.Hand.W11 m ρ c (Proc.devRef .tc Cert.KernelIdeal.main_v37)) :=
    (Cert.KernelIdeal.Hand.W12_arr m ρ c 2).trans (Cert.KernelIdeal.Hand.region5_array (Cert.KernelIdeal.Hand.V11 m ρ) c)
  have hR : Cert.ReferenceIdeal.RunP.Y12 m' c (Proc.devRef .tc Cert.ReferenceIdeal.main_v77) = scaleRows (n := 2400000) (Cert.ReferenceIdeal.RunP.Y11 m' c (Proc.devRef .tc Cert.ReferenceIdeal.main_v75)) (Cert.ReferenceIdeal.RunP.Y11 m' c (Proc.devRef .tc Cert.ReferenceIdeal.main_v68)) := refScaleL (Cert.ReferenceIdeal.RunP.Y11 m' c)
  rw [hK, hR, eq11_main_v36 m ρ m' hagree c, eq11_main_v37 m ρ m' hagree c]
theorem eq12_main_v29 : Cert.KernelIdeal.Hand.W12 m ρ c (Proc.devRef .tc Cert.KernelIdeal.main_v29) = Cert.ReferenceIdeal.RunP.Y12 m' c (Proc.devRef .tc Cert.ReferenceIdeal.main_v67) :=
  (Cert.KernelIdeal.Hand.W12_of_ne m ρ c Cert.KernelIdeal.main_v29 (by decide)).trans ((eq11_main_v29 m ρ m' hagree c).trans (refKeepL_main_v67 (Cert.ReferenceIdeal.RunP.Y11 m' c)).symm)

/-! ## Boundary 13: after the host stretch M -/
theorem eq13_main_v41 : Cert.KernelIdeal.Hand.W13 m ρ c (Proc.devRef .tc Cert.KernelIdeal.main_v41) = Cert.ReferenceIdeal.RunP.Y13 m' c (Proc.devRef .tc Cert.ReferenceIdeal.main_v80) :=
  stageM_main_v41 (Cert.KernelIdeal.Hand.W12 m ρ c) (Cert.ReferenceIdeal.RunP.Y12 m' c) (eq12_main_v38 m ρ m' hagree c) (arg12_main_arg4 m ρ m' hagree c)
theorem eq13_main_v29 : Cert.KernelIdeal.Hand.W13 m ρ c (Proc.devRef .tc Cert.KernelIdeal.main_v29) = Cert.ReferenceIdeal.RunP.Y13 m' c (Proc.devRef .tc Cert.ReferenceIdeal.main_v67) :=
  stageM_main_v29 (Cert.KernelIdeal.Hand.W12 m ρ c) (Cert.ReferenceIdeal.RunP.Y12 m' c) (eq12_main_v29 m ρ m' hagree c)

/-! ## Boundary 14: after kernel region 6 (the reference's normalising stretch N) -/
theorem eq14_main_v42 : Cert.KernelIdeal.Hand.W14 m ρ c (Proc.devRef .tc Cert.KernelIdeal.main_v42) = Cert.ReferenceIdeal.RunP.Y14 m' c (Proc.devRef .tc Cert.ReferenceIdeal.main_v93) := by
  have hK : Cert.KernelIdeal.Hand.W14 m ρ c (Proc.devRef .tc Cert.KernelIdeal.main_v42) = normRows (n := 150000) (Cert.KernelIdeal.Hand.W13 m ρ c (Proc.devRef .tc Cert.KernelIdeal.main_v41)) :=
    (Cert.KernelIdeal.Hand.W14_arr m ρ c 1).trans (Cert.KernelIdeal.Hand.region6_array (Cert.KernelIdeal.Hand.V13 m ρ) c)
  have hR : Cert.ReferenceIdeal.RunP.Y14 m' c (Proc.devRef .tc Cert.ReferenceIdeal.main_v93) = normRows (n := 150000) (Cert.ReferenceIdeal.RunP.Y13 m' c (Proc.devRef .tc Cert.ReferenceIdeal.main_v80)) := refNormN (Cert.ReferenceIdeal.RunP.Y13 m' c)
  rw [hK, hR, eq13_main_v41 m ρ m' hagree c]
theorem eq14_main_v29 : Cert.KernelIdeal.Hand.W14 m ρ c (Proc.devRef .tc Cert.KernelIdeal.main_v29) = Cert.ReferenceIdeal.RunP.Y14 m' c (Proc.devRef .tc Cert.ReferenceIdeal.main_v67) :=
  (Cert.KernelIdeal.Hand.W14_of_ne m ρ c Cert.KernelIdeal.main_v29 (by decide)).trans ((eq13_main_v29 m ρ m' hagree c).trans (refKeepN_main_v67 (Cert.ReferenceIdeal.RunP.Y13 m' c)).symm)

/-! ## Boundary 15: after the host stretch T1 -/
theorem eq15_main_v46 : Cert.KernelIdeal.Hand.W15 m ρ c (Proc.devRef .tc Cert.KernelIdeal.main_v46) = Cert.ReferenceIdeal.RunP.Y15 m' c (Proc.devRef .tc Cert.ReferenceIdeal.main_v97) :=
  stageT1_main_v46 (Cert.KernelIdeal.Hand.W14 m ρ c) (Cert.ReferenceIdeal.RunP.Y14 m' c) (eq14_main_v29 m ρ m' hagree c) (eq14_main_v42 m ρ m' hagree c)
theorem eq15_main_v47 : Cert.KernelIdeal.Hand.W15 m ρ c (Proc.devRef .tc Cert.KernelIdeal.main_v47) = Cert.ReferenceIdeal.RunP.Y15 m' c (Proc.devRef .tc Cert.ReferenceIdeal.main_v98) :=
  stageT1_main_v47 (Cert.KernelIdeal.Hand.W14 m ρ c) (Cert.ReferenceIdeal.RunP.Y14 m' c) (eq14_main_v29 m ρ m' hagree c) (eq14_main_v42 m ρ m' hagree c)
theorem eq15_main_v48 : Cert.KernelIdeal.Hand.W15 m ρ c (Proc.devRef .tc Cert.KernelIdeal.main_v48) = Cert.ReferenceIdeal.RunP.Y15 m' c (Proc.devRef .tc Cert.ReferenceIdeal.main_v99) :=
  stageT1_main_v48 (Cert.KernelIdeal.Hand.W14 m ρ c) (Cert.ReferenceIdeal.RunP.Y14 m' c)

/-! ## Boundary 16: after the host stretch T2 -/
theorem eq16_main_v69 : Cert.KernelIdeal.Hand.W16 m ρ c (Proc.devRef .tc Cert.KernelIdeal.main_v69) = Cert.ReferenceIdeal.RunP.Y16 m' c (Proc.devRef .tc Cert.ReferenceIdeal.main_v120) :=
  stageT2_main_v69 (Cert.KernelIdeal.Hand.W15 m ρ c) (Cert.ReferenceIdeal.RunP.Y15 m' c) (eq15_main_v46 m ρ m' hagree c) (eq15_main_v47 m ρ m' hagree c) (eq15_main_v48 m ρ m' hagree c) (arg15_main_arg0 m ρ m' hagree c) (arg15_main_arg1 m ρ m' hagree c)
theorem eq16_main_v84 : Cert.KernelIdeal.Hand.W16 m ρ c (Proc.devRef .tc Cert.KernelIdeal.main_v84) = Cert.ReferenceIdeal.RunP.Y16 m' c (Proc.devRef .tc Cert.ReferenceIdeal.main_v135) :=
  stageT2_main_v84 (Cert.KernelIdeal.Hand.W15 m ρ c) (Cert.ReferenceIdeal.RunP.Y15 m' c) (eq15_main_v46 m ρ m' hagree c) (eq15_main_v47 m ρ m' hagree c) (eq15_main_v48 m ρ m' hagree c) (arg15_main_arg0 m ρ m' hagree c) (arg15_main_arg2 m ρ m' hagree c)
theorem eq16_main_v94 : Cert.KernelIdeal.Hand.W16 m ρ c (Proc.devRef .tc Cert.KernelIdeal.main_v94) = Cert.ReferenceIdeal.RunP.Y16 m' c (Proc.devRef .tc Cert.ReferenceIdeal.main_v145) :=
  stageT2_main_v94 (Cert.KernelIdeal.Hand.W15 m ρ c) (Cert.ReferenceIdeal.RunP.Y15 m' c) (eq15_main_v46 m ρ m' hagree c) (eq15_main_v47 m ρ m' hagree c) (eq15_main_v48 m ρ m' hagree c) (arg15_main_arg0 m ρ m' hagree c) (arg15_main_arg3 m ρ m' hagree c)

/-! ## Boundary 17: after the host stretch T3 -/
theorem eq17_main_v103 : Cert.KernelIdeal.Hand.W17 m ρ c (Proc.devRef .tc Cert.KernelIdeal.main_v103) = Cert.ReferenceIdeal.RunP.Y17 m' c (Proc.devRef .tc Cert.ReferenceIdeal.main_v154) :=
  stageT3_main_v103 (Cert.KernelIdeal.Hand.W16 m ρ c) (Cert.ReferenceIdeal.RunP.Y16 m' c) (eq16_main_v69 m ρ m' hagree c) (eq16_main_v84 m ρ m' hagree c) (eq16_main_v94 m ρ m' hagree c)

/-- At the return the two result arrays are equal. -/
theorem result_eq : Cert.KernelIdeal.Hand.W17 m ρ c (Proc.devRef .tc Cert.KernelIdeal.main_v103) = Cert.ReferenceIdeal.RunP.Y17 m' c (Proc.devRef .tc Cert.ReferenceIdeal.main_v154) := eq17_main_v103 m ρ m' hagree c

end Cert.Bridge

end
-- ==== Proof.lean ====
/-
  A LightGCN-style propagation: the 150000×64 preference table (users over items) is rectified and normalised row by
  row; three times over, each node gathers its neighbours' rows along 2400000 edges, scales them by the edge weights and
  sums them into its own row, and the table is rectified and normalised again; the four tables are averaged, and the
  scores of 8192 (user, item) pairs are the logistic function of the rows' inner products.

  The kernel program runs the four row normalisations and the three edge scalings as grid kernels, each over blocks of
  whole rows (6000 rows of the table, 16000 edges), and leaves the gathers, the scatter-additions and the scoring to host
  operations; the reference is host operations throughout. Over the extended reals a block of rows normalised is the same
  rows of the whole table normalised, since a row's result depends on that row only, and an edge's message times its
  weight is the weight times the message; every other operation is the same operation on both sides. So the two programs
  agree boundary by boundary, on every array that is still read later, from the launch to the result: no finiteness is
  used. Each program runs to the end without a fault and leaves its arguments as launched: a kernel region stages
  blocks, runs its body (one load per input, one store) at every grid point and writes the output blocks back, touching
  no array but its own operands, and a host operation writes only its own result.
-/
import proofs.«180941_j14654428414616_1_alg».proof.Defs
import proofs.«180941_j14654428414616_1_alg».proof.Proof.KRun
import proofs.«180941_j14654428414616_1_alg».proof.Proof.KIRun
import proofs.«180941_j14654428414616_1_alg».proof.Proof.Bridge
import proofs.«180941_j14654428414616_1_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference runs to the end and leaves its arguments as launched: its run, with the result dropped. -/
theorem frame_reference : Cert.frame_ReferenceIdeal := fun m ρ _ =>
  (θ_run Cert.ReferenceIdeal.defs _ _).mono (fun r h c =>
    ⟨(h c Cert.ReferenceIdeal.main_arg0).trans ((congrFun (Cert.ReferenceIdeal.RunP.after_ops m c) _).trans (Cert.ReferenceIdeal.RunP.Y17_main_arg0 m c)),
      (h c Cert.ReferenceIdeal.main_arg1).trans ((congrFun (Cert.ReferenceIdeal.RunP.after_ops m c) _).trans (Cert.ReferenceIdeal.RunP.Y17_main_arg1 m c)),
      (h c Cert.ReferenceIdeal.main_arg2).trans ((congrFun (Cert.ReferenceIdeal.RunP.after_ops m c) _).trans (Cert.ReferenceIdeal.RunP.Y17_main_arg2 m c)),
      (h c Cert.ReferenceIdeal.main_arg3).trans ((congrFun (Cert.ReferenceIdeal.RunP.after_ops m c) _).trans (Cert.ReferenceIdeal.RunP.Y17_main_arg3 m c)),
      (h c Cert.ReferenceIdeal.main_arg4).trans ((congrFun (Cert.ReferenceIdeal.RunP.after_ops m c) _).trans (Cert.ReferenceIdeal.RunP.Y17_main_arg4 m c)),
      (h c Cert.ReferenceIdeal.main_arg5).trans ((congrFun (Cert.ReferenceIdeal.RunP.after_ops m c) _).trans (Cert.ReferenceIdeal.RunP.Y17_main_arg5 m c)),
      (h c Cert.ReferenceIdeal.main_arg6).trans ((congrFun (Cert.ReferenceIdeal.RunP.after_ops m c) _).trans (Cert.ReferenceIdeal.RunP.Y17_main_arg6 m c)),
      (h c Cert.ReferenceIdeal.main_arg7).trans ((congrFun (Cert.ReferenceIdeal.RunP.after_ops m c) _).trans (Cert.ReferenceIdeal.RunP.Y17_main_arg7 m c)),
      (h c Cert.ReferenceIdeal.main_arg8).trans ((congrFun (Cert.ReferenceIdeal.RunP.after_ops m c) _).trans (Cert.ReferenceIdeal.RunP.Y17_main_arg8 m c))⟩) (Cert.ReferenceIdeal.RunP.run (F := Ideal) m ρ)

/-- The ideal pass rewrote nothing. -/
theorem preserves : Cert.preserves_Kernel_KernelIdeal := trivial

/-- From memories agreeing on the arguments both idealized programs run, and end with equal results. -/
theorem algebraic : Cert.algebraic_KernelIdeal_ReferenceIdeal := by
  intro m ρ m' ρ' _ hagree
  refine ⟨fun c => Cert.KernelIdeal.Hand.W17 m ρ c (Proc.devRef .tc Cert.KernelIdeal.main_v103), ?_, ?_⟩
  · exact (θ_run Cert.KernelIdeal.defs _ _).mono (fun r h c =>
      ⟨h c _ (Cert.KernelIdeal.Hand.mem_uc Cert.KernelIdeal.main_v103 (by decide)),
      (h c _ (Cert.KernelIdeal.Hand.mem_uc Cert.KernelIdeal.main_arg0 (by decide))).trans (Cert.KernelIdeal.Hand.W17_main_arg0 m ρ c),
      (h c _ (Cert.KernelIdeal.Hand.mem_uc Cert.KernelIdeal.main_arg1 (by decide))).trans (Cert.KernelIdeal.Hand.W17_main_arg1 m ρ c),
      (h c _ (Cert.KernelIdeal.Hand.mem_uc Cert.KernelIdeal.main_arg2 (by decide))).trans (Cert.KernelIdeal.Hand.W17_main_arg2 m ρ c),
      (h c _ (Cert.KernelIdeal.Hand.mem_uc Cert.KernelIdeal.main_arg3 (by decide))).trans (Cert.KernelIdeal.Hand.W17_main_arg3 m ρ c),
      (h c _ (Cert.KernelIdeal.Hand.mem_uc Cert.KernelIdeal.main_arg4 (by decide))).trans (Cert.KernelIdeal.Hand.W17_main_arg4 m ρ c),
      (h c _ (Cert.KernelIdeal.Hand.mem_uc Cert.KernelIdeal.main_arg5 (by decide))).trans (Cert.KernelIdeal.Hand.W17_main_arg5 m ρ c),
      (h c _ (Cert.KernelIdeal.Hand.mem_uc Cert.KernelIdeal.main_arg6 (by decide))).trans (Cert.KernelIdeal.Hand.W17_main_arg6 m ρ c),
      (h c _ (Cert.KernelIdeal.Hand.mem_uc Cert.KernelIdeal.main_arg7 (by decide))).trans (Cert.KernelIdeal.Hand.W17_main_arg7 m ρ c),
      (h c _ (Cert.KernelIdeal.Hand.mem_uc Cert.KernelIdeal.main_arg8 (by decide))).trans (Cert.KernelIdeal.Hand.W17_main_arg8 m ρ c)⟩) (Cert.KernelIdeal.Hand.run_all m ρ)
  · exact (θ_run Cert.ReferenceIdeal.defs _ _).mono (fun r h c =>
      ⟨(h c Cert.ReferenceIdeal.main_v154).trans ((congrFun (Cert.ReferenceIdeal.RunP.after_ops m' c) _).trans (Cert.Bridge.result_eq m ρ m' hagree c).symm),
      (h c Cert.ReferenceIdeal.main_arg0).trans ((congrFun (Cert.ReferenceIdeal.RunP.after_ops m' c) _).trans (Cert.ReferenceIdeal.RunP.Y17_main_arg0 m' c)),
      (h c Cert.ReferenceIdeal.main_arg1).trans ((congrFun (Cert.ReferenceIdeal.RunP.after_ops m' c) _).trans (Cert.ReferenceIdeal.RunP.Y17_main_arg1 m' c)),
      (h c Cert.ReferenceIdeal.main_arg2).trans ((congrFun (Cert.ReferenceIdeal.RunP.after_ops m' c) _).trans (Cert.ReferenceIdeal.RunP.Y17_main_arg2 m' c)),
      (h c Cert.ReferenceIdeal.main_arg3).trans ((congrFun (Cert.ReferenceIdeal.RunP.after_ops m' c) _).trans (Cert.ReferenceIdeal.RunP.Y17_main_arg3 m' c)),
      (h c Cert.ReferenceIdeal.main_arg4).trans ((congrFun (Cert.ReferenceIdeal.RunP.after_ops m' c) _).trans (Cert.ReferenceIdeal.RunP.Y17_main_arg4 m' c)),
      (h c Cert.ReferenceIdeal.main_arg5).trans ((congrFun (Cert.ReferenceIdeal.RunP.after_ops m' c) _).trans (Cert.ReferenceIdeal.RunP.Y17_main_arg5 m' c)),
      (h c Cert.ReferenceIdeal.main_arg6).trans ((congrFun (Cert.ReferenceIdeal.RunP.after_ops m' c) _).trans (Cert.ReferenceIdeal.RunP.Y17_main_arg6 m' c)),
      (h c Cert.ReferenceIdeal.main_arg7).trans ((congrFun (Cert.ReferenceIdeal.RunP.after_ops m' c) _).trans (Cert.ReferenceIdeal.RunP.Y17_main_arg7 m' c)),
      (h c Cert.ReferenceIdeal.main_arg8).trans ((congrFun (Cert.ReferenceIdeal.RunP.after_ops m' c) _).trans (Cert.ReferenceIdeal.RunP.Y17_main_arg8 m' c))⟩) (Cert.ReferenceIdeal.RunP.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
